-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S3200000 : Shape := ⟨1, ![3200000]⟩
abbrev S16x48 : Shape := ⟨2, ![16, 48]⟩
abbrev S48 : Shape := ⟨1, ![48]⟩
abbrev S48x48 : Shape := ⟨2, ![48, 48]⟩
abbrev S48x2 : Shape := ⟨2, ![48, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S16x48 : S_.BroadcastsInDim S16x48 (![] : Fin 0 → Fin S16x48.rank)
  reducesTo_S16x48_S_d0_1 : S16x48.ReducesTo [0, 1] S_
  bcast_S_S48 : S_.BroadcastsInDim S48 (![] : Fin 0 → Fin S48.rank)
  reducesTo_S48_S_d0 : S48.ReducesTo [0] S_
  bcast_S_S48x48 : S_.BroadcastsInDim S48x48 (![] : Fin 0 → Fin S48x48.rank)
  reducesTo_S48x48_S_d0_1 : S48x48.ReducesTo [0, 1] S_
  bcast_S_S48x2 : S_.BroadcastsInDim S48x2 (![] : Fin 0 → Fin S48x2.rank)
  reducesTo_S48x2_S_d0_1 : S48x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S48x48 .f32) (main_arg6 : FVec F S48 .f32) (main_arg7 : FVec F S48x2 .f32) (main_arg8 : FVec F S2 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S48x48 .f32 := Host.absf main_arg5
  let main_cst_6 : FVec F S_ .f32 := constant S_ .f32 0x7F800000#32
  let main_v20 : FVec F S48x48 .f32 := broadcastInDim S48x48 ![] bcast_S_S48x48 main_cst_6
  let main_v21 : IVec S48x48 1 := cmpf .olt main_v19 main_v20
  let main_c_7 : IVec S_ 1 := constantI S_ 1 1#1
  let main_v22 : IVec S_ 1 := (fun x v => Host.reduce IntOp.andi x v reducesTo_S48x48_S_d0_1 h_S_) main_v21 main_c_7
  let main_v23 : IVec S_ 1 := andi main_v18 main_v22
  let main_v24 : FVec F S48 .f32 := Host.absf main_arg6
  let main_cst_8 : FVec F S_ .f32 := constant S_ .f32 0x7F800000#32
  let main_v25 : FVec F S48 .f32 := broadcastInDim S48 ![] bcast_S_S48 main_cst_8
  let main_v26 : IVec S48 1 := cmpf .olt main_v24 main_v25
  let main_c_9 : IVec S_ 1 := constantI S_ 1 1#1
  let main_v27 : IVec S_ 1 := (fun x v => Host.reduce IntOp.andi x v reducesTo_S48_S_d0 h_S_) main_v26 main_c_9
  let main_v28 : IVec S_ 1 := andi main_v23 main_v27
  let main_v29 : FVec F S48x2 .f32 := Host.absf main_arg7
  let main_cst_10 : FVec F S_ .f32 := constant S_ .f32 0x7F800000#32
  let main_v30 : FVec F S48x2 .f32 := broadcastInDim S48x2 ![] bcast_S_S48x2 main_cst_10
  let main_v31 : IVec S48x2 1 := cmpf .olt main_v29 main_v30
  let main_c_11 : IVec S_ 1 := constantI S_ 1 1#1
  let main_v32 : IVec S_ 1 := (fun x v => Host.reduce IntOp.andi x v reducesTo_S48x2_S_d0_1 h_S_) main_v31 main_c_11
  let main_v33 : IVec S_ 1 := andi main_v28 main_v32
  fn_part2 (F := F) main_arg8 main_v33

def fn {F : FTy → Type} [FloatOps F] (main_arg0 : FVec F S100000x16 .f32) (main_arg1 : IVec S2x3200000 32) (main_arg2 : FVec F S3200000 .f32) (main_arg3 : FVec F S16x48 .f32) (main_arg4 : FVec F S48 .f32) (main_arg5 : FVec F S48x48 .f32) (main_arg6 : FVec F S48 .f32) (main_arg7 : FVec F S48x2 .f32) (main_arg8 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S16x48 .f32 := Host.absf main_arg3
  let main_cst_2 : FVec F S_ .f32 := constant S_ .f32 0x7F800000#32
  let main_v10 : FVec F S16x48 .f32 := broadcastInDim S16x48 ![] bcast_S_S16x48 main_cst_2
  let main_v11 : IVec S16x48 1 := cmpf .olt main_v9 main_v10
  let main_c_3 : IVec S_ 1 := constantI S_ 1 1#1
  let main_v12 : IVec S_ 1 := (fun x v => Host.reduce IntOp.andi x v reducesTo_S16x48_S_d0_1 h_S_) main_v11 main_c_3
  let main_v13 : IVec S_ 1 := andi main_v8 main_v12
  let main_v14 : FVec F S48 .f32 := Host.absf main_arg4
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg5 main_arg6 main_arg7 main_arg8 main_v13 main_v16
-- ==== Kernel.lean ====
abbrev S100000x16 : Shape := ⟨2, ![100000, 16]⟩
abbrev S2x3200000 : Shape := ⟨2, ![2, 3200000]⟩
abbrev S3200000 : Shape := ⟨1, ![3200000]⟩
abbrev S16x48 : Shape := ⟨2, ![16, 48]⟩
abbrev S48 : Shape := ⟨1, ![48]⟩
abbrev S48x48 : Shape := ⟨2, ![48, 48]⟩
abbrev S48x2 : Shape := ⟨2, ![48, 2]⟩
abbrev S2 : Shape := ⟨1, ![2]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S1x48 : Shape := ⟨2, ![1, 48]⟩
abbrev S100000x48 : Shape := ⟨2, ![100000, 48]⟩
abbrev S10000x16 : Shape := ⟨2, ![10000, 16]⟩
abbrev S10000x48 : Shape := ⟨2, ![10000, 48]⟩
abbrev S3300000x48 : Shape := ⟨2, ![3300000, 48]⟩
abbrev S8192x48 : Shape := ⟨2, ![8192, 48]⟩
abbrev S8192x1 : Shape := ⟨2, ![8192, 1]⟩
abbrev S1x2 : Shape := ⟨2, ![1, 2]⟩
abbrev S100000x2 : Shape := ⟨2, ![100000, 2]⟩
abbrev S10000x2 : Shape := ⟨2, ![10000, 2]⟩
abbrev S3300000x2 : Shape := ⟨2, ![3300000, 2]⟩
abbrev S8192x2 : Shape := ⟨2, ![8192, 2]⟩
abbrev S10000 : Shape := ⟨1, ![10000]⟩
abbrev S10000x1 : Shape := ⟨2, ![10000, 1]⟩

abbrev nBuf : Space → Nat
  | .hbm => 156
  | .vmem => 92
  | .smem => 0
  | _ => 0

abbrev hbmTy0_0 (i : Nat) : BufTy := match i % 128 with
  | 0 => ⟨S100000x16, .f32⟩
  | 1 => ⟨S2x3200000, .i32⟩
  | 2 => ⟨S3200000, .f32⟩
  | 3 => ⟨S16x48, .f32⟩
  | 4 => ⟨S48, .f32⟩
  | 5 => ⟨S48x48, .f32⟩
  | 6 => ⟨S48, .f32⟩
  | 7 => ⟨S48x2, .f32⟩
  | 8 => ⟨S2, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S_, .f32⟩
  | 17 => ⟨S100000, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .i1⟩
  | 29 => ⟨S_, .f32⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S3300000x1, .f32⟩
  | 59 => ⟨S1x48, .f32⟩
  | 60 => ⟨S100000x48, .f32⟩
  | 61 => ⟨S100000x48, .f32⟩
  | 62 => ⟨S_, .i32⟩
  | 63 => ⟨S3300000, .i32⟩
  | 64 => ⟨S3300000, .i1⟩
  | 65 => ⟨S_, .i32⟩
  | 66 => ⟨S3300000, .i32⟩
  | 67 => ⟨S3300000, .i32⟩
  | 68 => ⟨S3300000, .i32⟩
  | 69 => ⟨S3300000x1, .i32⟩
  | 70 => ⟨S3300000x48, .f32⟩
  | 71 => ⟨S3300000x48, .f32⟩
  | 72 => ⟨S_, .f32⟩
  | 73 => ⟨S100000x48, .f32⟩
  | 74 => ⟨S3300000x1, .i32⟩
  | 75 => ⟨S100000x48, .f32⟩
  | 76 => ⟨S1x48, .f32⟩
  | 77 => ⟨S100000x48, .f32⟩
  | 78 => ⟨S1x2, .f32⟩
  | 79 => ⟨S100000x2, .f32⟩
  | 80 => ⟨S_, .i32⟩
  | 81 => ⟨S3300000, .i32⟩
  | 82 => ⟨S3300000, .i1⟩
  | 83 => ⟨S_, .i32⟩
  | 84 => ⟨S3300000, .i32⟩
  | 85 => ⟨S3300000, .i32⟩
  | 86 => ⟨S3300000, .i32⟩
  | 87 => ⟨S3300000x1, .i32⟩
  | 88 => ⟨S3300000x2, .f32⟩
  | 89 => ⟨S3300000x2, .f32⟩
  | 90 => ⟨S_, .f32⟩
  | 91 => ⟨S100000x2, .f32⟩
  | 92 => ⟨S3300000x1, .i32⟩
  | 93 => ⟨S100000x2, .f32⟩
  | 94 => ⟨S100000x2, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000x2, .f32⟩
  | 104 => ⟨S3300000x2, .f32⟩
  | 105 => ⟨S_, .f32⟩
  | 106 => ⟨S100000x2, .f32⟩
  | 107 => ⟨S3300000x1, .i32⟩
  | 108 => ⟨S100000x2, .f32⟩
  | 109 => ⟨S100000x2, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x2, .f32⟩
  | 119 => ⟨S3300000x2, .f32⟩
  | 120 => ⟨S_, .f32⟩
  | 121 => ⟨S100000x2, .f32⟩
  | 122 => ⟨S3300000x1, .i32⟩
  | 123 => ⟨S100000x2, .f32⟩
  | 124 => ⟨S100000x2, .f32⟩
  | 125 => ⟨S_, .i32⟩
  | 126 => ⟨S3300000, .i32⟩
  | 127 => ⟨S3300000, .i1⟩
  | _ => ⟨S100000x16, .f32⟩

abbrev hbmTy0_1 (i : Nat) : BufTy := match i % 128 with
  | 0 => ⟨S_, .i32⟩
  | 1 => ⟨S3300000, .i32⟩
  | 2 => ⟨S3300000, .i32⟩
  | 3 => ⟨S3300000, .i32⟩
  | 4 => ⟨S3300000x1, .i32⟩
  | 5 => ⟨S3300000x2, .f32⟩
  | 6 => ⟨S3300000x2, .f32⟩
  | 7 => ⟨S_, .f32⟩
  | 8 => ⟨S100000x2, .f32⟩
  | 9 => ⟨S3300000x1, .i32⟩
  | 10 => ⟨S100000x2, .f32⟩
  | 11 => ⟨S100000x2, .f32⟩
  | 12 => ⟨S_, .i32⟩
  | 13 => ⟨S3300000, .i32⟩
  | 14 => ⟨S3300000, .i1⟩
  | 15 => ⟨S_, .i32⟩
  | 16 => ⟨S3300000, .i32⟩
  | 17 => ⟨S3300000, .i32⟩
  | 18 => ⟨S3300000, .i32⟩
  | 19 => ⟨S3300000x1, .i32⟩
  | 20 => ⟨S3300000x2, .f32⟩
  | 21 => ⟨S3300000x2, .f32⟩
  | 22 => ⟨S_, .f32⟩
  | 23 => ⟨S100000x2, .f32⟩
  | 24 => ⟨S3300000x1, .i32⟩
  | 25 => ⟨S100000x2, .f32⟩
  | 26 => ⟨S100000x2, .f32⟩
  | 27 => ⟨S100000x2, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S10000x16, .f32⟩
  | .local _ .vmem, ⟨1, _⟩ => ⟨S10000x16, .f32⟩
  | .local _ .vmem, ⟨2, _⟩ => ⟨S16x48, .f32⟩
  | .local _ .vmem, ⟨3, _⟩ => ⟨S1x48, .f32⟩
  | .local _ .vmem, ⟨4, _⟩ => ⟨S10000x48, .f32⟩
  | .local _ .vmem, ⟨5, _⟩ => ⟨S10000x48, .f32⟩
  | .local _ .vmem, ⟨6, _⟩ => ⟨S10000x48, .f32⟩
  | .local _ .vmem, ⟨7, _⟩ => ⟨S10000x48, .f32⟩
  | .local _ .vmem, ⟨8, _⟩ => ⟨S48x48, .f32⟩
  | .local _ .vmem, ⟨9, _⟩ => ⟨S10000x48, .f32⟩
  | .local _ .vmem, ⟨10, _⟩ => ⟨S10000x48, .f32⟩
  | .local _ .vmem, ⟨11, _⟩ => ⟨S8192x48, .f32⟩
  | .local _ .vmem, ⟨12, _⟩ => ⟨S8192x48, .f32⟩
  | .local _ .vmem, ⟨13, _⟩ => ⟨S8192x1, .f32⟩
  | .local _ .vmem, ⟨14, _⟩ => ⟨S8192x1, .f32⟩
  | .local _ .vmem, ⟨15, _⟩ => ⟨S8192x48, .f32⟩
  | .local _ .vmem, ⟨16, _⟩ => ⟨S8192x48, .f32⟩
  | .local _ .vmem, ⟨17, _⟩ => ⟨S10000x48, .f32⟩
  | .local _ .vmem, ⟨18, _⟩ => ⟨S10000x48, .f32⟩
  | .local _ .vmem, ⟨19, _⟩ => ⟨S1x48, .f32⟩
  | .local _ .vmem, ⟨20, _⟩ => ⟨S10000x48, .f32⟩
  | .local _ .vmem, ⟨21, _⟩ => ⟨S10000x48, .f32⟩
  | .local _ .vmem, ⟨22, _⟩ => ⟨S10000x48, .f32⟩
  | .local _ .vmem, ⟨23, _⟩ => ⟨S10000x48, .f32⟩
  | .local _ .vmem, ⟨24, _⟩ => ⟨S48x2, .f32⟩
  | .local _ .vmem, ⟨25, _⟩ => ⟨S1x2, .f32⟩
  | .local _ .vmem, ⟨26, _⟩ => ⟨S10000x2, .f32⟩
  | .local _ .vmem, ⟨27, _⟩ => ⟨S10000x2, .f32⟩
  | .local _ .vmem, ⟨28, _⟩ => ⟨S8192x2, .f32⟩
  | .local _ .vmem, ⟨29, _⟩ => ⟨S8192x2, .f32⟩
  | .local _ .vmem, ⟨30, _⟩ => ⟨S8192x1, .f32⟩
  | .local _ .vmem, ⟨31, _⟩ => ⟨S8192x1, .f32⟩
  | .local _ .vmem, ⟨32, _⟩ => ⟨S8192x2, .f32⟩
  | .local _ .vmem, ⟨33, _⟩ => ⟨S8192x2, .f32⟩
  | .local _ .vmem, ⟨34, _⟩ => ⟨S10000x2, .f32⟩
  | .local _ .vmem, ⟨35, _⟩ => ⟨S10000x2, .f32⟩
  | .local _ .vmem, ⟨36, _⟩ => ⟨S10000x2, .f32⟩
  | .local _ .vmem, ⟨37, _⟩ => ⟨S10000x2, .f32⟩
  | .local _ .vmem, ⟨38, _⟩ => ⟨S10000x2, .f32⟩
  | .local _ .vmem, ⟨39, _⟩ => ⟨S10000x2, .f32⟩
  | .local _ .vmem, ⟨40, _⟩ => ⟨S8192x2, .f32⟩
  | .local _ .vmem, ⟨41, _⟩ => ⟨S8192x2, .f32⟩
  | .local _ .vmem, ⟨42, _⟩ => ⟨S8192x1, .f32⟩
  | .local _ .vmem, ⟨43, _⟩ => ⟨S8192x1, .f32⟩
  | .local _ .vmem, ⟨44, _⟩ => ⟨S8192x2, .f32⟩
  | .local _ .vmem, ⟨45, _⟩ => ⟨S8192x2, .f32⟩
  | .local _ .vmem, ⟨46, _⟩ => ⟨S10000x2, .f32⟩
  | .local _ .vmem, ⟨47, _⟩ => ⟨S10000x2, .f32⟩
  | .local _ .vmem, ⟨48, _⟩ => ⟨S10000x2, .f32⟩
  | .local _ .vmem, ⟨49, _⟩ => ⟨S10000x2, .f32⟩
  | .local _ .vmem, ⟨50, _⟩ => ⟨S10000x2, .f32⟩
  | .local _ .vmem, ⟨51, _⟩ => ⟨S10000x2, .f32⟩
  | .local _ .vmem, ⟨52, _⟩ => ⟨S8192x2, .f32⟩
  | .local _ .vmem, ⟨53, _⟩ => ⟨S8192x2, .f32⟩
  | .local _ .vmem, ⟨54, _⟩ => ⟨S8192x1, .f32⟩
  | .local _ .vmem, ⟨55, _⟩ => ⟨S8192x1, .f32⟩
  | .local _ .vmem, ⟨56, _⟩ => ⟨S8192x2, .f32⟩
  | .local _ .vmem, ⟨57, _⟩ => ⟨S8192x2, .f32⟩
  | .local _ .vmem, ⟨58, _⟩ => ⟨S10000x2, .f32⟩
  | .local _ .vmem, ⟨59, _⟩ => ⟨S10000x2, .f32⟩
  | .local _ .vmem, ⟨60, _⟩ => ⟨S10000x2, .f32⟩
  | .local _ .vmem, ⟨61, _⟩ => ⟨S10000x2, .f32⟩
  | .local _ .vmem, ⟨62, _⟩ => ⟨S10000x2, .f32⟩
  | .local _ .vmem, ⟨63, _⟩ => ⟨S10000x2, .f32⟩
  | .local _ .vmem, ⟨64, _⟩ => ⟨S8192x2, .f32⟩
  | .local _ .vmem, ⟨65, _⟩ => ⟨S8192x2, .f32⟩
  | .local _ .vmem, ⟨66, _⟩ => ⟨S8192x1, .f32⟩
  | .local _ .vmem, ⟨67, _⟩ => ⟨S8192x1, .f32⟩
  | .local _ .vmem, ⟨68, _⟩ => ⟨S8192x2, .f32⟩
  | .local _ .vmem, ⟨69, _⟩ => ⟨S8192x2, .f32⟩
  | .local _ .vmem, ⟨70, _⟩ => ⟨S10000x2, .f32⟩
  | .local _ .vmem, ⟨71, _⟩ => ⟨S10000x2, .f32⟩
  | .local _ .vmem, ⟨72, _⟩ => ⟨S10000x2, .f32⟩
  | .local _ .vmem, ⟨73, _⟩ => ⟨S10000x2, .f32⟩
  | .local _ .vmem, ⟨74, _⟩ => ⟨S10000x2, .f32⟩
  | .local _ .vmem, ⟨75, _⟩ => ⟨S10000x2, .f32⟩
  | .local _ .vmem, ⟨76, _⟩ => ⟨S8192x2, .f32⟩
  | .local _ .vmem, ⟨77, _⟩ => ⟨S8192x2, .f32⟩
  | .local _ .vmem, ⟨78, _⟩ => ⟨S8192x1, .f32⟩
  | .local _ .vmem, ⟨79, _⟩ => ⟨S8192x1, .f32⟩
  | .local _ .vmem, ⟨80, _⟩ => ⟨S8192x2, .f32⟩
  | .local _ .vmem, ⟨81, _⟩ => ⟨S8192x2, .f32⟩
  | .local _ .vmem, ⟨82, _⟩ => ⟨S10000x2, .f32⟩
  | .local _ .vmem, ⟨83, _⟩ => ⟨S10000x2, .f32⟩
  | .local _ .vmem, ⟨84, _⟩ => ⟨S10000x2, .f32⟩
  | .local _ .vmem, ⟨85, _⟩ => ⟨S10000x2, .f32⟩
  | .local _ .vmem, ⟨86, _⟩ => ⟨S10000x2, .f32⟩
  | .local _ .vmem, ⟨87, _⟩ => ⟨S10000x2, .f32⟩
  | .local _ .vmem, ⟨88, _⟩ => ⟨S10000x2, .f32⟩
  | .local _ .vmem, ⟨89, _⟩ => ⟨S10000x2, .f32⟩
  | .local _ .vmem, ⟨90, _⟩ => ⟨S10000x2, .f32⟩
  | .local _ .vmem, ⟨91, _⟩ => ⟨S10000x2, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_20 : Ref sig .tc := ⟨.hbm, 125, rfl⟩
abbrev main_v90 : Ref sig .tc := ⟨.hbm, 126, rfl⟩
abbrev main_v91 : Ref sig .tc := ⟨.hbm, 127, rfl⟩
abbrev main_c_21 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_22 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_23 : Ref sig .tc := ⟨.hbm, 140, rfl⟩
abbrev main_v102 : Ref sig .tc := ⟨.hbm, 141, rfl⟩
abbrev main_v103 : Ref sig .tc := ⟨.hbm, 142, rfl⟩
abbrev main_c_24 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_25 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg2_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg1_1 : Ref sig .tc := ⟨.vmem, 43, rfl⟩
abbrev cc7_stg2_0 : Ref sig .tc := ⟨.vmem, 44, rfl⟩
abbrev cc7_stg2_1 : Ref sig .tc := ⟨.vmem, 45, rfl⟩
abbrev cc8_stg0_0 : Ref sig .tc := ⟨.vmem, 46, rfl⟩
abbrev cc8_stg0_1 : Ref sig .tc := ⟨.vmem, 47, rfl⟩
abbrev cc8_stg1_0 : Ref sig .tc := ⟨.vmem, 48, rfl⟩
abbrev cc8_stg1_1 : Ref sig .tc := ⟨.vmem, 49, rfl⟩
abbrev cc8_stg2_0 : Ref sig .tc := ⟨.vmem, 50, rfl⟩
abbrev cc8_stg2_1 : Ref sig .tc := ⟨.vmem, 51, rfl⟩
abbrev cc9_stg0_0 : Ref sig .tc := ⟨.vmem, 52, rfl⟩
abbrev cc9_stg0_1 : Ref sig .tc := ⟨.vmem, 53, rfl⟩
abbrev cc9_stg1_0 : Ref sig .tc := ⟨.vmem, 54, rfl⟩
abbrev cc9_stg1_1 : Ref sig .tc := ⟨.vmem, 55, rfl⟩
abbrev cc9_stg2_0 : Ref sig .tc := ⟨.vmem, 56, rfl⟩
abbrev cc9_stg2_1 : Ref sig .tc := ⟨.vmem, 57, rfl⟩
abbrev cc10_stg0_0 : Ref sig .tc := ⟨.vmem, 58, rfl⟩
abbrev cc10_stg0_1 : Ref sig .tc := ⟨.vmem, 59, rfl⟩
abbrev cc10_stg1_0 : Ref sig .tc := ⟨.vmem, 60, rfl⟩
abbrev cc10_stg1_1 : Ref sig .tc := ⟨.vmem, 61, rfl⟩
abbrev cc10_stg2_0 : Ref sig .tc := ⟨.vmem, 62, rfl⟩
abbrev cc10_stg2_1 : Ref sig .tc := ⟨.vmem, 63, rfl⟩
abbrev cc11_stg0_0 : Ref sig .tc := ⟨.vmem, 64, rfl⟩
abbrev cc11_stg0_1 : Ref sig .tc := ⟨.vmem, 65, rfl⟩
abbrev cc11_stg1_0 : Ref sig .tc := ⟨.vmem, 66, rfl⟩
abbrev cc11_stg1_1 : Ref sig .tc := ⟨.vmem, 67, rfl⟩
abbrev cc11_stg2_0 : Ref sig .tc := ⟨.vmem, 68, rfl⟩
abbrev cc11_stg2_1 : Ref sig .tc := ⟨.vmem, 69, rfl⟩
abbrev cc12_stg0_0 : Ref sig .tc := ⟨.vmem, 70, rfl⟩
abbrev cc12_stg0_1 : Ref sig .tc := ⟨.vmem, 71, rfl⟩
abbrev cc12_stg1_0 : Ref sig .tc := ⟨.vmem, 72, rfl⟩
abbrev cc12_stg1_1 : Ref sig .tc := ⟨.vmem, 73, rfl⟩
abbrev cc12_stg2_0 : Ref sig .tc := ⟨.vmem, 74, rfl⟩
abbrev cc12_stg2_1 : Ref sig .tc := ⟨.vmem, 75, rfl⟩
abbrev cc13_stg0_0 : Ref sig .tc := ⟨.vmem, 76, rfl⟩
abbrev cc13_stg0_1 : Ref sig .tc := ⟨.vmem, 77, rfl⟩
abbrev cc13_stg1_0 : Ref sig .tc := ⟨.vmem, 78, rfl⟩
abbrev cc13_stg1_1 : Ref sig .tc := ⟨.vmem, 79, rfl⟩
abbrev cc13_stg2_0 : Ref sig .tc := ⟨.vmem, 80, rfl⟩
abbrev cc13_stg2_1 : Ref sig .tc := ⟨.vmem, 81, rfl⟩
abbrev cc14_stg0_0 : Ref sig .tc := ⟨.vmem, 82, rfl⟩
abbrev cc14_stg0_1 : Ref sig .tc := ⟨.vmem, 83, rfl⟩
abbrev cc14_stg1_0 : Ref sig .tc := ⟨.vmem, 84, rfl⟩
abbrev cc14_stg1_1 : Ref sig .tc := ⟨.vmem, 85, rfl⟩
abbrev cc14_stg2_0 : Ref sig .tc := ⟨.vmem, 86, rfl⟩
abbrev cc14_stg2_1 : Ref sig .tc := ⟨.vmem, 87, rfl⟩
abbrev cc15_stg0_0 : Ref sig .tc := ⟨.vmem, 88, rfl⟩
abbrev cc15_stg0_1 : Ref sig .tc := ⟨.vmem, 89, rfl⟩
abbrev cc15_stg1_0 : Ref sig .tc := ⟨.vmem, 90, rfl⟩
abbrev cc15_stg1_1 : Ref sig .tc := ⟨.vmem, 91, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem2_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem1_1 : DmaSem sig := 49
abbrev cc8_sem2_0 : DmaSem sig := 50
abbrev cc8_sem2_1 : DmaSem sig := 51
abbrev cc9_sem0_0 : DmaSem sig := 52
abbrev cc9_sem0_1 : DmaSem sig := 53
abbrev cc9_sem1_0 : DmaSem sig := 54
abbrev cc9_sem1_1 : DmaSem sig := 55
abbrev cc9_sem2_0 : DmaSem sig := 56
abbrev cc9_sem2_1 : DmaSem sig := 57
abbrev cc10_sem0_0 : DmaSem sig := 58
abbrev cc10_sem0_1 : DmaSem sig := 59
abbrev cc10_sem1_0 : DmaSem sig := 60
abbrev cc10_sem1_1 : DmaSem sig := 61
abbrev cc10_sem2_0 : DmaSem sig := 62
abbrev cc10_sem2_1 : DmaSem sig := 63
abbrev cc11_sem0_0 : DmaSem sig := 64
abbrev cc11_sem0_1 : DmaSem sig := 65
abbrev cc11_sem1_0 : DmaSem sig := 66
abbrev cc11_sem1_1 : DmaSem sig := 67
abbrev cc11_sem2_0 : DmaSem sig := 68
abbrev cc11_sem2_1 : DmaSem sig := 69
abbrev cc12_sem0_0 : DmaSem sig := 70
abbrev cc12_sem0_1 : DmaSem sig := 71
abbrev cc12_sem1_0 : DmaSem sig := 72
abbrev cc12_sem1_1 : DmaSem sig := 73
abbrev cc12_sem2_0 : DmaSem sig := 74
abbrev cc12_sem2_1 : DmaSem sig := 75
abbrev cc13_sem0_0 : DmaSem sig := 76
abbrev cc13_sem0_1 : DmaSem sig := 77
abbrev cc13_sem1_0 : DmaSem sig := 78
abbrev cc13_sem1_1 : DmaSem sig := 79
abbrev cc13_sem2_0 : DmaSem sig := 80
abbrev cc13_sem2_1 : DmaSem sig := 81
abbrev cc14_sem0_0 : DmaSem sig := 82
abbrev cc14_sem0_1 : DmaSem sig := 83
abbrev cc14_sem1_0 : DmaSem sig := 84
abbrev cc14_sem1_1 : DmaSem sig := 85
abbrev cc14_sem2_0 : DmaSem sig := 86
abbrev cc14_sem2_1 : DmaSem sig := 87
abbrev cc15_sem0_0 : DmaSem sig := 88
abbrev cc15_sem0_1 : DmaSem sig := 89
abbrev cc15_sem1_0 : DmaSem sig := 90
abbrev cc15_sem1_1 : DmaSem sig := 91

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S48x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![403], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x48 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x48 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x48 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x48 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x48 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S48x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![403], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8192x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x2 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x2 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x2 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![403], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x2 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8192x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8192x2 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x2 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x2 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x2 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![403], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8192x2 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8192x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S8192x2 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x2 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x2 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S10000x2 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![403], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S8192x2 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8192x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S8192x2 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x2 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x2 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S10000x2 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![403], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8192x2 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S8192x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S8192x2 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x2 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S10000x2 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S10000x2 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x2 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S10000x2 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  shapeCasts_S3300000_S3300000x1 : S3300000.ShapeCasts S3300000x1
  shapeCasts_S48_S1x48 : S48.ShapeCasts S1x48
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x48_S16x48_0_0 : ∀ a, (![0, 0] : Fin 2 → Nat) a + S16x48.size a ≤ S16x48.size a
  h_S16x48 : 0 < S16x48.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S10000x48 : S1x48.Broadcasts S10000x48
  inb_S10000x48_S10000x48_0_0 : ∀ a, (![0, 0] : Fin 2 → Nat) a + S10000x48.size a ≤ S10000x48.size a
  h_S10000x48 : 0 < S10000x48.numel
  shapeCasts_S10000x48_S10000x48 : S10000x48.ShapeCasts S10000x48
  inb_S48x48_S48x48_0_0 : ∀ a, (![0, 0] : Fin 2 → Nat) a + S48x48.size a ≤ S48x48.size a
  h_S48x48 : 0 < S48x48.numel
  inb_S8192x48_S8192x48_0_0 : ∀ a, (![0, 0] : Fin 2 → Nat) a + S8192x48.size a ≤ S8192x48.size a
  h_S8192x48 : 0 < S8192x48.numel
  shapeCasts_S8192x48_S8192x48 : S8192x48.ShapeCasts S8192x48
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x48 : S8192x1.Broadcasts S8192x48
  bcast_S_S100000x48 : S_.BroadcastsInDim S100000x48 (![] : Fin 0 → Fin S100000x48.rank)
  shapeCasts_S2_S1x2 : S2.ShapeCasts S1x2
  inb_S48x2_S48x2_0_0 : ∀ a, (![0, 0] : Fin 2 → Nat) a + S48x2.size a ≤ S48x2.size a
  h_S48x2 : 0 < S48x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  broadcasts_S8192x1_S8192x2 : S8192x1.Broadcasts S8192x2
  bcast_S_S100000x2 : S_.BroadcastsInDim S100000x2 (![] : Fin 0 → Fin S100000x2.rank)
  shapeCasts_S10000x2_S10000x2 : S10000x2.ShapeCasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x16_S16x48_S10000x48_1_0_0_1_n_n_wf : DotDims.WF S10000x16 S16x48 S10000x48 [1] [0] [0] [1] [] []
  dot_S10000x48_S48x48_S10000x48_1_0_0_1_n_n_wf : DotDims.WF S10000x48 S48x48 S10000x48 [1] [0] [0] [1] [] []
  gather_S100000x48_S3300000x1_S3300000x48_1_0_n_n_0_1_148_wf : GatherDims.WF S100000x48 S3300000x1 S3300000x48 [1] [0] [] [0] [] 1 ![1, 48]
  scatter_S100000x48_S3300000x1_S3300000x48_1_0_0_1_wf : ScatterDims.WF S100000x48 S3300000x1 S3300000x48 [1] [0] [0] 1
  dot_S10000x48_S48x2_S10000x2_1_0_0_1_n_n_wf : DotDims.WF S10000x48 S48x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x48.size a ≤ S16x48.size a
  hwx0_1 : ∀ i : grid0.Coords, EltTy.bits .f32 = 32 ∨ (Rect.block (s := S16x48) S16x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x48.size a ≤ S1x48.size a
  hwx0_2 : ∀ i : grid0.Coords, EltTy.bits .f32 = 32 ∨ (Rect.block (s := S1x48) S1x48.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x48.size a ≤ S100000x48.size a
  hwx0_3 : ∀ i : grid0.Coords, EltTy.bits .f32 = 32 ∨ (Rect.block (s := S100000x48) S10000x48.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x48.size a ≤ S100000x48.size a
  hwx1_0 : ∀ i : grid1.Coords, EltTy.bits .f32 = 32 ∨ (Rect.block (s := S100000x48) S10000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S48x48.size a ≤ S48x48.size a
  hwx1_1 : ∀ i : grid1.Coords, EltTy.bits .f32 = 32 ∨ (Rect.block (s := S48x48) S48x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x48.size a ≤ S100000x48.size a
  hwx1_2 : ∀ i : grid1.Coords, EltTy.bits .f32 = 32 ∨ (Rect.block (s := S100000x48) S10000x48.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S8192x48.size a < S3300000x48.size a
  hwx2_0 : ∀ i : grid2.Coords, EltTy.bits .f32 = 32 ∨ (Rect.unit (s := S3300000x48) (fun a => cc2_transform_0 i a * S8192x48.size a) (fun a => (Pipeline.Clip.of (cc2_transform_0 i a) (S8192x48.size a) (S3300000x48.size a)).extent (S8192x48.size a)) fun a => Pipeline.Clip.inb (Pipeline.Clip.ok_of (hstart2_0 i a))).WholeWords (EltTy.packing .f32)
  hwxs2_0 : ∀ i : grid2.Coords, EltTy.bits .f32 = 32 ∨ (Rect.unit (s := S8192x48) (fun _ => 0) (fun a => (Pipeline.Clip.of (cc2_transform_0 i a) (S8192x48.size a) (S3300000x48.size a)).extent (S8192x48.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S8192x1.size a < S3300000x1.size a
  hwx2_1 : ∀ i : grid2.Coords, EltTy.bits .f32 = 32 ∨ (Rect.unit (s := S3300000x1) (fun a => cc2_transform_1 i a * S8192x1.size a) (fun a => (Pipeline.Clip.of (cc2_transform_1 i a) (S8192x1.size a) (S3300000x1.size a)).extent (S8192x1.size a)) fun a => Pipeline.Clip.inb (Pipeline.Clip.ok_of (hstart2_1 i a))).WholeWords (EltTy.packing .f32)
  hwxs2_1 : ∀ i : grid2.Coords, EltTy.bits .f32 = 32 ∨ (Rect.unit (s := S8192x1) (fun _ => 0) (fun a => (Pipeline.Clip.of (cc2_transform_1 i a) (S8192x1.size a) (S3300000x1.size a)).extent (S8192x1.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S8192x48.size a < S3300000x48.size a
  hwx2_2 : ∀ i : grid2.Coords, EltTy.bits .f32 = 32 ∨ (Rect.unit (s := S3300000x48) (fun a => cc2_transform_2 i a * S8192x48.size a) (fun a => (Pipeline.Clip.of (cc2_transform_2 i a) (S8192x48.size a) (S3300000x48.size a)).extent (S8192x48.size a)) fun a => Pipeline.Clip.inb (Pipeline.Clip.ok_of (hstart2_2 i a))).WholeWords (EltTy.packing .f32)
  hwxs2_2 : ∀ i : grid2.Coords, EltTy.bits .f32 = 32 ∨ (Rect.unit (s := S8192x48) (fun _ => 0) (fun a => (Pipeline.Clip.of (cc2_transform_2 i a) (S8192x48.size a) (S3300000x48.size a)).extent (S8192x48.size a)) fun a => (Nat.zero_add _).trans_le (Pipeline.Clip.extent_le (Pipeline.Clip.ok_of (hstart2_2 i a)))).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x48.size a ≤ S100000x48.size a
  hwx3_0 : ∀ i : grid3.Coords, EltTy.bits .f32 = 32 ∨ (Rect.block (s := S100000x48) S10000x48.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x48.size a ≤ S1x48.size a
  hwx3_1 : ∀ i : grid3.Coords, EltTy.bits .f32 = 32 ∨ (Rect.block (s := S1x48) S1x48.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x48.size a ≤ S100000x48.size a
  hwx3_2 : ∀ i : grid3.Coords, EltTy.bits .f32 = 32 ∨ (Rect.block (s := S100000x48) S10000x48.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x48.size a ≤ S100000x48.size a
  hwx4_0 : ∀ i : grid4.Coords, EltTy.bits .f32 = 32 ∨ (Rect.block (s := S100000x48) S10000x48.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S48x2.size a ≤ S48x2.size a
  hwx4_1 : ∀ i : grid4.Coords, EltTy.bits .f32 = 32 ∨ (Rect.block (s := S48x2) S48x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x2.size a ≤ S100000x2.size a
  hwx4_3 : ∀ i : grid4.Coords, EltTy.bits .f32 = 32 ∨ (Rect.block (s := S100000x2) S10000x2.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hstart5_0 : ∀ (i : grid5.Coords) a, cc5_transform_0 i a * S8192x2.size a < S3300000x2.size a
  hwx5_0 : ∀ i : grid5.Coords, EltTy.bits .f32 = 32 ∨ (Rect.unit (s := S3300000x2) (fun a => cc5_transform_0 i a * S8192x2.size a) (fun a => (Pipeline.Clip.of (cc5_transform_0 i a) (S8192x2.size a) (S3300000x2.size a)).extent (S8192x2.size a)) fun a => Pipeline.Clip.inb (Pipeline.Clip.ok_of (hstart5_0 i a))).WholeWords (EltTy.packing .f32)
  hwxs5_0 : ∀ i : grid5.Coords, EltTy.bits .f32 = 32 ∨ (Rect.unit (s := S8192x2) (fun _ => 0) (fun a => (Pipeline.Clip.of (cc5_transform_0 i a) (S8192x2.size a) (S3300000x2.size a)).extent (S8192x2.size a)) fun a => (Nat.zero_add _).trans_le (Pipeline.Clip.extent_le (Pipeline.Clip.ok_of (hstart5_0 i a)))).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hstart5_1 : ∀ (i : grid5.Coords) a, cc5_transform_1 i a * S8192x1.size a < S3300000x1.size a
  hwx5_1 : ∀ i : grid5.Coords, EltTy.bits .f32 = 32 ∨ (Rect.unit (s := S3300000x1) (fun a => cc5_transform_1 i a * S8192x1.size a) (fun a => (Pipeline.Clip.of (cc5_transform_1 i a) (S8192x1.size a) (S3300000x1.size a)).extent (S8192x1.size a)) fun a => Pipeline.Clip.inb (Pipeline.Clip.ok_of (hstart5_1 i a))).WholeWords (EltTy.packing .f32)
  hwxs5_1 : ∀ i : grid5.Coords, EltTy.bits .f32 = 32 ∨ (Rect.unit (s := S8192x1) (fun _ => 0) (fun a => (Pipeline.Clip.of (cc5_transform_1 i a) (S8192x1.size a) (S3300000x1.size a)).extent (S8192x1.size a)) fun a => (Nat.zero_add _).trans_le (Pipeline.Clip.extent_le (Pipeline.Clip.ok_of (hstart5_1 i a)))).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hstart5_2 : ∀ (i : grid5.Coords) a, cc5_transform_2 i a * S8192x2.size a < S3300000x2.size a
  hwx5_2 : ∀ i : grid5.Coords, EltTy.bits .f32 = 32 ∨ (Rect.unit (s := S3300000x2) (fun a => cc5_transform_2 i a * S8192x2.size a) (fun a => (Pipeline.Clip.of (cc5_transform_2 i a) (S8192x2.size a) (S3300000x2.size a)).extent (S8192x2.size a)) fun a => Pipeline.Clip.inb (Pipeline.Clip.ok_of (hstart5_2 i a))).WholeWords (EltTy.packing .f32)
  hwxs5_2 : ∀ i : grid5.Coords, EltTy.bits .f32 = 32 ∨ (Rect.unit (s := S8192x2) (fun _ => 0) (fun a => (Pipeline.Clip.of (cc5_transform_2 i a) (S8192x2.size a) (S3300000x2.size a)).extent (S8192x2.size a)) fun a => (Nat.zero_add _).trans_le (Pipeline.Clip.extent_le (Pipeline.Clip.ok_of (hstart5_2 i a)))).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x2.size a ≤ S100000x2.size a
  hwx6_0 : ∀ i : grid6.Coords, EltTy.bits .f32 = 32 ∨ (Rect.block (s := S100000x2) S10000x2.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x2.size a ≤ S100000x2.size a
  hwx6_1 : ∀ i : grid6.Coords, EltTy.bits .f32 = 32 ∨ (Rect.block (s := S100000x2) S10000x2.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x2.size a ≤ S100000x2.size a
  hwx6_2 : ∀ i : grid6.Coords, EltTy.bits .f32 = 32 ∨ (Rect.block (s := S100000x2) S10000x2.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hstart7_0 : ∀ (i : grid7.Coords) a, cc7_transform_0 i a * S8192x2.size a < S3300000x2.size a
  hwx7_0 : ∀ i : grid7.Coords, EltTy.bits .f32 = 32 ∨ (Rect.unit (s := S3300000x2) (fun a => cc7_transform_0 i a * S8192x2.size a) (fun a => (Pipeline.Clip.of (cc7_transform_0 i a) (S8192x2.size a) (S3300000x2.size a)).extent (S8192x2.size a)) fun a => Pipeline.Clip.inb (Pipeline.Clip.ok_of (hstart7_0 i a))).WholeWords (EltTy.packing .f32)
  hwxs7_0 : ∀ i : grid7.Coords, EltTy.bits .f32 = 32 ∨ (Rect.unit (s := S8192x2) (fun _ => 0) (fun a => (Pipeline.Clip.of (cc7_transform_0 i a) (S8192x2.size a) (S3300000x2.size a)).extent (S8192x2.size a)) fun a => (Nat.zero_add _).trans_le (Pipeline.Clip.extent_le (Pipeline.Clip.ok_of (hstart7_0 i a)))).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hstart7_1 : ∀ (i : grid7.Coords) a, cc7_transform_1 i a * S8192x1.size a < S3300000x1.size a
  hwx7_1 : ∀ i : grid7.Coords, EltTy.bits .f32 = 32 ∨ (Rect.unit (s := S3300000x1) (fun a => cc7_transform_1 i a * S8192x1.size a) (fun a => (Pipeline.Clip.of (cc7_transform_1 i a) (S8192x1.size a) (S3300000x1.size a)).extent (S8192x1.size a)) fun a => Pipeline.Clip.inb (Pipeline.Clip.ok_of (hstart7_1 i a))).WholeWords (EltTy.packing .f32)
  hwxs7_1 : ∀ i : grid7.Coords, EltTy.bits .f32 = 32 ∨ (Rect.unit (s := S8192x1) (fun _ => 0) (fun a => (Pipeline.Clip.of (cc7_transform_1 i a) (S8192x1.size a) (S3300000x1.size a)).extent (S8192x1.size a)) fun a => (Nat.zero_add _).trans_le (Pipeline.Clip.extent_le (Pipeline.Clip.ok_of (hstart7_1 i a)))).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hstart7_2 : ∀ (i : grid7.Coords) a, cc7_transform_2 i a * S8192x2.size a < S3300000x2.size a
  hwx7_2 : ∀ i : grid7.Coords, EltTy.bits .f32 = 32 ∨ (Rect.unit (s := S3300000x2) (fun a => cc7_transform_2 i a * S8192x2.size a) (fun a => (Pipeline.Clip.of (cc7_transform_2 i a) (S8192x2.size a) (S3300000x2.size a)).extent (S8192x2.size a)) fun a => Pipeline.Clip.inb (Pipeline.Clip.ok_of (hstart7_2 i a))).WholeWords (EltTy.packing .f32)
  hwxs7_2 : ∀ i : grid7.Coords, EltTy.bits .f32 = 32 ∨ (Rect.unit (s := S8192x2) (fun _ => 0) (fun a => (Pipeline.Clip.of (cc7_transform_2 i a) (S8192x2.size a) (S3300000x2.size a)).extent (S8192x2.size a)) fun a => (Nat.zero_add _).trans_le (Pipeline.Clip.extent_le (Pipeline.Clip.ok_of (hstart7_2 i a)))).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x2.size a ≤ S100000x2.size a
  hwx8_0 : ∀ i : grid8.Coords, EltTy.bits .f32 = 32 ∨ (Rect.block (s := S100000x2) S10000x2.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x2.size a ≤ S100000x2.size a
  hwx8_1 : ∀ i : grid8.Coords, EltTy.bits .f32 = 32 ∨ (Rect.block (s := S100000x2) S10000x2.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x2.size a ≤ S100000x2.size a
  hwx8_2 : ∀ i : grid8.Coords, EltTy.bits .f32 = 32 ∨ (Rect.block (s := S100000x2) S10000x2.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hstart9_0 : ∀ (i : grid9.Coords) a, cc9_transform_0 i a * S8192x2.size a < S3300000x2.size a
  hwx9_0 : ∀ i : grid9.Coords, EltTy.bits .f32 = 32 ∨ (Rect.unit (s := S3300000x2) (fun a => cc9_transform_0 i a * S8192x2.size a) (fun a => (Pipeline.Clip.of (cc9_transform_0 i a) (S8192x2.size a) (S3300000x2.size a)).extent (S8192x2.size a)) fun a => Pipeline.Clip.inb (Pipeline.Clip.ok_of (hstart9_0 i a))).WholeWords (EltTy.packing .f32)
  hwxs9_0 : ∀ i : grid9.Coords, EltTy.bits .f32 = 32 ∨ (Rect.unit (s := S8192x2) (fun _ => 0) (fun a => (Pipeline.Clip.of (cc9_transform_0 i a) (S8192x2.size a) (S3300000x2.size a)).extent (S8192x2.size a)) fun a => (Nat.zero_add _).trans_le (Pipeline.Clip.extent_le (Pipeline.Clip.ok_of (hstart9_0 i a)))).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hstart9_1 : ∀ (i : grid9.Coords) a, cc9_transform_1 i a * S8192x1.size a < S3300000x1.size a
  hwx9_1 : ∀ i : grid9.Coords, EltTy.bits .f32 = 32 ∨ (Rect.unit (s := S3300000x1) (fun a => cc9_transform_1 i a * S8192x1.size a) (fun a => (Pipeline.Clip.of (cc9_transform_1 i a) (S8192x1.size a) (S3300000x1.size a)).extent (S8192x1.size a)) fun a => Pipeline.Clip.inb (Pipeline.Clip.ok_of (hstart9_1 i a))).WholeWords (EltTy.packing .f32)
  hwxs9_1 : ∀ i : grid9.Coords, EltTy.bits .f32 = 32 ∨ (Rect.unit (s := S8192x1) (fun _ => 0) (fun a => (Pipeline.Clip.of (cc9_transform_1 i a) (S8192x1.size a) (S3300000x1.size a)).extent (S8192x1.size a)) fun a => (Nat.zero_add _).trans_le (Pipeline.Clip.extent_le (Pipeline.Clip.ok_of (hstart9_1 i a)))).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hstart9_2 : ∀ (i : grid9.Coords) a, cc9_transform_2 i a * S8192x2.size a < S3300000x2.size a
  hwx9_2 : ∀ i : grid9.Coords, EltTy.bits .f32 = 32 ∨ (Rect.unit (s := S3300000x2) (fun a => cc9_transform_2 i a * S8192x2.size a) (fun a => (Pipeline.Clip.of (cc9_transform_2 i a) (S8192x2.size a) (S3300000x2.size a)).extent (S8192x2.size a)) fun a => Pipeline.Clip.inb (Pipeline.Clip.ok_of (hstart9_2 i a))).WholeWords (EltTy.packing .f32)
  hwxs9_2 : ∀ i : grid9.Coords, EltTy.bits .f32 = 32 ∨ (Rect.unit (s := S8192x2) (fun _ => 0) (fun a => (Pipeline.Clip.of (cc9_transform_2 i a) (S8192x2.size a) (S3300000x2.size a)).extent (S8192x2.size a)) fun a => (Nat.zero_add _).trans_le (Pipeline.Clip.extent_le (Pipeline.Clip.ok_of (hstart9_2 i a)))).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x2.size a ≤ S100000x2.size a
  hwx10_0 : ∀ i : grid10.Coords, EltTy.bits .f32 = 32 ∨ (Rect.block (s := S100000x2) S10000x2.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x2.size a ≤ S100000x2.size a
  hwx10_1 : ∀ i : grid10.Coords, EltTy.bits .f32 = 32 ∨ (Rect.block (s := S100000x2) S10000x2.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x2.size a ≤ S100000x2.size a
  hwx10_2 : ∀ i : grid10.Coords, EltTy.bits .f32 = 32 ∨ (Rect.block (s := S100000x2) S10000x2.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hstart11_0 : ∀ (i : grid11.Coords) a, cc11_transform_0 i a * S8192x2.size a < S3300000x2.size a
  hwx11_0 : ∀ i : grid11.Coords, EltTy.bits .f32 = 32 ∨ (Rect.unit (s := S3300000x2) (fun a => cc11_transform_0 i a * S8192x2.size a) (fun a => (Pipeline.Clip.of (cc11_transform_0 i a) (S8192x2.size a) (S3300000x2.size a)).extent (S8192x2.size a)) fun a => Pipeline.Clip.inb (Pipeline.Clip.ok_of (hstart11_0 i a))).WholeWords (EltTy.packing .f32)
  hwxs11_0 : ∀ i : grid11.Coords, EltTy.bits .f32 = 32 ∨ (Rect.unit (s := S8192x2) (fun _ => 0) (fun a => (Pipeline.Clip.of (cc11_transform_0 i a) (S8192x2.size a) (S3300000x2.size a)).extent (S8192x2.size a)) fun a => (Nat.zero_add _).trans_le (Pipeline.Clip.extent_le (Pipeline.Clip.ok_of (hstart11_0 i a)))).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hstart11_1 : ∀ (i : grid11.Coords) a, cc11_transform_1 i a * S8192x1.size a < S3300000x1.size a
  hwx11_1 : ∀ i : grid11.Coords, EltTy.bits .f32 = 32 ∨ (Rect.unit (s := S3300000x1) (fun a => cc11_transform_1 i a * S8192x1.size a) (fun a => (Pipeline.Clip.of (cc11_transform_1 i a) (S8192x1.size a) (S3300000x1.size a)).extent (S8192x1.size a)) fun a => Pipeline.Clip.inb (Pipeline.Clip.ok_of (hstart11_1 i a))).WholeWords (EltTy.packing .f32)
  hwxs11_1 : ∀ i : grid11.Coords, EltTy.bits .f32 = 32 ∨ (Rect.unit (s := S8192x1) (fun _ => 0) (fun a => (Pipeline.Clip.of (cc11_transform_1 i a) (S8192x1.size a) (S3300000x1.size a)).extent (S8192x1.size a)) fun a => (Nat.zero_add _).trans_le (Pipeline.Clip.extent_le (Pipeline.Clip.ok_of (hstart11_1 i a)))).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hstart11_2 : ∀ (i : grid11.Coords) a, cc11_transform_2 i a * S8192x2.size a < S3300000x2.size a
  hwx11_2 : ∀ i : grid11.Coords, EltTy.bits .f32 = 32 ∨ (Rect.unit (s := S3300000x2) (fun a => cc11_transform_2 i a * S8192x2.size a) (fun a => (Pipeline.Clip.of (cc11_transform_2 i a) (S8192x2.size a) (S3300000x2.size a)).extent (S8192x2.size a)) fun a => Pipeline.Clip.inb (Pipeline.Clip.ok_of (hstart11_2 i a))).WholeWords (EltTy.packing .f32)
  hwxs11_2 : ∀ i : grid11.Coords, EltTy.bits .f32 = 32 ∨ (Rect.unit (s := S8192x2) (fun _ => 0) (fun a => (Pipeline.Clip.of (cc11_transform_2 i a) (S8192x2.size a) (S3300000x2.size a)).extent (S8192x2.size a)) fun a => (Nat.zero_add _).trans_le (Pipeline.Clip.extent_le (Pipeline.Clip.ok_of (hstart11_2 i a)))).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x2.size a ≤ S100000x2.size a
  hwx12_0 : ∀ i : grid12.Coords, EltTy.bits .f32 = 32 ∨ (Rect.block (s := S100000x2) S10000x2.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x2.size a ≤ S100000x2.size a
  hwx12_1 : ∀ i : grid12.Coords, EltTy.bits .f32 = 32 ∨ (Rect.block (s := S100000x2) S10000x2.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x2.size a ≤ S100000x2.size a
  hwx12_2 : ∀ i : grid12.Coords, EltTy.bits .f32 = 32 ∨ (Rect.block (s := S100000x2) S10000x2.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hstart13_0 : ∀ (i : grid13.Coords) a, cc13_transform_0 i a * S8192x2.size a < S3300000x2.size a
  hwx13_0 : ∀ i : grid13.Coords, EltTy.bits .f32 = 32 ∨ (Rect.unit (s := S3300000x2) (fun a => cc13_transform_0 i a * S8192x2.size a) (fun a => (Pipeline.Clip.of (cc13_transform_0 i a) (S8192x2.size a) (S3300000x2.size a)).extent (S8192x2.size a)) fun a => Pipeline.Clip.inb (Pipeline.Clip.ok_of (hstart13_0 i a))).WholeWords (EltTy.packing .f32)
  hwxs13_0 : ∀ i : grid13.Coords, EltTy.bits .f32 = 32 ∨ (Rect.unit (s := S8192x2) (fun _ => 0) (fun a => (Pipeline.Clip.of (cc13_transform_0 i a) (S8192x2.size a) (S3300000x2.size a)).extent (S8192x2.size a)) fun a => (Nat.zero_add _).trans_le (Pipeline.Clip.extent_le (Pipeline.Clip.ok_of (hstart13_0 i a)))).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hstart13_1 : ∀ (i : grid13.Coords) a, cc13_transform_1 i a * S8192x1.size a < S3300000x1.size a
  hwx13_1 : ∀ i : grid13.Coords, EltTy.bits .f32 = 32 ∨ (Rect.unit (s := S3300000x1) (fun a => cc13_transform_1 i a * S8192x1.size a) (fun a => (Pipeline.Clip.of (cc13_transform_1 i a) (S8192x1.size a) (S3300000x1.size a)).extent (S8192x1.size a)) fun a => Pipeline.Clip.inb (Pipeline.Clip.ok_of (hstart13_1 i a))).WholeWords (EltTy.packing .f32)
  hwxs13_1 : ∀ i : grid13.Coords, EltTy.bits .f32 = 32 ∨ (Rect.unit (s := S8192x1) (fun _ => 0) (fun a => (Pipeline.Clip.of (cc13_transform_1 i a) (S8192x1.size a) (S3300000x1.size a)).extent (S8192x1.size a)) fun a => (Nat.zero_add _).trans_le (Pipeline.Clip.extent_le (Pipeline.Clip.ok_of (hstart13_1 i a)))).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hstart13_2 : ∀ (i : grid13.Coords) a, cc13_transform_2 i a * S8192x2.size a < S3300000x2.size a
  hwx13_2 : ∀ i : grid13.Coords, EltTy.bits .f32 = 32 ∨ (Rect.unit (s := S3300000x2) (fun a => cc13_transform_2 i a * S8192x2.size a) (fun a => (Pipeline.Clip.of (cc13_transform_2 i a) (S8192x2.size a) (S3300000x2.size a)).extent (S8192x2.size a)) fun a => Pipeline.Clip.inb (Pipeline.Clip.ok_of (hstart13_2 i a))).WholeWords (EltTy.packing .f32)
  hwxs13_2 : ∀ i : grid13.Coords, EltTy.bits .f32 = 32 ∨ (Rect.unit (s := S8192x2) (fun _ => 0) (fun a => (Pipeline.Clip.of (cc13_transform_2 i a) (S8192x2.size a) (S3300000x2.size a)).extent (S8192x2.size a)) fun a => (Nat.zero_add _).trans_le (Pipeline.Clip.extent_le (Pipeline.Clip.ok_of (hstart13_2 i a)))).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x2.size a ≤ S100000x2.size a
  hwx14_0 : ∀ i : grid14.Coords, EltTy.bits .f32 = 32 ∨ (Rect.block (s := S100000x2) S10000x2.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S10000x2.size a ≤ S100000x2.size a
  hwx14_1 : ∀ i : grid14.Coords, EltTy.bits .f32 = 32 ∨ (Rect.block (s := S100000x2) S10000x2.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S10000x2.size a ≤ S100000x2.size a
  hwx14_2 : ∀ i : grid14.Coords, EltTy.bits .f32 = 32 ∨ (Rect.block (s := S100000x2) S10000x2.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x2.size a ≤ S100000x2.size a
  hwx15_0 : ∀ i : grid15.Coords, EltTy.bits .f32 = 32 ∨ (Rect.block (s := S100000x2) S10000x2.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S10000x2.size a ≤ S100000x2.size a
  hwx15_1 : ∀ i : grid15.Coords, EltTy.bits .f32 = 32 ∨ (Rect.block (s := S100000x2) S10000x2.size (cc15_transform_1 i) (hinb15_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x16_S16x48_S10000x48_1_0_0_1_n_n : DotDims S10000x16 S16x48 S10000x48 where
  lhsContracting := [1]
  rhsContracting := [0]
  lhsNonContracting := [0]
  rhsNonContracting := [1]
  lhsBatch := []
  rhsBatch := []
  wf := dot_S10000x16_S16x48_S10000x48_1_0_0_1_n_n_wf
def dot_S10000x48_S48x48_S10000x48_1_0_0_1_n_n : DotDims S10000x48 S48x48 S10000x48 where
  lhsContracting := [1]
  rhsContracting := [0]
  lhsNonContracting := [0]
  rhsNonContracting := [1]
  lhsBatch := []
  rhsBatch := []
  wf := dot_S10000x48_S48x48_S10000x48_1_0_0_1_n_n_wf
def gather_S100000x48_S3300000x1_S3300000x48_1_0_n_n_0_1_148 : GatherDims S100000x48 S3300000x1 S3300000x48 where
  offsetDims := [1]
  collapsedSliceDims := [0]
  operandBatchingDims := []
  startIndicesBatchingDims := []
  startIndexMap := [0]
  indexVectorDim := 1
  sliceSizes := ![1, 48]
  wf := gather_S100000x48_S3300000x1_S3300000x48_1_0_n_n_0_1_148_wf
def scatter_S100000x48_S3300000x1_S3300000x48_1_0_0_1 : ScatterDims S100000x48 S3300000x1 S3300000x48 where
  updateWindowDims := [1]
  insertedWindowDims := [0]
  scatterDimsToOperandDims := [0]
  indexVectorDim := 1
  wf := scatter_S100000x48_S3300000x1_S3300000x48_1_0_0_1_wf
def dot_S10000x48_S48x2_S10000x2_1_0_0_1_n_n : DotDims S10000x48 S48x2 S10000x2 where
  lhsContracting := [1]
  rhsContracting := [0]
  lhsNonContracting := [0]
  rhsNonContracting := [1]
  lhsBatch := []
  rhsBatch := []
  wf := dot_S10000x48_S48x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S10000x48.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S10000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S48x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S10000x48.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpecClip (Memref.whole main_v45) S8192x48.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v35) S8192x1.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v46) S8192x48.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S10000x48.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x48.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S10000x48.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v51) S10000x48.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S48x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S10000x2.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpecClip (Memref.whole main_v60) S8192x2.size cc5_transform_0 reads5_0 false false 2 stage5_0 sem5_0
    hrank5 hreads5_0 hstart5_0 nbuf5_0 (Memref.isWhole_whole _) hwx5_0 hwxs5_0 hstage5_0

abbrev win5_1 : Pipeline.Window sig grid5 :=
  Pipeline.Window.ofSpecClip (Memref.whole main_v35) S8192x1.size cc5_transform_1 reads5_1 false false 2 stage5_1 sem5_1
    hrank5 hreads5_1 hstart5_1 nbuf5_1 (Memref.isWhole_whole _) hwx5_1 hwxs5_1 hstage5_1

abbrev win5_2 : Pipeline.Window sig grid5 :=
  Pipeline.Window.ofSpecClip (Memref.whole main_v61) S8192x2.size cc5_transform_2 reads5_2 true false 2 stage5_2 sem5_2
    hrank5 hreads5_2 hstart5_2 nbuf5_2 (Memref.isWhole_whole _) hwx5_2 hwxs5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v64) S10000x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v53) S10000x2.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v65) S10000x2.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpecClip (Memref.whole main_v72) S8192x2.size cc7_transform_0 reads7_0 false false 2 stage7_0 sem7_0
    hrank7 hreads7_0 hstart7_0 nbuf7_0 (Memref.isWhole_whole _) hwx7_0 hwxs7_0 hstage7_0

abbrev win7_1 : Pipeline.Window sig grid7 :=
  Pipeline.Window.ofSpecClip (Memref.whole main_v35) S8192x1.size cc7_transform_1 reads7_1 false false 2 stage7_1 sem7_1
    hrank7 hreads7_1 hstart7_1 nbuf7_1 (Memref.isWhole_whole _) hwx7_1 hwxs7_1 hstage7_1

abbrev win7_2 : Pipeline.Window sig grid7 :=
  Pipeline.Window.ofSpecClip (Memref.whole main_v73) S8192x2.size cc7_transform_2 reads7_2 true false 2 stage7_2 sem7_2
    hrank7 hreads7_2 hstart7_2 nbuf7_2 (Memref.isWhole_whole _) hwx7_2 hwxs7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v76) S10000x2.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v53) S10000x2.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v77) S10000x2.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpecClip (Memref.whole main_v84) S8192x2.size cc9_transform_0 reads9_0 false false 2 stage9_0 sem9_0
    hrank9 hreads9_0 hstart9_0 nbuf9_0 (Memref.isWhole_whole _) hwx9_0 hwxs9_0 hstage9_0

abbrev win9_1 : Pipeline.Window sig grid9 :=
  Pipeline.Window.ofSpecClip (Memref.whole main_v35) S8192x1.size cc9_transform_1 reads9_1 false false 2 stage9_1 sem9_1
    hrank9 hreads9_1 hstart9_1 nbuf9_1 (Memref.isWhole_whole _) hwx9_1 hwxs9_1 hstage9_1

abbrev win9_2 : Pipeline.Window sig grid9 :=
  Pipeline.Window.ofSpecClip (Memref.whole main_v85) S8192x2.size cc9_transform_2 reads9_2 true false 2 stage9_2 sem9_2
    hrank9 hreads9_2 hstart9_2 nbuf9_2 (Memref.isWhole_whole _) hwx9_2 hwxs9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v88) S10000x2.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v53) S10000x2.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v89) S10000x2.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpecClip (Memref.whole main_v96) S8192x2.size cc11_transform_0 reads11_0 false false 2 stage11_0 sem11_0
    hrank11 hreads11_0 hstart11_0 nbuf11_0 (Memref.isWhole_whole _) hwx11_0 hwxs11_0 hstage11_0

abbrev win11_1 : Pipeline.Window sig grid11 :=
  Pipeline.Window.ofSpecClip (Memref.whole main_v35) S8192x1.size cc11_transform_1 reads11_1 false false 2 stage11_1 sem11_1
    hrank11 hreads11_1 hstart11_1 nbuf11_1 (Memref.isWhole_whole _) hwx11_1 hwxs11_1 hstage11_1

abbrev win11_2 : Pipeline.Window sig grid11 :=
  Pipeline.Window.ofSpecClip (Memref.whole main_v97) S8192x2.size cc11_transform_2 reads11_2 true false 2 stage11_2 sem11_2
    hrank11 hreads11_2 hstart11_2 nbuf11_2 (Memref.isWhole_whole _) hwx11_2 hwxs11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v100) S10000x2.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v53) S10000x2.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v101) S10000x2.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpecClip (Memref.whole main_v108) S8192x2.size cc13_transform_0 reads13_0 false false 2 stage13_0 sem13_0
    hrank13 hreads13_0 hstart13_0 nbuf13_0 (Memref.isWhole_whole _) hwx13_0 hwxs13_0 hstage13_0

abbrev win13_1 : Pipeline.Window sig grid13 :=
  Pipeline.Window.ofSpecClip (Memref.whole main_v35) S8192x1.size cc13_transform_1 reads13_1 false false 2 stage13_1 sem13_1
    hrank13 hreads13_1 hstart13_1 nbuf13_1 (Memref.isWhole_whole _) hwx13_1 hwxs13_1 hstage13_1

abbrev win13_2 : Pipeline.Window sig grid13 :=
  Pipeline.Window.ofSpecClip (Memref.whole main_v109) S8192x2.size cc13_transform_2 reads13_2 true false 2 stage13_2 sem13_2
    hrank13 hreads13_2 hstart13_2 nbuf13_2 (Memref.isWhole_whole _) hwx13_2 hwxs13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v112) S10000x2.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v53) S10000x2.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v113) S10000x2.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v113) S10000x2.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v114) S10000x2.size cc15_transform_1 reads15_1 true false 2 stage15_1 sem15_1
    hrank15 hreads15_1 hinb15_1 nbuf15_1 (Memref.isWhole_whole _) hwx15_1 hstage15_1

abbrev win15 : Fin 2 → Pipeline.Window sig grid15 := fun | 0 => win15_0 | 1 => win15_1 | ⟨_ + 2, h⟩ => absurd h (Nat.not_lt.2 (Nat.le_add_left _ _))
abbrev spec15 : Fin 2 → Pipeline.WinSpec sig grid15.rank := fun w => (win15 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S3200000 : Shape := ⟨1, ![3200000]⟩
abbrev S16x48 : Shape := ⟨2, ![16, 48]⟩
abbrev S48 : Shape := ⟨1, ![48]⟩
abbrev S48x48 : Shape := ⟨2, ![48, 48]⟩
abbrev S48x2 : Shape := ⟨2, ![48, 2]⟩
abbrev S2 : Shape := ⟨1, ![2]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x48 : Shape := ⟨2, ![100000, 48]⟩
abbrev S1x48 : Shape := ⟨2, ![1, 48]⟩
abbrev S3300000x48 : Shape := ⟨2, ![3300000, 48]⟩
abbrev S100000x2 : Shape := ⟨2, ![100000, 2]⟩
abbrev S1x2 : Shape := ⟨2, ![1, 2]⟩
abbrev S3300000x2 : Shape := ⟨2, ![3300000, 2]⟩
abbrev S100000x1 : Shape := ⟨2, ![100000, 1]⟩

abbrev nBuf : Space → Nat
  | .hbm => 222
  | .vmem => 0
  | .smem => 0
  | _ => 0

abbrev hbmTy0_0 (i : Nat) : BufTy := match i % 128 with
  | 0 => ⟨S100000x16, .f32⟩
  | 1 => ⟨S2x3200000, .i32⟩
  | 2 => ⟨S3200000, .f32⟩
  | 3 => ⟨S16x48, .f32⟩
  | 4 => ⟨S48, .f32⟩
  | 5 => ⟨S48x48, .f32⟩
  | 6 => ⟨S48, .f32⟩
  | 7 => ⟨S48x2, .f32⟩
  | 8 => ⟨S2, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S_, .f32⟩
  | 17 => ⟨S100000, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .i1⟩
  | 29 => ⟨S_, .f32⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S100000x48, .f32⟩
  | 59 => ⟨S1x48, .f32⟩
  | 60 => ⟨S100000x48, .f32⟩
  | 61 => ⟨S100000x48, .f32⟩
  | 62 => ⟨S_, .f32⟩
  | 63 => ⟨S100000x48, .f32⟩
  | 64 => ⟨S100000x48, .f32⟩
  | 65 => ⟨S100000x48, .f32⟩
  | 66 => ⟨S3300000x1, .f32⟩
  | 67 => ⟨S_, .i32⟩
  | 68 => ⟨S3300000, .i32⟩
  | 69 => ⟨S3300000, .i1⟩
  | 70 => ⟨S_, .i32⟩
  | 71 => ⟨S3300000, .i32⟩
  | 72 => ⟨S3300000, .i32⟩
  | 73 => ⟨S3300000, .i32⟩
  | 74 => ⟨S3300000x1, .i32⟩
  | 75 => ⟨S3300000x48, .f32⟩
  | 76 => ⟨S3300000x48, .f32⟩
  | 77 => ⟨S3300000x48, .f32⟩
  | 78 => ⟨S_, .f32⟩
  | 79 => ⟨S100000x48, .f32⟩
  | 80 => ⟨S3300000x1, .i32⟩
  | 81 => ⟨S100000x48, .f32⟩
  | 82 => ⟨S1x48, .f32⟩
  | 83 => ⟨S100000x48, .f32⟩
  | 84 => ⟨S100000x48, .f32⟩
  | 85 => ⟨S_, .f32⟩
  | 86 => ⟨S100000x48, .f32⟩
  | 87 => ⟨S100000x48, .f32⟩
  | 88 => ⟨S100000x2, .f32⟩
  | 89 => ⟨S1x2, .f32⟩
  | 90 => ⟨S100000x2, .f32⟩
  | 91 => ⟨S100000x2, .f32⟩
  | 92 => ⟨S3300000x1, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000x2, .f32⟩
  | 102 => ⟨S3300000x2, .f32⟩
  | 103 => ⟨S3300000x2, .f32⟩
  | 104 => ⟨S_, .f32⟩
  | 105 => ⟨S100000x2, .f32⟩
  | 106 => ⟨S3300000x1, .i32⟩
  | 107 => ⟨S100000x2, .f32⟩
  | 108 => ⟨S_, .f32⟩
  | 109 => ⟨S100000x2, .f32⟩
  | 110 => ⟨S100000x2, .f32⟩
  | 111 => ⟨S_, .f32⟩
  | 112 => ⟨S100000x2, .f32⟩
  | 113 => ⟨S100000x2, .f32⟩
  | 114 => ⟨S100000x2, .f32⟩
  | 115 => ⟨S3300000x1, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x2, .f32⟩
  | 125 => ⟨S3300000x2, .f32⟩
  | 126 => ⟨S3300000x2, .f32⟩
  | 127 => ⟨S_, .f32⟩
  | _ => ⟨S100000x16, .f32⟩

abbrev hbmTy0_1 (i : Nat) : BufTy := match i % 128 with
  | 0 => ⟨S100000x2, .f32⟩
  | 1 => ⟨S3300000x1, .i32⟩
  | 2 => ⟨S100000x2, .f32⟩
  | 3 => ⟨S_, .f32⟩
  | 4 => ⟨S100000x2, .f32⟩
  | 5 => ⟨S100000x2, .f32⟩
  | 6 => ⟨S_, .f32⟩
  | 7 => ⟨S100000x2, .f32⟩
  | 8 => ⟨S100000x2, .f32⟩
  | 9 => ⟨S100000x2, .f32⟩
  | 10 => ⟨S3300000x1, .f32⟩
  | 11 => ⟨S_, .i32⟩
  | 12 => ⟨S3300000, .i32⟩
  | 13 => ⟨S3300000, .i1⟩
  | 14 => ⟨S_, .i32⟩
  | 15 => ⟨S3300000, .i32⟩
  | 16 => ⟨S3300000, .i32⟩
  | 17 => ⟨S3300000, .i32⟩
  | 18 => ⟨S3300000x1, .i32⟩
  | 19 => ⟨S3300000x2, .f32⟩
  | 20 => ⟨S3300000x2, .f32⟩
  | 21 => ⟨S3300000x2, .f32⟩
  | 22 => ⟨S_, .f32⟩
  | 23 => ⟨S100000x2, .f32⟩
  | 24 => ⟨S3300000x1, .i32⟩
  | 25 => ⟨S100000x2, .f32⟩
  | 26 => ⟨S_, .f32⟩
  | 27 => ⟨S100000x2, .f32⟩
  | 28 => ⟨S100000x2, .f32⟩
  | 29 => ⟨S_, .f32⟩
  | 30 => ⟨S100000x2, .f32⟩
  | 31 => ⟨S100000x2, .f32⟩
  | 32 => ⟨S100000x2, .f32⟩
  | 33 => ⟨S3300000x1, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000x2, .f32⟩
  | 43 => ⟨S3300000x2, .f32⟩
  | 44 => ⟨S3300000x2, .f32⟩
  | 45 => ⟨S_, .f32⟩
  | 46 => ⟨S100000x2, .f32⟩
  | 47 => ⟨S3300000x1, .i32⟩
  | 48 => ⟨S100000x2, .f32⟩
  | 49 => ⟨S_, .f32⟩
  | 50 => ⟨S100000x2, .f32⟩
  | 51 => ⟨S100000x2, .f32⟩
  | 52 => ⟨S_, .f32⟩
  | 53 => ⟨S100000x2, .f32⟩
  | 54 => ⟨S100000x2, .f32⟩
  | 55 => ⟨S100000x2, .f32⟩
  | 56 => ⟨S3300000x1, .f32⟩
  | 57 => ⟨S_, .i32⟩
  | 58 => ⟨S3300000, .i32⟩
  | 59 => ⟨S3300000, .i1⟩
  | 60 => ⟨S_, .i32⟩
  | 61 => ⟨S3300000, .i32⟩
  | 62 => ⟨S3300000, .i32⟩
  | 63 => ⟨S3300000, .i32⟩
  | 64 => ⟨S3300000x1, .i32⟩
  | 65 => ⟨S3300000x2, .f32⟩
  | 66 => ⟨S3300000x2, .f32⟩
  | 67 => ⟨S3300000x2, .f32⟩
  | 68 => ⟨S_, .f32⟩
  | 69 => ⟨S100000x2, .f32⟩
  | 70 => ⟨S3300000x1, .i32⟩
  | 71 => ⟨S100000x2, .f32⟩
  | 72 => ⟨S_, .f32⟩
  | 73 => ⟨S100000x2, .f32⟩
  | 74 => ⟨S100000x2, .f32⟩
  | 75 => ⟨S_, .f32⟩
  | 76 => ⟨S100000x2, .f32⟩
  | 77 => ⟨S100000x2, .f32⟩
  | 78 => ⟨S100000x2, .f32⟩
  | 79 => ⟨S_, .f32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x2, .f32⟩
  | 86 => ⟨S100000x2, .f32⟩
  | 87 => ⟨S100000x2, .f32⟩
  | 88 => ⟨S_, .f32⟩
  | 89 => ⟨S100000, .f32⟩
  | 90 => ⟨S100000x1, .f32⟩
  | 91 => ⟨S100000x1, .f32⟩
  | 92 => ⟨S100000x2, .f32⟩
  | 93 => ⟨S100000x2, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call3_cst : Ref sig .tc := ⟨.hbm, 85, rfl⟩
abbrev main_call3_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_11 : Ref sig .tc := ⟨.hbm, 93, rfl⟩
abbrev main_v63 : Ref sig .tc := ⟨.hbm, 94, rfl⟩
abbrev main_v64 : Ref sig .tc := ⟨.hbm, 95, rfl⟩
abbrev main_c_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_cst_15 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_16 : Ref sig .tc := ⟨.hbm, 116, rfl⟩
abbrev main_v81 : Ref sig .tc := ⟨.hbm, 117, rfl⟩
abbrev main_v82 : Ref sig .tc := ⟨.hbm, 118, rfl⟩
abbrev main_c_17 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_19 : Ref sig .tc := ⟨.hbm, 131, rfl⟩
abbrev main_v93 : Ref sig .tc := ⟨.hbm, 132, rfl⟩
abbrev main_v94 : Ref sig .tc := ⟨.hbm, 133, rfl⟩
abbrev main_cst_20 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_21 : Ref sig .tc := ⟨.hbm, 139, rfl⟩
abbrev main_v99 : Ref sig .tc := ⟨.hbm, 140, rfl⟩
abbrev main_v100 : Ref sig .tc := ⟨.hbm, 141, rfl⟩
abbrev main_c_22 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_23 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_24 : Ref sig .tc := ⟨.hbm, 154, rfl⟩
abbrev main_v111 : Ref sig .tc := ⟨.hbm, 155, rfl⟩
abbrev main_v112 : Ref sig .tc := ⟨.hbm, 156, rfl⟩
abbrev main_cst_25 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_26 : Ref sig .tc := ⟨.hbm, 162, rfl⟩
abbrev main_v117 : Ref sig .tc := ⟨.hbm, 163, rfl⟩
abbrev main_v118 : Ref sig .tc := ⟨.hbm, 164, rfl⟩
abbrev main_c_27 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_28 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_29 : Ref sig .tc := ⟨.hbm, 177, rfl⟩
abbrev main_v129 : Ref sig .tc := ⟨.hbm, 178, rfl⟩
abbrev main_v130 : Ref sig .tc := ⟨.hbm, 179, rfl⟩
abbrev main_cst_30 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_c_31 : Ref sig .tc := ⟨.hbm, 185, rfl⟩
abbrev main_v135 : Ref sig .tc := ⟨.hbm, 186, rfl⟩
abbrev main_v136 : Ref sig .tc := ⟨.hbm, 187, rfl⟩
abbrev main_c_32 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_33 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_34 : Ref sig .tc := ⟨.hbm, 200, rfl⟩
abbrev main_v147 : Ref sig .tc := ⟨.hbm, 201, rfl⟩
abbrev main_v148 : Ref sig .tc := ⟨.hbm, 202, rfl⟩
abbrev main_cst_35 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_call4_cst : Ref sig .tc := ⟨.hbm, 207, rfl⟩
abbrev main_call4_v0 : Ref sig .tc := ⟨.hbm, 208, rfl⟩
abbrev main_call4_cst_0 : Ref sig .tc := ⟨.hbm, 209, rfl⟩
abbrev main_call4_v1 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_v5 : Ref sig .tc := ⟨.hbm, 214, rfl⟩
abbrev main_call4_v6 : Ref sig .tc := ⟨.hbm, 215, rfl⟩
abbrev main_call4_cst_1 : Ref sig .tc := ⟨.hbm, 216, rfl⟩
abbrev main_call4_v7 : Ref sig .tc := ⟨.hbm, 217, rfl⟩
abbrev main_call4_v8 : Ref sig .tc := ⟨.hbm, 218, rfl⟩
abbrev main_call4_v9 : Ref sig .tc := ⟨.hbm, 219, rfl⟩
abbrev main_call4_v10 : Ref sig .tc := ⟨.hbm, 220, rfl⟩
abbrev main_v152 : Ref sig .tc := ⟨.hbm, 221, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S_S100000x48 : S_.BroadcastsInDim S100000x48 (![] : Fin 0 → Fin S100000x48.rank)
  bcast_S3300000x1_S3300000x48_0_1 : S3300000x1.BroadcastsInDim S3300000x48 (![0, 1] : Fin 2 → Fin S3300000x48.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x16_S16x48_S100000x48_1_0_0_1_n_n_wf : DotDims.WF S100000x16 S16x48 S100000x48 [1] [0] [0] [1] [] []
  dot_S100000x48_S48x48_S100000x48_1_0_0_1_n_n_wf : DotDims.WF S100000x48 S48x48 S100000x48 [1] [0] [0] [1] [] []
  gather_S100000x48_S3300000x1_S3300000x48_1_0_n_n_0_1_148_wf : GatherDims.WF S100000x48 S3300000x1 S3300000x48 [1] [0] [] [0] [] 1 ![1, 48]
  scatter_S100000x48_S3300000x1_S3300000x48_1_0_0_1_wf : ScatterDims.WF S100000x48 S3300000x1 S3300000x48 [1] [0] [0] 1
  dot_S100000x48_S48x2_S100000x2_1_0_0_1_n_n_wf : DotDims.WF S100000x48 S48x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x16_S16x48_S100000x48_1_0_0_1_n_n : DotDims S100000x16 S16x48 S100000x48 where
  lhsContracting := [1]
  rhsContracting := [0]
  lhsNonContracting := [0]
  rhsNonContracting := [1]
  lhsBatch := []
  rhsBatch := []
  wf := dot_S100000x16_S16x48_S100000x48_1_0_0_1_n_n_wf
def dot_S100000x48_S48x48_S100000x48_1_0_0_1_n_n : DotDims S100000x48 S48x48 S100000x48 where
  lhsContracting := [1]
  rhsContracting := [0]
  lhsNonContracting := [0]
  rhsNonContracting := [1]
  lhsBatch := []
  rhsBatch := []
  wf := dot_S100000x48_S48x48_S100000x48_1_0_0_1_n_n_wf
def gather_S100000x48_S3300000x1_S3300000x48_1_0_n_n_0_1_148 : GatherDims S100000x48 S3300000x1 S3300000x48 where
  offsetDims := [1]
  collapsedSliceDims := [0]
  operandBatchingDims := []
  startIndicesBatchingDims := []
  startIndexMap := [0]
  indexVectorDim := 1
  sliceSizes := ![1, 48]
  wf := gather_S100000x48_S3300000x1_S3300000x48_1_0_n_n_0_1_148_wf
def scatter_S100000x48_S3300000x1_S3300000x48_1_0_0_1 : ScatterDims S100000x48 S3300000x1 S3300000x48 where
  updateWindowDims := [1]
  insertedWindowDims := [0]
  scatterDimsToOperandDims := [0]
  indexVectorDim := 1
  wf := scatter_S100000x48_S3300000x1_S3300000x48_1_0_0_1_wf
def dot_S100000x48_S48x2_S100000x2_1_0_0_1_n_n : DotDims S100000x48 S48x2 S100000x2 where
  lhsContracting := [1]
  rhsContracting := [0]
  lhsNonContracting := [0]
  rhsNonContracting := [1]
  lhsBatch := []
  rhsBatch := []
  wf := dot_S100000x48_S48x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.RefFrame.lean ====
/-
  The reference program's frame. The reference is a host program with no kernel launch: its run is read
  back operation by operation, every weakly fair execution terminates with each result at the composed
  term of the arguments and the arguments unchanged; the frame is that run with the result dropped.
-/
import proofs.«142470_j73658689126826_2_alg».proof.Defs
import proofs.«142470_j73658689126826_2_alg».proof.Proof.RefRun
import proofs.«142470_j73658689126826_2_alg».proof.Proof.Gen.ReferenceIdeal
import proofs.«142470_j73658689126826_2_alg».proof.Proof.Gen.Pre_finite_inputs

noncomputable section

namespace Cert.Proof.RefClaims

open Idealize.ShloMosaic Idealize.ShloMosaic.TcCoe Idealize.SL.Sem

/-- Every weakly fair execution of the reference terminates without a fault and leaves its nine argument
    arrays as launched. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.K.Reg0.lean ====
/-
  Region 0 of @main, one pallas_call on a one-axis grid whose blocks tile their arrays exactly: at each grid
  point the body loads its 3 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds the input's block at every point, fetched there or not: where it is not
    fetched the block index has not moved since the point that did fetch it, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input's staging buffer holds the input's block at every point, fetched there or not: where it is not
    fetched the block index has not moved since the point that did fetch it, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input's staging buffer holds the input's block at every point, fetched there or not: where it is not
    fetched the block index has not moved since the point that did fetch it, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output's staging buffer, as a function of the input blocks: its one store, of the
    body's value, over the whole buffer. -/
def out0_3 (x0 : Vec F S10000x16 .f32) (x1 : Vec F S16x48 .f32) (x2 : Vec F S1x48 .f32) : Vec F S10000x48 .f32 :=
  View.canon [⟨(Rect.unit (s := S10000x48) ![0, 0] S10000x48.size inb_S10000x48_S10000x48_0_0), k0_pay1 (View.ld x0 (Rect.unit (s := S10000x16) ![0, 0] S10000x16.size inb_S10000x16_S10000x16_0_0)) (View.ld x1 (Rect.unit (s := S16x48) ![0, 0] S16x48.size inb_S16x48_S16x48_0_0)) (View.ld x2 (Rect.unit (s := S1x48) ![0, 0] S1x48.size inb_S1x48_S1x48_0_0))⟩]

/-- The one store covers the buffer. -/
theorem cover0_3 (p0 : Vec F S10000x48 .f32) (y : S10000x48.Idx) :
    ∃ pc ∈ ([⟨(Rect.unit (s := S10000x48) ![0, 0] S10000x48.size inb_S10000x48_S10000x48_0_0), p0⟩] : List (View.Piece (Elt F) S10000x48 .f32)), y ∈ pc.1.set :=
  View.cover_of_tiled [⟨(Rect.unit (s := S10000x48) ![0, 0] S10000x48.size inb_S10000x48_S10000x48_0_0), p0⟩] S10000x48.size (by rfl) y

set_option maxHeartbeats 1000000 in
/-- The body on whole staging buffers, the inputs' holding `x0 …` and the output's anything, runs to its end with
    the inputs' unchanged and the output's at `out0_3` of them. -/
theorem sound_kernel0 (c : Dev nD) (E : Set ℕ) (i : grid0.Coords) (arg1 : Memref sig .tc .vmem S10000x16 .f32) (harg1 : arg1.IsWhole) (arg2 : Memref sig .tc .vmem S16x48 .f32) (harg2 : arg2.IsWhole) (arg3 : Memref sig .tc .vmem S1x48 .f32) (harg3 : arg3.IsWhole) (arg4 : Memref sig .tc .vmem S10000x48 .f32) (harg4 : arg4.IsWhole)
    (x0 : Vec F S10000x16 .f32) (x1 : Vec F S16x48 .f32) (x2 : Vec F S1x48 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each
    input's buffer at its block and the output's at the body's value of the input blocks; the invariant only the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Reg1.lean ====
/-
  Region 1 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds the input's block at every point, fetched there or not: where it is not
    fetched the block index has not moved since the point that did fetch it, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input's staging buffer holds the input's block at every point, fetched there or not: where it is not
    fetched the block index has not moved since the point that did fetch it, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output's staging buffer, as a function of the input blocks: its one store, of the
    body's value, over the whole buffer. -/
def out1_2 (x0 : Vec F S10000x48 .f32) (x1 : Vec F S48x48 .f32) : Vec F S10000x48 .f32 :=
  View.canon [⟨(Rect.unit (s := S10000x48) ![0, 0] S10000x48.size inb_S10000x48_S10000x48_0_0), k1_pay1 (View.ld x0 (Rect.unit (s := S10000x48) ![0, 0] S10000x48.size inb_S10000x48_S10000x48_0_0)) (View.ld x1 (Rect.unit (s := S48x48) ![0, 0] S48x48.size inb_S48x48_S48x48_0_0))⟩]

/-- The one store covers the buffer. -/
theorem cover1_2 (p0 : Vec F S10000x48 .f32) (y : S10000x48.Idx) :
    ∃ pc ∈ ([⟨(Rect.unit (s := S10000x48) ![0, 0] S10000x48.size inb_S10000x48_S10000x48_0_0), p0⟩] : List (View.Piece (Elt F) S10000x48 .f32)), y ∈ pc.1.set :=
  View.cover_of_tiled [⟨(Rect.unit (s := S10000x48) ![0, 0] S10000x48.size inb_S10000x48_S10000x48_0_0), p0⟩] S10000x48.size (by rfl) y

set_option maxHeartbeats 1000000 in
/-- The body on whole staging buffers, the inputs' holding `x0 …` and the output's anything, runs to its end with
    the inputs' unchanged and the output's at `out1_2` of them. -/
theorem sound_kernel1 (c : Dev nD) (E : Set ℕ) (i : grid1.Coords) (arg1 : Memref sig .tc .vmem S10000x48 .f32) (harg1 : arg1.IsWhole) (arg2 : Memref sig .tc .vmem S48x48 .f32) (harg2 : arg2.IsWhole) (arg3 : Memref sig .tc .vmem S10000x48 .f32) (harg3 : arg3.IsWhole)
    (x0 : Vec F S10000x48 .f32) (x1 : Vec F S48x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core `c`: the arrays as the region finds them; after the body at point `t` each
    input's buffer at its block and the output's at the body's value of the input blocks; the invariant only the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.Reg2.lean ====
/-
  Region 2 of @main, one pallas_call on a one-axis grid whose blocks do NOT tile their arrays: the last block of
  each of the three windows overhangs its array by the same rows. A fetch of such a block lands only the rows inside
  the array and leaves the rest of the staging buffer at contents nothing names; the body computes on whole buffers,
  those rows too; the write-back moves only the rows inside. The body is row-local — row r of the output block is
  row r of the first input block times, lane by lane, the one word of row r of the second — so on the rows that are
  moved what it leaves does not depend on the unnamed rows. Stated at any float instance and at any contents `V` of
  the buffers when the region is entered: what each staging buffer holds after the body on the rows its transfers
  move, and that the body, run on buffers holding the input blocks on those rows and anything elsewhere, terminates
  leaving exactly that there.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, its part inside the array, read off the window's array as the region
    finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- That block filled out to the staging buffer's shape: past the array's end a word the proof picks and nothing
    reads. -/
def fblk2 (c : Dev nD) (w : Fin cfg2.W) (t : Fin cfg2.N) : (cfg2.win w).block.Idx → Elt F (cfg2.win w).elt :=
  (cfg2.win w).fill (cfg2.grid.coords t) (fun _ => Classical.arbitrary _) (iblk2 V c w t)

theorem cut_fblk2 (c : Dev nD) (w : Fin cfg2.W) (t : Fin cfg2.N) :
    (cfg2.win w).cut (cfg2.grid.coords t) (fblk2 V c w t) = iblk2 V c w t :=
  (cfg2.win w).cut_fill _ _ _

/-- What the body leaves in the output's staging buffer, as a function of what the inputs' hold: its one store, of
    the body's value, over the whole buffer. -/
def out2_2 (x0 : Vec F S8192x48 .f32) (x1 : Vec F S8192x1 .f32) : Vec F S8192x48 .f32 :=
  View.canon [⟨(Rect.unit (s := S8192x48) ![0, 0] S8192x48.size inb_S8192x48_S8192x48_0_0), k2_pay1 (View.ld x0 (Rect.unit (s := S8192x48) ![0, 0] S8192x48.size inb_S8192x48_S8192x48_0_0)) (View.ld x1 (Rect.unit (s := S8192x1) ![0, 0] S8192x1.size inb_S8192x1_S8192x1_0_0))⟩]

/-- The loads read the buffers whole and the one store writes its payload whole: the body's value. -/
theorem out2_2_eq (x0 : Vec F S8192x48 .f32) (x1 : Vec F S8192x1 .f32) : out2_2 x0 x1 = k2_pay1 x0 x1 := by
  have hz : (![0, 0] : Fin 2 → Nat) = fun _ => 0 := funext fun a => by fin_cases a <;> rfl
  unfold out2_2
  rw [View.canon_unit_zero hz, View.ld_unit_zero hz, View.ld_unit_zero hz]

/-- The one store covers the buffer. -/
theorem cover2_2 (p0 : Vec F S8192x48 .f32) (y : S8192x48.Idx) :
    ∃ pc ∈ ([⟨(Rect.unit (s := S8192x48) ![0, 0] S8192x48.size inb_S8192x48_S8192x48_0_0), p0⟩] : List (View.Piece (Elt F) S8192x48 .f32)), y ∈ pc.1.set :=
  View.cover_of_tiled [⟨(Rect.unit (s := S8192x48) ![0, 0] S8192x48.size inb_S8192x48_S8192x48_0_0), p0⟩] S8192x48.size (by rfl) y

set_option maxHeartbeats 1000000 in
/-- The body on whole staging buffers, the inputs' holding `x0 …` and the output's anything, runs to its end with
    the inputs' unchanged and the output's at `out2_2` of them. -/
theorem sound_kernel2 (c : Dev nD) (E : Set ℕ) (i : grid2.Coords) (arg1 : Memref sig .tc .vmem S8192x48 .f32) (harg1 : arg1.IsWhole) (arg2 : Memref sig .tc .vmem S8192x1 .f32) (harg2 : arg2.IsWhole) (arg3 : Memref sig .tc .vmem S8192x48 .f32) (harg3 : arg3.IsWhole)
    (x0 : Vec F S8192x48 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The three windows cut their blocks alike: the index maps agree, and so do the arrays' and the blocks' row counts. -/
theorem xsize2_0 (i : cfg2.grid.Coords) (a : Fin (cfg2.win 2).shape.rank) : (cfg2.win 0).xsize i a = (cfg2.win 2).xsize i a := rfl
theorem xsize2_1_0 (i : cfg2.grid.Coords) : (cfg2.win 1).xsize i 0 = (cfg2.win 2).xsize i 0 := rfl
theorem xsize2_1_1 (i : cfg2.grid.Coords) : (cfg2.win 1).xsize i 1 = 1 := rfl

/-- Row locality of the body's value: on the rows the output's transfer moves, it reads the first input at the same
    index and the second at the same row, both among what the inputs' transfers move. So inputs that agree on their
    moved rows give values that agree on the output's. -/
theorem cut_pay2 (i : cfg2.grid.Coords) (X0 Y0 : Vec F S8192x48 .f32) (X1 Y1 : Vec F S8192x1 .f32)
    (h0 : (cfg2.win 0).cut i X0 = (cfg2.win 0).cut i Y0) (h1 : (cfg2.win 1).cut i X1 = (cfg2.win 1).cut i Y1) :
    (cfg2.win 2).cut i (k2_pay1 X0 X1) = (cfg2.win 2).cut i (k2_pay1 Y0 Y1) := by
  funext j
  -- the index in the first input's moved part with `j`'s coordinates, and the one in the second's with `j`'s row
  let j0 : ((cfg2.win 0).xblock i).Idx := fun a => ⟨(j a).val, Nat.lt_of_lt_of_eq (j a).isLt (xsize2_0 i a).symm⟩
  let j1 : ((cfg2.win 1).xblock i).Idx := fun a => match a with
    | ⟨0, _⟩ => ⟨(j 0).val, Nat.lt_of_lt_of_eq (j 0).isLt (xsize2_1_0 i).symm⟩
    | ⟨1, _⟩ => ⟨0, Nat.lt_of_lt_of_eq Nat.one_pos (xsize2_1_1 i).symm⟩
  have e0 : X0 ((cfg2.win 2).xinj i j) = Y0 ((cfg2.win 2).xinj i j) := congrFun h0 j0
  have hk : ∀ a : Fin S8192x1.rank, (((cfg2.win 1).xinj i j1 : S8192x1.Idx) a).val
      = if S8192x1.size a = 1 then 0 else (((cfg2.win 2).xinj i j : S8192x48.Idx) ⟨a.val + (S8192x48.rank - S8192x1.rank), by have := a.isLt; omega⟩).val := fun a =>
    match a with
    | ⟨0, _⟩ => rfl
    | ⟨1, _⟩ => rfl
  have e1 : broadcastTo S8192x48 X1 broadcasts_S8192x1_S8192x48 ((cfg2.win 2).xinj i j) = broadcastTo S8192x48 Y1 broadcasts_S8192x1_S8192x48 ((cfg2.win 2).xinj i j) := by
    rw [broadcastTo_apply X1 _ _ _ hk, broadcastTo_apply Y1 _ _ _ hk]
    exact congrFun h1 j1
  show FloatOps.mulf (shapeCast S8192x48 X0 shapeCasts_S8192x48_S8192x48 ((cfg2.win 2).xinj i j)) (broadcastTo S8192x48 (shapeCast S8192x1 X1 shapeCasts_S8192x1_S8192x1) broadcasts_S8192x1_S8192x48 ((cfg2.win 2).xinj i j))
    = FloatOps.mulf (shapeCast S8192x48 Y0 shapeCasts_S8192x48_S8192x48 ((cfg2.win 2).xinj i j)) (broadcastTo S8192x48 (shapeCast S8192x1 Y1 shapeCasts_S8192x1_S8192x1) broadcasts_S8192x1_S8192x48 ((cfg2.win 2).xinj i j))
  rw [shapeCast_self, shapeCast_self, shapeCast_self, shapeCast_self, e0, e1]

/-- The region's proof data on core `c`: the arrays as the region finds them; after the body at point `t` each
    input's buffer at its block and the output's at the body's value of the input blocks — each on the rows its
    transfers move, filled out past them by the proof's own word —; the invariant only the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => fblk2 V c 0 t
    | ⟨1, _⟩ => fblk2 V c 1 t
    | ⟨2, _⟩ => out2_2 (fblk2 V c 0 t) (fblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = fblk2 V c 0 t := by dsimp only [dat2]
theorem after2_1 (c : Dev nD) (t : Fin cfg2.N) : (dat2 V c).after 1 t = fblk2 V c 1 t := by dsimp only [dat2]
theorem after2_2 (c : Dev nD) (t : Fin cfg2.N) : (dat2 V c).after 2 t = out2_2 (fblk2 V c 0 t) (fblk2 V c 1 t) := by dsimp only [dat2]

/-- What the body finds in an input's buffer: just fetched, the block on the rows inside the array and `d`, any,
    elsewhere. -/
theorem before2_0 (c : Dev nD) (t : Fin cfg2.N) (d) :
    (dat2 V c).before 0 t d = (cfg2.win 0).fill (cfg2.grid.coords t) d (iblk2 V c 0 t) := by
  unfold Dat.before; rw [if_pos (fetch2_0 t)]; rfl
theorem before2_1 (c : Dev nD) (t : Fin cfg2.N) (d) :
    (dat2 V c).before 1 t d = (cfg2.win 1).fill (cfg2.grid.coords t) d (iblk2 V c 1 t) := by
  unfold Dat.before; rw [if_pos (fetch2_1 t)]; rfl

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: each buffer stated on the rows its window's transfers move. -/
def bodyPost2 (c : Dev nD) (t : Fin cfg2.N) : sProp 𝕄 :=
  iprop((dat2 V c).Φ t.succ ∗ (dat2 V c).owesAt () t.succ
    ∗ (∃ d, owns (c : Thread nD τ) (st2_0 t) fullShare ((cfg2.win 0).fill (cfg2.grid.coords t) d ((cfg2.win 0).cut (cfg2.grid.coords t) ((dat2 V c).after 0 t))))
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t)))))

/-- The body at any point: the inputs' buffers hold their blocks on the moved rows and anything elsewhere, so the
    body's triple applies at those contents; what it leaves agrees on the moved rows with what the proof data names
    (`cut_pay2`), which is all that is asked back; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl,
    after2_0, after2_1, after2_2, cut_fblk2, cut_fblk2]
  iintro ⟨HΦ, Ho, ⟨%d0, H0⟩, ⟨%d1, H1⟩, ⟨%d2, H2⟩⟩
  rw [before2_0 V c t d0, before2_1 V c t d1]
  iapply (sound_kernel2 c Set.univ _ _ _ _ _ _ _ ((cfg2.win 0).fill (cfg2.grid.coords t) d0 (iblk2 V c 0 t)) ((cfg2.win 1).fill (cfg2.grid.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists out2_2 ((cfg2.win 0).fill (cfg2.grid.coords t) d0 (iblk2 V c 0 t)) ((cfg2.win 1).fill (cfg2.grid.coords t) d1 (iblk2 V c 1 t))
  have hcut : (cfg2.win 2).cut (cfg2.grid.coords t) (out2_2 ((cfg2.win 0).fill (cfg2.grid.coords t) d0 (iblk2 V c 0 t)) ((cfg2.win 1).fill (cfg2.grid.coords t) d1 (iblk2 V c 1 t)))
      = (cfg2.win 2).cut (cfg2.grid.coords t) (out2_2 (fblk2 V c 0 t) (fblk2 V c 1 t)) := by
    rw [out2_2_eq, out2_2_eq]
    exact cut_pay2 (cfg2.grid.coords t) _ _ _ _
      (((cfg2.win 0).cut_fill _ _ _).trans (cut_fblk2 V c 0 t).symm)
      (((cfg2.win 1).cut_fill _ _ _).trans (cut_fblk2 V c 1 t).symm)
  rw [(cfg2.win 2).fill_congr_cut (cfg2.grid.coords t) hcut]
  iexact H2

/-- The body obligation of the region's pipeline, at every point (every window is loose: each buffer is asked back
    only on the rows its transfers move). -/
theorem body_obligation2 (c : Dev nD) : BodyObligationLoose (dat2 (F := F) V c) (defs₀ (F := F)) Variants.none () Set.univ := fun t => by
  rw [bigSep_W2, bigSep_W2]
  exact sound_body2 V c t

/-- The index in the first input's moved part with the coordinates of the output's `j`, -/
noncomputable def idx2_0 (i : cfg2.grid.Coords) (j : ((cfg2.win 2).xblock i).Idx) : ((cfg2.win 0).xblock i).Idx :=
  fun a => ⟨(j a).val, Nat.lt_of_lt_of_eq (j a).isLt (xsize2_0 i a).symm⟩

/-- and the one in the second's with `j`'s row (its one column). -/
noncomputable def idx2_1 (i : cfg2.grid.Coords) (j : ((cfg2.win 2).xblock i).Idx) : ((cfg2.win 1).xblock i).Idx :=
  fun a => match a with
    | ⟨0, _⟩ => ⟨(j 0).val, Nat.lt_of_lt_of_eq (j 0).isLt (xsize2_1_0 i).symm⟩
    | ⟨1, _⟩ => ⟨0, Nat.lt_of_lt_of_eq Nat.one_pos (xsize2_1_1 i).symm⟩

/-- The body's value at an index the output's transfer moves: the first input there times the second's word of the
    same row. -/
theorem pay2_apply (i : cfg2.grid.Coords) (X0 : Vec F S8192x48 .f32) (X1 : Vec F S8192x1 .f32) (j : ((cfg2.win 2).xblock i).Idx) :
    k2_pay1 X0 X1 ((cfg2.win 2).xinj i j)
      = FloatOps.mulf (X0 ((cfg2.win 0).xinj i (idx2_0 i j))) (X1 ((cfg2.win 1).xinj i (idx2_1 i j))) := by
  have hk : ∀ a : Fin S8192x1.rank, (((cfg2.win 1).xinj i (idx2_1 i j) : S8192x1.Idx) a).val
      = if S8192x1.size a = 1 then 0 else (((cfg2.win 2).xinj i j : S8192x48.Idx) ⟨a.val + (S8192x48.rank - S8192x1.rank), by have := a.isLt; omega⟩).val := fun a =>
    match a with
    | ⟨0, _⟩ => rfl
    | ⟨1, _⟩ => rfl
  show FloatOps.mulf (shapeCast S8192x48 X0 shapeCasts_S8192x48_S8192x48 ((cfg2.win 2).xinj i j)) (broadcastTo S8192x48 (shapeCast S8192x1 X1 shapeCasts_S8192x1_S8192x1) broadcasts_S8192x1_S8192x48 ((cfg2.win 2).xinj i j))
    = FloatOps.mulf (X0 ((cfg2.win 0).xinj i (idx2_0 i j))) (X1 ((cfg2.win 1).xinj i (idx2_1 i j)))
  rw [shapeCast_self, shapeCast_self, broadcastTo_apply X1 _ _ _ hk]
  rfl

/-- What the output's write-back at point `t` moves: index by index, the first input's block times the second's
    word of the same row. -/
theorem cut_after2_2 (c : Dev nD) (t : Fin cfg2.N) :
    (cfg2.win 2).cut (cfg2.grid.coords t) ((dat2 V c).after 2 t)
      = fun j => FloatOps.mulf (iblk2 V c 0 t (idx2_0 (cfg2.grid.coords t) j)) (iblk2 V c 1 t (idx2_1 (cfg2.grid.coords t) j)) := by
  rw [after2_2, out2_2_eq]
  funext j
  exact (pay2_apply (cfg2.grid.coords t) (fblk2 V c 0 t) (fblk2 V c 1 t) j).trans
    (congrArg₂ FloatOps.mulf ((cfg2.win 0).fill_xinj _ _ _ _) ((cfg2.win 1).fill_xinj _ _ _ _))

end Cert.Kernel.Frame

end
-- ==== Proof.K.Reg3.lean ====
/-
  Region 3 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds the input's block at every point, fetched there or not: where it is not
    fetched the block index has not moved since the point that did fetch it, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input's staging buffer holds the input's block at every point, fetched there or not: where it is not
    fetched the block index has not moved since the point that did fetch it, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in the output's staging buffer, as a function of the input blocks: its one store, of the
    body's value, over the whole buffer. -/
def out3_2 (x0 : Vec F S10000x48 .f32) (x1 : Vec F S1x48 .f32) : Vec F S10000x48 .f32 :=
  View.canon [⟨(Rect.unit (s := S10000x48) ![0, 0] S10000x48.size inb_S10000x48_S10000x48_0_0), k3_pay1 (View.ld x0 (Rect.unit (s := S10000x48) ![0, 0] S10000x48.size inb_S10000x48_S10000x48_0_0)) (View.ld x1 (Rect.unit (s := S1x48) ![0, 0] S1x48.size inb_S1x48_S1x48_0_0))⟩]

/-- The one store covers the buffer. -/
theorem cover3_2 (p0 : Vec F S10000x48 .f32) (y : S10000x48.Idx) :
    ∃ pc ∈ ([⟨(Rect.unit (s := S10000x48) ![0, 0] S10000x48.size inb_S10000x48_S10000x48_0_0), p0⟩] : List (View.Piece (Elt F) S10000x48 .f32)), y ∈ pc.1.set :=
  View.cover_of_tiled [⟨(Rect.unit (s := S10000x48) ![0, 0] S10000x48.size inb_S10000x48_S10000x48_0_0), p0⟩] S10000x48.size (by rfl) y

set_option maxHeartbeats 1000000 in
/-- The body on whole staging buffers, the inputs' holding `x0 …` and the output's anything, runs to its end with
    the inputs' unchanged and the output's at `out3_2` of them. -/
theorem sound_kernel3 (c : Dev nD) (E : Set ℕ) (i : grid3.Coords) (arg1 : Memref sig .tc .vmem S10000x48 .f32) (harg1 : arg1.IsWhole) (arg2 : Memref sig .tc .vmem S1x48 .f32) (harg2 : arg2.IsWhole) (arg3 : Memref sig .tc .vmem S10000x48 .f32) (harg3 : arg3.IsWhole)
    (x0 : Vec F S10000x48 .f32) (x1 : Vec F S1x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data on core `c`: the arrays as the region finds them; after the body at point `t` each
    input's buffer at its block and the output's at the body's value of the input blocks; the invariant only the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.K.Reg4.lean ====
/-
  Region 4 of @main, one pallas_call on a one-axis grid whose blocks tile their arrays exactly: at each grid
  point the body loads its 3 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input's staging buffer holds the input's block at every point, fetched there or not: where it is not
    fetched the block index has not moved since the point that did fetch it, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input's staging buffer holds the input's block at every point, fetched there or not: where it is not
    fetched the block index has not moved since the point that did fetch it, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input's staging buffer holds the input's block at every point, fetched there or not: where it is not
    fetched the block index has not moved since the point that did fetch it, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- What the body leaves in the output's staging buffer, as a function of the input blocks: its one store, of the
    body's value, over the whole buffer. -/
def out4_3 (x0 : Vec F S10000x48 .f32) (x1 : Vec F S48x2 .f32) (x2 : Vec F S1x2 .f32) : Vec F S10000x2 .f32 :=
  View.canon [⟨(Rect.unit (s := S10000x2) ![0, 0] S10000x2.size inb_S10000x2_S10000x2_0_0), k4_pay1 (View.ld x0 (Rect.unit (s := S10000x48) ![0, 0] S10000x48.size inb_S10000x48_S10000x48_0_0)) (View.ld x1 (Rect.unit (s := S48x2) ![0, 0] S48x2.size inb_S48x2_S48x2_0_0)) (View.ld x2 (Rect.unit (s := S1x2) ![0, 0] S1x2.size inb_S1x2_S1x2_0_0))⟩]

/-- The one store covers the buffer. -/
theorem cover4_3 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out4_3` of them. -/
theorem sound_kernel4 (c : Dev nD) (E : Set ℕ) (i : grid4.Coords) (arg1 : Memref sig .tc .vmem S10000x48 .f32) (harg1 : arg1.IsWhole) (arg2 : Memref sig .tc .vmem S48x2 .f32) (harg2 : arg2.IsWhole) (arg3 : Memref sig .tc .vmem S1x2 .f32) (harg3 : arg3.IsWhole) (arg4 : Memref sig .tc .vmem S10000x2 .f32) (harg4 : arg4.IsWhole)
    (x0 : Vec F S10000x48 .f32) (x1 : Vec F S48x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's proof data on core `c`: the arrays as the region finds them; after the body at point `t` each
    input's buffer at its block and the output's at the body's value of the input blocks; the invariant only the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's pipeline, at every point. -/
theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.K.Reg5.lean ====
/-
  Region 5 of @main, one pallas_call on a one-axis grid whose blocks do NOT tile their arrays: the last block of
  each of the three windows overhangs its array by the same rows. A fetch of such a block lands only the rows inside
  the array and leaves the rest of the staging buffer at contents nothing names; the body computes on whole buffers,
  those rows too; the write-back moves only the rows inside. The body is row-local — row r of the output block is
  row r of the first input block times, lane by lane, the one word of row r of the second — so on the rows that are
  moved what it leaves does not depend on the unnamed rows. Stated at any float instance and at any contents `V` of
  the buffers when the region is entered: what each staging buffer holds after the body on the rows its transfers
  move, and that the body, run on buffers holding the input blocks on those rows and anything elsewhere, terminates
  leaving exactly that there.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, its part inside the array, read off the window's array as the region
    finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- That block filled out to the staging buffer's shape: past the array's end a word the proof picks and nothing
    reads. -/
def fblk5 (c : Dev nD) (w : Fin cfg5.W) (t : Fin cfg5.N) : (cfg5.win w).block.Idx → Elt F (cfg5.win w).elt :=
  (cfg5.win w).fill (cfg5.grid.coords t) (fun _ => Classical.arbitrary _) (iblk5 V c w t)

theorem cut_fblk5 (c : Dev nD) (w : Fin cfg5.W) (t : Fin cfg5.N) :
    (cfg5.win w).cut (cfg5.grid.coords t) (fblk5 V c w t) = iblk5 V c w t :=
  (cfg5.win w).cut_fill _ _ _

/-- What the body leaves in the output's staging buffer, as a function of what the inputs' hold: its one store, of
    the body's value, over the whole buffer. -/
def out5_2 (x0 : Vec F S8192x2 .f32) (x1 : Vec F S8192x1 .f32) : Vec F S8192x2 .f32 :=
  View.canon [⟨(Rect.unit (s := S8192x2) ![0, 0] S8192x2.size inb_S8192x2_S8192x2_0_0), k5_pay1 (View.ld x0 (Rect.unit (s := S8192x2) ![0, 0] S8192x2.size inb_S8192x2_S8192x2_0_0)) (View.ld x1 (Rect.unit (s := S8192x1) ![0, 0] S8192x1.size inb_S8192x1_S8192x1_0_0))⟩]

/-- The loads read the buffers whole and the one store writes its payload whole: the body's value. -/
theorem out5_2_eq (x0 : Vec F S8192x2 .f32) (x1 : Vec F S8192x1 .f32) : out5_2 x0 x1 = k5_pay1 x0 x1 := by
  have hz : (![0, 0] : Fin 2 → Nat) = fun _ => 0 := funext fun a => by fin_cases a <;> rfl
  unfold out5_2
  rw [View.canon_unit_zero hz, View.ld_unit_zero hz, View.ld_unit_zero hz]

/-- The one store covers the buffer. -/
theorem cover5_2 (p0 : Vec F S8192x2 .f32) (y : S8192x2.Idx) :
    ∃ pc ∈ ([⟨(Rect.unit (s := S8192x2) ![0, 0] S8192x2.size inb_S8192x2_S8192x2_0_0), p0⟩] : List (View.Piece (Elt F) S8192x2 .f32)), y ∈ pc.1.set :=
  View.cover_of_tiled [⟨(Rect.unit (s := S8192x2) ![0, 0] S8192x2.size inb_S8192x2_S8192x2_0_0), p0⟩] S8192x2.size (by rfl) y

set_option maxHeartbeats 1000000 in
/-- The body on whole staging buffers, the inputs' holding `x0 …` and the output's anything, runs to its end with
    the inputs' unchanged and the output's at `out5_2` of them. -/
theorem sound_kernel5 (c : Dev nD) (E : Set ℕ) (i : grid5.Coords) (arg1 : Memref sig .tc .vmem S8192x2 .f32) (harg1 : arg1.IsWhole) (arg2 : Memref sig .tc .vmem S8192x1 .f32) (harg2 : arg2.IsWhole) (arg3 : Memref sig .tc .vmem S8192x2 .f32) (harg3 : arg3.IsWhole)
    (x0 : Vec F S8192x2 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5_kernel i arg1 harg1 arg2 harg2 arg3 harg3) K := by
  simp only [cc5_kernel_eq_skeleton]; unfold cc5_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The three windows cut their blocks alike: the index maps agree, and so do the arrays' and the blocks' row counts. -/
theorem xsize5_0 (i : cfg5.grid.Coords) (a : Fin (cfg5.win 2).shape.rank) : (cfg5.win 0).xsize i a = (cfg5.win 2).xsize i a := rfl
theorem xsize5_1_0 (i : cfg5.grid.Coords) : (cfg5.win 1).xsize i 0 = (cfg5.win 2).xsize i 0 := rfl
theorem xsize5_1_1 (i : cfg5.grid.Coords) : (cfg5.win 1).xsize i 1 = 1 := rfl

/-- Row locality of the body's value: on the rows the output's transfer moves, it reads the first input at the same
    index and the second at the same row, both among what the inputs' transfers move. So inputs that agree on their
    moved rows give values that agree on the output's. -/
theorem cut_pay5 (i : cfg5.grid.Coords) (X0 Y0 : Vec F S8192x2 .f32) (X1 Y1 : Vec F S8192x1 .f32)
    (h0 : (cfg5.win 0).cut i X0 = (cfg5.win 0).cut i Y0) (h1 : (cfg5.win 1).cut i X1 = (cfg5.win 1).cut i Y1) :
    (cfg5.win 2).cut i (k5_pay1 X0 X1) = (cfg5.win 2).cut i (k5_pay1 Y0 Y1) := by
  funext j
  -- the index in the first input's moved part with `j`'s coordinates, and the one in the second's with `j`'s row
  let j0 : ((cfg5.win 0).xblock i).Idx := fun a => ⟨(j a).val, Nat.lt_of_lt_of_eq (j a).isLt (xsize5_0 i a).symm⟩
  let j1 : ((cfg5.win 1).xblock i).Idx := fun a => match a with
    | ⟨0, _⟩ => ⟨(j 0).val, Nat.lt_of_lt_of_eq (j 0).isLt (xsize5_1_0 i).symm⟩
    | ⟨1, _⟩ => ⟨0, Nat.lt_of_lt_of_eq Nat.one_pos (xsize5_1_1 i).symm⟩
  have e0 : X0 ((cfg5.win 2).xinj i j) = Y0 ((cfg5.win 2).xinj i j) := congrFun h0 j0
  have hk : ∀ a : Fin S8192x1.rank, (((cfg5.win 1).xinj i j1 : S8192x1.Idx) a).val
      = if S8192x1.size a = 1 then 0 else (((cfg5.win 2).xinj i j : S8192x2.Idx) ⟨a.val + (S8192x2.rank - S8192x1.rank), by have := a.isLt; omega⟩).val := fun a =>
    match a with
    | ⟨0, _⟩ => rfl
    | ⟨1, _⟩ => rfl
  have e1 : broadcastTo S8192x2 X1 broadcasts_S8192x1_S8192x2 ((cfg5.win 2).xinj i j) = broadcastTo S8192x2 Y1 broadcasts_S8192x1_S8192x2 ((cfg5.win 2).xinj i j) := by
    rw [broadcastTo_apply X1 _ _ _ hk, broadcastTo_apply Y1 _ _ _ hk]
    exact congrFun h1 j1
  show FloatOps.mulf (shapeCast S8192x2 X0 shapeCasts_S8192x2_S8192x2 ((cfg5.win 2).xinj i j)) (broadcastTo S8192x2 (shapeCast S8192x1 X1 shapeCasts_S8192x1_S8192x1) broadcasts_S8192x1_S8192x2 ((cfg5.win 2).xinj i j))
    = FloatOps.mulf (shapeCast S8192x2 Y0 shapeCasts_S8192x2_S8192x2 ((cfg5.win 2).xinj i j)) (broadcastTo S8192x2 (shapeCast S8192x1 Y1 shapeCasts_S8192x1_S8192x1) broadcasts_S8192x1_S8192x2 ((cfg5.win 2).xinj i j))
  rw [shapeCast_self, shapeCast_self, shapeCast_self, shapeCast_self, e0, e1]

/-- The region's proof data on core `c`: the arrays as the region finds them; after the body at point `t` each
    input's buffer at its block and the output's at the body's value of the input blocks — each on the rows its
    transfers move, filled out past them by the proof's own word —; the invariant only the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => fblk5 V c 0 t
    | ⟨1, _⟩ => fblk5 V c 1 t
    | ⟨2, _⟩ => out5_2 (fblk5 V c 0 t) (fblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = fblk5 V c 0 t := by dsimp only [dat5]
theorem after5_1 (c : Dev nD) (t : Fin cfg5.N) : (dat5 V c).after 1 t = fblk5 V c 1 t := by dsimp only [dat5]
theorem after5_2 (c : Dev nD) (t : Fin cfg5.N) : (dat5 V c).after 2 t = out5_2 (fblk5 V c 0 t) (fblk5 V c 1 t) := by dsimp only [dat5]

/-- What the body finds in an input's buffer: just fetched, the block on the rows inside the array and `d`, any,
    elsewhere. -/
theorem before5_0 (c : Dev nD) (t : Fin cfg5.N) (d) :
    (dat5 V c).before 0 t d = (cfg5.win 0).fill (cfg5.grid.coords t) d (iblk5 V c 0 t) := by
  unfold Dat.before; rw [if_pos (fetch5_0 t)]; rfl
theorem before5_1 (c : Dev nD) (t : Fin cfg5.N) (d) :
    (dat5 V c).before 1 t d = (cfg5.win 1).fill (cfg5.grid.coords t) d (iblk5 V c 1 t) := by
  unfold Dat.before; rw [if_pos (fetch5_1 t)]; rfl

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns: each buffer stated on the rows its window's transfers move. -/
def bodyPost5 (c : Dev nD) (t : Fin cfg5.N) : sProp 𝕄 :=
  iprop((dat5 V c).Φ t.succ ∗ (dat5 V c).owesAt () t.succ
    ∗ (∃ d, owns (c : Thread nD τ) (st5_0 t) fullShare ((cfg5.win 0).fill (cfg5.grid.coords t) d ((cfg5.win 0).cut (cfg5.grid.coords t) ((dat5 V c).after 0 t))))
    ∗ (∃ d, owns (c : Thread nD τ) (st5_1 t) fullShare ((cfg5.win 1).fill (cfg5.grid.coords t) d ((cfg5.win 1).cut (cfg5.grid.coords t) ((dat5 V c).after 1 t))))
    ∗ (∃ d, owns (c : Thread nD τ) (st5_2 t) fullShare ((cfg5.win 2).fill (cfg5.grid.coords t) d ((cfg5.win 2).cut (cfg5.grid.coords t) ((dat5 V c).after 2 t)))))

/-- The body at any point: the inputs' buffers hold their blocks on the moved rows and anything elsewhere, so the
    body's triple applies at those contents; what it leaves agrees on the moved rows with what the proof data names
    (`cut_pay5`), which is all that is asked back; the invariant and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [show (dat5 V c).Φ t.succ = (dat5 V c).Φ t.castSucc from rfl,
    show (dat5 V c).owesAt () t.succ = (dat5 V c).owesAt () t.castSucc from rfl,
    after5_0, after5_1, after5_2, cut_fblk5, cut_fblk5]
  iintro ⟨HΦ, Ho, ⟨%d0, H0⟩, ⟨%d1, H1⟩, ⟨%d2, H2⟩⟩
  rw [before5_0 V c t d0, before5_1 V c t d1]
  iapply (sound_kernel5 c Set.univ _ _ _ _ _ _ _ ((cfg5.win 0).fill (cfg5.grid.coords t) d0 (iblk5 V c 0 t)) ((cfg5.win 1).fill (cfg5.grid.coords t) d1 (iblk5 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists out5_2 ((cfg5.win 0).fill (cfg5.grid.coords t) d0 (iblk5 V c 0 t)) ((cfg5.win 1).fill (cfg5.grid.coords t) d1 (iblk5 V c 1 t))
  have hcut : (cfg5.win 2).cut (cfg5.grid.coords t) (out5_2 ((cfg5.win 0).fill (cfg5.grid.coords t) d0 (iblk5 V c 0 t)) ((cfg5.win 1).fill (cfg5.grid.coords t) d1 (iblk5 V c 1 t)))
      = (cfg5.win 2).cut (cfg5.grid.coords t) (out5_2 (fblk5 V c 0 t) (fblk5 V c 1 t)) := by
    rw [out5_2_eq, out5_2_eq]
    exact cut_pay5 (cfg5.grid.coords t) _ _ _ _
      (((cfg5.win 0).cut_fill _ _ _).trans (cut_fblk5 V c 0 t).symm)
      (((cfg5.win 1).cut_fill _ _ _).trans (cut_fblk5 V c 1 t).symm)
  rw [(cfg5.win 2).fill_congr_cut (cfg5.grid.coords t) hcut]
  iexact H2

/-- The body obligation of the region's pipeline, at every point (every window is loose: each buffer is asked back
    only on the rows its transfers move). -/
theorem body_obligation5 (c : Dev nD) : BodyObligationLoose (dat5 (F := F) V c) (defs₀ (F := F)) Variants.none () Set.univ := fun t => by
  rw [bigSep_W5, bigSep_W5]
  exact sound_body5 V c t

/-- The index in the first input's moved part with the coordinates of the output's `j`, -/
noncomputable def idx5_0 (i : cfg5.grid.Coords) (j : ((cfg5.win 2).xblock i).Idx) : ((cfg5.win 0).xblock i).Idx :=
  fun a => ⟨(j a).val, Nat.lt_of_lt_of_eq (j a).isLt (xsize5_0 i a).symm⟩

/-- and the one in the second's with `j`'s row (its one column). -/
noncomputable def idx5_1 (i : cfg5.grid.Coords) (j : ((cfg5.win 2).xblock i).Idx) : ((cfg5.win 1).xblock i).Idx :=
  fun a => match a with
    | ⟨0, _⟩ => ⟨(j 0).val, Nat.lt_of_lt_of_eq (j 0).isLt (xsize5_1_0 i).symm⟩
    | ⟨1, _⟩ => ⟨0, Nat.lt_of_lt_of_eq Nat.one_pos (xsize5_1_1 i).symm⟩

/-- The body's value at an index the output's transfer moves: the first input there times the second's word of the
    same row. -/
theorem pay5_apply (i : cfg5.grid.Coords) (X0 : Vec F S8192x2 .f32) (X1 : Vec F S8192x1 .f32) (j : ((cfg5.win 2).xblock i).Idx) :
    k5_pay1 X0 X1 ((cfg5.win 2).xinj i j)
      = FloatOps.mulf (X0 ((cfg5.win 0).xinj i (idx5_0 i j))) (X1 ((cfg5.win 1).xinj i (idx5_1 i j))) := by
  have hk : ∀ a : Fin S8192x1.rank, (((cfg5.win 1).xinj i (idx5_1 i j) : S8192x1.Idx) a).val
      = if S8192x1.size a = 1 then 0 else (((cfg5.win 2).xinj i j : S8192x2.Idx) ⟨a.val + (S8192x2.rank - S8192x1.rank), by have := a.isLt; omega⟩).val := fun a =>
    match a with
    | ⟨0, _⟩ => rfl
    | ⟨1, _⟩ => rfl
  show FloatOps.mulf (shapeCast S8192x2 X0 shapeCasts_S8192x2_S8192x2 ((cfg5.win 2).xinj i j)) (broadcastTo S8192x2 (shapeCast S8192x1 X1 shapeCasts_S8192x1_S8192x1) broadcasts_S8192x1_S8192x2 ((cfg5.win 2).xinj i j))
    = FloatOps.mulf (X0 ((cfg5.win 0).xinj i (idx5_0 i j))) (X1 ((cfg5.win 1).xinj i (idx5_1 i j)))
  rw [shapeCast_self, shapeCast_self, broadcastTo_apply X1 _ _ _ hk]
  rfl

/-- What the output's write-back at point `t` moves: index by index, the first input's block times the second's
    word of the same row. -/
theorem cut_after5_2 (c : Dev nD) (t : Fin cfg5.N) :
    (cfg5.win 2).cut (cfg5.grid.coords t) ((dat5 V c).after 2 t)
      = fun j => FloatOps.mulf (iblk5 V c 0 t (idx5_0 (cfg5.grid.coords t) j)) (iblk5 V c 1 t (idx5_1 (cfg5.grid.coords t) j)) := by
  rw [after5_2, out5_2_eq]
  funext j
  exact (pay5_apply (cfg5.grid.coords t) (fblk5 V c 0 t) (fblk5 V c 1 t) j).trans
    (congrArg₂ FloatOps.mulf ((cfg5.win 0).fill_xinj _ _ _ _) ((cfg5.win 1).fill_xinj _ _ _ _))

end Cert.Kernel.Frame

end
-- ==== Proof.K.Reg6.lean ====
/-
  Region 6 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input's staging buffer holds the input's block at every point, fetched there or not: where it is not
    fetched the block index has not moved since the point that did fetch it, and the body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input's staging buffer holds the input's block at every point, fetched there or not: where it is not
    fetched the block index has not moved since the point that did fetch it, and the body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- What the body leaves in the output's staging buffer, as a function of the input blocks: its one store, of the
    body's value, over the whole buffer. -/
def out6_2 (x0 : Vec F S10000x2 .f32) (x1 : Vec F S10000x2 .f32) : Vec F S10000x2 .f32 :=
  View.canon [⟨(Rect.unit (s := S10000x2) ![0, 0] S10000x2.size inb_S10000x2_S10000x2_0_0), k6_pay1 (View.ld x0 (Rect.unit (s := S10000x2) ![0, 0] S10000x2.size inb_S10000x2_S10000x2_0_0)) (View.ld x1 (Rect.unit (s := S10000x2) ![0, 0] S10000x2.size inb_S10000x2_S10000x2_0_0))⟩]

/-- The one store covers the buffer. -/
theorem cover6_2 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out6_2` of them. -/
theorem sound_kernel6 (c : Dev nD) (E : Set ℕ) (i : grid6.Coords) (arg1 : Memref sig .tc .vmem S10000x2 .f32) (harg1 : arg1.IsWhole) (arg2 : Memref sig .tc .vmem S10000x2 .f32) (harg2 : arg2.IsWhole) (arg3 : Memref sig .tc .vmem S10000x2 .f32) (harg3 : arg3.IsWhole)
    (x0 : Vec F S10000x2 .f32) (x1 : Vec F S10000x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6_kernel i arg1 harg1 arg2 harg2 arg3 harg3) K := by
  simp only [cc6_kernel_eq_skeleton]; unfold cc6_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The region's proof data on core `c`: the arrays as the region finds them; after the body at point `t` each
    input's buffer at its block and the output's at the body's value of the input blocks; the invariant only the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation6 (c : Dev nD) : BodyObligation (dat6 (F := F) V c) (defs₀ (F := F)) Variants.none () Set.univ := fun t => by
  rw [bigSep_W6, bigSep_W6]
  exact sound_body6 V c t

end Cert.Kernel.Frame

end
-- ==== Proof.K.Reg7.lean ====
/-
  Region 7 of @main, one pallas_call on a one-axis grid whose blocks do NOT tile their arrays: the last block of
  each of the three windows overhangs its array by the same rows. A fetch of such a block lands only the rows inside
  the array and leaves the rest of the staging buffer at contents nothing names; the body computes on whole buffers,
  those rows too; the write-back moves only the rows inside. The body is row-local — row r of the output block is
  row r of the first input block times, lane by lane, the one word of row r of the second — so on the rows that are
  moved what it leaves does not depend on the unnamed rows. Stated at any float instance and at any contents `V` of
  the buffers when the region is entered: what each staging buffer holds after the body on the rows its transfers
  move, and that the body, run on buffers holding the input blocks on those rows and anything elsewhere, terminates
  leaving exactly that there.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, its part inside the array, read off the window's array as the region
    finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- That block filled out to the staging buffer's shape: past the array's end a word the proof picks and nothing
    reads. -/
def fblk7 (c : Dev nD) (w : Fin cfg7.W) (t : Fin cfg7.N) : (cfg7.win w).block.Idx → Elt F (cfg7.win w).elt :=
  (cfg7.win w).fill (cfg7.grid.coords t) (fun _ => Classical.arbitrary _) (iblk7 V c w t)

theorem cut_fblk7 (c : Dev nD) (w : Fin cfg7.W) (t : Fin cfg7.N) :
    (cfg7.win w).cut (cfg7.grid.coords t) (fblk7 V c w t) = iblk7 V c w t :=
  (cfg7.win w).cut_fill _ _ _

/-- What the body leaves in the output's staging buffer, as a function of what the inputs' hold: its one store, of
    the body's value, over the whole buffer. -/
def out7_2 (x0 : Vec F S8192x2 .f32) (x1 : Vec F S8192x1 .f32) : Vec F S8192x2 .f32 :=
  View.canon [⟨(Rect.unit (s := S8192x2) ![0, 0] S8192x2.size inb_S8192x2_S8192x2_0_0), k7_pay1 (View.ld x0 (Rect.unit (s := S8192x2) ![0, 0] S8192x2.size inb_S8192x2_S8192x2_0_0)) (View.ld x1 (Rect.unit (s := S8192x1) ![0, 0] S8192x1.size inb_S8192x1_S8192x1_0_0))⟩]

/-- The loads read the buffers whole and the one store writes its payload whole: the body's value. -/
theorem out7_2_eq (x0 : Vec F S8192x2 .f32) (x1 : Vec F S8192x1 .f32) : out7_2 x0 x1 = k7_pay1 x0 x1 := by
  have hz : (![0, 0] : Fin 2 → Nat) = fun _ => 0 := funext fun a => by fin_cases a <;> rfl
  unfold out7_2
  rw [View.canon_unit_zero hz, View.ld_unit_zero hz, View.ld_unit_zero hz]

/-- The one store covers the buffer. -/
theorem cover7_2 (p0 : Vec F S8192x2 .f32) (y : S8192x2.Idx) :
    ∃ pc ∈ ([⟨(Rect.unit (s := S8192x2) ![0, 0] S8192x2.size inb_S8192x2_S8192x2_0_0), p0⟩] : List (View.Piece (Elt F) S8192x2 .f32)), y ∈ pc.1.set :=
  View.cover_of_tiled [⟨(Rect.unit (s := S8192x2) ![0, 0] S8192x2.size inb_S8192x2_S8192x2_0_0), p0⟩] S8192x2.size (by rfl) y

set_option maxHeartbeats 1000000 in
/-- The body on whole staging buffers, the inputs' holding `x0 …` and the output's anything, runs to its end with
    the inputs' unchanged and the output's at `out7_2` of them. -/
theorem sound_kernel7 (c : Dev nD) (E : Set ℕ) (i : grid7.Coords) (arg1 : Memref sig .tc .vmem S8192x2 .f32) (harg1 : arg1.IsWhole) (arg2 : Memref sig .tc .vmem S8192x1 .f32) (harg2 : arg2.IsWhole) (arg3 : Memref sig .tc .vmem S8192x2 .f32) (harg3 : arg3.IsWhole)
    (x0 : Vec F S8192x2 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7_kernel i arg1 harg1 arg2 harg2 arg3 harg3) K := by
  simp only [cc7_kernel_eq_skeleton]; unfold cc7_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The three windows cut their blocks alike: the index maps agree, and so do the arrays' and the blocks' row counts. -/
theorem xsize7_0 (i : cfg7.grid.Coords) (a : Fin (cfg7.win 2).shape.rank) : (cfg7.win 0).xsize i a = (cfg7.win 2).xsize i a := rfl
theorem xsize7_1_0 (i : cfg7.grid.Coords) : (cfg7.win 1).xsize i 0 = (cfg7.win 2).xsize i 0 := rfl
theorem xsize7_1_1 (i : cfg7.grid.Coords) : (cfg7.win 1).xsize i 1 = 1 := rfl

/-- Row locality of the body's value: on the rows the output's transfer moves, it reads the first input at the same
    index and the second at the same row, both among what the inputs' transfers move. So inputs that agree on their
    moved rows give values that agree on the output's. -/
theorem cut_pay7 (i : cfg7.grid.Coords) (X0 Y0 : Vec F S8192x2 .f32) (X1 Y1 : Vec F S8192x1 .f32)
    (h0 : (cfg7.win 0).cut i X0 = (cfg7.win 0).cut i Y0) (h1 : (cfg7.win 1).cut i X1 = (cfg7.win 1).cut i Y1) :
    (cfg7.win 2).cut i (k7_pay1 X0 X1) = (cfg7.win 2).cut i (k7_pay1 Y0 Y1) := by
  funext j
  -- the index in the first input's moved part with `j`'s coordinates, and the one in the second's with `j`'s row
  let j0 : ((cfg7.win 0).xblock i).Idx := fun a => ⟨(j a).val, Nat.lt_of_lt_of_eq (j a).isLt (xsize7_0 i a).symm⟩
  let j1 : ((cfg7.win 1).xblock i).Idx := fun a => match a with
    | ⟨0, _⟩ => ⟨(j 0).val, Nat.lt_of_lt_of_eq (j 0).isLt (xsize7_1_0 i).symm⟩
    | ⟨1, _⟩ => ⟨0, Nat.lt_of_lt_of_eq Nat.one_pos (xsize7_1_1 i).symm⟩
  have e0 : X0 ((cfg7.win 2).xinj i j) = Y0 ((cfg7.win 2).xinj i j) := congrFun h0 j0
  have hk : ∀ a : Fin S8192x1.rank, (((cfg7.win 1).xinj i j1 : S8192x1.Idx) a).val
      = if S8192x1.size a = 1 then 0 else (((cfg7.win 2).xinj i j : S8192x2.Idx) ⟨a.val + (S8192x2.rank - S8192x1.rank), by have := a.isLt; omega⟩).val := fun a =>
    match a with
    | ⟨0, _⟩ => rfl
    | ⟨1, _⟩ => rfl
  have e1 : broadcastTo S8192x2 X1 broadcasts_S8192x1_S8192x2 ((cfg7.win 2).xinj i j) = broadcastTo S8192x2 Y1 broadcasts_S8192x1_S8192x2 ((cfg7.win 2).xinj i j) := by
    rw [broadcastTo_apply X1 _ _ _ hk, broadcastTo_apply Y1 _ _ _ hk]
    exact congrFun h1 j1
  show FloatOps.mulf (shapeCast S8192x2 X0 shapeCasts_S8192x2_S8192x2 ((cfg7.win 2).xinj i j)) (broadcastTo S8192x2 (shapeCast S8192x1 X1 shapeCasts_S8192x1_S8192x1) broadcasts_S8192x1_S8192x2 ((cfg7.win 2).xinj i j))
    = FloatOps.mulf (shapeCast S8192x2 Y0 shapeCasts_S8192x2_S8192x2 ((cfg7.win 2).xinj i j)) (broadcastTo S8192x2 (shapeCast S8192x1 Y1 shapeCasts_S8192x1_S8192x1) broadcasts_S8192x1_S8192x2 ((cfg7.win 2).xinj i j))
  rw [shapeCast_self, shapeCast_self, shapeCast_self, shapeCast_self, e0, e1]

/-- The region's proof data on core `c`: the arrays as the region finds them; after the body at point `t` each
    input's buffer at its block and the output's at the body's value of the input blocks — each on the rows its
    transfers move, filled out past them by the proof's own word —; the invariant only the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => fblk7 V c 0 t
    | ⟨1, _⟩ => fblk7 V c 1 t
    | ⟨2, _⟩ => out7_2 (fblk7 V c 0 t) (fblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = fblk7 V c 0 t := by dsimp only [dat7]
theorem after7_1 (c : Dev nD) (t : Fin cfg7.N) : (dat7 V c).after 1 t = fblk7 V c 1 t := by dsimp only [dat7]
theorem after7_2 (c : Dev nD) (t : Fin cfg7.N) : (dat7 V c).after 2 t = out7_2 (fblk7 V c 0 t) (fblk7 V c 1 t) := by dsimp only [dat7]

/-- What the body finds in an input's buffer: just fetched, the block on the rows inside the array and `d`, any,
    elsewhere. -/
theorem before7_0 (c : Dev nD) (t : Fin cfg7.N) (d) :
    (dat7 V c).before 0 t d = (cfg7.win 0).fill (cfg7.grid.coords t) d (iblk7 V c 0 t) := by
  unfold Dat.before; rw [if_pos (fetch7_0 t)]; rfl
theorem before7_1 (c : Dev nD) (t : Fin cfg7.N) (d) :
    (dat7 V c).before 1 t d = (cfg7.win 1).fill (cfg7.grid.coords t) d (iblk7 V c 1 t) := by
  unfold Dat.before; rw [if_pos (fetch7_1 t)]; rfl

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns: each buffer stated on the rows its window's transfers move. -/
def bodyPost7 (c : Dev nD) (t : Fin cfg7.N) : sProp 𝕄 :=
  iprop((dat7 V c).Φ t.succ ∗ (dat7 V c).owesAt () t.succ
    ∗ (∃ d, owns (c : Thread nD τ) (st7_0 t) fullShare ((cfg7.win 0).fill (cfg7.grid.coords t) d ((cfg7.win 0).cut (cfg7.grid.coords t) ((dat7 V c).after 0 t))))
    ∗ (∃ d, owns (c : Thread nD τ) (st7_1 t) fullShare ((cfg7.win 1).fill (cfg7.grid.coords t) d ((cfg7.win 1).cut (cfg7.grid.coords t) ((dat7 V c).after 1 t))))
    ∗ (∃ d, owns (c : Thread nD τ) (st7_2 t) fullShare ((cfg7.win 2).fill (cfg7.grid.coords t) d ((cfg7.win 2).cut (cfg7.grid.coords t) ((dat7 V c).after 2 t)))))

/-- The body at any point: the inputs' buffers hold their blocks on the moved rows and anything elsewhere, so the
    body's triple applies at those contents; what it leaves agrees on the moved rows with what the proof data names
    (`cut_pay7`), which is all that is asked back; the invariant and the core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [show (dat7 V c).Φ t.succ = (dat7 V c).Φ t.castSucc from rfl,
    show (dat7 V c).owesAt () t.succ = (dat7 V c).owesAt () t.castSucc from rfl,
    after7_0, after7_1, after7_2, cut_fblk7, cut_fblk7]
  iintro ⟨HΦ, Ho, ⟨%d0, H0⟩, ⟨%d1, H1⟩, ⟨%d2, H2⟩⟩
  rw [before7_0 V c t d0, before7_1 V c t d1]
  iapply (sound_kernel7 c Set.univ _ _ _ _ _ _ _ ((cfg7.win 0).fill (cfg7.grid.coords t) d0 (iblk7 V c 0 t)) ((cfg7.win 1).fill (cfg7.grid.coords t) d1 (iblk7 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists out7_2 ((cfg7.win 0).fill (cfg7.grid.coords t) d0 (iblk7 V c 0 t)) ((cfg7.win 1).fill (cfg7.grid.coords t) d1 (iblk7 V c 1 t))
  have hcut : (cfg7.win 2).cut (cfg7.grid.coords t) (out7_2 ((cfg7.win 0).fill (cfg7.grid.coords t) d0 (iblk7 V c 0 t)) ((cfg7.win 1).fill (cfg7.grid.coords t) d1 (iblk7 V c 1 t)))
      = (cfg7.win 2).cut (cfg7.grid.coords t) (out7_2 (fblk7 V c 0 t) (fblk7 V c 1 t)) := by
    rw [out7_2_eq, out7_2_eq]
    exact cut_pay7 (cfg7.grid.coords t) _ _ _ _
      (((cfg7.win 0).cut_fill _ _ _).trans (cut_fblk7 V c 0 t).symm)
      (((cfg7.win 1).cut_fill _ _ _).trans (cut_fblk7 V c 1 t).symm)
  rw [(cfg7.win 2).fill_congr_cut (cfg7.grid.coords t) hcut]
  iexact H2

/-- The body obligation of the region's pipeline, at every point (every window is loose: each buffer is asked back
    only on the rows its transfers move). -/
theorem body_obligation7 (c : Dev nD) : BodyObligationLoose (dat7 (F := F) V c) (defs₀ (F := F)) Variants.none () Set.univ := fun t => by
  rw [bigSep_W7, bigSep_W7]
  exact sound_body7 V c t

/-- The index in the first input's moved part with the coordinates of the output's `j`, -/
noncomputable def idx7_0 (i : cfg7.grid.Coords) (j : ((cfg7.win 2).xblock i).Idx) : ((cfg7.win 0).xblock i).Idx :=
  fun a => ⟨(j a).val, Nat.lt_of_lt_of_eq (j a).isLt (xsize7_0 i a).symm⟩

/-- and the one in the second's with `j`'s row (its one column). -/
noncomputable def idx7_1 (i : cfg7.grid.Coords) (j : ((cfg7.win 2).xblock i).Idx) : ((cfg7.win 1).xblock i).Idx :=
  fun a => match a with
    | ⟨0, _⟩ => ⟨(j 0).val, Nat.lt_of_lt_of_eq (j 0).isLt (xsize7_1_0 i).symm⟩
    | ⟨1, _⟩ => ⟨0, Nat.lt_of_lt_of_eq Nat.one_pos (xsize7_1_1 i).symm⟩

/-- The body's value at an index the output's transfer moves: the first input there times the second's word of the
    same row. -/
theorem pay7_apply (i : cfg7.grid.Coords) (X0 : Vec F S8192x2 .f32) (X1 : Vec F S8192x1 .f32) (j : ((cfg7.win 2).xblock i).Idx) :
    k7_pay1 X0 X1 ((cfg7.win 2).xinj i j)
      = FloatOps.mulf (X0 ((cfg7.win 0).xinj i (idx7_0 i j))) (X1 ((cfg7.win 1).xinj i (idx7_1 i j))) := by
  have hk : ∀ a : Fin S8192x1.rank, (((cfg7.win 1).xinj i (idx7_1 i j) : S8192x1.Idx) a).val
      = if S8192x1.size a = 1 then 0 else (((cfg7.win 2).xinj i j : S8192x2.Idx) ⟨a.val + (S8192x2.rank - S8192x1.rank), by have := a.isLt; omega⟩).val := fun a =>
    match a with
    | ⟨0, _⟩ => rfl
    | ⟨1, _⟩ => rfl
  show FloatOps.mulf (shapeCast S8192x2 X0 shapeCasts_S8192x2_S8192x2 ((cfg7.win 2).xinj i j)) (broadcastTo S8192x2 (shapeCast S8192x1 X1 shapeCasts_S8192x1_S8192x1) broadcasts_S8192x1_S8192x2 ((cfg7.win 2).xinj i j))
    = FloatOps.mulf (X0 ((cfg7.win 0).xinj i (idx7_0 i j))) (X1 ((cfg7.win 1).xinj i (idx7_1 i j)))
  rw [shapeCast_self, shapeCast_self, broadcastTo_apply X1 _ _ _ hk]
  rfl

/-- What the output's write-back at point `t` moves: index by index, the first input's block times the second's
    word of the same row. -/
theorem cut_after7_2 (c : Dev nD) (t : Fin cfg7.N) :
    (cfg7.win 2).cut (cfg7.grid.coords t) ((dat7 V c).after 2 t)
      = fun j => FloatOps.mulf (iblk7 V c 0 t (idx7_0 (cfg7.grid.coords t) j)) (iblk7 V c 1 t (idx7_1 (cfg7.grid.coords t) j)) := by
  rw [after7_2, out7_2_eq]
  funext j
  exact (pay7_apply (cfg7.grid.coords t) (fblk7 V c 0 t) (fblk7 V c 1 t) j).trans
    (congrArg₂ FloatOps.mulf ((cfg7.win 0).fill_xinj _ _ _ _) ((cfg7.win 1).fill_xinj _ _ _ _))

end Cert.Kernel.Frame

end
-- ==== Proof.K.Reg8.lean ====
/-
  Region 8 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input's staging buffer holds the input's block at every point, fetched there or not: where it is not
    fetched the block index has not moved since the point that did fetch it, and the body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- An input's staging buffer holds the input's block at every point, fetched there or not: where it is not
    fetched the block index has not moved since the point that did fetch it, and the body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- What the body leaves in the output's staging buffer, as a function of the input blocks: its one store, of the
    body's value, over the whole buffer. -/
def out8_2 (x0 : Vec F S10000x2 .f32) (x1 : Vec F S10000x2 .f32) : Vec F S10000x2 .f32 :=
  View.canon [⟨(Rect.unit (s := S10000x2) ![0, 0] S10000x2.size inb_S10000x2_S10000x2_0_0), k8_pay1 (View.ld x0 (Rect.unit (s := S10000x2) ![0, 0] S10000x2.size inb_S10000x2_S10000x2_0_0)) (View.ld x1 (Rect.unit (s := S10000x2) ![0, 0] S10000x2.size inb_S10000x2_S10000x2_0_0))⟩]

/-- The one store covers the buffer. -/
theorem cover8_2 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out8_2` of them. -/
theorem sound_kernel8 (c : Dev nD) (E : Set ℕ) (i : grid8.Coords) (arg1 : Memref sig .tc .vmem S10000x2 .f32) (harg1 : arg1.IsWhole) (arg2 : Memref sig .tc .vmem S10000x2 .f32) (harg2 : arg2.IsWhole) (arg3 : Memref sig .tc .vmem S10000x2 .f32) (harg3 : arg3.IsWhole)
    (x0 : Vec F S10000x2 .f32) (x1 : Vec F S10000x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8_kernel i arg1 harg1 arg2 harg2 arg3 harg3) K := by
  simp only [cc8_kernel_eq_skeleton]; unfold cc8_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The region's proof data on core `c`: the arrays as the region finds them; after the body at point `t` each
    input's buffer at its block and the output's at the body's value of the input blocks; the invariant only the
    scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so the body's triple applies; the invariant and
    the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation8 (c : Dev nD) : BodyObligation (dat8 (F := F) V c) (defs₀ (F := F)) Variants.none () Set.univ := fun t => by
  rw [bigSep_W8, bigSep_W8]
  exact sound_body8 V c t

end Cert.Kernel.Frame

end
-- ==== Proof.K.Reg9.lean ====
/-
  Region 9 of @main, one pallas_call on a one-axis grid whose blocks do NOT tile their arrays: the last block of
  each of the three windows overhangs its array by the same rows. A fetch of such a block lands only the rows inside
  the array and leaves the rest of the staging buffer at contents nothing names; the body computes on whole buffers,
  those rows too; the write-back moves only the rows inside. The body is row-local — row r of the output block is
  row r of the first input block times, lane by lane, the one word of row r of the second — so on the rows that are
  moved what it leaves does not depend on the unnamed rows. Stated at any float instance and at any contents `V` of
  the buffers when the region is entered: what each staging buffer holds after the body on the rows its transfers
  move, and that the body, run on buffers holding the input blocks on those rows and anything elsewhere, terminates
  leaving exactly that there.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, its part inside the array, read off the window's array as the region
    finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- That block filled out to the staging buffer's shape: past the array's end a word the proof picks and nothing
    reads. -/
def fblk9 (c : Dev nD) (w : Fin cfg9.W) (t : Fin cfg9.N) : (cfg9.win w).block.Idx → Elt F (cfg9.win w).elt :=
  (cfg9.win w).fill (cfg9.grid.coords t) (fun _ => Classical.arbitrary _) (iblk9 V c w t)

theorem cut_fblk9 (c : Dev nD) (w : Fin cfg9.W) (t : Fin cfg9.N) :
    (cfg9.win w).cut (cfg9.grid.coords t) (fblk9 V c w t) = iblk9 V c w t :=
  (cfg9.win w).cut_fill _ _ _

/-- What the body leaves in the output's staging buffer, as a function of what the inputs' hold: its one store, of
    the body's value, over the whole buffer. -/
def out9_2 (x0 : Vec F S8192x2 .f32) (x1 : Vec F S8192x1 .f32) : Vec F S8192x2 .f32 :=
  View.canon [⟨(Rect.unit (s := S8192x2) ![0, 0] S8192x2.size inb_S8192x2_S8192x2_0_0), k9_pay1 (View.ld x0 (Rect.unit (s := S8192x2) ![0, 0] S8192x2.size inb_S8192x2_S8192x2_0_0)) (View.ld x1 (Rect.unit (s := S8192x1) ![0, 0] S8192x1.size inb_S8192x1_S8192x1_0_0))⟩]

/-- The loads read the buffers whole and the one store writes its payload whole: the body's value. -/
theorem out9_2_eq (x0 : Vec F S8192x2 .f32) (x1 : Vec F S8192x1 .f32) : out9_2 x0 x1 = k9_pay1 x0 x1 := by
  have hz : (![0, 0] : Fin 2 → Nat) = fun _ => 0 := funext fun a => by fin_cases a <;> rfl
  unfold out9_2
  rw [View.canon_unit_zero hz, View.ld_unit_zero hz, View.ld_unit_zero hz]

/-- The one store covers the buffer. -/
theorem cover9_2 (p0 : Vec F S8192x2 .f32) (y : S8192x2.Idx) :
    ∃ pc ∈ ([⟨(Rect.unit (s := S8192x2) ![0, 0] S8192x2.size inb_S8192x2_S8192x2_0_0), p0⟩] : List (View.Piece (Elt F) S8192x2 .f32)), y ∈ pc.1.set :=
  View.cover_of_tiled [⟨(Rect.unit (s := S8192x2) ![0, 0] S8192x2.size inb_S8192x2_S8192x2_0_0), p0⟩] S8192x2.size (by rfl) y

set_option maxHeartbeats 1000000 in
/-- The body on whole staging buffers, the inputs' holding `x0 …` and the output's anything, runs to its end with
    the inputs' unchanged and the output's at `out9_2` of them. -/
theorem sound_kernel9 (c : Dev nD) (E : Set ℕ) (i : grid9.Coords) (arg1 : Memref sig .tc .vmem S8192x2 .f32) (harg1 : arg1.IsWhole) (arg2 : Memref sig .tc .vmem S8192x1 .f32) (harg2 : arg2.IsWhole) (arg3 : Memref sig .tc .vmem S8192x2 .f32) (harg3 : arg3.IsWhole)
    (x0 : Vec F S8192x2 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9_kernel i arg1 harg1 arg2 harg2 arg3 harg3) K := by
  simp only [cc9_kernel_eq_skeleton]; unfold cc9_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The three windows cut their blocks alike: the index maps agree, and so do the arrays' and the blocks' row counts. -/
theorem xsize9_0 (i : cfg9.grid.Coords) (a : Fin (cfg9.win 2).shape.rank) : (cfg9.win 0).xsize i a = (cfg9.win 2).xsize i a := rfl
theorem xsize9_1_0 (i : cfg9.grid.Coords) : (cfg9.win 1).xsize i 0 = (cfg9.win 2).xsize i 0 := rfl
theorem xsize9_1_1 (i : cfg9.grid.Coords) : (cfg9.win 1).xsize i 1 = 1 := rfl

/-- Row locality of the body's value: on the rows the output's transfer moves, it reads the first input at the same
    index and the second at the same row, both among what the inputs' transfers move. So inputs that agree on their
    moved rows give values that agree on the output's. -/
theorem cut_pay9 (i : cfg9.grid.Coords) (X0 Y0 : Vec F S8192x2 .f32) (X1 Y1 : Vec F S8192x1 .f32)
    (h0 : (cfg9.win 0).cut i X0 = (cfg9.win 0).cut i Y0) (h1 : (cfg9.win 1).cut i X1 = (cfg9.win 1).cut i Y1) :
    (cfg9.win 2).cut i (k9_pay1 X0 X1) = (cfg9.win 2).cut i (k9_pay1 Y0 Y1) := by
  funext j
  -- the index in the first input's moved part with `j`'s coordinates, and the one in the second's with `j`'s row
  let j0 : ((cfg9.win 0).xblock i).Idx := fun a => ⟨(j a).val, Nat.lt_of_lt_of_eq (j a).isLt (xsize9_0 i a).symm⟩
  let j1 : ((cfg9.win 1).xblock i).Idx := fun a => match a with
    | ⟨0, _⟩ => ⟨(j 0).val, Nat.lt_of_lt_of_eq (j 0).isLt (xsize9_1_0 i).symm⟩
    | ⟨1, _⟩ => ⟨0, Nat.lt_of_lt_of_eq Nat.one_pos (xsize9_1_1 i).symm⟩
  have e0 : X0 ((cfg9.win 2).xinj i j) = Y0 ((cfg9.win 2).xinj i j) := congrFun h0 j0
  have hk : ∀ a : Fin S8192x1.rank, (((cfg9.win 1).xinj i j1 : S8192x1.Idx) a).val
      = if S8192x1.size a = 1 then 0 else (((cfg9.win 2).xinj i j : S8192x2.Idx) ⟨a.val + (S8192x2.rank - S8192x1.rank), by have := a.isLt; omega⟩).val := fun a =>
    match a with
    | ⟨0, _⟩ => rfl
    | ⟨1, _⟩ => rfl
  have e1 : broadcastTo S8192x2 X1 broadcasts_S8192x1_S8192x2 ((cfg9.win 2).xinj i j) = broadcastTo S8192x2 Y1 broadcasts_S8192x1_S8192x2 ((cfg9.win 2).xinj i j) := by
    rw [broadcastTo_apply X1 _ _ _ hk, broadcastTo_apply Y1 _ _ _ hk]
    exact congrFun h1 j1
  show FloatOps.mulf (shapeCast S8192x2 X0 shapeCasts_S8192x2_S8192x2 ((cfg9.win 2).xinj i j)) (broadcastTo S8192x2 (shapeCast S8192x1 X1 shapeCasts_S8192x1_S8192x1) broadcasts_S8192x1_S8192x2 ((cfg9.win 2).xinj i j))
    = FloatOps.mulf (shapeCast S8192x2 Y0 shapeCasts_S8192x2_S8192x2 ((cfg9.win 2).xinj i j)) (broadcastTo S8192x2 (shapeCast S8192x1 Y1 shapeCasts_S8192x1_S8192x1) broadcasts_S8192x1_S8192x2 ((cfg9.win 2).xinj i j))
  rw [shapeCast_self, shapeCast_self, shapeCast_self, shapeCast_self, e0, e1]

/-- The region's proof data on core `c`: the arrays as the region finds them; after the body at point `t` each
    input's buffer at its block and the output's at the body's value of the input blocks — each on the rows its
    transfers move, filled out past them by the proof's own word —; the invariant only the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => fblk9 V c 0 t
    | ⟨1, _⟩ => fblk9 V c 1 t
    | ⟨2, _⟩ => out9_2 (fblk9 V c 0 t) (fblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = fblk9 V c 0 t := by dsimp only [dat9]
theorem after9_1 (c : Dev nD) (t : Fin cfg9.N) : (dat9 V c).after 1 t = fblk9 V c 1 t := by dsimp only [dat9]
theorem after9_2 (c : Dev nD) (t : Fin cfg9.N) : (dat9 V c).after 2 t = out9_2 (fblk9 V c 0 t) (fblk9 V c 1 t) := by dsimp only [dat9]

/-- What the body finds in an input's buffer: just fetched, the block on the rows inside the array and `d`, any,
    elsewhere. -/
theorem before9_0 (c : Dev nD) (t : Fin cfg9.N) (d) :
    (dat9 V c).before 0 t d = (cfg9.win 0).fill (cfg9.grid.coords t) d (iblk9 V c 0 t) := by
  unfold Dat.before; rw [if_pos (fetch9_0 t)]; rfl
theorem before9_1 (c : Dev nD) (t : Fin cfg9.N) (d) :
    (dat9 V c).before 1 t d = (cfg9.win 1).fill (cfg9.grid.coords t) d (iblk9 V c 1 t) := by
  unfold Dat.before; rw [if_pos (fetch9_1 t)]; rfl

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns: each buffer stated on the rows its window's transfers move. -/
def bodyPost9 (c : Dev nD) (t : Fin cfg9.N) : sProp 𝕄 :=
  iprop((dat9 V c).Φ t.succ ∗ (dat9 V c).owesAt () t.succ
    ∗ (∃ d, owns (c : Thread nD τ) (st9_0 t) fullShare ((cfg9.win 0).fill (cfg9.grid.coords t) d ((cfg9.win 0).cut (cfg9.grid.coords t) ((dat9 V c).after 0 t))))
    ∗ (∃ d, owns (c : Thread nD τ) (st9_1 t) fullShare ((cfg9.win 1).fill (cfg9.grid.coords t) d ((cfg9.win 1).cut (cfg9.grid.coords t) ((dat9 V c).after 1 t))))
    ∗ (∃ d, owns (c : Thread nD τ) (st9_2 t) fullShare ((cfg9.win 2).fill (cfg9.grid.coords t) d ((cfg9.win 2).cut (cfg9.grid.coords t) ((dat9 V c).after 2 t)))))

/-- The body at any point: the inputs' buffers hold their blocks on the moved rows and anything elsewhere, so the
    body's triple applies at those contents; what it leaves agrees on the moved rows with what the proof data names
    (`cut_pay9`), which is all that is asked back; the invariant and the core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  rw [show (dat9 V c).Φ t.succ = (dat9 V c).Φ t.castSucc from rfl,
    show (dat9 V c).owesAt () t.succ = (dat9 V c).owesAt () t.castSucc from rfl,
    after9_0, after9_1, after9_2, cut_fblk9, cut_fblk9]
  iintro ⟨HΦ, Ho, ⟨%d0, H0⟩, ⟨%d1, H1⟩, ⟨%d2, H2⟩⟩
  rw [before9_0 V c t d0, before9_1 V c t d1]
  iapply (sound_kernel9 c Set.univ _ _ _ _ _ _ _ ((cfg9.win 0).fill (cfg9.grid.coords t) d0 (iblk9 V c 0 t)) ((cfg9.win 1).fill (cfg9.grid.coords t) d1 (iblk9 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists out9_2 ((cfg9.win 0).fill (cfg9.grid.coords t) d0 (iblk9 V c 0 t)) ((cfg9.win 1).fill (cfg9.grid.coords t) d1 (iblk9 V c 1 t))
  have hcut : (cfg9.win 2).cut (cfg9.grid.coords t) (out9_2 ((cfg9.win 0).fill (cfg9.grid.coords t) d0 (iblk9 V c 0 t)) ((cfg9.win 1).fill (cfg9.grid.coords t) d1 (iblk9 V c 1 t)))
      = (cfg9.win 2).cut (cfg9.grid.coords t) (out9_2 (fblk9 V c 0 t) (fblk9 V c 1 t)) := by
    rw [out9_2_eq, out9_2_eq]
    exact cut_pay9 (cfg9.grid.coords t) _ _ _ _
      (((cfg9.win 0).cut_fill _ _ _).trans (cut_fblk9 V c 0 t).symm)
      (((cfg9.win 1).cut_fill _ _ _).trans (cut_fblk9 V c 1 t).symm)
  rw [(cfg9.win 2).fill_congr_cut (cfg9.grid.coords t) hcut]
  iexact H2

/-- The body obligation of the region's pipeline, at every point (every window is loose: each buffer is asked back
    only on the rows its transfers move). -/
theorem body_obligation9 (c : Dev nD) : BodyObligationLoose (dat9 (F := F) V c) (defs₀ (F := F)) Variants.none () Set.univ := fun t => by
  rw [bigSep_W9, bigSep_W9]
  exact sound_body9 V c t

/-- The index in the first input's moved part with the coordinates of the output's `j`, -/
noncomputable def idx9_0 (i : cfg9.grid.Coords) (j : ((cfg9.win 2).xblock i).Idx) : ((cfg9.win 0).xblock i).Idx :=
  fun a => ⟨(j a).val, Nat.lt_of_lt_of_eq (j a).isLt (xsize9_0 i a).symm⟩

/-- and the one in the second's with `j`'s row (its one column). -/
noncomputable def idx9_1 (i : cfg9.grid.Coords) (j : ((cfg9.win 2).xblock i).Idx) : ((cfg9.win 1).xblock i).Idx :=
  fun a => match a with
    | ⟨0, _⟩ => ⟨(j 0).val, Nat.lt_of_lt_of_eq (j 0).isLt (xsize9_1_0 i).symm⟩
    | ⟨1, _⟩ => ⟨0, Nat.lt_of_lt_of_eq Nat.one_pos (xsize9_1_1 i).symm⟩

/-- The body's value at an index the output's transfer moves: the first input there times the second's word of the
    same row. -/
theorem pay9_apply (i : cfg9.grid.Coords) (X0 : Vec F S8192x2 .f32) (X1 : Vec F S8192x1 .f32) (j : ((cfg9.win 2).xblock i).Idx) :
    k9_pay1 X0 X1 ((cfg9.win 2).xinj i j)
      = FloatOps.mulf (X0 ((cfg9.win 0).xinj i (idx9_0 i j))) (X1 ((cfg9.win 1).xinj i (idx9_1 i j))) := by
  have hk : ∀ a : Fin S8192x1.rank, (((cfg9.win 1).xinj i (idx9_1 i j) : S8192x1.Idx) a).val
      = if S8192x1.size a = 1 then 0 else (((cfg9.win 2).xinj i j : S8192x2.Idx) ⟨a.val + (S8192x2.rank - S8192x1.rank), by have := a.isLt; omega⟩).val := fun a =>
    match a with
    | ⟨0, _⟩ => rfl
    | ⟨1, _⟩ => rfl
  show FloatOps.mulf (shapeCast S8192x2 X0 shapeCasts_S8192x2_S8192x2 ((cfg9.win 2).xinj i j)) (broadcastTo S8192x2 (shapeCast S8192x1 X1 shapeCasts_S8192x1_S8192x1) broadcasts_S8192x1_S8192x2 ((cfg9.win 2).xinj i j))
    = FloatOps.mulf (X0 ((cfg9.win 0).xinj i (idx9_0 i j))) (X1 ((cfg9.win 1).xinj i (idx9_1 i j)))
  rw [shapeCast_self, shapeCast_self, broadcastTo_apply X1 _ _ _ hk]
  rfl

/-- What the output's write-back at point `t` moves: index by index, the first input's block times the second's
    word of the same row. -/
theorem cut_after9_2 (c : Dev nD) (t : Fin cfg9.N) :
    (cfg9.win 2).cut (cfg9.grid.coords t) ((dat9 V c).after 2 t)
      = fun j => FloatOps.mulf (iblk9 V c 0 t (idx9_0 (cfg9.grid.coords t) j)) (iblk9 V c 1 t (idx9_1 (cfg9.grid.coords t) j)) := by
  rw [after9_2, out9_2_eq]
  funext j
  exact (pay9_apply (cfg9.grid.coords t) (fblk9 V c 0 t) (fblk9 V c 1 t) j).trans
    (congrArg₂ FloatOps.mulf ((cfg9.win 0).fill_xinj _ _ _ _) ((cfg9.win 1).fill_xinj _ _ _ _))

end Cert.Kernel.Frame

end
-- ==== Proof.K.Reg10.lean ====
/-
  Region 10 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input's staging buffer holds the input's block at every point, fetched there or not: where it is not
    fetched the block index has not moved since the point that did fetch it, and the body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- An input's staging buffer holds the input's block at every point, fetched there or not: where it is not
    fetched the block index has not moved since the point that did fetch it, and the body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- What the body leaves in the output's staging buffer, as a function of the input blocks: its one store, of the
    body's value, over the whole buffer. -/
def out10_2 (x0 : Vec F S10000x2 .f32) (x1 : Vec F S10000x2 .f32) : Vec F S10000x2 .f32 :=
  View.canon [⟨(Rect.unit (s := S10000x2) ![0, 0] S10000x2.size inb_S10000x2_S10000x2_0_0), k10_pay1 (View.ld x0 (Rect.unit (s := S10000x2) ![0, 0] S10000x2.size inb_S10000x2_S10000x2_0_0)) (View.ld x1 (Rect.unit (s := S10000x2) ![0, 0] S10000x2.size inb_S10000x2_S10000x2_0_0))⟩]

/-- The one store covers the buffer. -/
theorem cover10_2 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out10_2` of them. -/
theorem sound_kernel10 (c : Dev nD) (E : Set ℕ) (i : grid10.Coords) (arg1 : Memref sig .tc .vmem S10000x2 .f32) (harg1 : arg1.IsWhole) (arg2 : Memref sig .tc .vmem S10000x2 .f32) (harg2 : arg2.IsWhole) (arg3 : Memref sig .tc .vmem S10000x2 .f32) (harg3 : arg3.IsWhole)
    (x0 : Vec F S10000x2 .f32) (x1 : Vec F S10000x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10_kernel i arg1 harg1 arg2 harg2 arg3 harg3) K := by
  simp only [cc10_kernel_eq_skeleton]; unfold cc10_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-- The region's proof data on core `c`: the arrays as the region finds them; after the body at point `t` each
    input's buffer at its block and the output's at the body's value of the input blocks; the invariant only the
    scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' buffers hold their blocks, so the body's triple applies; the invariant and
    the core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation10 (c : Dev nD) : BodyObligation (dat10 (F := F) V c) (defs₀ (F := F)) Variants.none () Set.univ := fun t => by
  rw [bigSep_W10, bigSep_W10]
  exact sound_body10 V c t

end Cert.Kernel.Frame

end
-- ==== Proof.K.Reg11.lean ====
/-
  Region 11 of @main, one pallas_call on a one-axis grid whose blocks do NOT tile their arrays: the last block of
  each of the three windows overhangs its array by the same rows. A fetch of such a block lands only the rows inside
  the array and leaves the rest of the staging buffer at contents nothing names; the body computes on whole buffers,
  those rows too; the write-back moves only the rows inside. The body is row-local — row r of the output block is
  row r of the first input block times, lane by lane, the one word of row r of the second — so on the rows that are
  moved what it leaves does not depend on the unnamed rows. Stated at any float instance and at any contents `V` of
  the buffers when the region is entered: what each staging buffer holds after the body on the rows its transfers
  move, and that the body, run on buffers holding the input blocks on those rows and anything elsewhere, terminates
  leaving exactly that there.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, its part inside the array, read off the window's array as the region
    finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- That block filled out to the staging buffer's shape: past the array's end a word the proof picks and nothing
    reads. -/
def fblk11 (c : Dev nD) (w : Fin cfg11.W) (t : Fin cfg11.N) : (cfg11.win w).block.Idx → Elt F (cfg11.win w).elt :=
  (cfg11.win w).fill (cfg11.grid.coords t) (fun _ => Classical.arbitrary _) (iblk11 V c w t)

theorem cut_fblk11 (c : Dev nD) (w : Fin cfg11.W) (t : Fin cfg11.N) :
    (cfg11.win w).cut (cfg11.grid.coords t) (fblk11 V c w t) = iblk11 V c w t :=
  (cfg11.win w).cut_fill _ _ _

/-- What the body leaves in the output's staging buffer, as a function of what the inputs' hold: its one store, of
    the body's value, over the whole buffer. -/
def out11_2 (x0 : Vec F S8192x2 .f32) (x1 : Vec F S8192x1 .f32) : Vec F S8192x2 .f32 :=
  View.canon [⟨(Rect.unit (s := S8192x2) ![0, 0] S8192x2.size inb_S8192x2_S8192x2_0_0), k11_pay1 (View.ld x0 (Rect.unit (s := S8192x2) ![0, 0] S8192x2.size inb_S8192x2_S8192x2_0_0)) (View.ld x1 (Rect.unit (s := S8192x1) ![0, 0] S8192x1.size inb_S8192x1_S8192x1_0_0))⟩]

/-- The loads read the buffers whole and the one store writes its payload whole: the body's value. -/
theorem out11_2_eq (x0 : Vec F S8192x2 .f32) (x1 : Vec F S8192x1 .f32) : out11_2 x0 x1 = k11_pay1 x0 x1 := by
  have hz : (![0, 0] : Fin 2 → Nat) = fun _ => 0 := funext fun a => by fin_cases a <;> rfl
  unfold out11_2
  rw [View.canon_unit_zero hz, View.ld_unit_zero hz, View.ld_unit_zero hz]

/-- The one store covers the buffer. -/
theorem cover11_2 (p0 : Vec F S8192x2 .f32) (y : S8192x2.Idx) :
    ∃ pc ∈ ([⟨(Rect.unit (s := S8192x2) ![0, 0] S8192x2.size inb_S8192x2_S8192x2_0_0), p0⟩] : List (View.Piece (Elt F) S8192x2 .f32)), y ∈ pc.1.set :=
  View.cover_of_tiled [⟨(Rect.unit (s := S8192x2) ![0, 0] S8192x2.size inb_S8192x2_S8192x2_0_0), p0⟩] S8192x2.size (by rfl) y

set_option maxHeartbeats 1000000 in
/-- The body on whole staging buffers, the inputs' holding `x0 …` and the output's anything, runs to its end with
    the inputs' unchanged and the output's at `out11_2` of them. -/
theorem sound_kernel11 (c : Dev nD) (E : Set ℕ) (i : grid11.Coords) (arg1 : Memref sig .tc .vmem S8192x2 .f32) (harg1 : arg1.IsWhole) (arg2 : Memref sig .tc .vmem S8192x1 .f32) (harg2 : arg2.IsWhole) (arg3 : Memref sig .tc .vmem S8192x2 .f32) (harg3 : arg3.IsWhole)
    (x0 : Vec F S8192x2 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11_2 x0 x1)) -∗ K ⟨⟩))
      ⊢ wp frame (wpE (defs₀ (F := F)) Variants.none c none) E (cc11_kernel i arg1 harg1 arg2 harg2 arg3 harg3) K := by
  simp only [cc11_kernel_eq_skeleton]; unfold cc11_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-- The three windows cut their blocks alike: the index maps agree, and so do the arrays' and the blocks' row counts. -/
theorem xsize11_0 (i : cfg11.grid.Coords) (a : Fin (cfg11.win 2).shape.rank) : (cfg11.win 0).xsize i a = (cfg11.win 2).xsize i a := rfl
theorem xsize11_1_0 (i : cfg11.grid.Coords) : (cfg11.win 1).xsize i 0 = (cfg11.win 2).xsize i 0 := rfl
theorem xsize11_1_1 (i : cfg11.grid.Coords) : (cfg11.win 1).xsize i 1 = 1 := rfl

/-- Row locality of the body's value: on the rows the output's transfer moves, it reads the first input at the same
    index and the second at the same row, both among what the inputs' transfers move. So inputs that agree on their
    moved rows give values that agree on the output's. -/
theorem cut_pay11 (i : cfg11.grid.Coords) (X0 Y0 : Vec F S8192x2 .f32) (X1 Y1 : Vec F S8192x1 .f32)
    (h0 : (cfg11.win 0).cut i X0 = (cfg11.win 0).cut i Y0) (h1 : (cfg11.win 1).cut i X1 = (cfg11.win 1).cut i Y1) :
    (cfg11.win 2).cut i (k11_pay1 X0 X1) = (cfg11.win 2).cut i (k11_pay1 Y0 Y1) := by
  funext j
  -- the index in the first input's moved part with `j`'s coordinates, and the one in the second's with `j`'s row
  let j0 : ((cfg11.win 0).xblock i).Idx := fun a => ⟨(j a).val, Nat.lt_of_lt_of_eq (j a).isLt (xsize11_0 i a).symm⟩
  let j1 : ((cfg11.win 1).xblock i).Idx := fun a => match a with
    | ⟨0, _⟩ => ⟨(j 0).val, Nat.lt_of_lt_of_eq (j 0).isLt (xsize11_1_0 i).symm⟩
    | ⟨1, _⟩ => ⟨0, Nat.lt_of_lt_of_eq Nat.one_pos (xsize11_1_1 i).symm⟩
  have e0 : X0 ((cfg11.win 2).xinj i j) = Y0 ((cfg11.win 2).xinj i j) := congrFun h0 j0
  have hk : ∀ a : Fin S8192x1.rank, (((cfg11.win 1).xinj i j1 : S8192x1.Idx) a).val
      = if S8192x1.size a = 1 then 0 else (((cfg11.win 2).xinj i j : S8192x2.Idx) ⟨a.val + (S8192x2.rank - S8192x1.rank), by have := a.isLt; omega⟩).val := fun a =>
    match a with
    | ⟨0, _⟩ => rfl
    | ⟨1, _⟩ => rfl
  have e1 : broadcastTo S8192x2 X1 broadcasts_S8192x1_S8192x2 ((cfg11.win 2).xinj i j) = broadcastTo S8192x2 Y1 broadcasts_S8192x1_S8192x2 ((cfg11.win 2).xinj i j) := by
    rw [broadcastTo_apply X1 _ _ _ hk, broadcastTo_apply Y1 _ _ _ hk]
    exact congrFun h1 j1
  show FloatOps.mulf (shapeCast S8192x2 X0 shapeCasts_S8192x2_S8192x2 ((cfg11.win 2).xinj i j)) (broadcastTo S8192x2 (shapeCast S8192x1 X1 shapeCasts_S8192x1_S8192x1) broadcasts_S8192x1_S8192x2 ((cfg11.win 2).xinj i j))
    = FloatOps.mulf (shapeCast S8192x2 Y0 shapeCasts_S8192x2_S8192x2 ((cfg11.win 2).xinj i j)) (broadcastTo S8192x2 (shapeCast S8192x1 Y1 shapeCasts_S8192x1_S8192x1) broadcasts_S8192x1_S8192x2 ((cfg11.win 2).xinj i j))
  rw [shapeCast_self, shapeCast_self, shapeCast_self, shapeCast_self, e0, e1]

/-- The region's proof data on core `c`: the arrays as the region finds them; after the body at point `t` each
    input's buffer at its block and the output's at the body's value of the input blocks — each on the rows its
    transfers move, filled out past them by the proof's own word —; the invariant only the scoped rest and the
    generator register, untouched; nothing owed; full shares. -/
def dat11 (c : Dev nD) : Dat τ (Elt F) Unit ℕ (UR sig nD τ) ℕ cfg11 c where
  A w := V c (Pipeline.arrRef spec11 w)
  after w t := match w with
    | ⟨0, _⟩ => fblk11 V c 0 t
    | ⟨1, _⟩ => fblk11 V c 1 t
    | ⟨2, _⟩ => out11_2 (fblk11 V c 0 t) (fblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = fblk11 V c 0 t := by dsimp only [dat11]
theorem after11_1 (c : Dev nD) (t : Fin cfg11.N) : (dat11 V c).after 1 t = fblk11 V c 1 t := by dsimp only [dat11]
theorem after11_2 (c : Dev nD) (t : Fin cfg11.N) : (dat11 V c).after 2 t = out11_2 (fblk11 V c 0 t) (fblk11 V c 1 t) := by dsimp only [dat11]

/-- What the body finds in an input's buffer: just fetched, the block on the rows inside the array and `d`, any,
    elsewhere. -/
theorem before11_0 (c : Dev nD) (t : Fin cfg11.N) (d) :
    (dat11 V c).before 0 t d = (cfg11.win 0).fill (cfg11.grid.coords t) d (iblk11 V c 0 t) := by
  unfold Dat.before; rw [if_pos (fetch11_0 t)]; rfl
theorem before11_1 (c : Dev nD) (t : Fin cfg11.N) (d) :
    (dat11 V c).before 1 t d = (cfg11.win 1).fill (cfg11.grid.coords t) d (iblk11 V c 1 t) := by
  unfold Dat.before; rw [if_pos (fetch11_1 t)]; rfl

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns: each buffer stated on the rows its window's transfers move. -/
def bodyPost11 (c : Dev nD) (t : Fin cfg11.N) : sProp 𝕄 :=
  iprop((dat11 V c).Φ t.succ ∗ (dat11 V c).owesAt () t.succ
    ∗ (∃ d, owns (c : Thread nD τ) (st11_0 t) fullShare ((cfg11.win 0).fill (cfg11.grid.coords t) d ((cfg11.win 0).cut (cfg11.grid.coords t) ((dat11 V c).after 0 t))))
    ∗ (∃ d, owns (c : Thread nD τ) (st11_1 t) fullShare ((cfg11.win 1).fill (cfg11.grid.coords t) d ((cfg11.win 1).cut (cfg11.grid.coords t) ((dat11 V c).after 1 t))))
    ∗ (∃ d, owns (c : Thread nD τ) (st11_2 t) fullShare ((cfg11.win 2).fill (cfg11.grid.coords t) d ((cfg11.win 2).cut (cfg11.grid.coords t) ((dat11 V c).after 2 t)))))

/-- The body at any point: the inputs' buffers hold their blocks on the moved rows and anything elsewhere, so the
    body's triple applies at those contents; what it leaves agrees on the moved rows with what the proof data names
    (`cut_pay11`), which is all that is asked back; the invariant and the core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  rw [show (dat11 V c).Φ t.succ = (dat11 V c).Φ t.castSucc from rfl,
    show (dat11 V c).owesAt () t.succ = (dat11 V c).owesAt () t.castSucc from rfl,
    after11_0, after11_1, after11_2, cut_fblk11, cut_fblk11]
  iintro ⟨HΦ, Ho, ⟨%d0, H0⟩, ⟨%d1, H1⟩, ⟨%d2, H2⟩⟩
  rw [before11_0 V c t d0, before11_1 V c t d1]
  iapply (sound_kernel11 c Set.univ _ _ _ _ _ _ _ ((cfg11.win 0).fill (cfg11.grid.coords t) d0 (iblk11 V c 0 t)) ((cfg11.win 1).fill (cfg11.grid.coords t) d1 (iblk11 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists out11_2 ((cfg11.win 0).fill (cfg11.grid.coords t) d0 (iblk11 V c 0 t)) ((cfg11.win 1).fill (cfg11.grid.coords t) d1 (iblk11 V c 1 t))
  have hcut : (cfg11.win 2).cut (cfg11.grid.coords t) (out11_2 ((cfg11.win 0).fill (cfg11.grid.coords t) d0 (iblk11 V c 0 t)) ((cfg11.win 1).fill (cfg11.grid.coords t) d1 (iblk11 V c 1 t)))
      = (cfg11.win 2).cut (cfg11.grid.coords t) (out11_2 (fblk11 V c 0 t) (fblk11 V c 1 t)) := by
    rw [out11_2_eq, out11_2_eq]
    exact cut_pay11 (cfg11.grid.coords t) _ _ _ _
      (((cfg11.win 0).cut_fill _ _ _).trans (cut_fblk11 V c 0 t).symm)
      (((cfg11.win 1).cut_fill _ _ _).trans (cut_fblk11 V c 1 t).symm)
  rw [(cfg11.win 2).fill_congr_cut (cfg11.grid.coords t) hcut]
  iexact H2

/-- The body obligation of the region's pipeline, at every point (every window is loose: each buffer is asked back
    only on the rows its transfers move). -/
theorem body_obligation11 (c : Dev nD) : BodyObligationLoose (dat11 (F := F) V c) (defs₀ (F := F)) Variants.none () Set.univ := fun t => by
  rw [bigSep_W11, bigSep_W11]
  exact sound_body11 V c t

/-- The index in the first input's moved part with the coordinates of the output's `j`, -/
noncomputable def idx11_0 (i : cfg11.grid.Coords) (j : ((cfg11.win 2).xblock i).Idx) : ((cfg11.win 0).xblock i).Idx :=
  fun a => ⟨(j a).val, Nat.lt_of_lt_of_eq (j a).isLt (xsize11_0 i a).symm⟩

/-- and the one in the second's with `j`'s row (its one column). -/
noncomputable def idx11_1 (i : cfg11.grid.Coords) (j : ((cfg11.win 2).xblock i).Idx) : ((cfg11.win 1).xblock i).Idx :=
  fun a => match a with
    | ⟨0, _⟩ => ⟨(j 0).val, Nat.lt_of_lt_of_eq (j 0).isLt (xsize11_1_0 i).symm⟩
    | ⟨1, _⟩ => ⟨0, Nat.lt_of_lt_of_eq Nat.one_pos (xsize11_1_1 i).symm⟩

/-- The body's value at an index the output's transfer moves: the first input there times the second's word of the
    same row. -/
theorem pay11_apply (i : cfg11.grid.Coords) (X0 : Vec F S8192x2 .f32) (X1 : Vec F S8192x1 .f32) (j : ((cfg11.win 2).xblock i).Idx) :
    k11_pay1 X0 X1 ((cfg11.win 2).xinj i j)
      = FloatOps.mulf (X0 ((cfg11.win 0).xinj i (idx11_0 i j))) (X1 ((cfg11.win 1).xinj i (idx11_1 i j))) := by
  have hk : ∀ a : Fin S8192x1.rank, (((cfg11.win 1).xinj i (idx11_1 i j) : S8192x1.Idx) a).val
      = if S8192x1.size a = 1 then 0 else (((cfg11.win 2).xinj i j : S8192x2.Idx) ⟨a.val + (S8192x2.rank - S8192x1.rank), by have := a.isLt; omega⟩).val := fun a =>
    match a with
    | ⟨0, _⟩ => rfl
    | ⟨1, _⟩ => rfl
  show FloatOps.mulf (shapeCast S8192x2 X0 shapeCasts_S8192x2_S8192x2 ((cfg11.win 2).xinj i j)) (broadcastTo S8192x2 (shapeCast S8192x1 X1 shapeCasts_S8192x1_S8192x1) broadcasts_S8192x1_S8192x2 ((cfg11.win 2).xinj i j))
    = FloatOps.mulf (X0 ((cfg11.win 0).xinj i (idx11_0 i j))) (X1 ((cfg11.win 1).xinj i (idx11_1 i j)))
  rw [shapeCast_self, shapeCast_self, broadcastTo_apply X1 _ _ _ hk]
  rfl

/-- What the output's write-back at point `t` moves: index by index, the first input's block times the second's
    word of the same row. -/
theorem cut_after11_2 (c : Dev nD) (t : Fin cfg11.N) :
    (cfg11.win 2).cut (cfg11.grid.coords t) ((dat11 V c).after 2 t)
      = fun j => FloatOps.mulf (iblk11 V c 0 t (idx11_0 (cfg11.grid.coords t) j)) (iblk11 V c 1 t (idx11_1 (cfg11.grid.coords t) j)) := by
  rw [after11_2, out11_2_eq]
  funext j
  exact (pay11_apply (cfg11.grid.coords t) (fblk11 V c 0 t) (fblk11 V c 1 t) j).trans
    (congrArg₂ FloatOps.mulf ((cfg11.win 0).fill_xinj _ _ _ _) ((cfg11.win 1).fill_xinj _ _ _ _))

end Cert.Kernel.Frame

end
-- ==== Proof.K.Reg12.lean ====
/-
  Region 12 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input's staging buffer holds the input's block at every point, fetched there or not: where it is not
    fetched the block index has not moved since the point that did fetch it, and the body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- An input's staging buffer holds the input's block at every point, fetched there or not: where it is not
    fetched the block index has not moved since the point that did fetch it, and the body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- What the body leaves in the output's staging buffer, as a function of the input blocks: its one store, of the
    body's value, over the whole buffer. -/
def out12_2 (x0 : Vec F S10000x2 .f32) (x1 : Vec F S10000x2 .f32) : Vec F S10000x2 .f32 :=
  View.canon [⟨(Rect.unit (s := S10000x2) ![0, 0] S10000x2.size inb_S10000x2_S10000x2_0_0), k12_pay1 (View.ld x0 (Rect.unit (s := S10000x2) ![0, 0] S10000x2.size inb_S10000x2_S10000x2_0_0)) (View.ld x1 (Rect.unit (s := S10000x2) ![0, 0] S10000x2.size inb_S10000x2_S10000x2_0_0))⟩]

/-- The one store covers the buffer. -/
theorem cover12_2 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out12_2` of them. -/
theorem sound_kernel12 (c : Dev nD) (E : Set ℕ) (i : grid12.Coords) (arg1 : Memref sig .tc .vmem S10000x2 .f32) (harg1 : arg1.IsWhole) (arg2 : Memref sig .tc .vmem S10000x2 .f32) (harg2 : arg2.IsWhole) (arg3 : Memref sig .tc .vmem S10000x2 .f32) (harg3 : arg3.IsWhole)
    (x0 : Vec F S10000x2 .f32) (x1 : Vec F S10000x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12_kernel i arg1 harg1 arg2 harg2 arg3 harg3) K := by
  simp only [cc12_kernel_eq_skeleton]; unfold cc12_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The region's proof data on core `c`: the arrays as the region finds them; after the body at point `t` each
    input's buffer at its block and the output's at the body's value of the input blocks; the invariant only the
    scoped rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' buffers hold their blocks, so the body's triple applies; the invariant and
    the core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation12 (c : Dev nD) : BodyObligation (dat12 (F := F) V c) (defs₀ (F := F)) Variants.none () Set.univ := fun t => by
  rw [bigSep_W12, bigSep_W12]
  exact sound_body12 V c t

end Cert.Kernel.Frame

end
-- ==== Proof.K.Reg13.lean ====
/-
  Region 13 of @main, one pallas_call on a one-axis grid whose blocks do NOT tile their arrays: the last block of
  each of the three windows overhangs its array by the same rows. A fetch of such a block lands only the rows inside
  the array and leaves the rest of the staging buffer at contents nothing names; the body computes on whole buffers,
  those rows too; the write-back moves only the rows inside. The body is row-local — row r of the output block is
  row r of the first input block times, lane by lane, the one word of row r of the second — so on the rows that are
  moved what it leaves does not depend on the unnamed rows. Stated at any float instance and at any contents `V` of
  the buffers when the region is entered: what each staging buffer holds after the body on the rows its transfers
  move, and that the body, run on buffers holding the input blocks on those rows and anything elsewhere, terminates
  leaving exactly that there.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, its part inside the array, read off the window's array as the region
    finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- That block filled out to the staging buffer's shape: past the array's end a word the proof picks and nothing
    reads. -/
def fblk13 (c : Dev nD) (w : Fin cfg13.W) (t : Fin cfg13.N) : (cfg13.win w).block.Idx → Elt F (cfg13.win w).elt :=
  (cfg13.win w).fill (cfg13.grid.coords t) (fun _ => Classical.arbitrary _) (iblk13 V c w t)

theorem cut_fblk13 (c : Dev nD) (w : Fin cfg13.W) (t : Fin cfg13.N) :
    (cfg13.win w).cut (cfg13.grid.coords t) (fblk13 V c w t) = iblk13 V c w t :=
  (cfg13.win w).cut_fill _ _ _

/-- What the body leaves in the output's staging buffer, as a function of what the inputs' hold: its one store, of
    the body's value, over the whole buffer. -/
def out13_2 (x0 : Vec F S8192x2 .f32) (x1 : Vec F S8192x1 .f32) : Vec F S8192x2 .f32 :=
  View.canon [⟨(Rect.unit (s := S8192x2) ![0, 0] S8192x2.size inb_S8192x2_S8192x2_0_0), k13_pay1 (View.ld x0 (Rect.unit (s := S8192x2) ![0, 0] S8192x2.size inb_S8192x2_S8192x2_0_0)) (View.ld x1 (Rect.unit (s := S8192x1) ![0, 0] S8192x1.size inb_S8192x1_S8192x1_0_0))⟩]

/-- The loads read the buffers whole and the one store writes its payload whole: the body's value. -/
theorem out13_2_eq (x0 : Vec F S8192x2 .f32) (x1 : Vec F S8192x1 .f32) : out13_2 x0 x1 = k13_pay1 x0 x1 := by
  have hz : (![0, 0] : Fin 2 → Nat) = fun _ => 0 := funext fun a => by fin_cases a <;> rfl
  unfold out13_2
  rw [View.canon_unit_zero hz, View.ld_unit_zero hz, View.ld_unit_zero hz]

/-- The one store covers the buffer. -/
theorem cover13_2 (p0 : Vec F S8192x2 .f32) (y : S8192x2.Idx) :
    ∃ pc ∈ ([⟨(Rect.unit (s := S8192x2) ![0, 0] S8192x2.size inb_S8192x2_S8192x2_0_0), p0⟩] : List (View.Piece (Elt F) S8192x2 .f32)), y ∈ pc.1.set :=
  View.cover_of_tiled [⟨(Rect.unit (s := S8192x2) ![0, 0] S8192x2.size inb_S8192x2_S8192x2_0_0), p0⟩] S8192x2.size (by rfl) y

set_option maxHeartbeats 1000000 in
/-- The body on whole staging buffers, the inputs' holding `x0 …` and the output's anything, runs to its end with
    the inputs' unchanged and the output's at `out13_2` of them. -/
theorem sound_kernel13 (c : Dev nD) (E : Set ℕ) (i : grid13.Coords) (arg1 : Memref sig .tc .vmem S8192x2 .f32) (harg1 : arg1.IsWhole) (arg2 : Memref sig .tc .vmem S8192x1 .f32) (harg2 : arg2.IsWhole) (arg3 : Memref sig .tc .vmem S8192x2 .f32) (harg3 : arg3.IsWhole)
    (x0 : Vec F S8192x2 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13_kernel i arg1 harg1 arg2 harg2 arg3 harg3) K := by
  simp only [cc13_kernel_eq_skeleton]; unfold cc13_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-- The three windows cut their blocks alike: the index maps agree, and so do the arrays' and the blocks' row counts. -/
theorem xsize13_0 (i : cfg13.grid.Coords) (a : Fin (cfg13.win 2).shape.rank) : (cfg13.win 0).xsize i a = (cfg13.win 2).xsize i a := rfl
theorem xsize13_1_0 (i : cfg13.grid.Coords) : (cfg13.win 1).xsize i 0 = (cfg13.win 2).xsize i 0 := rfl
theorem xsize13_1_1 (i : cfg13.grid.Coords) : (cfg13.win 1).xsize i 1 = 1 := rfl

/-- Row locality of the body's value: on the rows the output's transfer moves, it reads the first input at the same
    index and the second at the same row, both among what the inputs' transfers move. So inputs that agree on their
    moved rows give values that agree on the output's. -/
theorem cut_pay13 (i : cfg13.grid.Coords) (X0 Y0 : Vec F S8192x2 .f32) (X1 Y1 : Vec F S8192x1 .f32)
    (h0 : (cfg13.win 0).cut i X0 = (cfg13.win 0).cut i Y0) (h1 : (cfg13.win 1).cut i X1 = (cfg13.win 1).cut i Y1) :
    (cfg13.win 2).cut i (k13_pay1 X0 X1) = (cfg13.win 2).cut i (k13_pay1 Y0 Y1) := by
  funext j
  -- the index in the first input's moved part with `j`'s coordinates, and the one in the second's with `j`'s row
  let j0 : ((cfg13.win 0).xblock i).Idx := fun a => ⟨(j a).val, Nat.lt_of_lt_of_eq (j a).isLt (xsize13_0 i a).symm⟩
  let j1 : ((cfg13.win 1).xblock i).Idx := fun a => match a with
    | ⟨0, _⟩ => ⟨(j 0).val, Nat.lt_of_lt_of_eq (j 0).isLt (xsize13_1_0 i).symm⟩
    | ⟨1, _⟩ => ⟨0, Nat.lt_of_lt_of_eq Nat.one_pos (xsize13_1_1 i).symm⟩
  have e0 : X0 ((cfg13.win 2).xinj i j) = Y0 ((cfg13.win 2).xinj i j) := congrFun h0 j0
  have hk : ∀ a : Fin S8192x1.rank, (((cfg13.win 1).xinj i j1 : S8192x1.Idx) a).val
      = if S8192x1.size a = 1 then 0 else (((cfg13.win 2).xinj i j : S8192x2.Idx) ⟨a.val + (S8192x2.rank - S8192x1.rank), by have := a.isLt; omega⟩).val := fun a =>
    match a with
    | ⟨0, _⟩ => rfl
    | ⟨1, _⟩ => rfl
  have e1 : broadcastTo S8192x2 X1 broadcasts_S8192x1_S8192x2 ((cfg13.win 2).xinj i j) = broadcastTo S8192x2 Y1 broadcasts_S8192x1_S8192x2 ((cfg13.win 2).xinj i j) := by
    rw [broadcastTo_apply X1 _ _ _ hk, broadcastTo_apply Y1 _ _ _ hk]
    exact congrFun h1 j1
  show FloatOps.mulf (shapeCast S8192x2 X0 shapeCasts_S8192x2_S8192x2 ((cfg13.win 2).xinj i j)) (broadcastTo S8192x2 (shapeCast S8192x1 X1 shapeCasts_S8192x1_S8192x1) broadcasts_S8192x1_S8192x2 ((cfg13.win 2).xinj i j))
    = FloatOps.mulf (shapeCast S8192x2 Y0 shapeCasts_S8192x2_S8192x2 ((cfg13.win 2).xinj i j)) (broadcastTo S8192x2 (shapeCast S8192x1 Y1 shapeCasts_S8192x1_S8192x1) broadcasts_S8192x1_S8192x2 ((cfg13.win 2).xinj i j))
  rw [shapeCast_self, shapeCast_self, shapeCast_self, shapeCast_self, e0, e1]

/-- The region's proof data on core `c`: the arrays as the region finds them; after the body at point `t` each
    input's buffer at its block and the output's at the body's value of the input blocks — each on the rows its
    transfers move, filled out past them by the proof's own word —; the invariant only the scoped rest and the
    generator register, untouched; nothing owed; full shares. -/
def dat13 (c : Dev nD) : Dat τ (Elt F) Unit ℕ (UR sig nD τ) ℕ cfg13 c where
  A w := V c (Pipeline.arrRef spec13 w)
  after w t := match w with
    | ⟨0, _⟩ => fblk13 V c 0 t
    | ⟨1, _⟩ => fblk13 V c 1 t
    | ⟨2, _⟩ => out13_2 (fblk13 V c 0 t) (fblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = fblk13 V c 0 t := by dsimp only [dat13]
theorem after13_1 (c : Dev nD) (t : Fin cfg13.N) : (dat13 V c).after 1 t = fblk13 V c 1 t := by dsimp only [dat13]
theorem after13_2 (c : Dev nD) (t : Fin cfg13.N) : (dat13 V c).after 2 t = out13_2 (fblk13 V c 0 t) (fblk13 V c 1 t) := by dsimp only [dat13]

/-- What the body finds in an input's buffer: just fetched, the block on the rows inside the array and `d`, any,
    elsewhere. -/
theorem before13_0 (c : Dev nD) (t : Fin cfg13.N) (d) :
    (dat13 V c).before 0 t d = (cfg13.win 0).fill (cfg13.grid.coords t) d (iblk13 V c 0 t) := by
  unfold Dat.before; rw [if_pos (fetch13_0 t)]; rfl
theorem before13_1 (c : Dev nD) (t : Fin cfg13.N) (d) :
    (dat13 V c).before 1 t d = (cfg13.win 1).fill (cfg13.grid.coords t) d (iblk13 V c 1 t) := by
  unfold Dat.before; rw [if_pos (fetch13_1 t)]; rfl

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns: each buffer stated on the rows its window's transfers move. -/
def bodyPost13 (c : Dev nD) (t : Fin cfg13.N) : sProp 𝕄 :=
  iprop((dat13 V c).Φ t.succ ∗ (dat13 V c).owesAt () t.succ
    ∗ (∃ d, owns (c : Thread nD τ) (st13_0 t) fullShare ((cfg13.win 0).fill (cfg13.grid.coords t) d ((cfg13.win 0).cut (cfg13.grid.coords t) ((dat13 V c).after 0 t))))
    ∗ (∃ d, owns (c : Thread nD τ) (st13_1 t) fullShare ((cfg13.win 1).fill (cfg13.grid.coords t) d ((cfg13.win 1).cut (cfg13.grid.coords t) ((dat13 V c).after 1 t))))
    ∗ (∃ d, owns (c : Thread nD τ) (st13_2 t) fullShare ((cfg13.win 2).fill (cfg13.grid.coords t) d ((cfg13.win 2).cut (cfg13.grid.coords t) ((dat13 V c).after 2 t)))))

/-- The body at any point: the inputs' buffers hold their blocks on the moved rows and anything elsewhere, so the
    body's triple applies at those contents; what it leaves agrees on the moved rows with what the proof data names
    (`cut_pay13`), which is all that is asked back; the invariant and the core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  rw [show (dat13 V c).Φ t.succ = (dat13 V c).Φ t.castSucc from rfl,
    show (dat13 V c).owesAt () t.succ = (dat13 V c).owesAt () t.castSucc from rfl,
    after13_0, after13_1, after13_2, cut_fblk13, cut_fblk13]
  iintro ⟨HΦ, Ho, ⟨%d0, H0⟩, ⟨%d1, H1⟩, ⟨%d2, H2⟩⟩
  rw [before13_0 V c t d0, before13_1 V c t d1]
  iapply (sound_kernel13 c Set.univ _ _ _ _ _ _ _ ((cfg13.win 0).fill (cfg13.grid.coords t) d0 (iblk13 V c 0 t)) ((cfg13.win 1).fill (cfg13.grid.coords t) d1 (iblk13 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists out13_2 ((cfg13.win 0).fill (cfg13.grid.coords t) d0 (iblk13 V c 0 t)) ((cfg13.win 1).fill (cfg13.grid.coords t) d1 (iblk13 V c 1 t))
  have hcut : (cfg13.win 2).cut (cfg13.grid.coords t) (out13_2 ((cfg13.win 0).fill (cfg13.grid.coords t) d0 (iblk13 V c 0 t)) ((cfg13.win 1).fill (cfg13.grid.coords t) d1 (iblk13 V c 1 t)))
      = (cfg13.win 2).cut (cfg13.grid.coords t) (out13_2 (fblk13 V c 0 t) (fblk13 V c 1 t)) := by
    rw [out13_2_eq, out13_2_eq]
    exact cut_pay13 (cfg13.grid.coords t) _ _ _ _
      (((cfg13.win 0).cut_fill _ _ _).trans (cut_fblk13 V c 0 t).symm)
      (((cfg13.win 1).cut_fill _ _ _).trans (cut_fblk13 V c 1 t).symm)
  rw [(cfg13.win 2).fill_congr_cut (cfg13.grid.coords t) hcut]
  iexact H2

/-- The body obligation of the region's pipeline, at every point (every window is loose: each buffer is asked back
    only on the rows its transfers move). -/
theorem body_obligation13 (c : Dev nD) : BodyObligationLoose (dat13 (F := F) V c) (defs₀ (F := F)) Variants.none () Set.univ := fun t => by
  rw [bigSep_W13, bigSep_W13]
  exact sound_body13 V c t

/-- The index in the first input's moved part with the coordinates of the output's `j`, -/
noncomputable def idx13_0 (i : cfg13.grid.Coords) (j : ((cfg13.win 2).xblock i).Idx) : ((cfg13.win 0).xblock i).Idx :=
  fun a => ⟨(j a).val, Nat.lt_of_lt_of_eq (j a).isLt (xsize13_0 i a).symm⟩

/-- and the one in the second's with `j`'s row (its one column). -/
noncomputable def idx13_1 (i : cfg13.grid.Coords) (j : ((cfg13.win 2).xblock i).Idx) : ((cfg13.win 1).xblock i).Idx :=
  fun a => match a with
    | ⟨0, _⟩ => ⟨(j 0).val, Nat.lt_of_lt_of_eq (j 0).isLt (xsize13_1_0 i).symm⟩
    | ⟨1, _⟩ => ⟨0, Nat.lt_of_lt_of_eq Nat.one_pos (xsize13_1_1 i).symm⟩

/-- The body's value at an index the output's transfer moves: the first input there times the second's word of the
    same row. -/
theorem pay13_apply (i : cfg13.grid.Coords) (X0 : Vec F S8192x2 .f32) (X1 : Vec F S8192x1 .f32) (j : ((cfg13.win 2).xblock i).Idx) :
    k13_pay1 X0 X1 ((cfg13.win 2).xinj i j)
      = FloatOps.mulf (X0 ((cfg13.win 0).xinj i (idx13_0 i j))) (X1 ((cfg13.win 1).xinj i (idx13_1 i j))) := by
  have hk : ∀ a : Fin S8192x1.rank, (((cfg13.win 1).xinj i (idx13_1 i j) : S8192x1.Idx) a).val
      = if S8192x1.size a = 1 then 0 else (((cfg13.win 2).xinj i j : S8192x2.Idx) ⟨a.val + (S8192x2.rank - S8192x1.rank), by have := a.isLt; omega⟩).val := fun a =>
    match a with
    | ⟨0, _⟩ => rfl
    | ⟨1, _⟩ => rfl
  show FloatOps.mulf (shapeCast S8192x2 X0 shapeCasts_S8192x2_S8192x2 ((cfg13.win 2).xinj i j)) (broadcastTo S8192x2 (shapeCast S8192x1 X1 shapeCasts_S8192x1_S8192x1) broadcasts_S8192x1_S8192x2 ((cfg13.win 2).xinj i j))
    = FloatOps.mulf (X0 ((cfg13.win 0).xinj i (idx13_0 i j))) (X1 ((cfg13.win 1).xinj i (idx13_1 i j)))
  rw [shapeCast_self, shapeCast_self, broadcastTo_apply X1 _ _ _ hk]
  rfl

/-- What the output's write-back at point `t` moves: index by index, the first input's block times the second's
    word of the same row. -/
theorem cut_after13_2 (c : Dev nD) (t : Fin cfg13.N) :
    (cfg13.win 2).cut (cfg13.grid.coords t) ((dat13 V c).after 2 t)
      = fun j => FloatOps.mulf (iblk13 V c 0 t (idx13_0 (cfg13.grid.coords t) j)) (iblk13 V c 1 t (idx13_1 (cfg13.grid.coords t) j)) := by
  rw [after13_2, out13_2_eq]
  funext j
  exact (pay13_apply (cfg13.grid.coords t) (fblk13 V c 0 t) (fblk13 V c 1 t) j).trans
    (congrArg₂ FloatOps.mulf ((cfg13.win 0).fill_xinj _ _ _ _) ((cfg13.win 1).fill_xinj _ _ _ _))

end Cert.Kernel.Frame

end
-- ==== Proof.K.Reg14.lean ====
/-
  Region 14 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input's staging buffer holds the input's block at every point, fetched there or not: where it is not
    fetched the block index has not moved since the point that did fetch it, and the body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- An input's staging buffer holds the input's block at every point, fetched there or not: where it is not
    fetched the block index has not moved since the point that did fetch it, and the body leaves the block in place. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- What the body leaves in the output's staging buffer, as a function of the input blocks: its one store, of the
    body's value, over the whole buffer. -/
def out14_2 (x0 : Vec F S10000x2 .f32) (x1 : Vec F S10000x2 .f32) : Vec F S10000x2 .f32 :=
  View.canon [⟨(Rect.unit (s := S10000x2) ![0, 0] S10000x2.size inb_S10000x2_S10000x2_0_0), k14_pay1 (View.ld x0 (Rect.unit (s := S10000x2) ![0, 0] S10000x2.size inb_S10000x2_S10000x2_0_0)) (View.ld x1 (Rect.unit (s := S10000x2) ![0, 0] S10000x2.size inb_S10000x2_S10000x2_0_0))⟩]

/-- The one store covers the buffer. -/
theorem cover14_2 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out14_2` of them. -/
theorem sound_kernel14 (c : Dev nD) (E : Set ℕ) (i : grid14.Coords) (arg1 : Memref sig .tc .vmem S10000x2 .f32) (harg1 : arg1.IsWhole) (arg2 : Memref sig .tc .vmem S10000x2 .f32) (harg2 : arg2.IsWhole) (arg3 : Memref sig .tc .vmem S10000x2 .f32) (harg3 : arg3.IsWhole)
    (x0 : Vec F S10000x2 .f32) (x1 : Vec F S10000x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out14_2 x0 x1)) -∗ K ⟨⟩))
      ⊢ wp frame (wpE (defs₀ (F := F)) Variants.none c none) E (cc14_kernel i arg1 harg1 arg2 harg2 arg3 harg3) K := by
  simp only [cc14_kernel_eq_skeleton]; unfold cc14_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

/-- The region's proof data on core `c`: the arrays as the region finds them; after the body at point `t` each
    input's buffer at its block and the output's at the body's value of the input blocks; the invariant only the
    scoped rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14_2 (iblk14 V c 0 t) (iblk14 V c 1 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

/-- The body at any point: the inputs' buffers hold their blocks, so the body's triple applies; the invariant and
    the core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation14 (c : Dev nD) : BodyObligation (dat14 (F := F) V c) (defs₀ (F := F)) Variants.none () Set.univ := fun t => by
  rw [bigSep_W14, bigSep_W14]
  exact sound_body14 V c t

end Cert.Kernel.Frame

end
-- ==== Proof.K.Reg15.lean ====
/-
  Region 15 of @main, one pallas_call on a one-axis grid whose blocks tile their arrays exactly: at each grid
  point the body loads its 1 input block whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input's staging buffer holds the input's block at every point, fetched there or not: where it is not
    fetched the block index has not moved since the point that did fetch it, and the body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- What the body leaves in the output's staging buffer, as a function of the input blocks: its one store, of the
    body's value, over the whole buffer. -/
def out15_1 (x0 : Vec F S10000x2 .f32) : Vec F S10000x2 .f32 :=
  View.canon [⟨(Rect.unit (s := S10000x2) ![0, 0] S10000x2.size inb_S10000x2_S10000x2_0_0), k15_pay1 (View.ld x0 (Rect.unit (s := S10000x2) ![0, 0] S10000x2.size inb_S10000x2_S10000x2_0_0))⟩]

/-- The one store covers the buffer. -/
theorem cover15_1 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out15_1` of them. -/
theorem sound_kernel15 (c : Dev nD) (E : Set ℕ) (i : grid15.Coords) (arg1 : Memref sig .tc .vmem S10000x2 .f32) (harg1 : arg1.IsWhole) (arg2 : Memref sig .tc .vmem S10000x2 .f32) (harg2 : arg2.IsWhole)
    (x0 : Vec F S10000x2 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out15_1 x0)) -∗ K ⟨⟩))
      ⊢ wp frame (wpE (defs₀ (F := F)) Variants.none c none) E (cc15_kernel i arg1 harg1 arg2 harg2) K := by
  simp only [cc15_kernel_eq_skeleton]; unfold cc15_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover15_1 _)

/-- The region's proof data on core `c`: the arrays as the region finds them; after the body at point `t` each
    input's buffer at its block and the output's at the body's value of the input blocks; the invariant only the
    scoped rest and the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => out15_1 (iblk15 V c 0 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = out15_1 (iblk15 V c 0 t) := by dsimp only [dat15]

theorem before15_0 (c : Dev nD) (t : Fin cfg15.N) (d) : (dat15 V c).before 0 t d = iblk15 V c 0 t :=
  before15_0_of V (dat15 V c) (A_eq15 V c 0) (after15_0 V c) t d

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t))

/-- The body at any point: the inputs' buffers hold their blocks, so the body's triple applies; the invariant and
    the core's dues pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0]
  rw [show (dat15 V c).Φ t.succ = (dat15 V c).Φ t.castSucc from rfl,
    show (dat15 V c).owesAt () t.succ = (dat15 V c).owesAt () t.castSucc from rfl,
    after15_0, after15_1]
  iintro ⟨HΦ, Ho, ⟨%d0, H0⟩, ⟨%d1, H1⟩⟩
  iapply (sound_kernel15 c Set.univ _ _ _ _ _ (iblk15 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every point. -/
theorem body_obligation15 (c : Dev nD) : BodyObligation (dat15 (F := F) V c) (defs₀ (F := F)) Variants.none () Set.univ := fun t => by
  rw [bigSep_W15, bigSep_W15]
  exact sound_body15 V c t

end Cert.Kernel.Frame

end
-- ==== Proof.K.Chain.lean ====
/-
  The contents of the TensorCore's buffers at each boundary between two items of @main (host stretches and the
  sixteen regions, thirty-four items in all), as a fold from the launch memory: a host stretch applies its
  operations; a region leaves each of its arrays at what its pipeline's write-backs fold to and every other buffer
  as it found it. No item writes an argument array — a host stretch writes only its own results, a region only its
  output array — so each argument's buffer holds its launch contents at the end.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import proofs.«142470_j73658689126826_2_alg».proof.Proof.K.Reg0
import proofs.«142470_j73658689126826_2_alg».proof.Proof.K.Reg1
import proofs.«142470_j73658689126826_2_alg».proof.Proof.K.Reg2
import proofs.«142470_j73658689126826_2_alg».proof.Proof.K.Reg3
import proofs.«142470_j73658689126826_2_alg».proof.Proof.K.Reg4
import proofs.«142470_j73658689126826_2_alg».proof.Proof.K.Reg5
import proofs.«142470_j73658689126826_2_alg».proof.Proof.K.Reg6
import proofs.«142470_j73658689126826_2_alg».proof.Proof.K.Reg7
import proofs.«142470_j73658689126826_2_alg».proof.Proof.K.Reg8
import proofs.«142470_j73658689126826_2_alg».proof.Proof.K.Reg9
import proofs.«142470_j73658689126826_2_alg».proof.Proof.K.Reg10
import proofs.«142470_j73658689126826_2_alg».proof.Proof.K.Reg11
import proofs.«142470_j73658689126826_2_alg».proof.Proof.K.Reg12
import proofs.«142470_j73658689126826_2_alg».proof.Proof.K.Reg13
import proofs.«142470_j73658689126826_2_alg».proof.Proof.K.Reg14
import proofs.«142470_j73658689126826_2_alg».proof.Proof.K.Reg15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The references each host stretch writes -/

abbrev hostOps0_W : List (Ref sig .tc) := [main_v0, main_v1, main_v2, main_v3, main_v4, main_v5, main_v6, main_cst, main_v7, main_v8, main_cst_0, main_v9, main_v10, main_v11, main_cst_1, main_v12, main_v13, main_cst_2, main_v14, main_v15, main_cst_3]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps0_keep (W : Valuation τ sig (Elt F)) (r : Ref sig .tc) (h : r ∉ hostOps0_W) : StableHlo.after hostOps0 W r = W r :=
  StableHlo.after_of_writes_sub hostOps0 _ hostOps0_writes h
theorem hostOps0_fresh : (hostOps0 : List (HloOp τ sig (Elt F))).Forall fun op => op.fresh = ∅ := by
  simp only [List.Forall]; repeat' constructor

abbrev hostOps0_1_W : List (Ref sig .tc) := [main_call0_v0, main_call0_v1, main_v16]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps0_1_keep (W : Valuation τ sig (Elt F)) (r : Ref sig .tc) (h : r ∉ hostOps0_1_W) : StableHlo.after hostOps0_1 W r = W r :=
  StableHlo.after_of_writes_sub hostOps0_1 _ hostOps0_1_writes h
theorem hostOps0_1_fresh : (hostOps0_1 : List (HloOp τ sig (Elt F))).Forall fun op => op.fresh = ∅ := by
  simp only [List.Forall]; repeat' constructor

abbrev hostOps0_2_W : List (Ref sig .tc) := [main_v17, main_cst_4]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps0_2_keep (W : Valuation τ sig (Elt F)) (r : Ref sig .tc) (h : r ∉ hostOps0_2_W) : StableHlo.after hostOps0_2 W r = W r :=
  StableHlo.after_of_writes_sub hostOps0_2 _ hostOps0_2_writes h
theorem hostOps0_2_fresh : (hostOps0_2 : List (HloOp τ sig (Elt F))).Forall fun op => op.fresh = ∅ := by
  simp only [List.Forall]; repeat' constructor

abbrev hostOps0_3_W : List (Ref sig .tc) := [main_call1_v0, main_call1_v1, main_v18]
theorem hostOps0_3_writes : (hostOps0_3 : List (HloOp τ sig (Elt F))).Forall fun op => op.writes ⊆ (hostOps0_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps0_3_keep (W : Valuation τ sig (Elt F)) (r : Ref sig .tc) (h : r ∉ hostOps0_3_W) : StableHlo.after hostOps0_3 W r = W r :=
  StableHlo.after_of_writes_sub hostOps0_3 _ hostOps0_3_writes h
theorem hostOps0_3_fresh : (hostOps0_3 : List (HloOp τ sig (Elt F))).Forall fun op => op.fresh = ∅ := by
  simp only [List.Forall]; repeat' constructor

abbrev hostOps0_4_W : List (Ref sig .tc) := [main_c, main_v19, main_v20, main_c_5, main_v21, main_v22, main_v23, main_v24, main_v25, main_v26, main_c_6, main_v27, main_v28, main_c_7, main_v29, main_v30, main_v31, main_v32, main_v33, main_v34, main_v35, main_v36]
theorem hostOps0_4_writes : (hostOps0_4 : List (HloOp τ sig (Elt F))).Forall fun op => op.writes ⊆ (hostOps0_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps0_4_keep (W : Valuation τ sig (Elt F)) (r : Ref sig .tc) (h : r ∉ hostOps0_4_W) : StableHlo.after hostOps0_4 W r = W r :=
  StableHlo.after_of_writes_sub hostOps0_4 _ hostOps0_4_writes h
theorem hostOps0_4_fresh : (hostOps0_4 : List (HloOp τ sig (Elt F))).Forall fun op => op.fresh = ∅ := by
  simp only [List.Forall]; repeat' constructor

abbrev hostOps2_W : List (Ref sig .tc) := [main_c_8, main_v39, main_v40, main_c_9, main_v41, main_v42, main_v43, main_v44, main_v45]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps2_keep (W : Valuation τ sig (Elt F)) (r : Ref sig .tc) (h : r ∉ hostOps2_W) : StableHlo.after hostOps2 W r = W r :=
  StableHlo.after_of_writes_sub hostOps2 _ hostOps2_writes h
theorem hostOps2_fresh : (hostOps2 : List (HloOp τ sig (Elt F))).Forall fun op => op.fresh = ∅ := by
  simp only [List.Forall]; repeat' constructor

abbrev hostOps3_W : List (Ref sig .tc) := [main_cst_10, main_v47, main_v48, main_v49, main_v50]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps3_keep (W : Valuation τ sig (Elt F)) (r : Ref sig .tc) (h : r ∉ hostOps3_W) : StableHlo.after hostOps3 W r = W r :=
  StableHlo.after_of_writes_sub hostOps3 _ hostOps3_writes h
theorem hostOps3_fresh : (hostOps3 : List (HloOp τ sig (Elt F))).Forall fun op => op.fresh = ∅ := by
  simp only [List.Forall]; repeat' constructor

abbrev hostOps4_W : List (Ref sig .tc) := [main_v52]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps4_keep (W : Valuation τ sig (Elt F)) (r : Ref sig .tc) (h : r ∉ hostOps4_W) : StableHlo.after hostOps4 W r = W r :=
  StableHlo.after_of_writes_sub hostOps4 _ hostOps4_writes h
theorem hostOps4_fresh : (hostOps4 : List (HloOp τ sig (Elt F))).Forall fun op => op.fresh = ∅ := by
  simp only [List.Forall]; repeat' constructor

abbrev hostOps5_W : List (Ref sig .tc) := [main_c_11, main_v54, main_v55, main_c_12, main_v56, main_v57, main_v58, main_v59, main_v60]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps5_keep (W : Valuation τ sig (Elt F)) (r : Ref sig .tc) (h : r ∉ hostOps5_W) : StableHlo.after hostOps5 W r = W r :=
  StableHlo.after_of_writes_sub hostOps5 _ hostOps5_writes h
theorem hostOps5_fresh : (hostOps5 : List (HloOp τ sig (Elt F))).Forall fun op => op.fresh = ∅ := by
  simp only [List.Forall]; repeat' constructor

abbrev hostOps6_W : List (Ref sig .tc) := [main_cst_13, main_v62, main_v63, main_v64]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps6_keep (W : Valuation τ sig (Elt F)) (r : Ref sig .tc) (h : r ∉ hostOps6_W) : StableHlo.after hostOps6 W r = W r :=
  StableHlo.after_of_writes_sub hostOps6 _ hostOps6_writes h
theorem hostOps6_fresh : (hostOps6 : List (HloOp τ sig (Elt F))).Forall fun op => op.fresh = ∅ := by
  simp only [List.Forall]; repeat' constructor

abbrev hostOps7_W : List (Ref sig .tc) := [main_c_14, main_v66, main_v67, main_c_15, main_v68, main_v69, main_v70, main_v71, main_v72]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps7_keep (W : Valuation τ sig (Elt F)) (r : Ref sig .tc) (h : r ∉ hostOps7_W) : StableHlo.after hostOps7 W r = W r :=
  StableHlo.after_of_writes_sub hostOps7 _ hostOps7_writes h
theorem hostOps7_fresh : (hostOps7 : List (HloOp τ sig (Elt F))).Forall fun op => op.fresh = ∅ := by
  simp only [List.Forall]; repeat' constructor

abbrev hostOps8_W : List (Ref sig .tc) := [main_cst_16, main_v74, main_v75, main_v76]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps8_keep (W : Valuation τ sig (Elt F)) (r : Ref sig .tc) (h : r ∉ hostOps8_W) : StableHlo.after hostOps8 W r = W r :=
  StableHlo.after_of_writes_sub hostOps8 _ hostOps8_writes h
theorem hostOps8_fresh : (hostOps8 : List (HloOp τ sig (Elt F))).Forall fun op => op.fresh = ∅ := by
  simp only [List.Forall]; repeat' constructor

abbrev hostOps9_W : List (Ref sig .tc) := [main_c_17, main_v78, main_v79, main_c_18, main_v80, main_v81, main_v82, main_v83, main_v84]
theorem hostOps9_writes : (hostOps9 : List (HloOp τ sig (Elt F))).Forall fun op => op.writes ⊆ (hostOps9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps9_keep (W : Valuation τ sig (Elt F)) (r : Ref sig .tc) (h : r ∉ hostOps9_W) : StableHlo.after hostOps9 W r = W r :=
  StableHlo.after_of_writes_sub hostOps9 _ hostOps9_writes h
theorem hostOps9_fresh : (hostOps9 : List (HloOp τ sig (Elt F))).Forall fun op => op.fresh = ∅ := by
  simp only [List.Forall]; repeat' constructor

abbrev hostOps10_W : List (Ref sig .tc) := [main_cst_19, main_v86, main_v87, main_v88]
theorem hostOps10_writes : (hostOps10 : List (HloOp τ sig (Elt F))).Forall fun op => op.writes ⊆ (hostOps10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps10_keep (W : Valuation τ sig (Elt F)) (r : Ref sig .tc) (h : r ∉ hostOps10_W) : StableHlo.after hostOps10 W r = W r :=
  StableHlo.after_of_writes_sub hostOps10 _ hostOps10_writes h
theorem hostOps10_fresh : (hostOps10 : List (HloOp τ sig (Elt F))).Forall fun op => op.fresh = ∅ := by
  simp only [List.Forall]; repeat' constructor

abbrev hostOps11_W : List (Ref sig .tc) := [main_c_20, main_v90, main_v91, main_c_21, main_v92, main_v93, main_v94, main_v95, main_v96]
theorem hostOps11_writes : (hostOps11 : List (HloOp τ sig (Elt F))).Forall fun op => op.writes ⊆ (hostOps11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps11_keep (W : Valuation τ sig (Elt F)) (r : Ref sig .tc) (h : r ∉ hostOps11_W) : StableHlo.after hostOps11 W r = W r :=
  StableHlo.after_of_writes_sub hostOps11 _ hostOps11_writes h
theorem hostOps11_fresh : (hostOps11 : List (HloOp τ sig (Elt F))).Forall fun op => op.fresh = ∅ := by
  simp only [List.Forall]; repeat' constructor

abbrev hostOps12_W : List (Ref sig .tc) := [main_cst_22, main_v98, main_v99, main_v100]
theorem hostOps12_writes : (hostOps12 : List (HloOp τ sig (Elt F))).Forall fun op => op.writes ⊆ (hostOps12_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps12_keep (W : Valuation τ sig (Elt F)) (r : Ref sig .tc) (h : r ∉ hostOps12_W) : StableHlo.after hostOps12 W r = W r :=
  StableHlo.after_of_writes_sub hostOps12 _ hostOps12_writes h
theorem hostOps12_fresh : (hostOps12 : List (HloOp τ sig (Elt F))).Forall fun op => op.fresh = ∅ := by
  simp only [List.Forall]; repeat' constructor

abbrev hostOps13_W : List (Ref sig .tc) := [main_c_23, main_v102, main_v103, main_c_24, main_v104, main_v105, main_v106, main_v107, main_v108]
theorem hostOps13_writes : (hostOps13 : List (HloOp τ sig (Elt F))).Forall fun op => op.writes ⊆ (hostOps13_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps13_keep (W : Valuation τ sig (Elt F)) (r : Ref sig .tc) (h : r ∉ hostOps13_W) : StableHlo.after hostOps13 W r = W r :=
  StableHlo.after_of_writes_sub hostOps13 _ hostOps13_writes h
theorem hostOps13_fresh : (hostOps13 : List (HloOp τ sig (Elt F))).Forall fun op => op.fresh = ∅ := by
  simp only [List.Forall]; repeat' constructor

abbrev hostOps14_W : List (Ref sig .tc) := [main_cst_25, main_v110, main_v111, main_v112]
theorem hostOps14_writes : (hostOps14 : List (HloOp τ sig (Elt F))).Forall fun op => op.writes ⊆ (hostOps14_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps14_keep (W : Valuation τ sig (Elt F)) (r : Ref sig .tc) (h : r ∉ hostOps14_W) : StableHlo.after hostOps14 W r = W r :=
  StableHlo.after_of_writes_sub hostOps14 _ hostOps14_writes h
theorem hostOps14_fresh : (hostOps14 : List (HloOp τ sig (Elt F))).Forall fun op => op.fresh = ∅ := by
  simp only [List.Forall]; repeat' constructor

/-! ## The fold -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- After the host stretch `hostOps0_1`. -/
abbrev W2 : Dev nD → Valuation τ sig (Elt F) := fun c => StableHlo.after hostOps0_1 (W1 m ρ c)
/-- After the host stretch `hostOps0_2`. -/
abbrev W3 : Dev nD → Valuation τ sig (Elt F) := fun c => StableHlo.after hostOps0_2 (W2 m ρ c)
/-- After the host stretch `hostOps0_3`. -/
abbrev W4 : Dev nD → Valuation τ sig (Elt F) := fun c => StableHlo.after hostOps0_3 (W3 m ρ c)
/-- After the host stretch `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- After region 0: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- Region 0 changes no buffer but its output array `main_v37`: an input window's array is handed back as entered. -/
theorem keep0 (c : Dev nD) (b : Ref sig .tc) (hb : b ≠ main_v37) :
    W6 m ρ c (Proc.devRef .tc b) = W5 m ρ c (Proc.devRef .tc b) := by
  by_cases h : ∃ w, Pipeline.arrRef spec0 w = b
  · obtain ⟨w, rfl⟩ := h
    have hin : ∀ w : Fin cfg0.W, Pipeline.arrRef spec0 w ≠ main_v37 → (cfg0.win w).isOut = false := by decide
    exact (W6_arr m ρ c w).trans (((dat0 (V5 m ρ) c).arrAt_in w (hin w hb) _).trans (A_eq0 (V5 m ρ) c w))
  · exact W6_of_ne m ρ c b fun w e => h ⟨w, e⟩
/-- After region 1: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)
/-- Region 1 changes no buffer but its output array `main_v38`: an input window's array is handed back as entered. -/
theorem keep1 (c : Dev nD) (b : Ref sig .tc) (hb : b ≠ main_v38) :
    W7 m ρ c (Proc.devRef .tc b) = W6 m ρ c (Proc.devRef .tc b) := by
  by_cases h : ∃ w, Pipeline.arrRef spec1 w = b
  · obtain ⟨w, rfl⟩ := h
    have hin : ∀ w : Fin cfg1.W, Pipeline.arrRef spec1 w ≠ main_v38 → (cfg1.win w).isOut = false := by decide
    exact (W7_arr m ρ c w).trans (((dat1 (V6 m ρ) c).arrAt_in w (hin w hb) _).trans (A_eq1 (V6 m ρ) c w))
  · exact W7_of_ne m ρ c b fun w e => h ⟨w, e⟩
/-- After the host stretch `hostOps2`. -/
abbrev W8 : Dev nD → Valuation τ sig (Elt F) := fun c => StableHlo.after hostOps2 (W7 m ρ c)
abbrev V8 : (c : Dev nD) → (b : Ref sig .tc) → Buf (Elt F) ((c : Thread nD τ).loc b) := fun c b => W8 m ρ c b
/-- After region 2: its arrays at what the pipeline leaves, every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)
/-- Region 2 changes no buffer but its output array `main_v46`: an input window's array is handed back as entered. -/
theorem keep2 (c : Dev nD) (b : Ref sig .tc) (hb : b ≠ main_v46) :
    W9 m ρ c (Proc.devRef .tc b) = W8 m ρ c (Proc.devRef .tc b) := by
  by_cases h : ∃ w, Pipeline.arrRef spec2 w = b
  · obtain ⟨w, rfl⟩ := h
    have hin : ∀ w : Fin cfg2.W, Pipeline.arrRef spec2 w ≠ main_v46 → (cfg2.win w).isOut = false := by decide
    exact (W9_arr m ρ c w).trans (((dat2 (V8 m ρ) c).arrAt_in w (hin w hb) _).trans (A_eq2 (V8 m ρ) c w))
  · exact W9_of_ne m ρ c b fun w e => h ⟨w, e⟩
/-- After the host stretch `hostOps3`. -/
abbrev W10 : Dev nD → Valuation τ sig (Elt F) := fun c => StableHlo.after hostOps3 (W9 m ρ c)
abbrev V10 : (c : Dev nD) → (b : Ref sig .tc) → Buf (Elt F) ((c : Thread nD τ).loc b) := fun c b => W10 m ρ c b
/-- After region 3: its arrays at what the pipeline leaves, every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
abbrev V11 : (c : Dev nD) → (b : Ref sig .tc) → Buf (Elt F) ((c : Thread nD τ).loc b) := fun c b => W11 m ρ c b
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)
/-- Region 3 changes no buffer but its output array `main_v51`: an input window's array is handed back as entered. -/
theorem keep3 (c : Dev nD) (b : Ref sig .tc) (hb : b ≠ main_v51) :
    W11 m ρ c (Proc.devRef .tc b) = W10 m ρ c (Proc.devRef .tc b) := by
  by_cases h : ∃ w, Pipeline.arrRef spec3 w = b
  · obtain ⟨w, rfl⟩ := h
    have hin : ∀ w : Fin cfg3.W, Pipeline.arrRef spec3 w ≠ main_v51 → (cfg3.win w).isOut = false := by decide
    exact (W11_arr m ρ c w).trans (((dat3 (V10 m ρ) c).arrAt_in w (hin w hb) _).trans (A_eq3 (V10 m ρ) c w))
  · exact W11_of_ne m ρ c b fun w e => h ⟨w, e⟩
/-- After the host stretch `hostOps4`. -/
abbrev W12 : Dev nD → Valuation τ sig (Elt F) := fun c => StableHlo.after hostOps4 (W11 m ρ c)
abbrev V12 : (c : Dev nD) → (b : Ref sig .tc) → Buf (Elt F) ((c : Thread nD τ).loc b) := fun c b => W12 m ρ c b
/-- After region 4: its arrays at what the pipeline leaves, every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
abbrev V13 : (c : Dev nD) → (b : Ref sig .tc) → Buf (Elt F) ((c : Thread nD τ).loc b) := fun c b => W13 m ρ c b
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)
/-- Region 4 changes no buffer but its output array `main_v53`: an input window's array is handed back as entered. -/
theorem keep4 (c : Dev nD) (b : Ref sig .tc) (hb : b ≠ main_v53) :
    W13 m ρ c (Proc.devRef .tc b) = W12 m ρ c (Proc.devRef .tc b) := by
  by_cases h : ∃ w, Pipeline.arrRef spec4 w = b
  · obtain ⟨w, rfl⟩ := h
    have hin : ∀ w : Fin cfg4.W, Pipeline.arrRef spec4 w ≠ main_v53 → (cfg4.win w).isOut = false := by decide
    exact (W13_arr m ρ c w).trans (((dat4 (V12 m ρ) c).arrAt_in w (hin w hb) _).trans (A_eq4 (V12 m ρ) c w))
  · exact W13_of_ne m ρ c b fun w e => h ⟨w, e⟩
/-- After the host stretch `hostOps5`. -/
abbrev W14 : Dev nD → Valuation τ sig (Elt F) := fun c => StableHlo.after hostOps5 (W13 m ρ c)
abbrev V14 : (c : Dev nD) → (b : Ref sig .tc) → Buf (Elt F) ((c : Thread nD τ).loc b) := fun c b => W14 m ρ c b
/-- After region 5: its arrays at what the pipeline leaves, every other buffer as entered. -/
def W15 (c : Dev nD) : Valuation τ sig (Elt F) :=
  Pipeline.withArrays spec5 c (W14 m ρ c) fun w => (dat5 (V14 m ρ) c).arrAt w cfg5.N
theorem W15_arr (c : Dev nD) (w : Fin cfg5.W) :
    W15 m ρ c (Proc.devRef .tc (Pipeline.arrRef spec5 w)) = (dat5 (V14 m ρ) c).arrAt w cfg5.N := by
  unfold W15; exact Pipeline.withArrays_arr spec5 launch5.win.arr_inj c _ _ w
theorem W15_of_ne (c : Dev nD) (b : Ref sig .tc) (hb : ∀ w, Pipeline.arrRef spec5 w ≠ b) :
    W15 m ρ c (Proc.devRef .tc b) = W14 m ρ c (Proc.devRef .tc b) := by
  unfold W15; exact Pipeline.withArrays_of_ne spec5 c _ _ b hb
abbrev V15 : (c : Dev nD) → (b : Ref sig .tc) → Buf (Elt F) ((c : Thread nD τ).loc b) := fun c b => W15 m ρ c b
theorem hF5 (c : Dev nD) (w : Fin cfg5.W) : (dat5 (V14 m ρ) c).arrAt w cfg5.N = V15 m ρ c (Pipeline.arrRef spec5 w) :=
  (W15_arr m ρ c w).symm
theorem hrest5 (c : Dev nD) : ∀ b, b ∉ Finset.univ.image (Pipeline.arrRef spec5) → V15 m ρ c b = V14 m ρ c b :=
  fun b hb => W15_of_ne m ρ c b fun w e => hb (Finset.mem_image.mpr ⟨w, Finset.mem_univ _, e⟩)
/-- Region 5 changes no buffer but its output array `main_v61`: an input window's array is handed back as entered. -/
theorem keep5 (c : Dev nD) (b : Ref sig .tc) (hb : b ≠ main_v61) :
    W15 m ρ c (Proc.devRef .tc b) = W14 m ρ c (Proc.devRef .tc b) := by
  by_cases h : ∃ w, Pipeline.arrRef spec5 w = b
  · obtain ⟨w, rfl⟩ := h
    have hin : ∀ w : Fin cfg5.W, Pipeline.arrRef spec5 w ≠ main_v61 → (cfg5.win w).isOut = false := by decide
    exact (W15_arr m ρ c w).trans (((dat5 (V14 m ρ) c).arrAt_in w (hin w hb) _).trans (A_eq5 (V14 m ρ) c w))
  · exact W15_of_ne m ρ c b fun w e => h ⟨w, e⟩
/-- After the host stretch `hostOps6`. -/
abbrev W16 : Dev nD → Valuation τ sig (Elt F) := fun c => StableHlo.after hostOps6 (W15 m ρ c)
abbrev V16 : (c : Dev nD) → (b : Ref sig .tc) → Buf (Elt F) ((c : Thread nD τ).loc b) := fun c b => W16 m ρ c b
/-- After region 6: its arrays at what the pipeline leaves, every other buffer as entered. -/
def W17 (c : Dev nD) : Valuation τ sig (Elt F) :=
  Pipeline.withArrays spec6 c (W16 m ρ c) fun w => (dat6 (V16 m ρ) c).arrAt w cfg6.N
theorem W17_arr (c : Dev nD) (w : Fin cfg6.W) :
    W17 m ρ c (Proc.devRef .tc (Pipeline.arrRef spec6 w)) = (dat6 (V16 m ρ) c).arrAt w cfg6.N := by
  unfold W17; exact Pipeline.withArrays_arr spec6 launch6.win.arr_inj c _ _ w
theorem W17_of_ne (c : Dev nD) (b : Ref sig .tc) (hb : ∀ w, Pipeline.arrRef spec6 w ≠ b) :
    W17 m ρ c (Proc.devRef .tc b) = W16 m ρ c (Proc.devRef .tc b) := by
  unfold W17; exact Pipeline.withArrays_of_ne spec6 c _ _ b hb
abbrev V17 : (c : Dev nD) → (b : Ref sig .tc) → Buf (Elt F) ((c : Thread nD τ).loc b) := fun c b => W17 m ρ c b
theorem hF6 (c : Dev nD) (w : Fin cfg6.W) : (dat6 (V16 m ρ) c).arrAt w cfg6.N = V17 m ρ c (Pipeline.arrRef spec6 w) :=
  (W17_arr m ρ c w).symm
theorem hrest6 (c : Dev nD) : ∀ b, b ∉ Finset.univ.image (Pipeline.arrRef spec6) → V17 m ρ c b = V16 m ρ c b :=
  fun b hb => W17_of_ne m ρ c b fun w e => hb (Finset.mem_image.mpr ⟨w, Finset.mem_univ _, e⟩)
/-- Region 6 changes no buffer but its output array `main_v65`: an input window's array is handed back as entered. -/
theorem keep6 (c : Dev nD) (b : Ref sig .tc) (hb : b ≠ main_v65) :
    W17 m ρ c (Proc.devRef .tc b) = W16 m ρ c (Proc.devRef .tc b) := by
  by_cases h : ∃ w, Pipeline.arrRef spec6 w = b
  · obtain ⟨w, rfl⟩ := h
    have hin : ∀ w : Fin cfg6.W, Pipeline.arrRef spec6 w ≠ main_v65 → (cfg6.win w).isOut = false := by decide
    exact (W17_arr m ρ c w).trans (((dat6 (V16 m ρ) c).arrAt_in w (hin w hb) _).trans (A_eq6 (V16 m ρ) c w))
  · exact W17_of_ne m ρ c b fun w e => h ⟨w, e⟩
/-- After the host stretch `hostOps7`. -/
abbrev W18 : Dev nD → Valuation τ sig (Elt F) := fun c => StableHlo.after hostOps7 (W17 m ρ c)
abbrev V18 : (c : Dev nD) → (b : Ref sig .tc) → Buf (Elt F) ((c : Thread nD τ).loc b) := fun c b => W18 m ρ c b
/-- After region 7: its arrays at what the pipeline leaves, every other buffer as entered. -/
def W19 (c : Dev nD) : Valuation τ sig (Elt F) :=
  Pipeline.withArrays spec7 c (W18 m ρ c) fun w => (dat7 (V18 m ρ) c).arrAt w cfg7.N
theorem W19_arr (c : Dev nD) (w : Fin cfg7.W) :
    W19 m ρ c (Proc.devRef .tc (Pipeline.arrRef spec7 w)) = (dat7 (V18 m ρ) c).arrAt w cfg7.N := by
  unfold W19; exact Pipeline.withArrays_arr spec7 launch7.win.arr_inj c _ _ w
theorem W19_of_ne (c : Dev nD) (b : Ref sig .tc) (hb : ∀ w, Pipeline.arrRef spec7 w ≠ b) :
    W19 m ρ c (Proc.devRef .tc b) = W18 m ρ c (Proc.devRef .tc b) := by
  unfold W19; exact Pipeline.withArrays_of_ne spec7 c _ _ b hb
abbrev V19 : (c : Dev nD) → (b : Ref sig .tc) → Buf (Elt F) ((c : Thread nD τ).loc b) := fun c b => W19 m ρ c b
theorem hF7 (c : Dev nD) (w : Fin cfg7.W) : (dat7 (V18 m ρ) c).arrAt w cfg7.N = V19 m ρ c (Pipeline.arrRef spec7 w) :=
  (W19_arr m ρ c w).symm
theorem hrest7 (c : Dev nD) : ∀ b, b ∉ Finset.univ.image (Pipeline.arrRef spec7) → V19 m ρ c b = V18 m ρ c b :=
  fun b hb => W19_of_ne m ρ c b fun w e => hb (Finset.mem_image.mpr ⟨w, Finset.mem_univ _, e⟩)
/-- Region 7 changes no buffer but its output array `main_v73`: an input window's array is handed back as entered. -/
theorem keep7 (c : Dev nD) (b : Ref sig .tc) (hb : b ≠ main_v73) :
    W19 m ρ c (Proc.devRef .tc b) = W18 m ρ c (Proc.devRef .tc b) := by
  by_cases h : ∃ w, Pipeline.arrRef spec7 w = b
  · obtain ⟨w, rfl⟩ := h
    have hin : ∀ w : Fin cfg7.W, Pipeline.arrRef spec7 w ≠ main_v73 → (cfg7.win w).isOut = false := by decide
    exact (W19_arr m ρ c w).trans (((dat7 (V18 m ρ) c).arrAt_in w (hin w hb) _).trans (A_eq7 (V18 m ρ) c w))
  · exact W19_of_ne m ρ c b fun w e => h ⟨w, e⟩
/-- After the host stretch `hostOps8`. -/
abbrev W20 : Dev nD → Valuation τ sig (Elt F) := fun c => StableHlo.after hostOps8 (W19 m ρ c)
abbrev V20 : (c : Dev nD) → (b : Ref sig .tc) → Buf (Elt F) ((c : Thread nD τ).loc b) := fun c b => W20 m ρ c b
/-- After region 8: its arrays at what the pipeline leaves, every other buffer as entered. -/
def W21 (c : Dev nD) : Valuation τ sig (Elt F) :=
  Pipeline.withArrays spec8 c (W20 m ρ c) fun w => (dat8 (V20 m ρ) c).arrAt w cfg8.N
theorem W21_arr (c : Dev nD) (w : Fin cfg8.W) :
    W21 m ρ c (Proc.devRef .tc (Pipeline.arrRef spec8 w)) = (dat8 (V20 m ρ) c).arrAt w cfg8.N := by
  unfold W21; exact Pipeline.withArrays_arr spec8 launch8.win.arr_inj c _ _ w
theorem W21_of_ne (c : Dev nD) (b : Ref sig .tc) (hb : ∀ w, Pipeline.arrRef spec8 w ≠ b) :
    W21 m ρ c (Proc.devRef .tc b) = W20 m ρ c (Proc.devRef .tc b) := by
  unfold W21; exact Pipeline.withArrays_of_ne spec8 c _ _ b hb
abbrev V21 : (c : Dev nD) → (b : Ref sig .tc) → Buf (Elt F) ((c : Thread nD τ).loc b) := fun c b => W21 m ρ c b
theorem hF8 (c : Dev nD) (w : Fin cfg8.W) : (dat8 (V20 m ρ) c).arrAt w cfg8.N = V21 m ρ c (Pipeline.arrRef spec8 w) :=
  (W21_arr m ρ c w).symm
theorem hrest8 (c : Dev nD) : ∀ b, b ∉ Finset.univ.image (Pipeline.arrRef spec8) → V21 m ρ c b = V20 m ρ c b :=
  fun b hb => W21_of_ne m ρ c b fun w e => hb (Finset.mem_image.mpr ⟨w, Finset.mem_univ _, e⟩)
/-- Region 8 changes no buffer but its output array `main_v77`: an input window's array is handed back as entered. -/
theorem keep8 (c : Dev nD) (b : Ref sig .tc) (hb : b ≠ main_v77) :
    W21 m ρ c (Proc.devRef .tc b) = W20 m ρ c (Proc.devRef .tc b) := by
  by_cases h : ∃ w, Pipeline.arrRef spec8 w = b
  · obtain ⟨w, rfl⟩ := h
    have hin : ∀ w : Fin cfg8.W, Pipeline.arrRef spec8 w ≠ main_v77 → (cfg8.win w).isOut = false := by decide
    exact (W21_arr m ρ c w).trans (((dat8 (V20 m ρ) c).arrAt_in w (hin w hb) _).trans (A_eq8 (V20 m ρ) c w))
  · exact W21_of_ne m ρ c b fun w e => h ⟨w, e⟩
/-- After the host stretch `hostOps9`. -/
abbrev W22 : Dev nD → Valuation τ sig (Elt F) := fun c => StableHlo.after hostOps9 (W21 m ρ c)
abbrev V22 : (c : Dev nD) → (b : Ref sig .tc) → Buf (Elt F) ((c : Thread nD τ).loc b) := fun c b => W22 m ρ c b
/-- After region 9: its arrays at what the pipeline leaves, every other buffer as entered. -/
def W23 (c : Dev nD) : Valuation τ sig (Elt F) :=
  Pipeline.withArrays spec9 c (W22 m ρ c) fun w => (dat9 (V22 m ρ) c).arrAt w cfg9.N
theorem W23_arr (c : Dev nD) (w : Fin cfg9.W) :
    W23 m ρ c (Proc.devRef .tc (Pipeline.arrRef spec9 w)) = (dat9 (V22 m ρ) c).arrAt w cfg9.N := by
  unfold W23; exact Pipeline.withArrays_arr spec9 launch9.win.arr_inj c _ _ w
theorem W23_of_ne (c : Dev nD) (b : Ref sig .tc) (hb : ∀ w, Pipeline.arrRef spec9 w ≠ b) :
    W23 m ρ c (Proc.devRef .tc b) = W22 m ρ c (Proc.devRef .tc b) := by
  unfold W23; exact Pipeline.withArrays_of_ne spec9 c _ _ b hb
abbrev V23 : (c : Dev nD) → (b : Ref sig .tc) → Buf (Elt F) ((c : Thread nD τ).loc b) := fun c b => W23 m ρ c b
theorem hF9 (c : Dev nD) (w : Fin cfg9.W) : (dat9 (V22 m ρ) c).arrAt w cfg9.N = V23 m ρ c (Pipeline.arrRef spec9 w) :=
  (W23_arr m ρ c w).symm
theorem hrest9 (c : Dev nD) : ∀ b, b ∉ Finset.univ.image (Pipeline.arrRef spec9) → V23 m ρ c b = V22 m ρ c b :=
  fun b hb => W23_of_ne m ρ c b fun w e => hb (Finset.mem_image.mpr ⟨w, Finset.mem_univ _, e⟩)
/-- Region 9 changes no buffer but its output array `main_v85`: an input window's array is handed back as entered. -/
theorem keep9 (c : Dev nD) (b : Ref sig .tc) (hb : b ≠ main_v85) :
    W23 m ρ c (Proc.devRef .tc b) = W22 m ρ c (Proc.devRef .tc b) := by
  by_cases h : ∃ w, Pipeline.arrRef spec9 w = b
  · obtain ⟨w, rfl⟩ := h
    have hin : ∀ w : Fin cfg9.W, Pipeline.arrRef spec9 w ≠ main_v85 → (cfg9.win w).isOut = false := by decide
    exact (W23_arr m ρ c w).trans (((dat9 (V22 m ρ) c).arrAt_in w (hin w hb) _).trans (A_eq9 (V22 m ρ) c w))
  · exact W23_of_ne m ρ c b fun w e => h ⟨w, e⟩
/-- After the host stretch `hostOps10`. -/
abbrev W24 : Dev nD → Valuation τ sig (Elt F) := fun c => StableHlo.after hostOps10 (W23 m ρ c)
abbrev V24 : (c : Dev nD) → (b : Ref sig .tc) → Buf (Elt F) ((c : Thread nD τ).loc b) := fun c b => W24 m ρ c b
/-- After region 10: its arrays at what the pipeline leaves, every other buffer as entered. -/
def W25 (c : Dev nD) : Valuation τ sig (Elt F) :=
  Pipeline.withArrays spec10 c (W24 m ρ c) fun w => (dat10 (V24 m ρ) c).arrAt w cfg10.N
theorem W25_arr (c : Dev nD) (w : Fin cfg10.W) :
    W25 m ρ c (Proc.devRef .tc (Pipeline.arrRef spec10 w)) = (dat10 (V24 m ρ) c).arrAt w cfg10.N := by
  unfold W25; exact Pipeline.withArrays_arr spec10 launch10.win.arr_inj c _ _ w
theorem W25_of_ne (c : Dev nD) (b : Ref sig .tc) (hb : ∀ w, Pipeline.arrRef spec10 w ≠ b) :
    W25 m ρ c (Proc.devRef .tc b) = W24 m ρ c (Proc.devRef .tc b) := by
  unfold W25; exact Pipeline.withArrays_of_ne spec10 c _ _ b hb
abbrev V25 : (c : Dev nD) → (b : Ref sig .tc) → Buf (Elt F) ((c : Thread nD τ).loc b) := fun c b => W25 m ρ c b
theorem hF10 (c : Dev nD) (w : Fin cfg10.W) : (dat10 (V24 m ρ) c).arrAt w cfg10.N = V25 m ρ c (Pipeline.arrRef spec10 w) :=
  (W25_arr m ρ c w).symm
theorem hrest10 (c : Dev nD) : ∀ b, b ∉ Finset.univ.image (Pipeline.arrRef spec10) → V25 m ρ c b = V24 m ρ c b :=
  fun b hb => W25_of_ne m ρ c b fun w e => hb (Finset.mem_image.mpr ⟨w, Finset.mem_univ _, e⟩)
/-- Region 10 changes no buffer but its output array `main_v89`: an input window's array is handed back as entered. -/
theorem keep10 (c : Dev nD) (b : Ref sig .tc) (hb : b ≠ main_v89) :
    W25 m ρ c (Proc.devRef .tc b) = W24 m ρ c (Proc.devRef .tc b) := by
  by_cases h : ∃ w, Pipeline.arrRef spec10 w = b
  · obtain ⟨w, rfl⟩ := h
    have hin : ∀ w : Fin cfg10.W, Pipeline.arrRef spec10 w ≠ main_v89 → (cfg10.win w).isOut = false := by decide
    exact (W25_arr m ρ c w).trans (((dat10 (V24 m ρ) c).arrAt_in w (hin w hb) _).trans (A_eq10 (V24 m ρ) c w))
  · exact W25_of_ne m ρ c b fun w e => h ⟨w, e⟩
/-- After the host stretch `hostOps11`. -/
abbrev W26 : Dev nD → Valuation τ sig (Elt F) := fun c => StableHlo.after hostOps11 (W25 m ρ c)
abbrev V26 : (c : Dev nD) → (b : Ref sig .tc) → Buf (Elt F) ((c : Thread nD τ).loc b) := fun c b => W26 m ρ c b
/-- After region 11: its arrays at what the pipeline leaves, every other buffer as entered. -/
def W27 (c : Dev nD) : Valuation τ sig (Elt F) :=
  Pipeline.withArrays spec11 c (W26 m ρ c) fun w => (dat11 (V26 m ρ) c).arrAt w cfg11.N
theorem W27_arr (c : Dev nD) (w : Fin cfg11.W) :
    W27 m ρ c (Proc.devRef .tc (Pipeline.arrRef spec11 w)) = (dat11 (V26 m ρ) c).arrAt w cfg11.N := by
  unfold W27; exact Pipeline.withArrays_arr spec11 launch11.win.arr_inj c _ _ w
theorem W27_of_ne (c : Dev nD) (b : Ref sig .tc) (hb : ∀ w, Pipeline.arrRef spec11 w ≠ b) :
    W27 m ρ c (Proc.devRef .tc b) = W26 m ρ c (Proc.devRef .tc b) := by
  unfold W27; exact Pipeline.withArrays_of_ne spec11 c _ _ b hb
abbrev V27 : (c : Dev nD) → (b : Ref sig .tc) → Buf (Elt F) ((c : Thread nD τ).loc b) := fun c b => W27 m ρ c b
theorem hF11 (c : Dev nD) (w : Fin cfg11.W) : (dat11 (V26 m ρ) c).arrAt w cfg11.N = V27 m ρ c (Pipeline.arrRef spec11 w) :=
  (W27_arr m ρ c w).symm
theorem hrest11 (c : Dev nD) : ∀ b, b ∉ Finset.univ.image (Pipeline.arrRef spec11) → V27 m ρ c b = V26 m ρ c b :=
  fun b hb => W27_of_ne m ρ c b fun w e => hb (Finset.mem_image.mpr ⟨w, Finset.mem_univ _, e⟩)
/-- Region 11 changes no buffer but its output array `main_v97`: an input window's array is handed back as entered. -/
theorem keep11 (c : Dev nD) (b : Ref sig .tc) (hb : b ≠ main_v97) :
    W27 m ρ c (Proc.devRef .tc b) = W26 m ρ c (Proc.devRef .tc b) := by
  by_cases h : ∃ w, Pipeline.arrRef spec11 w = b
  · obtain ⟨w, rfl⟩ := h
    have hin : ∀ w : Fin cfg11.W, Pipeline.arrRef spec11 w ≠ main_v97 → (cfg11.win w).isOut = false := by decide
    exact (W27_arr m ρ c w).trans (((dat11 (V26 m ρ) c).arrAt_in w (hin w hb) _).trans (A_eq11 (V26 m ρ) c w))
  · exact W27_of_ne m ρ c b fun w e => h ⟨w, e⟩
/-- After the host stretch `hostOps12`. -/
abbrev W28 : Dev nD → Valuation τ sig (Elt F) := fun c => StableHlo.after hostOps12 (W27 m ρ c)
abbrev V28 : (c : Dev nD) → (b : Ref sig .tc) → Buf (Elt F) ((c : Thread nD τ).loc b) := fun c b => W28 m ρ c b
/-- After region 12: its arrays at what the pipeline leaves, every other buffer as entered. -/
def W29 (c : Dev nD) : Valuation τ sig (Elt F) :=
  Pipeline.withArrays spec12 c (W28 m ρ c) fun w => (dat12 (V28 m ρ) c).arrAt w cfg12.N
theorem W29_arr (c : Dev nD) (w : Fin cfg12.W) :
    W29 m ρ c (Proc.devRef .tc (Pipeline.arrRef spec12 w)) = (dat12 (V28 m ρ) c).arrAt w cfg12.N := by
  unfold W29; exact Pipeline.withArrays_arr spec12 launch12.win.arr_inj c _ _ w
theorem W29_of_ne (c : Dev nD) (b : Ref sig .tc) (hb : ∀ w, Pipeline.arrRef spec12 w ≠ b) :
    W29 m ρ c (Proc.devRef .tc b) = W28 m ρ c (Proc.devRef .tc b) := by
  unfold W29; exact Pipeline.withArrays_of_ne spec12 c _ _ b hb
abbrev V29 : (c : Dev nD) → (b : Ref sig .tc) → Buf (Elt F) ((c : Thread nD τ).loc b) := fun c b => W29 m ρ c b
theorem hF12 (c : Dev nD) (w : Fin cfg12.W) : (dat12 (V28 m ρ) c).arrAt w cfg12.N = V29 m ρ c (Pipeline.arrRef spec12 w) :=
  (W29_arr m ρ c w).symm
theorem hrest12 (c : Dev nD) : ∀ b, b ∉ Finset.univ.image (Pipeline.arrRef spec12) → V29 m ρ c b = V28 m ρ c b :=
  fun b hb => W29_of_ne m ρ c b fun w e => hb (Finset.mem_image.mpr ⟨w, Finset.mem_univ _, e⟩)
/-- Region 12 changes no buffer but its output array `main_v101`: an input window's array is handed back as entered. -/
theorem keep12 (c : Dev nD) (b : Ref sig .tc) (hb : b ≠ main_v101) :
    W29 m ρ c (Proc.devRef .tc b) = W28 m ρ c (Proc.devRef .tc b) := by
  by_cases h : ∃ w, Pipeline.arrRef spec12 w = b
  · obtain ⟨w, rfl⟩ := h
    have hin : ∀ w : Fin cfg12.W, Pipeline.arrRef spec12 w ≠ main_v101 → (cfg12.win w).isOut = false := by decide
    exact (W29_arr m ρ c w).trans (((dat12 (V28 m ρ) c).arrAt_in w (hin w hb) _).trans (A_eq12 (V28 m ρ) c w))
  · exact W29_of_ne m ρ c b fun w e => h ⟨w, e⟩
/-- After the host stretch `hostOps13`. -/
abbrev W30 : Dev nD → Valuation τ sig (Elt F) := fun c => StableHlo.after hostOps13 (W29 m ρ c)
abbrev V30 : (c : Dev nD) → (b : Ref sig .tc) → Buf (Elt F) ((c : Thread nD τ).loc b) := fun c b => W30 m ρ c b
/-- After region 13: its arrays at what the pipeline leaves, every other buffer as entered. -/
def W31 (c : Dev nD) : Valuation τ sig (Elt F) :=
  Pipeline.withArrays spec13 c (W30 m ρ c) fun w => (dat13 (V30 m ρ) c).arrAt w cfg13.N
theorem W31_arr (c : Dev nD) (w : Fin cfg13.W) :
    W31 m ρ c (Proc.devRef .tc (Pipeline.arrRef spec13 w)) = (dat13 (V30 m ρ) c).arrAt w cfg13.N := by
  unfold W31; exact Pipeline.withArrays_arr spec13 launch13.win.arr_inj c _ _ w
theorem W31_of_ne (c : Dev nD) (b : Ref sig .tc) (hb : ∀ w, Pipeline.arrRef spec13 w ≠ b) :
    W31 m ρ c (Proc.devRef .tc b) = W30 m ρ c (Proc.devRef .tc b) := by
  unfold W31; exact Pipeline.withArrays_of_ne spec13 c _ _ b hb
abbrev V31 : (c : Dev nD) → (b : Ref sig .tc) → Buf (Elt F) ((c : Thread nD τ).loc b) := fun c b => W31 m ρ c b
theorem hF13 (c : Dev nD) (w : Fin cfg13.W) : (dat13 (V30 m ρ) c).arrAt w cfg13.N = V31 m ρ c (Pipeline.arrRef spec13 w) :=
  (W31_arr m ρ c w).symm
theorem hrest13 (c : Dev nD) : ∀ b, b ∉ Finset.univ.image (Pipeline.arrRef spec13) → V31 m ρ c b = V30 m ρ c b :=
  fun b hb => W31_of_ne m ρ c b fun w e => hb (Finset.mem_image.mpr ⟨w, Finset.mem_univ _, e⟩)
/-- Region 13 changes no buffer but its output array `main_v109`: an input window's array is handed back as entered. -/
theorem keep13 (c : Dev nD) (b : Ref sig .tc) (hb : b ≠ main_v109) :
    W31 m ρ c (Proc.devRef .tc b) = W30 m ρ c (Proc.devRef .tc b) := by
  by_cases h : ∃ w, Pipeline.arrRef spec13 w = b
  · obtain ⟨w, rfl⟩ := h
    have hin : ∀ w : Fin cfg13.W, Pipeline.arrRef spec13 w ≠ main_v109 → (cfg13.win w).isOut = false := by decide
    exact (W31_arr m ρ c w).trans (((dat13 (V30 m ρ) c).arrAt_in w (hin w hb) _).trans (A_eq13 (V30 m ρ) c w))
  · exact W31_of_ne m ρ c b fun w e => h ⟨w, e⟩
/-- After the host stretch `hostOps14`. -/
abbrev W32 : Dev nD → Valuation τ sig (Elt F) := fun c => StableHlo.after hostOps14 (W31 m ρ c)
abbrev V32 : (c : Dev nD) → (b : Ref sig .tc) → Buf (Elt F) ((c : Thread nD τ).loc b) := fun c b => W32 m ρ c b
/-- After region 14: its arrays at what the pipeline leaves, every other buffer as entered. -/
def W33 (c : Dev nD) : Valuation τ sig (Elt F) :=
  Pipeline.withArrays spec14 c (W32 m ρ c) fun w => (dat14 (V32 m ρ) c).arrAt w cfg14.N
theorem W33_arr (c : Dev nD) (w : Fin cfg14.W) :
    W33 m ρ c (Proc.devRef .tc (Pipeline.arrRef spec14 w)) = (dat14 (V32 m ρ) c).arrAt w cfg14.N := by
  unfold W33; exact Pipeline.withArrays_arr spec14 launch14.win.arr_inj c _ _ w
theorem W33_of_ne (c : Dev nD) (b : Ref sig .tc) (hb : ∀ w, Pipeline.arrRef spec14 w ≠ b) :
    W33 m ρ c (Proc.devRef .tc b) = W32 m ρ c (Proc.devRef .tc b) := by
  unfold W33; exact Pipeline.withArrays_of_ne spec14 c _ _ b hb
abbrev V33 : (c : Dev nD) → (b : Ref sig .tc) → Buf (Elt F) ((c : Thread nD τ).loc b) := fun c b => W33 m ρ c b
theorem hF14 (c : Dev nD) (w : Fin cfg14.W) : (dat14 (V32 m ρ) c).arrAt w cfg14.N = V33 m ρ c (Pipeline.arrRef spec14 w) :=
  (W33_arr m ρ c w).symm
theorem hrest14 (c : Dev nD) : ∀ b, b ∉ Finset.univ.image (Pipeline.arrRef spec14) → V33 m ρ c b = V32 m ρ c b :=
  fun b hb => W33_of_ne m ρ c b fun w e => hb (Finset.mem_image.mpr ⟨w, Finset.mem_univ _, e⟩)
/-- Region 14 changes no buffer but its output array `main_v113`: an input window's array is handed back as entered. -/
theorem keep14 (c : Dev nD) (b : Ref sig .tc) (hb : b ≠ main_v113) :
    W33 m ρ c (Proc.devRef .tc b) = W32 m ρ c (Proc.devRef .tc b) := by
  by_cases h : ∃ w, Pipeline.arrRef spec14 w = b
  · obtain ⟨w, rfl⟩ := h
    have hin : ∀ w : Fin cfg14.W, Pipeline.arrRef spec14 w ≠ main_v113 → (cfg14.win w).isOut = false := by decide
    exact (W33_arr m ρ c w).trans (((dat14 (V32 m ρ) c).arrAt_in w (hin w hb) _).trans (A_eq14 (V32 m ρ) c w))
  · exact W33_of_ne m ρ c b fun w e => h ⟨w, e⟩
/-- After region 15: its arrays at what the pipeline leaves, every other buffer as entered. -/
def W34 (c : Dev nD) : Valuation τ sig (Elt F) :=
  Pipeline.withArrays spec15 c (W33 m ρ c) fun w => (dat15 (V33 m ρ) c).arrAt w cfg15.N
theorem W34_arr (c : Dev nD) (w : Fin cfg15.W) :
    W34 m ρ c (Proc.devRef .tc (Pipeline.arrRef spec15 w)) = (dat15 (V33 m ρ) c).arrAt w cfg15.N := by
  unfold W34; exact Pipeline.withArrays_arr spec15 launch15.win.arr_inj c _ _ w
theorem W34_of_ne (c : Dev nD) (b : Ref sig .tc) (hb : ∀ w, Pipeline.arrRef spec15 w ≠ b) :
    W34 m ρ c (Proc.devRef .tc b) = W33 m ρ c (Proc.devRef .tc b) := by
  unfold W34; exact Pipeline.withArrays_of_ne spec15 c _ _ b hb
abbrev V34 : (c : Dev nD) → (b : Ref sig .tc) → Buf (Elt F) ((c : Thread nD τ).loc b) := fun c b => W34 m ρ c b
theorem hF15 (c : Dev nD) (w : Fin cfg15.W) : (dat15 (V33 m ρ) c).arrAt w cfg15.N = V34 m ρ c (Pipeline.arrRef spec15 w) :=
  (W34_arr m ρ c w).symm
theorem hrest15 (c : Dev nD) : ∀ b, b ∉ Finset.univ.image (Pipeline.arrRef spec15) → V34 m ρ c b = V33 m ρ c b :=
  fun b hb => W34_of_ne m ρ c b fun w e => hb (Finset.mem_image.mpr ⟨w, Finset.mem_univ _, e⟩)
/-- Region 15 changes no buffer but its output array `main_v114`: an input window's array is handed back as entered. -/
theorem keep15 (c : Dev nD) (b : Ref sig .tc) (hb : b ≠ main_v114) :
    W34 m ρ c (Proc.devRef .tc b) = W33 m ρ c (Proc.devRef .tc b) := by
  by_cases h : ∃ w, Pipeline.arrRef spec15 w = b
  · obtain ⟨w, rfl⟩ := h
    have hin : ∀ w : Fin cfg15.W, Pipeline.arrRef spec15 w ≠ main_v114 → (cfg15.win w).isOut = false := by decide
    exact (W34_arr m ρ c w).trans (((dat15 (V33 m ρ) c).arrAt_in w (hin w hb) _).trans (A_eq15 (V33 m ρ) c w))
  · exact W34_of_ne m ρ c b fun w e => h ⟨w, e⟩

/-! ## The arguments end as launched -/
theorem W34_main_arg0 (c : Dev nD) : W34 m ρ c (Proc.devRef .tc main_arg0) = m ((c : Thread nD τ).loc main_arg0) :=
  (keep15 m ρ c main_arg0 (by decide)).trans <|
  (keep14 m ρ c main_arg0 (by decide)).trans <|
  (hostOps14_keep (W31 m ρ c) main_arg0 (by decide)).trans <|
  (keep13 m ρ c main_arg0 (by decide)).trans <|
  (hostOps13_keep (W29 m ρ c) main_arg0 (by decide)).trans <|
  (keep12 m ρ c main_arg0 (by decide)).trans <|
  (hostOps12_keep (W27 m ρ c) main_arg0 (by decide)).trans <|
  (keep11 m ρ c main_arg0 (by decide)).trans <|
  (hostOps11_keep (W25 m ρ c) main_arg0 (by decide)).trans <|
  (keep10 m ρ c main_arg0 (by decide)).trans <|
  (hostOps10_keep (W23 m ρ c) main_arg0 (by decide)).trans <|
  (keep9 m ρ c main_arg0 (by decide)).trans <|
  (hostOps9_keep (W21 m ρ c) main_arg0 (by decide)).trans <|
  (keep8 m ρ c main_arg0 (by decide)).trans <|
  (hostOps8_keep (W19 m ρ c) main_arg0 (by decide)).trans <|
  (keep7 m ρ c main_arg0 (by decide)).trans <|
  (hostOps7_keep (W17 m ρ c) main_arg0 (by decide)).trans <|
  (keep6 m ρ c main_arg0 (by decide)).trans <|
  (hostOps6_keep (W15 m ρ c) main_arg0 (by decide)).trans <|
  (keep5 m ρ c main_arg0 (by decide)).trans <|
  (hostOps5_keep (W13 m ρ c) main_arg0 (by decide)).trans <|
  (keep4 m ρ c main_arg0 (by decide)).trans <|
  (hostOps4_keep (W11 m ρ c) main_arg0 (by decide)).trans <|
  (keep3 m ρ c main_arg0 (by decide)).trans <|
  (hostOps3_keep (W9 m ρ c) main_arg0 (by decide)).trans <|
  (keep2 m ρ c main_arg0 (by decide)).trans <|
  (hostOps2_keep (W7 m ρ c) main_arg0 (by decide)).trans <|
  (keep1 m ρ c main_arg0 (by decide)).trans <|
  (keep0 m ρ c main_arg0 (by decide)).trans <|
  (hostOps0_4_keep (W4 m ρ c) main_arg0 (by decide)).trans <|
  (hostOps0_3_keep (W3 m ρ c) main_arg0 (by decide)).trans <|
  (hostOps0_2_keep (W2 m ρ c) main_arg0 (by decide)).trans <|
  (hostOps0_1_keep (W1 m ρ c) main_arg0 (by decide)).trans <|
  (hostOps0_keep (W0 m ρ c) main_arg0 (by decide)).trans <|
  rfl
theorem W34_main_arg1 (c : Dev nD) : W34 m ρ c (Proc.devRef .tc main_arg1) = m ((c : Thread nD τ).loc main_arg1) :=
  (keep15 m ρ c main_arg1 (by decide)).trans <|
  (keep14 m ρ c main_arg1 (by decide)).trans <|
  (hostOps14_keep (W31 m ρ c) main_arg1 (by decide)).trans <|
  (keep13 m ρ c main_arg1 (by decide)).trans <|
  (hostOps13_keep (W29 m ρ c) main_arg1 (by decide)).trans <|
  (keep12 m ρ c main_arg1 (by decide)).trans <|
  (hostOps12_keep (W27 m ρ c) main_arg1 (by decide)).trans <|
  (keep11 m ρ c main_arg1 (by decide)).trans <|
  (hostOps11_keep (W25 m ρ c) main_arg1 (by decide)).trans <|
  (keep10 m ρ c main_arg1 (by decide)).trans <|
  (hostOps10_keep (W23 m ρ c) main_arg1 (by decide)).trans <|
  (keep9 m ρ c main_arg1 (by decide)).trans <|
  (hostOps9_keep (W21 m ρ c) main_arg1 (by decide)).trans <|
  (keep8 m ρ c main_arg1 (by decide)).trans <|
  (hostOps8_keep (W19 m ρ c) main_arg1 (by decide)).trans <|
  (keep7 m ρ c main_arg1 (by decide)).trans <|
  (hostOps7_keep (W17 m ρ c) main_arg1 (by decide)).trans <|
  (keep6 m ρ c main_arg1 (by decide)).trans <|
  (hostOps6_keep (W15 m ρ c) main_arg1 (by decide)).trans <|
  (keep5 m ρ c main_arg1 (by decide)).trans <|
  (hostOps5_keep (W13 m ρ c) main_arg1 (by decide)).trans <|
  (keep4 m ρ c main_arg1 (by decide)).trans <|
  (hostOps4_keep (W11 m ρ c) main_arg1 (by decide)).trans <|
  (keep3 m ρ c main_arg1 (by decide)).trans <|
  (hostOps3_keep (W9 m ρ c) main_arg1 (by decide)).trans <|
  (keep2 m ρ c main_arg1 (by decide)).trans <|
  (hostOps2_keep (W7 m ρ c) main_arg1 (by decide)).trans <|
  (keep1 m ρ c main_arg1 (by decide)).trans <|
  (keep0 m ρ c main_arg1 (by decide)).trans <|
  (hostOps0_4_keep (W4 m ρ c) main_arg1 (by decide)).trans <|
  (hostOps0_3_keep (W3 m ρ c) main_arg1 (by decide)).trans <|
  (hostOps0_2_keep (W2 m ρ c) main_arg1 (by decide)).trans <|
  (hostOps0_1_keep (W1 m ρ c) main_arg1 (by decide)).trans <|
  (hostOps0_keep (W0 m ρ c) main_arg1 (by decide)).trans <|
  rfl
theorem W34_main_arg2 (c : Dev nD) : W34 m ρ c (Proc.devRef .tc main_arg2) = m ((c : Thread nD τ).loc main_arg2) :=
  (keep15 m ρ c main_arg2 (by decide)).trans <|
  (keep14 m ρ c main_arg2 (by decide)).trans <|
  (hostOps14_keep (W31 m ρ c) main_arg2 (by decide)).trans <|
  (keep13 m ρ c main_arg2 (by decide)).trans <|
  (hostOps13_keep (W29 m ρ c) main_arg2 (by decide)).trans <|
  (keep12 m ρ c main_arg2 (by decide)).trans <|
  (hostOps12_keep (W27 m ρ c) main_arg2 (by decide)).trans <|
  (keep11 m ρ c main_arg2 (by decide)).trans <|
  (hostOps11_keep (W25 m ρ c) main_arg2 (by decide)).trans <|
  (keep10 m ρ c main_arg2 (by decide)).trans <|
  (hostOps10_keep (W23 m ρ c) main_arg2 (by decide)).trans <|
  (keep9 m ρ c main_arg2 (by decide)).trans <|
  (hostOps9_keep (W21 m ρ c) main_arg2 (by decide)).trans <|
  (keep8 m ρ c main_arg2 (by decide)).trans <|
  (hostOps8_keep (W19 m ρ c) main_arg2 (by decide)).trans <|
  (keep7 m ρ c main_arg2 (by decide)).trans <|
  (hostOps7_keep (W17 m ρ c) main_arg2 (by decide)).trans <|
  (keep6 m ρ c main_arg2 (by decide)).trans <|
  (hostOps6_keep (W15 m ρ c) main_arg2 (by decide)).trans <|
  (keep5 m ρ c main_arg2 (by decide)).trans <|
  (hostOps5_keep (W13 m ρ c) main_arg2 (by decide)).trans <|
  (keep4 m ρ c main_arg2 (by decide)).trans <|
  (hostOps4_keep (W11 m ρ c) main_arg2 (by decide)).trans <|
  (keep3 m ρ c main_arg2 (by decide)).trans <|
  (hostOps3_keep (W9 m ρ c) main_arg2 (by decide)).trans <|
  (keep2 m ρ c main_arg2 (by decide)).trans <|
  (hostOps2_keep (W7 m ρ c) main_arg2 (by decide)).trans <|
  (keep1 m ρ c main_arg2 (by decide)).trans <|
  (keep0 m ρ c main_arg2 (by decide)).trans <|
  (hostOps0_4_keep (W4 m ρ c) main_arg2 (by decide)).trans <|
  (hostOps0_3_keep (W3 m ρ c) main_arg2 (by decide)).trans <|
  (hostOps0_2_keep (W2 m ρ c) main_arg2 (by decide)).trans <|
  (hostOps0_1_keep (W1 m ρ c) main_arg2 (by decide)).trans <|
  (hostOps0_keep (W0 m ρ c) main_arg2 (by decide)).trans <|
  rfl
theorem W34_main_arg3 (c : Dev nD) : W34 m ρ c (Proc.devRef .tc main_arg3) = m ((c : Thread nD τ).loc main_arg3) :=
  (keep15 m ρ c main_arg3 (by decide)).trans <|
  (keep14 m ρ c main_arg3 (by decide)).trans <|
  (hostOps14_keep (W31 m ρ c) main_arg3 (by decide)).trans <|
  (keep13 m ρ c main_arg3 (by decide)).trans <|
  (hostOps13_keep (W29 m ρ c) main_arg3 (by decide)).trans <|
  (keep12 m ρ c main_arg3 (by decide)).trans <|
  (hostOps12_keep (W27 m ρ c) main_arg3 (by decide)).trans <|
  (keep11 m ρ c main_arg3 (by decide)).trans <|
  (hostOps11_keep (W25 m ρ c) main_arg3 (by decide)).trans <|
  (keep10 m ρ c main_arg3 (by decide)).trans <|
  (hostOps10_keep (W23 m ρ c) main_arg3 (by decide)).trans <|
  (keep9 m ρ c main_arg3 (by decide)).trans <|
  (hostOps9_keep (W21 m ρ c) main_arg3 (by decide)).trans <|
  (keep8 m ρ c main_arg3 (by decide)).trans <|
  (hostOps8_keep (W19 m ρ c) main_arg3 (by decide)).trans <|
  (keep7 m ρ c main_arg3 (by decide)).trans <|
  (hostOps7_keep (W17 m ρ c) main_arg3 (by decide)).trans <|
  (keep6 m ρ c main_arg3 (by decide)).trans <|
  (hostOps6_keep (W15 m ρ c) main_arg3 (by decide)).trans <|
  (keep5 m ρ c main_arg3 (by decide)).trans <|
  (hostOps5_keep (W13 m ρ c) main_arg3 (by decide)).trans <|
  (keep4 m ρ c main_arg3 (by decide)).trans <|
  (hostOps4_keep (W11 m ρ c) main_arg3 (by decide)).trans <|
  (keep3 m ρ c main_arg3 (by decide)).trans <|
  (hostOps3_keep (W9 m ρ c) main_arg3 (by decide)).trans <|
  (keep2 m ρ c main_arg3 (by decide)).trans <|
  (hostOps2_keep (W7 m ρ c) main_arg3 (by decide)).trans <|
  (keep1 m ρ c main_arg3 (by decide)).trans <|
  (keep0 m ρ c main_arg3 (by decide)).trans <|
  (hostOps0_4_keep (W4 m ρ c) main_arg3 (by decide)).trans <|
  (hostOps0_3_keep (W3 m ρ c) main_arg3 (by decide)).trans <|
  (hostOps0_2_keep (W2 m ρ c) main_arg3 (by decide)).trans <|
  (hostOps0_1_keep (W1 m ρ c) main_arg3 (by decide)).trans <|
  (hostOps0_keep (W0 m ρ c) main_arg3 (by decide)).trans <|
  rfl
theorem W34_main_arg4 (c : Dev nD) : W34 m ρ c (Proc.devRef .tc main_arg4) = m ((c : Thread nD τ).loc main_arg4) :=
  (keep15 m ρ c main_arg4 (by decide)).trans <|
  (keep14 m ρ c main_arg4 (by decide)).trans <|
  (hostOps14_keep (W31 m ρ c) main_arg4 (by decide)).trans <|
  (keep13 m ρ c main_arg4 (by decide)).trans <|
  (hostOps13_keep (W29 m ρ c) main_arg4 (by decide)).trans <|
  (keep12 m ρ c main_arg4 (by decide)).trans <|
  (hostOps12_keep (W27 m ρ c) main_arg4 (by decide)).trans <|
  (keep11 m ρ c main_arg4 (by decide)).trans <|
  (hostOps11_keep (W25 m ρ c) main_arg4 (by decide)).trans <|
  (keep10 m ρ c main_arg4 (by decide)).trans <|
  (hostOps10_keep (W23 m ρ c) main_arg4 (by decide)).trans <|
  (keep9 m ρ c main_arg4 (by decide)).trans <|
  (hostOps9_keep (W21 m ρ c) main_arg4 (by decide)).trans <|
  (keep8 m ρ c main_arg4 (by decide)).trans <|
  (hostOps8_keep (W19 m ρ c) main_arg4 (by decide)).trans <|
  (keep7 m ρ c main_arg4 (by decide)).trans <|
  (hostOps7_keep (W17 m ρ c) main_arg4 (by decide)).trans <|
  (keep6 m ρ c main_arg4 (by decide)).trans <|
  (hostOps6_keep (W15 m ρ c) main_arg4 (by decide)).trans <|
  (keep5 m ρ c main_arg4 (by decide)).trans <|
  (hostOps5_keep (W13 m ρ c) main_arg4 (by decide)).trans <|
  (keep4 m ρ c main_arg4 (by decide)).trans <|
  (hostOps4_keep (W11 m ρ c) main_arg4 (by decide)).trans <|
  (keep3 m ρ c main_arg4 (by decide)).trans <|
  (hostOps3_keep (W9 m ρ c) main_arg4 (by decide)).trans <|
  (keep2 m ρ c main_arg4 (by decide)).trans <|
  (hostOps2_keep (W7 m ρ c) main_arg4 (by decide)).trans <|
  (keep1 m ρ c main_arg4 (by decide)).trans <|
  (keep0 m ρ c main_arg4 (by decide)).trans <|
  (hostOps0_4_keep (W4 m ρ c) main_arg4 (by decide)).trans <|
  (hostOps0_3_keep (W3 m ρ c) main_arg4 (by decide)).trans <|
  (hostOps0_2_keep (W2 m ρ c) main_arg4 (by decide)).trans <|
  (hostOps0_1_keep (W1 m ρ c) main_arg4 (by decide)).trans <|
  (hostOps0_keep (W0 m ρ c) main_arg4 (by decide)).trans <|
  rfl
theorem W34_main_arg5 (c : Dev nD) : W34 m ρ c (Proc.devRef .tc main_arg5) = m ((c : Thread nD τ).loc main_arg5) :=
  (keep15 m ρ c main_arg5 (by decide)).trans <|
  (keep14 m ρ c main_arg5 (by decide)).trans <|
  (hostOps14_keep (W31 m ρ c) main_arg5 (by decide)).trans <|
  (keep13 m ρ c main_arg5 (by decide)).trans <|
  (hostOps13_keep (W29 m ρ c) main_arg5 (by decide)).trans <|
  (keep12 m ρ c main_arg5 (by decide)).trans <|
  (hostOps12_keep (W27 m ρ c) main_arg5 (by decide)).trans <|
  (keep11 m ρ c main_arg5 (by decide)).trans <|
  (hostOps11_keep (W25 m ρ c) main_arg5 (by decide)).trans <|
  (keep10 m ρ c main_arg5 (by decide)).trans <|
  (hostOps10_keep (W23 m ρ c) main_arg5 (by decide)).trans <|
  (keep9 m ρ c main_arg5 (by decide)).trans <|
  (hostOps9_keep (W21 m ρ c) main_arg5 (by decide)).trans <|
  (keep8 m ρ c main_arg5 (by decide)).trans <|
  (hostOps8_keep (W19 m ρ c) main_arg5 (by decide)).trans <|
  (keep7 m ρ c main_arg5 (by decide)).trans <|
  (hostOps7_keep (W17 m ρ c) main_arg5 (by decide)).trans <|
  (keep6 m ρ c main_arg5 (by decide)).trans <|
  (hostOps6_keep (W15 m ρ c) main_arg5 (by decide)).trans <|
  (keep5 m ρ c main_arg5 (by decide)).trans <|
  (hostOps5_keep (W13 m ρ c) main_arg5 (by decide)).trans <|
  (keep4 m ρ c main_arg5 (by decide)).trans <|
  (hostOps4_keep (W11 m ρ c) main_arg5 (by decide)).trans <|
  (keep3 m ρ c main_arg5 (by decide)).trans <|
  (hostOps3_keep (W9 m ρ c) main_arg5 (by decide)).trans <|
  (keep2 m ρ c main_arg5 (by decide)).trans <|
  (hostOps2_keep (W7 m ρ c) main_arg5 (by decide)).trans <|
  (keep1 m ρ c main_arg5 (by decide)).trans <|
  (keep0 m ρ c main_arg5 (by decide)).trans <|
  (hostOps0_4_keep (W4 m ρ c) main_arg5 (by decide)).trans <|
  (hostOps0_3_keep (W3 m ρ c) main_arg5 (by decide)).trans <|
  (hostOps0_2_keep (W2 m ρ c) main_arg5 (by decide)).trans <|
  (hostOps0_1_keep (W1 m ρ c) main_arg5 (by decide)).trans <|
  (hostOps0_keep (W0 m ρ c) main_arg5 (by decide)).trans <|
  rfl
theorem W34_main_arg6 (c : Dev nD) : W34 m ρ c (Proc.devRef .tc main_arg6) = m ((c : Thread nD τ).loc main_arg6) :=
  (keep15 m ρ c main_arg6 (by decide)).trans <|
  (keep14 m ρ c main_arg6 (by decide)).trans <|
  (hostOps14_keep (W31 m ρ c) main_arg6 (by decide)).trans <|
  (keep13 m ρ c main_arg6 (by decide)).trans <|
  (hostOps13_keep (W29 m ρ c) main_arg6 (by decide)).trans <|
  (keep12 m ρ c main_arg6 (by decide)).trans <|
  (hostOps12_keep (W27 m ρ c) main_arg6 (by decide)).trans <|
  (keep11 m ρ c main_arg6 (by decide)).trans <|
  (hostOps11_keep (W25 m ρ c) main_arg6 (by decide)).trans <|
  (keep10 m ρ c main_arg6 (by decide)).trans <|
  (hostOps10_keep (W23 m ρ c) main_arg6 (by decide)).trans <|
  (keep9 m ρ c main_arg6 (by decide)).trans <|
  (hostOps9_keep (W21 m ρ c) main_arg6 (by decide)).trans <|
  (keep8 m ρ c main_arg6 (by decide)).trans <|
  (hostOps8_keep (W19 m ρ c) main_arg6 (by decide)).trans <|
  (keep7 m ρ c main_arg6 (by decide)).trans <|
  (hostOps7_keep (W17 m ρ c) main_arg6 (by decide)).trans <|
  (keep6 m ρ c main_arg6 (by decide)).trans <|
  (hostOps6_keep (W15 m ρ c) main_arg6 (by decide)).trans <|
  (keep5 m ρ c main_arg6 (by decide)).trans <|
  (hostOps5_keep (W13 m ρ c) main_arg6 (by decide)).trans <|
  (keep4 m ρ c main_arg6 (by decide)).trans <|
  (hostOps4_keep (W11 m ρ c) main_arg6 (by decide)).trans <|
  (keep3 m ρ c main_arg6 (by decide)).trans <|
  (hostOps3_keep (W9 m ρ c) main_arg6 (by decide)).trans <|
  (keep2 m ρ c main_arg6 (by decide)).trans <|
  (hostOps2_keep (W7 m ρ c) main_arg6 (by decide)).trans <|
  (keep1 m ρ c main_arg6 (by decide)).trans <|
  (keep0 m ρ c main_arg6 (by decide)).trans <|
  (hostOps0_4_keep (W4 m ρ c) main_arg6 (by decide)).trans <|
  (hostOps0_3_keep (W3 m ρ c) main_arg6 (by decide)).trans <|
  (hostOps0_2_keep (W2 m ρ c) main_arg6 (by decide)).trans <|
  (hostOps0_1_keep (W1 m ρ c) main_arg6 (by decide)).trans <|
  (hostOps0_keep (W0 m ρ c) main_arg6 (by decide)).trans <|
  rfl
theorem W34_main_arg7 (c : Dev nD) : W34 m ρ c (Proc.devRef .tc main_arg7) = m ((c : Thread nD τ).loc main_arg7) :=
  (keep15 m ρ c main_arg7 (by decide)).trans <|
  (keep14 m ρ c main_arg7 (by decide)).trans <|
  (hostOps14_keep (W31 m ρ c) main_arg7 (by decide)).trans <|
  (keep13 m ρ c main_arg7 (by decide)).trans <|
  (hostOps13_keep (W29 m ρ c) main_arg7 (by decide)).trans <|
  (keep12 m ρ c main_arg7 (by decide)).trans <|
  (hostOps12_keep (W27 m ρ c) main_arg7 (by decide)).trans <|
  (keep11 m ρ c main_arg7 (by decide)).trans <|
  (hostOps11_keep (W25 m ρ c) main_arg7 (by decide)).trans <|
  (keep10 m ρ c main_arg7 (by decide)).trans <|
  (hostOps10_keep (W23 m ρ c) main_arg7 (by decide)).trans <|
  (keep9 m ρ c main_arg7 (by decide)).trans <|
  (hostOps9_keep (W21 m ρ c) main_arg7 (by decide)).trans <|
  (keep8 m ρ c main_arg7 (by decide)).trans <|
  (hostOps8_keep (W19 m ρ c) main_arg7 (by decide)).trans <|
  (keep7 m ρ c main_arg7 (by decide)).trans <|
  (hostOps7_keep (W17 m ρ c) main_arg7 (by decide)).trans <|
  (keep6 m ρ c main_arg7 (by decide)).trans <|
  (hostOps6_keep (W15 m ρ c) main_arg7 (by decide)).trans <|
  (keep5 m ρ c main_arg7 (by decide)).trans <|
  (hostOps5_keep (W13 m ρ c) main_arg7 (by decide)).trans <|
  (keep4 m ρ c main_arg7 (by decide)).trans <|
  (hostOps4_keep (W11 m ρ c) main_arg7 (by decide)).trans <|
  (keep3 m ρ c main_arg7 (by decide)).trans <|
  (hostOps3_keep (W9 m ρ c) main_arg7 (by decide)).trans <|
  (keep2 m ρ c main_arg7 (by decide)).trans <|
  (hostOps2_keep (W7 m ρ c) main_arg7 (by decide)).trans <|
  (keep1 m ρ c main_arg7 (by decide)).trans <|
  (keep0 m ρ c main_arg7 (by decide)).trans <|
  (hostOps0_4_keep (W4 m ρ c) main_arg7 (by decide)).trans <|
  (hostOps0_3_keep (W3 m ρ c) main_arg7 (by decide)).trans <|
  (hostOps0_2_keep (W2 m ρ c) main_arg7 (by decide)).trans <|
  (hostOps0_1_keep (W1 m ρ c) main_arg7 (by decide)).trans <|
  (hostOps0_keep (W0 m ρ c) main_arg7 (by decide)).trans <|
  rfl
theorem W34_main_arg8 (c : Dev nD) : W34 m ρ c (Proc.devRef .tc main_arg8) = m ((c : Thread nD τ).loc main_arg8) :=
  (keep15 m ρ c main_arg8 (by decide)).trans <|
  (keep14 m ρ c main_arg8 (by decide)).trans <|
  (hostOps14_keep (W31 m ρ c) main_arg8 (by decide)).trans <|
  (keep13 m ρ c main_arg8 (by decide)).trans <|
  (hostOps13_keep (W29 m ρ c) main_arg8 (by decide)).trans <|
  (keep12 m ρ c main_arg8 (by decide)).trans <|
  (hostOps12_keep (W27 m ρ c) main_arg8 (by decide)).trans <|
  (keep11 m ρ c main_arg8 (by decide)).trans <|
  (hostOps11_keep (W25 m ρ c) main_arg8 (by decide)).trans <|
  (keep10 m ρ c main_arg8 (by decide)).trans <|
  (hostOps10_keep (W23 m ρ c) main_arg8 (by decide)).trans <|
  (keep9 m ρ c main_arg8 (by decide)).trans <|
  (hostOps9_keep (W21 m ρ c) main_arg8 (by decide)).trans <|
  (keep8 m ρ c main_arg8 (by decide)).trans <|
  (hostOps8_keep (W19 m ρ c) main_arg8 (by decide)).trans <|
  (keep7 m ρ c main_arg8 (by decide)).trans <|
  (hostOps7_keep (W17 m ρ c) main_arg8 (by decide)).trans <|
  (keep6 m ρ c main_arg8 (by decide)).trans <|
  (hostOps6_keep (W15 m ρ c) main_arg8 (by decide)).trans <|
  (keep5 m ρ c main_arg8 (by decide)).trans <|
  (hostOps5_keep (W13 m ρ c) main_arg8 (by decide)).trans <|
  (keep4 m ρ c main_arg8 (by decide)).trans <|
  (hostOps4_keep (W11 m ρ c) main_arg8 (by decide)).trans <|
  (keep3 m ρ c main_arg8 (by decide)).trans <|
  (hostOps3_keep (W9 m ρ c) main_arg8 (by decide)).trans <|
  (keep2 m ρ c main_arg8 (by decide)).trans <|
  (hostOps2_keep (W7 m ρ c) main_arg8 (by decide)).trans <|
  (keep1 m ρ c main_arg8 (by decide)).trans <|
  (keep0 m ρ c main_arg8 (by decide)).trans <|
  (hostOps0_4_keep (W4 m ρ c) main_arg8 (by decide)).trans <|
  (hostOps0_3_keep (W3 m ρ c) main_arg8 (by decide)).trans <|
  (hostOps0_2_keep (W2 m ρ c) main_arg8 (by decide)).trans <|
  (hostOps0_1_keep (W1 m ρ c) main_arg8 (by decide)).trans <|
  (hostOps0_keep (W0 m ρ c) main_arg8 (by decide)).trans <|
  rfl

end Cert.Kernel.Frame

end
-- ==== Proof.K.Segs.lean ====
/-
  Each of the sixteen regions as a segment of @main over one thread state: every unscoped buffer held at the
  boundary's contents, beside the core's generator register and its (empty) dues. A region splits its windows'
  arrays out of the unscoped buffers on entry and puts them back at their final contents on exit; the generator
  register passes through the pipeline's invariant; the kernels have no semaphore of their own and owe nothing.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import proofs.«142470_j73658689126826_2_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (BodyObligationLoose)

variable (m : (ℓ : Loc nD τ sig) → Buf (Elt F) ℓ) (ρ : Dev nD → PrngReg)

/-- No pallas_call of this program has a prefetched table. -/
abbrev adm : (p : Fin 16) → (pcfgs (F := F) p).Adm := fun p => (cfgs p).toPCfg_adm

/-- Every pipeline's proof data, each at the contents its region is entered from. -/
def pdats : (p : Fin 16) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
  | ⟨2, _⟩ => fun c => dat2 (V8 m ρ) c
  | ⟨3, _⟩ => fun c => dat3 (V10 m ρ) c
  | ⟨4, _⟩ => fun c => dat4 (V12 m ρ) c
  | ⟨5, _⟩ => fun c => dat5 (V14 m ρ) c
  | ⟨6, _⟩ => fun c => dat6 (V16 m ρ) c
  | ⟨7, _⟩ => fun c => dat7 (V18 m ρ) c
  | ⟨8, _⟩ => fun c => dat8 (V20 m ρ) c
  | ⟨9, _⟩ => fun c => dat9 (V22 m ρ) c
  | ⟨10, _⟩ => fun c => dat10 (V24 m ρ) c
  | ⟨11, _⟩ => fun c => dat11 (V26 m ρ) c
  | ⟨12, _⟩ => fun c => dat12 (V28 m ρ) c
  | ⟨13, _⟩ => fun c => dat13 (V30 m ρ) c
  | ⟨14, _⟩ => fun c => dat14 (V32 m ρ) c
  | ⟨15, _⟩ => fun c => dat15 (V33 m ρ) c
  | ⟨_ + 16, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

/-- A host stretch as a segment: from every unscoped buffer at `W` to the same at `W` after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0: entered from every unscoped buffer at `W5`, left at `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W6`, left at `W7`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W8`, left at `W9`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V8 m ρ) c
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W10`, left at `W11`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W12`, left at `W13`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W14`, left at `W15`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := body_obligation5 (V14 m ρ) c
  hwaits := Pipeline.hwaits_of_owed_zero _ _ _ _ L lv 5 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec5 c (V14 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V14 m ρ c) (V15 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W16`, left at `W17`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V16 m ρ) c).loose
  hwaits := Pipeline.hwaits_of_owed_zero _ _ _ _ L lv 6 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec6 c (V16 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V16 m ρ c) (V17 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `W18`, left at `W19`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := body_obligation7 (V18 m ρ) c
  hwaits := Pipeline.hwaits_of_owed_zero _ _ _ _ L lv 7 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec7 c (V18 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V18 m ρ c) (V19 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at `W20`, left at `W21`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V20 m ρ) c).loose
  hwaits := Pipeline.hwaits_of_owed_zero _ _ _ _ L lv 8 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec8 c (V20 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V20 m ρ c) (V21 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at `W22`, left at `W23`. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := body_obligation9 (V22 m ρ) c
  hwaits := Pipeline.hwaits_of_owed_zero _ _ _ _ L lv 9 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec9 c (V22 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V22 m ρ c) (V23 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: entered from every unscoped buffer at `W24`, left at `W25`. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V24 m ρ) c).loose
  hwaits := Pipeline.hwaits_of_owed_zero _ _ _ _ L lv 10 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec10 c (V24 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V24 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V24 m ρ c) (V25 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11: entered from every unscoped buffer at `W26`, left at `W27`. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := body_obligation11 (V26 m ρ) c
  hwaits := Pipeline.hwaits_of_owed_zero _ _ _ _ L lv 11 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec11 c (V26 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V26 m ρ c) (V27 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12: entered from every unscoped buffer at `W28`, left at `W29`. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V28 m ρ) c).loose
  hwaits := Pipeline.hwaits_of_owed_zero _ _ _ _ L lv 12 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec12 c (V28 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V28 m ρ c) (V29 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13: entered from every unscoped buffer at `W30`, left at `W31`. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := body_obligation13 (V30 m ρ) c
  hwaits := Pipeline.hwaits_of_owed_zero _ _ _ _ L lv 13 fun _ _ => rfl
  pre c := iprop(StableHlo.held (c : Thread nD τ) (Pipeline.ucRefs τ sig) (W30 m ρ c) ∗ R c)
  post c := iprop(StableHlo.held (c : Thread nD τ) (Pipeline.ucRefs τ sig) (W31 m ρ c) ∗ R c)
  X c := iprop(∃ r, prngReg c r)
  Y c := iprop(∃ r, prngReg c r)
  Z c := Pipeline.unscopedRest (Ix := Unit) (Name := ℕ) (U := UR sig nD τ) (Lvl := ℕ) spec13 c (V30 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V30 m ρ c) (V31 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14: entered from every unscoped buffer at `W32`, left at `W33`. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V32 m ρ) c).loose
  hwaits := Pipeline.hwaits_of_owed_zero _ _ _ _ L lv 14 fun _ _ => rfl
  pre c := iprop(StableHlo.held (c : Thread nD τ) (Pipeline.ucRefs τ sig) (W32 m ρ c) ∗ R c)
  post c := iprop(StableHlo.held (c : Thread nD τ) (Pipeline.ucRefs τ sig) (W33 m ρ c) ∗ R c)
  X c := iprop(∃ r, prngReg c r)
  Y c := iprop(∃ r, prngReg c r)
  Z c := Pipeline.unscopedRest (Ix := Unit) (Name := ℕ) (U := UR sig nD τ) (Lvl := ℕ) spec14 c (V32 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V32 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V32 m ρ c) (V33 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 15: entered from every unscoped buffer at `W33`, left at `W34`. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V33 m ρ) c).loose
  hwaits := Pipeline.hwaits_of_owed_zero _ _ _ _ L lv 15 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec15 c (V33 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V33 m ρ c) (V34 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Run.lean ====
/-
  The run of @main. @main is the sequence of its thirty-four items — host stretches and the sixteen regions —
  each entered from the thread state the one before left: from any launch memory with zero counters, every weakly
  fair execution terminates without a fault, the result array `main_v114` ends at what the fold of the items leaves in
  it (`W34`), and every argument array ends as launched.
-/
import proofs.«142470_j73658689126826_2_alg».proof.Proof.Gen.Kernel.Launch
import proofs.«142470_j73658689126826_2_alg».proof.Proof.Gen.Kernel.Skeleton
import proofs.«142470_j73658689126826_2_alg».proof.Proof.Gen.Kernel.Points
import proofs.«142470_j73658689126826_2_alg».proof.Proof.K.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ),
    .host (hseg hostOps2 hostOps2_sub hostOps2_fresh (W7 m ρ)),
    .region (reg2 m ρ),
    .host (hseg hostOps3 hostOps3_sub hostOps3_fresh (W9 m ρ)),
    .region (reg3 m ρ),
    .host (hseg hostOps4 hostOps4_sub hostOps4_fresh (W11 m ρ)),
    .region (reg4 m ρ),
    .host (hseg hostOps5 hostOps5_sub hostOps5_fresh (W13 m ρ)),
    .region (reg5 m ρ),
    .host (hseg hostOps6 hostOps6_sub hostOps6_fresh (W15 m ρ)),
    .region (reg6 m ρ),
    .host (hseg hostOps7 hostOps7_sub hostOps7_fresh (W17 m ρ)),
    .region (reg7 m ρ),
    .host (hseg hostOps8 hostOps8_sub hostOps8_fresh (W19 m ρ)),
    .region (reg8 m ρ),
    .host (hseg hostOps9 hostOps9_sub hostOps9_fresh (W21 m ρ)),
    .region (reg9 m ρ),
    .host (hseg hostOps10 hostOps10_sub hostOps10_fresh (W23 m ρ)),
    .region (reg10 m ρ),
    .host (hseg hostOps11 hostOps11_sub hostOps11_fresh (W25 m ρ)),
    .region (reg11 m ρ),
    .host (hseg hostOps12 hostOps12_sub hostOps12_fresh (W27 m ρ)),
    .region (reg12 m ρ),
    .host (hseg hostOps13 hostOps13_sub hostOps13_fresh (W29 m ρ)),
    .region (reg13 m ρ),
    .host (hseg hostOps14 hostOps14_sub hostOps14_fresh (W31 m ρ)),
    .region (reg14 m ρ),
    .region (reg15 m ρ) ]

/-- @main is the run of its items. -/
theorem main_run (c : Dev nD) : main (F := F) c = Pipeline.Seg.run (segs m ρ) := (main_chain c).trans (by chain_rfl)

/-- The last thread state without the dues: every unscoped buffer at the last boundary's contents. -/
abbrev Tₙ (c : Dev nD) : sProp 𝕄 := iprop(StableHlo.held (c : Thread nD τ) (Pipeline.ucRefs τ sig) (W34 m ρ c) ∗ ∃ r, prngReg c r)

set_option backward.isDefEq.respectTransparency.types false in
/-- Every weakly fair execution of @main from `m` with zero counters terminates without a fault; the result array
    ends at the fold's last contents and the nine argument arrays as launched. -/
theorem run_main : θ_run defs (onTc (τ := τ) (main (F := F))) ⟨m, fun _ => 0, ρ⟩ (fun r => ∀ c : Dev nD,
      r.2.mem ((c.tc : Thread nD τ).loc main_v114) = W34 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W34 m ρ c) ∗ (∃ r, prngReg c r) ∗ ∃ W, owes (c : Thread nD τ) (0 : CellTallies nD τ sig Unit) W)
        ⊢ iprop((StableHlo.held (c : Thread nD τ) (Pipeline.ucRefs τ sig) (W34 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c =>
      ⟨h c _ (mem_uc main_v114 (by decide)),
       (h c _ (mem_uc main_arg0 (by decide))).trans (W34_main_arg0 m ρ c),
       (h c _ (mem_uc main_arg1 (by decide))).trans (W34_main_arg1 m ρ c),
       (h c _ (mem_uc main_arg2 (by decide))).trans (W34_main_arg2 m ρ c),
       (h c _ (mem_uc main_arg3 (by decide))).trans (W34_main_arg3 m ρ c),
       (h c _ (mem_uc main_arg4 (by decide))).trans (W34_main_arg4 m ρ c),
       (h c _ (mem_uc main_arg5 (by decide))).trans (W34_main_arg5 m ρ c),
       (h c _ (mem_uc main_arg6 (by decide))).trans (W34_main_arg6 m ρ c),
       (h c _ (mem_uc main_arg7 (by decide))).trans (W34_main_arg7 m ρ c),
       (h c _ (mem_uc main_arg8 (by decide))).trans (W34_main_arg8 m ρ c)⟩)

end Cert.Kernel.Frame

end
-- ==== Proof.KI.Reg0.lean ====
/-
  Region 0 of @main, one pallas_call on a one-axis grid whose blocks tile their arrays exactly: at each grid
  point the body loads its 3 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds the input's block at every point, fetched there or not: where it is not
    fetched the block index has not moved since the point that did fetch it, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input's staging buffer holds the input's block at every point, fetched there or not: where it is not
    fetched the block index has not moved since the point that did fetch it, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input's staging buffer holds the input's block at every point, fetched there or not: where it is not
    fetched the block index has not moved since the point that did fetch it, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- What the body leaves in the output's staging buffer, as a function of the input blocks: its one store, of the
    body's value, over the whole buffer. -/
def out0_3 (x0 : Vec F S10000x16 .f32) (x1 : Vec F S16x48 .f32) (x2 : Vec F S1x48 .f32) : Vec F S10000x48 .f32 :=
  View.canon [⟨(Rect.unit (s := S10000x48) ![0, 0] S10000x48.size inb_S10000x48_S10000x48_0_0), k0_pay1 (View.ld x0 (Rect.unit (s := S10000x16) ![0, 0] S10000x16.size inb_S10000x16_S10000x16_0_0)) (View.ld x1 (Rect.unit (s := S16x48) ![0, 0] S16x48.size inb_S16x48_S16x48_0_0)) (View.ld x2 (Rect.unit (s := S1x48) ![0, 0] S1x48.size inb_S1x48_S1x48_0_0))⟩]

/-- The one store covers the buffer. -/
theorem cover0_3 (p0 : Vec F S10000x48 .f32) (y : S10000x48.Idx) :
    ∃ pc ∈ ([⟨(Rect.unit (s := S10000x48) ![0, 0] S10000x48.size inb_S10000x48_S10000x48_0_0), p0⟩] : List (View.Piece (Elt F) S10000x48 .f32)), y ∈ pc.1.set :=
  View.cover_of_tiled [⟨(Rect.unit (s := S10000x48) ![0, 0] S10000x48.size inb_S10000x48_S10000x48_0_0), p0⟩] S10000x48.size (by rfl) y

set_option maxHeartbeats 1000000 in
/-- The body on whole staging buffers, the inputs' holding `x0 …` and the output's anything, runs to its end with
    the inputs' unchanged and the output's at `out0_3` of them. -/
theorem sound_kernel0 (c : Dev nD) (E : Set ℕ) (i : grid0.Coords) (arg1 : Memref sig .tc .vmem S10000x16 .f32) (harg1 : arg1.IsWhole) (arg2 : Memref sig .tc .vmem S16x48 .f32) (harg2 : arg2.IsWhole) (arg3 : Memref sig .tc .vmem S1x48 .f32) (harg3 : arg3.IsWhole) (arg4 : Memref sig .tc .vmem S10000x48 .f32) (harg4 : arg4.IsWhole)
    (x0 : Vec F S10000x16 .f32) (x1 : Vec F S16x48 .f32) (x2 : Vec F S1x48 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each
    input's buffer at its block and the output's at the body's value of the input blocks; the invariant only the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Reg1.lean ====
/-
  Region 1 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds the input's block at every point, fetched there or not: where it is not
    fetched the block index has not moved since the point that did fetch it, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input's staging buffer holds the input's block at every point, fetched there or not: where it is not
    fetched the block index has not moved since the point that did fetch it, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output's staging buffer, as a function of the input blocks: its one store, of the
    body's value, over the whole buffer. -/
def out1_2 (x0 : Vec F S10000x48 .f32) (x1 : Vec F S48x48 .f32) : Vec F S10000x48 .f32 :=
  View.canon [⟨(Rect.unit (s := S10000x48) ![0, 0] S10000x48.size inb_S10000x48_S10000x48_0_0), k1_pay1 (View.ld x0 (Rect.unit (s := S10000x48) ![0, 0] S10000x48.size inb_S10000x48_S10000x48_0_0)) (View.ld x1 (Rect.unit (s := S48x48) ![0, 0] S48x48.size inb_S48x48_S48x48_0_0))⟩]

/-- The one store covers the buffer. -/
theorem cover1_2 (p0 : Vec F S10000x48 .f32) (y : S10000x48.Idx) :
    ∃ pc ∈ ([⟨(Rect.unit (s := S10000x48) ![0, 0] S10000x48.size inb_S10000x48_S10000x48_0_0), p0⟩] : List (View.Piece (Elt F) S10000x48 .f32)), y ∈ pc.1.set :=
  View.cover_of_tiled [⟨(Rect.unit (s := S10000x48) ![0, 0] S10000x48.size inb_S10000x48_S10000x48_0_0), p0⟩] S10000x48.size (by rfl) y

set_option maxHeartbeats 1000000 in
/-- The body on whole staging buffers, the inputs' holding `x0 …` and the output's anything, runs to its end with
    the inputs' unchanged and the output's at `out1_2` of them. -/
theorem sound_kernel1 (c : Dev nD) (E : Set ℕ) (i : grid1.Coords) (arg1 : Memref sig .tc .vmem S10000x48 .f32) (harg1 : arg1.IsWhole) (arg2 : Memref sig .tc .vmem S48x48 .f32) (harg2 : arg2.IsWhole) (arg3 : Memref sig .tc .vmem S10000x48 .f32) (harg3 : arg3.IsWhole)
    (x0 : Vec F S10000x48 .f32) (x1 : Vec F S48x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core `c`: the arrays as the region finds them; after the body at point `t` each
    input's buffer at its block and the output's at the body's value of the input blocks; the invariant only the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Reg2.lean ====
/-
  Region 2 of @main, one pallas_call on a one-axis grid whose blocks do NOT tile their arrays: the last block of
  each of the three windows overhangs its array by the same rows. A fetch of such a block lands only the rows inside
  the array and leaves the rest of the staging buffer at contents nothing names; the body computes on whole buffers,
  those rows too; the write-back moves only the rows inside. The body is row-local — row r of the output block is
  row r of the first input block times, lane by lane, the one word of row r of the second — so on the rows that are
  moved what it leaves does not depend on the unnamed rows. Stated at any float instance and at any contents `V` of
  the buffers when the region is entered: what each staging buffer holds after the body on the rows its transfers
  move, and that the body, run on buffers holding the input blocks on those rows and anything elsewhere, terminates
  leaving exactly that there.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, its part inside the array, read off the window's array as the region
    finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- That block filled out to the staging buffer's shape: past the array's end a word the proof picks and nothing
    reads. -/
def fblk2 (c : Dev nD) (w : Fin cfg2.W) (t : Fin cfg2.N) : (cfg2.win w).block.Idx → Elt F (cfg2.win w).elt :=
  (cfg2.win w).fill (cfg2.grid.coords t) (fun _ => Classical.arbitrary _) (iblk2 V c w t)

theorem cut_fblk2 (c : Dev nD) (w : Fin cfg2.W) (t : Fin cfg2.N) :
    (cfg2.win w).cut (cfg2.grid.coords t) (fblk2 V c w t) = iblk2 V c w t :=
  (cfg2.win w).cut_fill _ _ _

/-- What the body leaves in the output's staging buffer, as a function of what the inputs' hold: its one store, of
    the body's value, over the whole buffer. -/
def out2_2 (x0 : Vec F S8192x48 .f32) (x1 : Vec F S8192x1 .f32) : Vec F S8192x48 .f32 :=
  View.canon [⟨(Rect.unit (s := S8192x48) ![0, 0] S8192x48.size inb_S8192x48_S8192x48_0_0), k2_pay1 (View.ld x0 (Rect.unit (s := S8192x48) ![0, 0] S8192x48.size inb_S8192x48_S8192x48_0_0)) (View.ld x1 (Rect.unit (s := S8192x1) ![0, 0] S8192x1.size inb_S8192x1_S8192x1_0_0))⟩]

/-- The loads read the buffers whole and the one store writes its payload whole: the body's value. -/
theorem out2_2_eq (x0 : Vec F S8192x48 .f32) (x1 : Vec F S8192x1 .f32) : out2_2 x0 x1 = k2_pay1 x0 x1 := by
  have hz : (![0, 0] : Fin 2 → Nat) = fun _ => 0 := funext fun a => by fin_cases a <;> rfl
  unfold out2_2
  rw [View.canon_unit_zero hz, View.ld_unit_zero hz, View.ld_unit_zero hz]

/-- The one store covers the buffer. -/
theorem cover2_2 (p0 : Vec F S8192x48 .f32) (y : S8192x48.Idx) :
    ∃ pc ∈ ([⟨(Rect.unit (s := S8192x48) ![0, 0] S8192x48.size inb_S8192x48_S8192x48_0_0), p0⟩] : List (View.Piece (Elt F) S8192x48 .f32)), y ∈ pc.1.set :=
  View.cover_of_tiled [⟨(Rect.unit (s := S8192x48) ![0, 0] S8192x48.size inb_S8192x48_S8192x48_0_0), p0⟩] S8192x48.size (by rfl) y

set_option maxHeartbeats 1000000 in
/-- The body on whole staging buffers, the inputs' holding `x0 …` and the output's anything, runs to its end with
    the inputs' unchanged and the output's at `out2_2` of them. -/
theorem sound_kernel2 (c : Dev nD) (E : Set ℕ) (i : grid2.Coords) (arg1 : Memref sig .tc .vmem S8192x48 .f32) (harg1 : arg1.IsWhole) (arg2 : Memref sig .tc .vmem S8192x1 .f32) (harg2 : arg2.IsWhole) (arg3 : Memref sig .tc .vmem S8192x48 .f32) (harg3 : arg3.IsWhole)
    (x0 : Vec F S8192x48 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The three windows cut their blocks alike: the index maps agree, and so do the arrays' and the blocks' row counts. -/
theorem xsize2_0 (i : cfg2.grid.Coords) (a : Fin (cfg2.win 2).shape.rank) : (cfg2.win 0).xsize i a = (cfg2.win 2).xsize i a := rfl
theorem xsize2_1_0 (i : cfg2.grid.Coords) : (cfg2.win 1).xsize i 0 = (cfg2.win 2).xsize i 0 := rfl
theorem xsize2_1_1 (i : cfg2.grid.Coords) : (cfg2.win 1).xsize i 1 = 1 := rfl

/-- Row locality of the body's value: on the rows the output's transfer moves, it reads the first input at the same
    index and the second at the same row, both among what the inputs' transfers move. So inputs that agree on their
    moved rows give values that agree on the output's. -/
theorem cut_pay2 (i : cfg2.grid.Coords) (X0 Y0 : Vec F S8192x48 .f32) (X1 Y1 : Vec F S8192x1 .f32)
    (h0 : (cfg2.win 0).cut i X0 = (cfg2.win 0).cut i Y0) (h1 : (cfg2.win 1).cut i X1 = (cfg2.win 1).cut i Y1) :
    (cfg2.win 2).cut i (k2_pay1 X0 X1) = (cfg2.win 2).cut i (k2_pay1 Y0 Y1) := by
  funext j
  -- the index in the first input's moved part with `j`'s coordinates, and the one in the second's with `j`'s row
  let j0 : ((cfg2.win 0).xblock i).Idx := fun a => ⟨(j a).val, Nat.lt_of_lt_of_eq (j a).isLt (xsize2_0 i a).symm⟩
  let j1 : ((cfg2.win 1).xblock i).Idx := fun a => match a with
    | ⟨0, _⟩ => ⟨(j 0).val, Nat.lt_of_lt_of_eq (j 0).isLt (xsize2_1_0 i).symm⟩
    | ⟨1, _⟩ => ⟨0, Nat.lt_of_lt_of_eq Nat.one_pos (xsize2_1_1 i).symm⟩
  have e0 : X0 ((cfg2.win 2).xinj i j) = Y0 ((cfg2.win 2).xinj i j) := congrFun h0 j0
  have hk : ∀ a : Fin S8192x1.rank, (((cfg2.win 1).xinj i j1 : S8192x1.Idx) a).val
      = if S8192x1.size a = 1 then 0 else (((cfg2.win 2).xinj i j : S8192x48.Idx) ⟨a.val + (S8192x48.rank - S8192x1.rank), by have := a.isLt; omega⟩).val := fun a =>
    match a with
    | ⟨0, _⟩ => rfl
    | ⟨1, _⟩ => rfl
  have e1 : broadcastTo S8192x48 X1 broadcasts_S8192x1_S8192x48 ((cfg2.win 2).xinj i j) = broadcastTo S8192x48 Y1 broadcasts_S8192x1_S8192x48 ((cfg2.win 2).xinj i j) := by
    rw [broadcastTo_apply X1 _ _ _ hk, broadcastTo_apply Y1 _ _ _ hk]
    exact congrFun h1 j1
  show FloatOps.mulf (shapeCast S8192x48 X0 shapeCasts_S8192x48_S8192x48 ((cfg2.win 2).xinj i j)) (broadcastTo S8192x48 (shapeCast S8192x1 X1 shapeCasts_S8192x1_S8192x1) broadcasts_S8192x1_S8192x48 ((cfg2.win 2).xinj i j))
    = FloatOps.mulf (shapeCast S8192x48 Y0 shapeCasts_S8192x48_S8192x48 ((cfg2.win 2).xinj i j)) (broadcastTo S8192x48 (shapeCast S8192x1 Y1 shapeCasts_S8192x1_S8192x1) broadcasts_S8192x1_S8192x48 ((cfg2.win 2).xinj i j))
  rw [shapeCast_self, shapeCast_self, shapeCast_self, shapeCast_self, e0, e1]

/-- The region's proof data on core `c`: the arrays as the region finds them; after the body at point `t` each
    input's buffer at its block and the output's at the body's value of the input blocks — each on the rows its
    transfers move, filled out past them by the proof's own word —; the invariant only the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => fblk2 V c 0 t
    | ⟨1, _⟩ => fblk2 V c 1 t
    | ⟨2, _⟩ => out2_2 (fblk2 V c 0 t) (fblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = fblk2 V c 0 t := by dsimp only [dat2]
theorem after2_1 (c : Dev nD) (t : Fin cfg2.N) : (dat2 V c).after 1 t = fblk2 V c 1 t := by dsimp only [dat2]
theorem after2_2 (c : Dev nD) (t : Fin cfg2.N) : (dat2 V c).after 2 t = out2_2 (fblk2 V c 0 t) (fblk2 V c 1 t) := by dsimp only [dat2]

/-- What the body finds in an input's buffer: just fetched, the block on the rows inside the array and `d`, any,
    elsewhere. -/
theorem before2_0 (c : Dev nD) (t : Fin cfg2.N) (d) :
    (dat2 V c).before 0 t d = (cfg2.win 0).fill (cfg2.grid.coords t) d (iblk2 V c 0 t) := by
  unfold Dat.before; rw [if_pos (fetch2_0 t)]; rfl
theorem before2_1 (c : Dev nD) (t : Fin cfg2.N) (d) :
    (dat2 V c).before 1 t d = (cfg2.win 1).fill (cfg2.grid.coords t) d (iblk2 V c 1 t) := by
  unfold Dat.before; rw [if_pos (fetch2_1 t)]; rfl

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns: each buffer stated on the rows its window's transfers move. -/
def bodyPost2 (c : Dev nD) (t : Fin cfg2.N) : sProp 𝕄 :=
  iprop((dat2 V c).Φ t.succ ∗ (dat2 V c).owesAt () t.succ
    ∗ (∃ d, owns (c : Thread nD τ) (st2_0 t) fullShare ((cfg2.win 0).fill (cfg2.grid.coords t) d ((cfg2.win 0).cut (cfg2.grid.coords t) ((dat2 V c).after 0 t))))
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t)))))

/-- The body at any point: the inputs' buffers hold their blocks on the moved rows and anything elsewhere, so the
    body's triple applies at those contents; what it leaves agrees on the moved rows with what the proof data names
    (`cut_pay2`), which is all that is asked back; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl,
    after2_0, after2_1, after2_2, cut_fblk2, cut_fblk2]
  iintro ⟨HΦ, Ho, ⟨%d0, H0⟩, ⟨%d1, H1⟩, ⟨%d2, H2⟩⟩
  rw [before2_0 V c t d0, before2_1 V c t d1]
  iapply (sound_kernel2 c Set.univ _ _ _ _ _ _ _ ((cfg2.win 0).fill (cfg2.grid.coords t) d0 (iblk2 V c 0 t)) ((cfg2.win 1).fill (cfg2.grid.coords t) d1 (iblk2 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists out2_2 ((cfg2.win 0).fill (cfg2.grid.coords t) d0 (iblk2 V c 0 t)) ((cfg2.win 1).fill (cfg2.grid.coords t) d1 (iblk2 V c 1 t))
  have hcut : (cfg2.win 2).cut (cfg2.grid.coords t) (out2_2 ((cfg2.win 0).fill (cfg2.grid.coords t) d0 (iblk2 V c 0 t)) ((cfg2.win 1).fill (cfg2.grid.coords t) d1 (iblk2 V c 1 t)))
      = (cfg2.win 2).cut (cfg2.grid.coords t) (out2_2 (fblk2 V c 0 t) (fblk2 V c 1 t)) := by
    rw [out2_2_eq, out2_2_eq]
    exact cut_pay2 (cfg2.grid.coords t) _ _ _ _
      (((cfg2.win 0).cut_fill _ _ _).trans (cut_fblk2 V c 0 t).symm)
      (((cfg2.win 1).cut_fill _ _ _).trans (cut_fblk2 V c 1 t).symm)
  rw [(cfg2.win 2).fill_congr_cut (cfg2.grid.coords t) hcut]
  iexact H2

/-- The body obligation of the region's pipeline, at every point (every window is loose: each buffer is asked back
    only on the rows its transfers move). -/
theorem body_obligation2 (c : Dev nD) : BodyObligationLoose (dat2 (F := F) V c) (defs₀ (F := F)) Variants.none () Set.univ := fun t => by
  rw [bigSep_W2, bigSep_W2]
  exact sound_body2 V c t

/-- The index in the first input's moved part with the coordinates of the output's `j`, -/
noncomputable def idx2_0 (i : cfg2.grid.Coords) (j : ((cfg2.win 2).xblock i).Idx) : ((cfg2.win 0).xblock i).Idx :=
  fun a => ⟨(j a).val, Nat.lt_of_lt_of_eq (j a).isLt (xsize2_0 i a).symm⟩

/-- and the one in the second's with `j`'s row (its one column). -/
noncomputable def idx2_1 (i : cfg2.grid.Coords) (j : ((cfg2.win 2).xblock i).Idx) : ((cfg2.win 1).xblock i).Idx :=
  fun a => match a with
    | ⟨0, _⟩ => ⟨(j 0).val, Nat.lt_of_lt_of_eq (j 0).isLt (xsize2_1_0 i).symm⟩
    | ⟨1, _⟩ => ⟨0, Nat.lt_of_lt_of_eq Nat.one_pos (xsize2_1_1 i).symm⟩

/-- The body's value at an index the output's transfer moves: the first input there times the second's word of the
    same row. -/
theorem pay2_apply (i : cfg2.grid.Coords) (X0 : Vec F S8192x48 .f32) (X1 : Vec F S8192x1 .f32) (j : ((cfg2.win 2).xblock i).Idx) :
    k2_pay1 X0 X1 ((cfg2.win 2).xinj i j)
      = FloatOps.mulf (X0 ((cfg2.win 0).xinj i (idx2_0 i j))) (X1 ((cfg2.win 1).xinj i (idx2_1 i j))) := by
  have hk : ∀ a : Fin S8192x1.rank, (((cfg2.win 1).xinj i (idx2_1 i j) : S8192x1.Idx) a).val
      = if S8192x1.size a = 1 then 0 else (((cfg2.win 2).xinj i j : S8192x48.Idx) ⟨a.val + (S8192x48.rank - S8192x1.rank), by have := a.isLt; omega⟩).val := fun a =>
    match a with
    | ⟨0, _⟩ => rfl
    | ⟨1, _⟩ => rfl
  show FloatOps.mulf (shapeCast S8192x48 X0 shapeCasts_S8192x48_S8192x48 ((cfg2.win 2).xinj i j)) (broadcastTo S8192x48 (shapeCast S8192x1 X1 shapeCasts_S8192x1_S8192x1) broadcasts_S8192x1_S8192x48 ((cfg2.win 2).xinj i j))
    = FloatOps.mulf (X0 ((cfg2.win 0).xinj i (idx2_0 i j))) (X1 ((cfg2.win 1).xinj i (idx2_1 i j)))
  rw [shapeCast_self, shapeCast_self, broadcastTo_apply X1 _ _ _ hk]
  rfl

/-- What the output's write-back at point `t` moves: index by index, the first input's block times the second's
    word of the same row. -/
theorem cut_after2_2 (c : Dev nD) (t : Fin cfg2.N) :
    (cfg2.win 2).cut (cfg2.grid.coords t) ((dat2 V c).after 2 t)
      = fun j => FloatOps.mulf (iblk2 V c 0 t (idx2_0 (cfg2.grid.coords t) j)) (iblk2 V c 1 t (idx2_1 (cfg2.grid.coords t) j)) := by
  rw [after2_2, out2_2_eq]
  funext j
  exact (pay2_apply (cfg2.grid.coords t) (fblk2 V c 0 t) (fblk2 V c 1 t) j).trans
    (congrArg₂ FloatOps.mulf ((cfg2.win 0).fill_xinj _ _ _ _) ((cfg2.win 1).fill_xinj _ _ _ _))

end Cert.KernelIdeal.Frame

end
-- ==== Proof.KI.Reg3.lean ====
/-
  Region 3 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds the input's block at every point, fetched there or not: where it is not
    fetched the block index has not moved since the point that did fetch it, and the body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input's staging buffer holds the input's block at every point, fetched there or not: where it is not
    fetched the block index has not moved since the point that did fetch it, and the body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- What the body leaves in the output's staging buffer, as a function of the input blocks: its one store, of the
    body's value, over the whole buffer. -/
def out3_2 (x0 : Vec F S10000x48 .f32) (x1 : Vec F S1x48 .f32) : Vec F S10000x48 .f32 :=
  View.canon [⟨(Rect.unit (s := S10000x48) ![0, 0] S10000x48.size inb_S10000x48_S10000x48_0_0), k3_pay1 (View.ld x0 (Rect.unit (s := S10000x48) ![0, 0] S10000x48.size inb_S10000x48_S10000x48_0_0)) (View.ld x1 (Rect.unit (s := S1x48) ![0, 0] S1x48.size inb_S1x48_S1x48_0_0))⟩]

/-- The one store covers the buffer. -/
theorem cover3_2 (p0 : Vec F S10000x48 .f32) (y : S10000x48.Idx) :
    ∃ pc ∈ ([⟨(Rect.unit (s := S10000x48) ![0, 0] S10000x48.size inb_S10000x48_S10000x48_0_0), p0⟩] : List (View.Piece (Elt F) S10000x48 .f32)), y ∈ pc.1.set :=
  View.cover_of_tiled [⟨(Rect.unit (s := S10000x48) ![0, 0] S10000x48.size inb_S10000x48_S10000x48_0_0), p0⟩] S10000x48.size (by rfl) y

set_option maxHeartbeats 1000000 in
/-- The body on whole staging buffers, the inputs' holding `x0 …` and the output's anything, runs to its end with
    the inputs' unchanged and the output's at `out3_2` of them. -/
theorem sound_kernel3 (c : Dev nD) (E : Set ℕ) (i : grid3.Coords) (arg1 : Memref sig .tc .vmem S10000x48 .f32) (harg1 : arg1.IsWhole) (arg2 : Memref sig .tc .vmem S1x48 .f32) (harg2 : arg2.IsWhole) (arg3 : Memref sig .tc .vmem S10000x48 .f32) (harg3 : arg3.IsWhole)
    (x0 : Vec F S10000x48 .f32) (x1 : Vec F S1x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data on core `c`: the arrays as the region finds them; after the body at point `t` each
    input's buffer at its block and the output's at the body's value of the input blocks; the invariant only the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KI.Reg4.lean ====
/-
  Region 4 of @main, one pallas_call on a one-axis grid whose blocks tile their arrays exactly: at each grid
  point the body loads its 3 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input's staging buffer holds the input's block at every point, fetched there or not: where it is not
    fetched the block index has not moved since the point that did fetch it, and the body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input's staging buffer holds the input's block at every point, fetched there or not: where it is not
    fetched the block index has not moved since the point that did fetch it, and the body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input's staging buffer holds the input's block at every point, fetched there or not: where it is not
    fetched the block index has not moved since the point that did fetch it, and the body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- What the body leaves in the output's staging buffer, as a function of the input blocks: its one store, of the
    body's value, over the whole buffer. -/
def out4_3 (x0 : Vec F S10000x48 .f32) (x1 : Vec F S48x2 .f32) (x2 : Vec F S1x2 .f32) : Vec F S10000x2 .f32 :=
  View.canon [⟨(Rect.unit (s := S10000x2) ![0, 0] S10000x2.size inb_S10000x2_S10000x2_0_0), k4_pay1 (View.ld x0 (Rect.unit (s := S10000x48) ![0, 0] S10000x48.size inb_S10000x48_S10000x48_0_0)) (View.ld x1 (Rect.unit (s := S48x2) ![0, 0] S48x2.size inb_S48x2_S48x2_0_0)) (View.ld x2 (Rect.unit (s := S1x2) ![0, 0] S1x2.size inb_S1x2_S1x2_0_0))⟩]

/-- The one store covers the buffer. -/
theorem cover4_3 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out4_3` of them. -/
theorem sound_kernel4 (c : Dev nD) (E : Set ℕ) (i : grid4.Coords) (arg1 : Memref sig .tc .vmem S10000x48 .f32) (harg1 : arg1.IsWhole) (arg2 : Memref sig .tc .vmem S48x2 .f32) (harg2 : arg2.IsWhole) (arg3 : Memref sig .tc .vmem S1x2 .f32) (harg3 : arg3.IsWhole) (arg4 : Memref sig .tc .vmem S10000x2 .f32) (harg4 : arg4.IsWhole)
    (x0 : Vec F S10000x48 .f32) (x1 : Vec F S48x2 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4_kernel i arg1 harg1 arg2 harg2 arg3 harg3 arg4 harg4) K := by
  simp only [cc4_kernel_eq_skeleton]; unfold cc4_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's proof data on core `c`: the arrays as the region finds them; after the body at point `t` each
    input's buffer at its block and the output's at the body's value of the input blocks; the invariant only the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and
    the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's pipeline, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.KI.Reg5.lean ====
/-
  Region 5 of @main, one pallas_call on a one-axis grid whose blocks do NOT tile their arrays: the last block of
  each of the three windows overhangs its array by the same rows. A fetch of such a block lands only the rows inside
  the array and leaves the rest of the staging buffer at contents nothing names; the body computes on whole buffers,
  those rows too; the write-back moves only the rows inside. The body is row-local — row r of the output block is
  row r of the first input block times, lane by lane, the one word of row r of the second — so on the rows that are
  moved what it leaves does not depend on the unnamed rows. Stated at any float instance and at any contents `V` of
  the buffers when the region is entered: what each staging buffer holds after the body on the rows its transfers
  move, and that the body, run on buffers holding the input blocks on those rows and anything elsewhere, terminates
  leaving exactly that there.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, its part inside the array, read off the window's array as the region
    finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- That block filled out to the staging buffer's shape: past the array's end a word the proof picks and nothing
    reads. -/
def fblk5 (c : Dev nD) (w : Fin cfg5.W) (t : Fin cfg5.N) : (cfg5.win w).block.Idx → Elt F (cfg5.win w).elt :=
  (cfg5.win w).fill (cfg5.grid.coords t) (fun _ => Classical.arbitrary _) (iblk5 V c w t)

theorem cut_fblk5 (c : Dev nD) (w : Fin cfg5.W) (t : Fin cfg5.N) :
    (cfg5.win w).cut (cfg5.grid.coords t) (fblk5 V c w t) = iblk5 V c w t :=
  (cfg5.win w).cut_fill _ _ _

/-- What the body leaves in the output's staging buffer, as a function of what the inputs' hold: its one store, of
    the body's value, over the whole buffer. -/
def out5_2 (x0 : Vec F S8192x2 .f32) (x1 : Vec F S8192x1 .f32) : Vec F S8192x2 .f32 :=
  View.canon [⟨(Rect.unit (s := S8192x2) ![0, 0] S8192x2.size inb_S8192x2_S8192x2_0_0), k5_pay1 (View.ld x0 (Rect.unit (s := S8192x2) ![0, 0] S8192x2.size inb_S8192x2_S8192x2_0_0)) (View.ld x1 (Rect.unit (s := S8192x1) ![0, 0] S8192x1.size inb_S8192x1_S8192x1_0_0))⟩]

/-- The loads read the buffers whole and the one store writes its payload whole: the body's value. -/
theorem out5_2_eq (x0 : Vec F S8192x2 .f32) (x1 : Vec F S8192x1 .f32) : out5_2 x0 x1 = k5_pay1 x0 x1 := by
  have hz : (![0, 0] : Fin 2 → Nat) = fun _ => 0 := funext fun a => by fin_cases a <;> rfl
  unfold out5_2
  rw [View.canon_unit_zero hz, View.ld_unit_zero hz, View.ld_unit_zero hz]

/-- The one store covers the buffer. -/
theorem cover5_2 (p0 : Vec F S8192x2 .f32) (y : S8192x2.Idx) :
    ∃ pc ∈ ([⟨(Rect.unit (s := S8192x2) ![0, 0] S8192x2.size inb_S8192x2_S8192x2_0_0), p0⟩] : List (View.Piece (Elt F) S8192x2 .f32)), y ∈ pc.1.set :=
  View.cover_of_tiled [⟨(Rect.unit (s := S8192x2) ![0, 0] S8192x2.size inb_S8192x2_S8192x2_0_0), p0⟩] S8192x2.size (by rfl) y

set_option maxHeartbeats 1000000 in
/-- The body on whole staging buffers, the inputs' holding `x0 …` and the output's anything, runs to its end with
    the inputs' unchanged and the output's at `out5_2` of them. -/
theorem sound_kernel5 (c : Dev nD) (E : Set ℕ) (i : grid5.Coords) (arg1 : Memref sig .tc .vmem S8192x2 .f32) (harg1 : arg1.IsWhole) (arg2 : Memref sig .tc .vmem S8192x1 .f32) (harg2 : arg2.IsWhole) (arg3 : Memref sig .tc .vmem S8192x2 .f32) (harg3 : arg3.IsWhole)
    (x0 : Vec F S8192x2 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5_kernel i arg1 harg1 arg2 harg2 arg3 harg3) K := by
  simp only [cc5_kernel_eq_skeleton]; unfold cc5_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The three windows cut their blocks alike: the index maps agree, and so do the arrays' and the blocks' row counts. -/
theorem xsize5_0 (i : cfg5.grid.Coords) (a : Fin (cfg5.win 2).shape.rank) : (cfg5.win 0).xsize i a = (cfg5.win 2).xsize i a := rfl
theorem xsize5_1_0 (i : cfg5.grid.Coords) : (cfg5.win 1).xsize i 0 = (cfg5.win 2).xsize i 0 := rfl
theorem xsize5_1_1 (i : cfg5.grid.Coords) : (cfg5.win 1).xsize i 1 = 1 := rfl

/-- Row locality of the body's value: on the rows the output's transfer moves, it reads the first input at the same
    index and the second at the same row, both among what the inputs' transfers move. So inputs that agree on their
    moved rows give values that agree on the output's. -/
theorem cut_pay5 (i : cfg5.grid.Coords) (X0 Y0 : Vec F S8192x2 .f32) (X1 Y1 : Vec F S8192x1 .f32)
    (h0 : (cfg5.win 0).cut i X0 = (cfg5.win 0).cut i Y0) (h1 : (cfg5.win 1).cut i X1 = (cfg5.win 1).cut i Y1) :
    (cfg5.win 2).cut i (k5_pay1 X0 X1) = (cfg5.win 2).cut i (k5_pay1 Y0 Y1) := by
  funext j
  -- the index in the first input's moved part with `j`'s coordinates, and the one in the second's with `j`'s row
  let j0 : ((cfg5.win 0).xblock i).Idx := fun a => ⟨(j a).val, Nat.lt_of_lt_of_eq (j a).isLt (xsize5_0 i a).symm⟩
  let j1 : ((cfg5.win 1).xblock i).Idx := fun a => match a with
    | ⟨0, _⟩ => ⟨(j 0).val, Nat.lt_of_lt_of_eq (j 0).isLt (xsize5_1_0 i).symm⟩
    | ⟨1, _⟩ => ⟨0, Nat.lt_of_lt_of_eq Nat.one_pos (xsize5_1_1 i).symm⟩
  have e0 : X0 ((cfg5.win 2).xinj i j) = Y0 ((cfg5.win 2).xinj i j) := congrFun h0 j0
  have hk : ∀ a : Fin S8192x1.rank, (((cfg5.win 1).xinj i j1 : S8192x1.Idx) a).val
      = if S8192x1.size a = 1 then 0 else (((cfg5.win 2).xinj i j : S8192x2.Idx) ⟨a.val + (S8192x2.rank - S8192x1.rank), by have := a.isLt; omega⟩).val := fun a =>
    match a with
    | ⟨0, _⟩ => rfl
    | ⟨1, _⟩ => rfl
  have e1 : broadcastTo S8192x2 X1 broadcasts_S8192x1_S8192x2 ((cfg5.win 2).xinj i j) = broadcastTo S8192x2 Y1 broadcasts_S8192x1_S8192x2 ((cfg5.win 2).xinj i j) := by
    rw [broadcastTo_apply X1 _ _ _ hk, broadcastTo_apply Y1 _ _ _ hk]
    exact congrFun h1 j1
  show FloatOps.mulf (shapeCast S8192x2 X0 shapeCasts_S8192x2_S8192x2 ((cfg5.win 2).xinj i j)) (broadcastTo S8192x2 (shapeCast S8192x1 X1 shapeCasts_S8192x1_S8192x1) broadcasts_S8192x1_S8192x2 ((cfg5.win 2).xinj i j))
    = FloatOps.mulf (shapeCast S8192x2 Y0 shapeCasts_S8192x2_S8192x2 ((cfg5.win 2).xinj i j)) (broadcastTo S8192x2 (shapeCast S8192x1 Y1 shapeCasts_S8192x1_S8192x1) broadcasts_S8192x1_S8192x2 ((cfg5.win 2).xinj i j))
  rw [shapeCast_self, shapeCast_self, shapeCast_self, shapeCast_self, e0, e1]

/-- The region's proof data on core `c`: the arrays as the region finds them; after the body at point `t` each
    input's buffer at its block and the output's at the body's value of the input blocks — each on the rows its
    transfers move, filled out past them by the proof's own word —; the invariant only the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => fblk5 V c 0 t
    | ⟨1, _⟩ => fblk5 V c 1 t
    | ⟨2, _⟩ => out5_2 (fblk5 V c 0 t) (fblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = fblk5 V c 0 t := by dsimp only [dat5]
theorem after5_1 (c : Dev nD) (t : Fin cfg5.N) : (dat5 V c).after 1 t = fblk5 V c 1 t := by dsimp only [dat5]
theorem after5_2 (c : Dev nD) (t : Fin cfg5.N) : (dat5 V c).after 2 t = out5_2 (fblk5 V c 0 t) (fblk5 V c 1 t) := by dsimp only [dat5]

/-- What the body finds in an input's buffer: just fetched, the block on the rows inside the array and `d`, any,
    elsewhere. -/
theorem before5_0 (c : Dev nD) (t : Fin cfg5.N) (d) :
    (dat5 V c).before 0 t d = (cfg5.win 0).fill (cfg5.grid.coords t) d (iblk5 V c 0 t) := by
  unfold Dat.before; rw [if_pos (fetch5_0 t)]; rfl
theorem before5_1 (c : Dev nD) (t : Fin cfg5.N) (d) :
    (dat5 V c).before 1 t d = (cfg5.win 1).fill (cfg5.grid.coords t) d (iblk5 V c 1 t) := by
  unfold Dat.before; rw [if_pos (fetch5_1 t)]; rfl

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns: each buffer stated on the rows its window's transfers move. -/
def bodyPost5 (c : Dev nD) (t : Fin cfg5.N) : sProp 𝕄 :=
  iprop((dat5 V c).Φ t.succ ∗ (dat5 V c).owesAt () t.succ
    ∗ (∃ d, owns (c : Thread nD τ) (st5_0 t) fullShare ((cfg5.win 0).fill (cfg5.grid.coords t) d ((cfg5.win 0).cut (cfg5.grid.coords t) ((dat5 V c).after 0 t))))
    ∗ (∃ d, owns (c : Thread nD τ) (st5_1 t) fullShare ((cfg5.win 1).fill (cfg5.grid.coords t) d ((cfg5.win 1).cut (cfg5.grid.coords t) ((dat5 V c).after 1 t))))
    ∗ (∃ d, owns (c : Thread nD τ) (st5_2 t) fullShare ((cfg5.win 2).fill (cfg5.grid.coords t) d ((cfg5.win 2).cut (cfg5.grid.coords t) ((dat5 V c).after 2 t)))))

/-- The body at any point: the inputs' buffers hold their blocks on the moved rows and anything elsewhere, so the
    body's triple applies at those contents; what it leaves agrees on the moved rows with what the proof data names
    (`cut_pay5`), which is all that is asked back; the invariant and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [show (dat5 V c).Φ t.succ = (dat5 V c).Φ t.castSucc from rfl,
    show (dat5 V c).owesAt () t.succ = (dat5 V c).owesAt () t.castSucc from rfl,
    after5_0, after5_1, after5_2, cut_fblk5, cut_fblk5]
  iintro ⟨HΦ, Ho, ⟨%d0, H0⟩, ⟨%d1, H1⟩, ⟨%d2, H2⟩⟩
  rw [before5_0 V c t d0, before5_1 V c t d1]
  iapply (sound_kernel5 c Set.univ _ _ _ _ _ _ _ ((cfg5.win 0).fill (cfg5.grid.coords t) d0 (iblk5 V c 0 t)) ((cfg5.win 1).fill (cfg5.grid.coords t) d1 (iblk5 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists out5_2 ((cfg5.win 0).fill (cfg5.grid.coords t) d0 (iblk5 V c 0 t)) ((cfg5.win 1).fill (cfg5.grid.coords t) d1 (iblk5 V c 1 t))
  have hcut : (cfg5.win 2).cut (cfg5.grid.coords t) (out5_2 ((cfg5.win 0).fill (cfg5.grid.coords t) d0 (iblk5 V c 0 t)) ((cfg5.win 1).fill (cfg5.grid.coords t) d1 (iblk5 V c 1 t)))
      = (cfg5.win 2).cut (cfg5.grid.coords t) (out5_2 (fblk5 V c 0 t) (fblk5 V c 1 t)) := by
    rw [out5_2_eq, out5_2_eq]
    exact cut_pay5 (cfg5.grid.coords t) _ _ _ _
      (((cfg5.win 0).cut_fill _ _ _).trans (cut_fblk5 V c 0 t).symm)
      (((cfg5.win 1).cut_fill _ _ _).trans (cut_fblk5 V c 1 t).symm)
  rw [(cfg5.win 2).fill_congr_cut (cfg5.grid.coords t) hcut]
  iexact H2

/-- The body obligation of the region's pipeline, at every point (every window is loose: each buffer is asked back
    only on the rows its transfers move). -/
theorem body_obligation5 (c : Dev nD) : BodyObligationLoose (dat5 (F := F) V c) (defs₀ (F := F)) Variants.none () Set.univ := fun t => by
  rw [bigSep_W5, bigSep_W5]
  exact sound_body5 V c t

/-- The index in the first input's moved part with the coordinates of the output's `j`, -/
noncomputable def idx5_0 (i : cfg5.grid.Coords) (j : ((cfg5.win 2).xblock i).Idx) : ((cfg5.win 0).xblock i).Idx :=
  fun a => ⟨(j a).val, Nat.lt_of_lt_of_eq (j a).isLt (xsize5_0 i a).symm⟩

/-- and the one in the second's with `j`'s row (its one column). -/
noncomputable def idx5_1 (i : cfg5.grid.Coords) (j : ((cfg5.win 2).xblock i).Idx) : ((cfg5.win 1).xblock i).Idx :=
  fun a => match a with
    | ⟨0, _⟩ => ⟨(j 0).val, Nat.lt_of_lt_of_eq (j 0).isLt (xsize5_1_0 i).symm⟩
    | ⟨1, _⟩ => ⟨0, Nat.lt_of_lt_of_eq Nat.one_pos (xsize5_1_1 i).symm⟩

/-- The body's value at an index the output's transfer moves: the first input there times the second's word of the
    same row. -/
theorem pay5_apply (i : cfg5.grid.Coords) (X0 : Vec F S8192x2 .f32) (X1 : Vec F S8192x1 .f32) (j : ((cfg5.win 2).xblock i).Idx) :
    k5_pay1 X0 X1 ((cfg5.win 2).xinj i j)
      = FloatOps.mulf (X0 ((cfg5.win 0).xinj i (idx5_0 i j))) (X1 ((cfg5.win 1).xinj i (idx5_1 i j))) := by
  have hk : ∀ a : Fin S8192x1.rank, (((cfg5.win 1).xinj i (idx5_1 i j) : S8192x1.Idx) a).val
      = if S8192x1.size a = 1 then 0 else (((cfg5.win 2).xinj i j : S8192x2.Idx) ⟨a.val + (S8192x2.rank - S8192x1.rank), by have := a.isLt; omega⟩).val := fun a =>
    match a with
    | ⟨0, _⟩ => rfl
    | ⟨1, _⟩ => rfl
  show FloatOps.mulf (shapeCast S8192x2 X0 shapeCasts_S8192x2_S8192x2 ((cfg5.win 2).xinj i j)) (broadcastTo S8192x2 (shapeCast S8192x1 X1 shapeCasts_S8192x1_S8192x1) broadcasts_S8192x1_S8192x2 ((cfg5.win 2).xinj i j))
    = FloatOps.mulf (X0 ((cfg5.win 0).xinj i (idx5_0 i j))) (X1 ((cfg5.win 1).xinj i (idx5_1 i j)))
  rw [shapeCast_self, shapeCast_self, broadcastTo_apply X1 _ _ _ hk]
  rfl

/-- What the output's write-back at point `t` moves: index by index, the first input's block times the second's
    word of the same row. -/
theorem cut_after5_2 (c : Dev nD) (t : Fin cfg5.N) :
    (cfg5.win 2).cut (cfg5.grid.coords t) ((dat5 V c).after 2 t)
      = fun j => FloatOps.mulf (iblk5 V c 0 t (idx5_0 (cfg5.grid.coords t) j)) (iblk5 V c 1 t (idx5_1 (cfg5.grid.coords t) j)) := by
  rw [after5_2, out5_2_eq]
  funext j
  exact (pay5_apply (cfg5.grid.coords t) (fblk5 V c 0 t) (fblk5 V c 1 t) j).trans
    (congrArg₂ FloatOps.mulf ((cfg5.win 0).fill_xinj _ _ _ _) ((cfg5.win 1).fill_xinj _ _ _ _))

end Cert.KernelIdeal.Frame

end
-- ==== Proof.KI.Reg6.lean ====
/-
  Region 6 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input's staging buffer holds the input's block at every point, fetched there or not: where it is not
    fetched the block index has not moved since the point that did fetch it, and the body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input's staging buffer holds the input's block at every point, fetched there or not: where it is not
    fetched the block index has not moved since the point that did fetch it, and the body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- What the body leaves in the output's staging buffer, as a function of the input blocks: its one store, of the
    body's value, over the whole buffer. -/
def out6_2 (x0 : Vec F S10000x2 .f32) (x1 : Vec F S10000x2 .f32) : Vec F S10000x2 .f32 :=
  View.canon [⟨(Rect.unit (s := S10000x2) ![0, 0] S10000x2.size inb_S10000x2_S10000x2_0_0), k6_pay1 (View.ld x0 (Rect.unit (s := S10000x2) ![0, 0] S10000x2.size inb_S10000x2_S10000x2_0_0)) (View.ld x1 (Rect.unit (s := S10000x2) ![0, 0] S10000x2.size inb_S10000x2_S10000x2_0_0))⟩]

/-- The one store covers the buffer. -/
theorem cover6_2 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out6_2` of them. -/
theorem sound_kernel6 (c : Dev nD) (E : Set ℕ) (i : grid6.Coords) (arg1 : Memref sig .tc .vmem S10000x2 .f32) (harg1 : arg1.IsWhole) (arg2 : Memref sig .tc .vmem S10000x2 .f32) (harg2 : arg2.IsWhole) (arg3 : Memref sig .tc .vmem S10000x2 .f32) (harg3 : arg3.IsWhole)
    (x0 : Vec F S10000x2 .f32) (x1 : Vec F S10000x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6_kernel i arg1 harg1 arg2 harg2 arg3 harg3) K := by
  simp only [cc6_kernel_eq_skeleton]; unfold cc6_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The region's proof data on core `c`: the arrays as the region finds them; after the body at point `t` each
    input's buffer at its block and the output's at the body's value of the input blocks; the invariant only the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and
    the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frame

end
-- ==== Proof.KI.Reg7.lean ====
/-
  Region 7 of @main, one pallas_call on a one-axis grid whose blocks do NOT tile their arrays: the last block of
  each of the three windows overhangs its array by the same rows. A fetch of such a block lands only the rows inside
  the array and leaves the rest of the staging buffer at contents nothing names; the body computes on whole buffers,
  those rows too; the write-back moves only the rows inside. The body is row-local — row r of the output block is
  row r of the first input block times, lane by lane, the one word of row r of the second — so on the rows that are
  moved what it leaves does not depend on the unnamed rows. Stated at any float instance and at any contents `V` of
  the buffers when the region is entered: what each staging buffer holds after the body on the rows its transfers
  move, and that the body, run on buffers holding the input blocks on those rows and anything elsewhere, terminates
  leaving exactly that there.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, its part inside the array, read off the window's array as the region
    finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- That block filled out to the staging buffer's shape: past the array's end a word the proof picks and nothing
    reads. -/
def fblk7 (c : Dev nD) (w : Fin cfg7.W) (t : Fin cfg7.N) : (cfg7.win w).block.Idx → Elt F (cfg7.win w).elt :=
  (cfg7.win w).fill (cfg7.grid.coords t) (fun _ => Classical.arbitrary _) (iblk7 V c w t)

theorem cut_fblk7 (c : Dev nD) (w : Fin cfg7.W) (t : Fin cfg7.N) :
    (cfg7.win w).cut (cfg7.grid.coords t) (fblk7 V c w t) = iblk7 V c w t :=
  (cfg7.win w).cut_fill _ _ _

/-- What the body leaves in the output's staging buffer, as a function of what the inputs' hold: its one store, of
    the body's value, over the whole buffer. -/
def out7_2 (x0 : Vec F S8192x2 .f32) (x1 : Vec F S8192x1 .f32) : Vec F S8192x2 .f32 :=
  View.canon [⟨(Rect.unit (s := S8192x2) ![0, 0] S8192x2.size inb_S8192x2_S8192x2_0_0), k7_pay1 (View.ld x0 (Rect.unit (s := S8192x2) ![0, 0] S8192x2.size inb_S8192x2_S8192x2_0_0)) (View.ld x1 (Rect.unit (s := S8192x1) ![0, 0] S8192x1.size inb_S8192x1_S8192x1_0_0))⟩]

/-- The loads read the buffers whole and the one store writes its payload whole: the body's value. -/
theorem out7_2_eq (x0 : Vec F S8192x2 .f32) (x1 : Vec F S8192x1 .f32) : out7_2 x0 x1 = k7_pay1 x0 x1 := by
  have hz : (![0, 0] : Fin 2 → Nat) = fun _ => 0 := funext fun a => by fin_cases a <;> rfl
  unfold out7_2
  rw [View.canon_unit_zero hz, View.ld_unit_zero hz, View.ld_unit_zero hz]

/-- The one store covers the buffer. -/
theorem cover7_2 (p0 : Vec F S8192x2 .f32) (y : S8192x2.Idx) :
    ∃ pc ∈ ([⟨(Rect.unit (s := S8192x2) ![0, 0] S8192x2.size inb_S8192x2_S8192x2_0_0), p0⟩] : List (View.Piece (Elt F) S8192x2 .f32)), y ∈ pc.1.set :=
  View.cover_of_tiled [⟨(Rect.unit (s := S8192x2) ![0, 0] S8192x2.size inb_S8192x2_S8192x2_0_0), p0⟩] S8192x2.size (by rfl) y

set_option maxHeartbeats 1000000 in
/-- The body on whole staging buffers, the inputs' holding `x0 …` and the output's anything, runs to its end with
    the inputs' unchanged and the output's at `out7_2` of them. -/
theorem sound_kernel7 (c : Dev nD) (E : Set ℕ) (i : grid7.Coords) (arg1 : Memref sig .tc .vmem S8192x2 .f32) (harg1 : arg1.IsWhole) (arg2 : Memref sig .tc .vmem S8192x1 .f32) (harg2 : arg2.IsWhole) (arg3 : Memref sig .tc .vmem S8192x2 .f32) (harg3 : arg3.IsWhole)
    (x0 : Vec F S8192x2 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7_kernel i arg1 harg1 arg2 harg2 arg3 harg3) K := by
  simp only [cc7_kernel_eq_skeleton]; unfold cc7_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The three windows cut their blocks alike: the index maps agree, and so do the arrays' and the blocks' row counts. -/
theorem xsize7_0 (i : cfg7.grid.Coords) (a : Fin (cfg7.win 2).shape.rank) : (cfg7.win 0).xsize i a = (cfg7.win 2).xsize i a := rfl
theorem xsize7_1_0 (i : cfg7.grid.Coords) : (cfg7.win 1).xsize i 0 = (cfg7.win 2).xsize i 0 := rfl
theorem xsize7_1_1 (i : cfg7.grid.Coords) : (cfg7.win 1).xsize i 1 = 1 := rfl

/-- Row locality of the body's value: on the rows the output's transfer moves, it reads the first input at the same
    index and the second at the same row, both among what the inputs' transfers move. So inputs that agree on their
    moved rows give values that agree on the output's. -/
theorem cut_pay7 (i : cfg7.grid.Coords) (X0 Y0 : Vec F S8192x2 .f32) (X1 Y1 : Vec F S8192x1 .f32)
    (h0 : (cfg7.win 0).cut i X0 = (cfg7.win 0).cut i Y0) (h1 : (cfg7.win 1).cut i X1 = (cfg7.win 1).cut i Y1) :
    (cfg7.win 2).cut i (k7_pay1 X0 X1) = (cfg7.win 2).cut i (k7_pay1 Y0 Y1) := by
  funext j
  -- the index in the first input's moved part with `j`'s coordinates, and the one in the second's with `j`'s row
  let j0 : ((cfg7.win 0).xblock i).Idx := fun a => ⟨(j a).val, Nat.lt_of_lt_of_eq (j a).isLt (xsize7_0 i a).symm⟩
  let j1 : ((cfg7.win 1).xblock i).Idx := fun a => match a with
    | ⟨0, _⟩ => ⟨(j 0).val, Nat.lt_of_lt_of_eq (j 0).isLt (xsize7_1_0 i).symm⟩
    | ⟨1, _⟩ => ⟨0, Nat.lt_of_lt_of_eq Nat.one_pos (xsize7_1_1 i).symm⟩
  have e0 : X0 ((cfg7.win 2).xinj i j) = Y0 ((cfg7.win 2).xinj i j) := congrFun h0 j0
  have hk : ∀ a : Fin S8192x1.rank, (((cfg7.win 1).xinj i j1 : S8192x1.Idx) a).val
      = if S8192x1.size a = 1 then 0 else (((cfg7.win 2).xinj i j : S8192x2.Idx) ⟨a.val + (S8192x2.rank - S8192x1.rank), by have := a.isLt; omega⟩).val := fun a =>
    match a with
    | ⟨0, _⟩ => rfl
    | ⟨1, _⟩ => rfl
  have e1 : broadcastTo S8192x2 X1 broadcasts_S8192x1_S8192x2 ((cfg7.win 2).xinj i j) = broadcastTo S8192x2 Y1 broadcasts_S8192x1_S8192x2 ((cfg7.win 2).xinj i j) := by
    rw [broadcastTo_apply X1 _ _ _ hk, broadcastTo_apply Y1 _ _ _ hk]
    exact congrFun h1 j1
  show FloatOps.mulf (shapeCast S8192x2 X0 shapeCasts_S8192x2_S8192x2 ((cfg7.win 2).xinj i j)) (broadcastTo S8192x2 (shapeCast S8192x1 X1 shapeCasts_S8192x1_S8192x1) broadcasts_S8192x1_S8192x2 ((cfg7.win 2).xinj i j))
    = FloatOps.mulf (shapeCast S8192x2 Y0 shapeCasts_S8192x2_S8192x2 ((cfg7.win 2).xinj i j)) (broadcastTo S8192x2 (shapeCast S8192x1 Y1 shapeCasts_S8192x1_S8192x1) broadcasts_S8192x1_S8192x2 ((cfg7.win 2).xinj i j))
  rw [shapeCast_self, shapeCast_self, shapeCast_self, shapeCast_self, e0, e1]

/-- The region's proof data on core `c`: the arrays as the region finds them; after the body at point `t` each
    input's buffer at its block and the output's at the body's value of the input blocks — each on the rows its
    transfers move, filled out past them by the proof's own word —; the invariant only the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => fblk7 V c 0 t
    | ⟨1, _⟩ => fblk7 V c 1 t
    | ⟨2, _⟩ => out7_2 (fblk7 V c 0 t) (fblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = fblk7 V c 0 t := by dsimp only [dat7]
theorem after7_1 (c : Dev nD) (t : Fin cfg7.N) : (dat7 V c).after 1 t = fblk7 V c 1 t := by dsimp only [dat7]
theorem after7_2 (c : Dev nD) (t : Fin cfg7.N) : (dat7 V c).after 2 t = out7_2 (fblk7 V c 0 t) (fblk7 V c 1 t) := by dsimp only [dat7]

/-- What the body finds in an input's buffer: just fetched, the block on the rows inside the array and `d`, any,
    elsewhere. -/
theorem before7_0 (c : Dev nD) (t : Fin cfg7.N) (d) :
    (dat7 V c).before 0 t d = (cfg7.win 0).fill (cfg7.grid.coords t) d (iblk7 V c 0 t) := by
  unfold Dat.before; rw [if_pos (fetch7_0 t)]; rfl
theorem before7_1 (c : Dev nD) (t : Fin cfg7.N) (d) :
    (dat7 V c).before 1 t d = (cfg7.win 1).fill (cfg7.grid.coords t) d (iblk7 V c 1 t) := by
  unfold Dat.before; rw [if_pos (fetch7_1 t)]; rfl

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns: each buffer stated on the rows its window's transfers move. -/
def bodyPost7 (c : Dev nD) (t : Fin cfg7.N) : sProp 𝕄 :=
  iprop((dat7 V c).Φ t.succ ∗ (dat7 V c).owesAt () t.succ
    ∗ (∃ d, owns (c : Thread nD τ) (st7_0 t) fullShare ((cfg7.win 0).fill (cfg7.grid.coords t) d ((cfg7.win 0).cut (cfg7.grid.coords t) ((dat7 V c).after 0 t))))
    ∗ (∃ d, owns (c : Thread nD τ) (st7_1 t) fullShare ((cfg7.win 1).fill (cfg7.grid.coords t) d ((cfg7.win 1).cut (cfg7.grid.coords t) ((dat7 V c).after 1 t))))
    ∗ (∃ d, owns (c : Thread nD τ) (st7_2 t) fullShare ((cfg7.win 2).fill (cfg7.grid.coords t) d ((cfg7.win 2).cut (cfg7.grid.coords t) ((dat7 V c).after 2 t)))))

/-- The body at any point: the inputs' buffers hold their blocks on the moved rows and anything elsewhere, so the
    body's triple applies at those contents; what it leaves agrees on the moved rows with what the proof data names
    (`cut_pay7`), which is all that is asked back; the invariant and the core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [show (dat7 V c).Φ t.succ = (dat7 V c).Φ t.castSucc from rfl,
    show (dat7 V c).owesAt () t.succ = (dat7 V c).owesAt () t.castSucc from rfl,
    after7_0, after7_1, after7_2, cut_fblk7, cut_fblk7]
  iintro ⟨HΦ, Ho, ⟨%d0, H0⟩, ⟨%d1, H1⟩, ⟨%d2, H2⟩⟩
  rw [before7_0 V c t d0, before7_1 V c t d1]
  iapply (sound_kernel7 c Set.univ _ _ _ _ _ _ _ ((cfg7.win 0).fill (cfg7.grid.coords t) d0 (iblk7 V c 0 t)) ((cfg7.win 1).fill (cfg7.grid.coords t) d1 (iblk7 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists out7_2 ((cfg7.win 0).fill (cfg7.grid.coords t) d0 (iblk7 V c 0 t)) ((cfg7.win 1).fill (cfg7.grid.coords t) d1 (iblk7 V c 1 t))
  have hcut : (cfg7.win 2).cut (cfg7.grid.coords t) (out7_2 ((cfg7.win 0).fill (cfg7.grid.coords t) d0 (iblk7 V c 0 t)) ((cfg7.win 1).fill (cfg7.grid.coords t) d1 (iblk7 V c 1 t)))
      = (cfg7.win 2).cut (cfg7.grid.coords t) (out7_2 (fblk7 V c 0 t) (fblk7 V c 1 t)) := by
    rw [out7_2_eq, out7_2_eq]
    exact cut_pay7 (cfg7.grid.coords t) _ _ _ _
      (((cfg7.win 0).cut_fill _ _ _).trans (cut_fblk7 V c 0 t).symm)
      (((cfg7.win 1).cut_fill _ _ _).trans (cut_fblk7 V c 1 t).symm)
  rw [(cfg7.win 2).fill_congr_cut (cfg7.grid.coords t) hcut]
  iexact H2

/-- The body obligation of the region's pipeline, at every point (every window is loose: each buffer is asked back
    only on the rows its transfers move). -/
theorem body_obligation7 (c : Dev nD) : BodyObligationLoose (dat7 (F := F) V c) (defs₀ (F := F)) Variants.none () Set.univ := fun t => by
  rw [bigSep_W7, bigSep_W7]
  exact sound_body7 V c t

/-- The index in the first input's moved part with the coordinates of the output's `j`, -/
noncomputable def idx7_0 (i : cfg7.grid.Coords) (j : ((cfg7.win 2).xblock i).Idx) : ((cfg7.win 0).xblock i).Idx :=
  fun a => ⟨(j a).val, Nat.lt_of_lt_of_eq (j a).isLt (xsize7_0 i a).symm⟩

/-- and the one in the second's with `j`'s row (its one column). -/
noncomputable def idx7_1 (i : cfg7.grid.Coords) (j : ((cfg7.win 2).xblock i).Idx) : ((cfg7.win 1).xblock i).Idx :=
  fun a => match a with
    | ⟨0, _⟩ => ⟨(j 0).val, Nat.lt_of_lt_of_eq (j 0).isLt (xsize7_1_0 i).symm⟩
    | ⟨1, _⟩ => ⟨0, Nat.lt_of_lt_of_eq Nat.one_pos (xsize7_1_1 i).symm⟩

/-- The body's value at an index the output's transfer moves: the first input there times the second's word of the
    same row. -/
theorem pay7_apply (i : cfg7.grid.Coords) (X0 : Vec F S8192x2 .f32) (X1 : Vec F S8192x1 .f32) (j : ((cfg7.win 2).xblock i).Idx) :
    k7_pay1 X0 X1 ((cfg7.win 2).xinj i j)
      = FloatOps.mulf (X0 ((cfg7.win 0).xinj i (idx7_0 i j))) (X1 ((cfg7.win 1).xinj i (idx7_1 i j))) := by
  have hk : ∀ a : Fin S8192x1.rank, (((cfg7.win 1).xinj i (idx7_1 i j) : S8192x1.Idx) a).val
      = if S8192x1.size a = 1 then 0 else (((cfg7.win 2).xinj i j : S8192x2.Idx) ⟨a.val + (S8192x2.rank - S8192x1.rank), by have := a.isLt; omega⟩).val := fun a =>
    match a with
    | ⟨0, _⟩ => rfl
    | ⟨1, _⟩ => rfl
  show FloatOps.mulf (shapeCast S8192x2 X0 shapeCasts_S8192x2_S8192x2 ((cfg7.win 2).xinj i j)) (broadcastTo S8192x2 (shapeCast S8192x1 X1 shapeCasts_S8192x1_S8192x1) broadcasts_S8192x1_S8192x2 ((cfg7.win 2).xinj i j))
    = FloatOps.mulf (X0 ((cfg7.win 0).xinj i (idx7_0 i j))) (X1 ((cfg7.win 1).xinj i (idx7_1 i j)))
  rw [shapeCast_self, shapeCast_self, broadcastTo_apply X1 _ _ _ hk]
  rfl

/-- What the output's write-back at point `t` moves: index by index, the first input's block times the second's
    word of the same row. -/
theorem cut_after7_2 (c : Dev nD) (t : Fin cfg7.N) :
    (cfg7.win 2).cut (cfg7.grid.coords t) ((dat7 V c).after 2 t)
      = fun j => FloatOps.mulf (iblk7 V c 0 t (idx7_0 (cfg7.grid.coords t) j)) (iblk7 V c 1 t (idx7_1 (cfg7.grid.coords t) j)) := by
  rw [after7_2, out7_2_eq]
  funext j
  exact (pay7_apply (cfg7.grid.coords t) (fblk7 V c 0 t) (fblk7 V c 1 t) j).trans
    (congrArg₂ FloatOps.mulf ((cfg7.win 0).fill_xinj _ _ _ _) ((cfg7.win 1).fill_xinj _ _ _ _))

end Cert.KernelIdeal.Frame

end
-- ==== Proof.KI.Reg8.lean ====
/-
  Region 8 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input's staging buffer holds the input's block at every point, fetched there or not: where it is not
    fetched the block index has not moved since the point that did fetch it, and the body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- An input's staging buffer holds the input's block at every point, fetched there or not: where it is not
    fetched the block index has not moved since the point that did fetch it, and the body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- What the body leaves in the output's staging buffer, as a function of the input blocks: its one store, of the
    body's value, over the whole buffer. -/
def out8_2 (x0 : Vec F S10000x2 .f32) (x1 : Vec F S10000x2 .f32) : Vec F S10000x2 .f32 :=
  View.canon [⟨(Rect.unit (s := S10000x2) ![0, 0] S10000x2.size inb_S10000x2_S10000x2_0_0), k8_pay1 (View.ld x0 (Rect.unit (s := S10000x2) ![0, 0] S10000x2.size inb_S10000x2_S10000x2_0_0)) (View.ld x1 (Rect.unit (s := S10000x2) ![0, 0] S10000x2.size inb_S10000x2_S10000x2_0_0))⟩]

/-- The one store covers the buffer. -/
theorem cover8_2 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out8_2` of them. -/
theorem sound_kernel8 (c : Dev nD) (E : Set ℕ) (i : grid8.Coords) (arg1 : Memref sig .tc .vmem S10000x2 .f32) (harg1 : arg1.IsWhole) (arg2 : Memref sig .tc .vmem S10000x2 .f32) (harg2 : arg2.IsWhole) (arg3 : Memref sig .tc .vmem S10000x2 .f32) (harg3 : arg3.IsWhole)
    (x0 : Vec F S10000x2 .f32) (x1 : Vec F S10000x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8_kernel i arg1 harg1 arg2 harg2 arg3 harg3) K := by
  simp only [cc8_kernel_eq_skeleton]; unfold cc8_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The region's proof data on core `c`: the arrays as the region finds them; after the body at point `t` each
    input's buffer at its block and the output's at the body's value of the input blocks; the invariant only the
    scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so the body's triple applies; the invariant and
    the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ _ _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Frame

end
-- ==== Proof.KI.Reg9.lean ====
/-
  Region 9 of @main, one pallas_call on a one-axis grid whose blocks do NOT tile their arrays: the last block of
  each of the three windows overhangs its array by the same rows. A fetch of such a block lands only the rows inside
  the array and leaves the rest of the staging buffer at contents nothing names; the body computes on whole buffers,
  those rows too; the write-back moves only the rows inside. The body is row-local — row r of the output block is
  row r of the first input block times, lane by lane, the one word of row r of the second — so on the rows that are
  moved what it leaves does not depend on the unnamed rows. Stated at any float instance and at any contents `V` of
  the buffers when the region is entered: what each staging buffer holds after the body on the rows its transfers
  move, and that the body, run on buffers holding the input blocks on those rows and anything elsewhere, terminates
  leaving exactly that there.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, its part inside the array, read off the window's array as the region
    finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- That block filled out to the staging buffer's shape: past the array's end a word the proof picks and nothing
    reads. -/
def fblk9 (c : Dev nD) (w : Fin cfg9.W) (t : Fin cfg9.N) : (cfg9.win w).block.Idx → Elt F (cfg9.win w).elt :=
  (cfg9.win w).fill (cfg9.grid.coords t) (fun _ => Classical.arbitrary _) (iblk9 V c w t)

theorem cut_fblk9 (c : Dev nD) (w : Fin cfg9.W) (t : Fin cfg9.N) :
    (cfg9.win w).cut (cfg9.grid.coords t) (fblk9 V c w t) = iblk9 V c w t :=
  (cfg9.win w).cut_fill _ _ _

/-- What the body leaves in the output's staging buffer, as a function of what the inputs' hold: its one store, of
    the body's value, over the whole buffer. -/
def out9_2 (x0 : Vec F S8192x2 .f32) (x1 : Vec F S8192x1 .f32) : Vec F S8192x2 .f32 :=
  View.canon [⟨(Rect.unit (s := S8192x2) ![0, 0] S8192x2.size inb_S8192x2_S8192x2_0_0), k9_pay1 (View.ld x0 (Rect.unit (s := S8192x2) ![0, 0] S8192x2.size inb_S8192x2_S8192x2_0_0)) (View.ld x1 (Rect.unit (s := S8192x1) ![0, 0] S8192x1.size inb_S8192x1_S8192x1_0_0))⟩]

/-- The loads read the buffers whole and the one store writes its payload whole: the body's value. -/
theorem out9_2_eq (x0 : Vec F S8192x2 .f32) (x1 : Vec F S8192x1 .f32) : out9_2 x0 x1 = k9_pay1 x0 x1 := by
  have hz : (![0, 0] : Fin 2 → Nat) = fun _ => 0 := funext fun a => by fin_cases a <;> rfl
  unfold out9_2
  rw [View.canon_unit_zero hz, View.ld_unit_zero hz, View.ld_unit_zero hz]

/-- The one store covers the buffer. -/
theorem cover9_2 (p0 : Vec F S8192x2 .f32) (y : S8192x2.Idx) :
    ∃ pc ∈ ([⟨(Rect.unit (s := S8192x2) ![0, 0] S8192x2.size inb_S8192x2_S8192x2_0_0), p0⟩] : List (View.Piece (Elt F) S8192x2 .f32)), y ∈ pc.1.set :=
  View.cover_of_tiled [⟨(Rect.unit (s := S8192x2) ![0, 0] S8192x2.size inb_S8192x2_S8192x2_0_0), p0⟩] S8192x2.size (by rfl) y

set_option maxHeartbeats 1000000 in
/-- The body on whole staging buffers, the inputs' holding `x0 …` and the output's anything, runs to its end with
    the inputs' unchanged and the output's at `out9_2` of them. -/
theorem sound_kernel9 (c : Dev nD) (E : Set ℕ) (i : grid9.Coords) (arg1 : Memref sig .tc .vmem S8192x2 .f32) (harg1 : arg1.IsWhole) (arg2 : Memref sig .tc .vmem S8192x1 .f32) (harg2 : arg2.IsWhole) (arg3 : Memref sig .tc .vmem S8192x2 .f32) (harg3 : arg3.IsWhole)
    (x0 : Vec F S8192x2 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9_kernel i arg1 harg1 arg2 harg2 arg3 harg3) K := by
  simp only [cc9_kernel_eq_skeleton]; unfold cc9_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The three windows cut their blocks alike: the index maps agree, and so do the arrays' and the blocks' row counts. -/
theorem xsize9_0 (i : cfg9.grid.Coords) (a : Fin (cfg9.win 2).shape.rank) : (cfg9.win 0).xsize i a = (cfg9.win 2).xsize i a := rfl
theorem xsize9_1_0 (i : cfg9.grid.Coords) : (cfg9.win 1).xsize i 0 = (cfg9.win 2).xsize i 0 := rfl
theorem xsize9_1_1 (i : cfg9.grid.Coords) : (cfg9.win 1).xsize i 1 = 1 := rfl

/-- Row locality of the body's value: on the rows the output's transfer moves, it reads the first input at the same
    index and the second at the same row, both among what the inputs' transfers move. So inputs that agree on their
    moved rows give values that agree on the output's. -/
theorem cut_pay9 (i : cfg9.grid.Coords) (X0 Y0 : Vec F S8192x2 .f32) (X1 Y1 : Vec F S8192x1 .f32)
    (h0 : (cfg9.win 0).cut i X0 = (cfg9.win 0).cut i Y0) (h1 : (cfg9.win 1).cut i X1 = (cfg9.win 1).cut i Y1) :
    (cfg9.win 2).cut i (k9_pay1 X0 X1) = (cfg9.win 2).cut i (k9_pay1 Y0 Y1) := by
  funext j
  -- the index in the first input's moved part with `j`'s coordinates, and the one in the second's with `j`'s row
  let j0 : ((cfg9.win 0).xblock i).Idx := fun a => ⟨(j a).val, Nat.lt_of_lt_of_eq (j a).isLt (xsize9_0 i a).symm⟩
  let j1 : ((cfg9.win 1).xblock i).Idx := fun a => match a with
    | ⟨0, _⟩ => ⟨(j 0).val, Nat.lt_of_lt_of_eq (j 0).isLt (xsize9_1_0 i).symm⟩
    | ⟨1, _⟩ => ⟨0, Nat.lt_of_lt_of_eq Nat.one_pos (xsize9_1_1 i).symm⟩
  have e0 : X0 ((cfg9.win 2).xinj i j) = Y0 ((cfg9.win 2).xinj i j) := congrFun h0 j0
  have hk : ∀ a : Fin S8192x1.rank, (((cfg9.win 1).xinj i j1 : S8192x1.Idx) a).val
      = if S8192x1.size a = 1 then 0 else (((cfg9.win 2).xinj i j : S8192x2.Idx) ⟨a.val + (S8192x2.rank - S8192x1.rank), by have := a.isLt; omega⟩).val := fun a =>
    match a with
    | ⟨0, _⟩ => rfl
    | ⟨1, _⟩ => rfl
  have e1 : broadcastTo S8192x2 X1 broadcasts_S8192x1_S8192x2 ((cfg9.win 2).xinj i j) = broadcastTo S8192x2 Y1 broadcasts_S8192x1_S8192x2 ((cfg9.win 2).xinj i j) := by
    rw [broadcastTo_apply X1 _ _ _ hk, broadcastTo_apply Y1 _ _ _ hk]
    exact congrFun h1 j1
  show FloatOps.mulf (shapeCast S8192x2 X0 shapeCasts_S8192x2_S8192x2 ((cfg9.win 2).xinj i j)) (broadcastTo S8192x2 (shapeCast S8192x1 X1 shapeCasts_S8192x1_S8192x1) broadcasts_S8192x1_S8192x2 ((cfg9.win 2).xinj i j))
    = FloatOps.mulf (shapeCast S8192x2 Y0 shapeCasts_S8192x2_S8192x2 ((cfg9.win 2).xinj i j)) (broadcastTo S8192x2 (shapeCast S8192x1 Y1 shapeCasts_S8192x1_S8192x1) broadcasts_S8192x1_S8192x2 ((cfg9.win 2).xinj i j))
  rw [shapeCast_self, shapeCast_self, shapeCast_self, shapeCast_self, e0, e1]

/-- The region's proof data on core `c`: the arrays as the region finds them; after the body at point `t` each
    input's buffer at its block and the output's at the body's value of the input blocks — each on the rows its
    transfers move, filled out past them by the proof's own word —; the invariant only the scoped rest and the
    generator register, untouched; nothing owed; full shares. -/
def dat9 (c : Dev nD) : Dat τ (Elt F) Unit ℕ (UR sig nD τ) ℕ cfg9 c where
  A w := V c (Pipeline.arrRef spec9 w)
  after w t := match w with
    | ⟨0, _⟩ => fblk9 V c 0 t
    | ⟨1, _⟩ => fblk9 V c 1 t
    | ⟨2, _⟩ => out9_2 (fblk9 V c 0 t) (fblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = fblk9 V c 0 t := by dsimp only [dat9]
theorem after9_1 (c : Dev nD) (t : Fin cfg9.N) : (dat9 V c).after 1 t = fblk9 V c 1 t := by dsimp only [dat9]
theorem after9_2 (c : Dev nD) (t : Fin cfg9.N) : (dat9 V c).after 2 t = out9_2 (fblk9 V c 0 t) (fblk9 V c 1 t) := by dsimp only [dat9]

/-- What the body finds in an input's buffer: just fetched, the block on the rows inside the array and `d`, any,
    elsewhere. -/
theorem before9_0 (c : Dev nD) (t : Fin cfg9.N) (d) :
    (dat9 V c).before 0 t d = (cfg9.win 0).fill (cfg9.grid.coords t) d (iblk9 V c 0 t) := by
  unfold Dat.before; rw [if_pos (fetch9_0 t)]; rfl
theorem before9_1 (c : Dev nD) (t : Fin cfg9.N) (d) :
    (dat9 V c).before 1 t d = (cfg9.win 1).fill (cfg9.grid.coords t) d (iblk9 V c 1 t) := by
  unfold Dat.before; rw [if_pos (fetch9_1 t)]; rfl

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns: each buffer stated on the rows its window's transfers move. -/
def bodyPost9 (c : Dev nD) (t : Fin cfg9.N) : sProp 𝕄 :=
  iprop((dat9 V c).Φ t.succ ∗ (dat9 V c).owesAt () t.succ
    ∗ (∃ d, owns (c : Thread nD τ) (st9_0 t) fullShare ((cfg9.win 0).fill (cfg9.grid.coords t) d ((cfg9.win 0).cut (cfg9.grid.coords t) ((dat9 V c).after 0 t))))
    ∗ (∃ d, owns (c : Thread nD τ) (st9_1 t) fullShare ((cfg9.win 1).fill (cfg9.grid.coords t) d ((cfg9.win 1).cut (cfg9.grid.coords t) ((dat9 V c).after 1 t))))
    ∗ (∃ d, owns (c : Thread nD τ) (st9_2 t) fullShare ((cfg9.win 2).fill (cfg9.grid.coords t) d ((cfg9.win 2).cut (cfg9.grid.coords t) ((dat9 V c).after 2 t)))))

/-- The body at any point: the inputs' buffers hold their blocks on the moved rows and anything elsewhere, so the
    body's triple applies at those contents; what it leaves agrees on the moved rows with what the proof data names
    (`cut_pay9`), which is all that is asked back; the invariant and the core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  rw [show (dat9 V c).Φ t.succ = (dat9 V c).Φ t.castSucc from rfl,
    show (dat9 V c).owesAt () t.succ = (dat9 V c).owesAt () t.castSucc from rfl,
    after9_0, after9_1, after9_2, cut_fblk9, cut_fblk9]
  iintro ⟨HΦ, Ho, ⟨%d0, H0⟩, ⟨%d1, H1⟩, ⟨%d2, H2⟩⟩
  rw [before9_0 V c t d0, before9_1 V c t d1]
  iapply (sound_kernel9 c Set.univ _ _ _ _ _ _ _ ((cfg9.win 0).fill (cfg9.grid.coords t) d0 (iblk9 V c 0 t)) ((cfg9.win 1).fill (cfg9.grid.coords t) d1 (iblk9 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists out9_2 ((cfg9.win 0).fill (cfg9.grid.coords t) d0 (iblk9 V c 0 t)) ((cfg9.win 1).fill (cfg9.grid.coords t) d1 (iblk9 V c 1 t))
  have hcut : (cfg9.win 2).cut (cfg9.grid.coords t) (out9_2 ((cfg9.win 0).fill (cfg9.grid.coords t) d0 (iblk9 V c 0 t)) ((cfg9.win 1).fill (cfg9.grid.coords t) d1 (iblk9 V c 1 t)))
      = (cfg9.win 2).cut (cfg9.grid.coords t) (out9_2 (fblk9 V c 0 t) (fblk9 V c 1 t)) := by
    rw [out9_2_eq, out9_2_eq]
    exact cut_pay9 (cfg9.grid.coords t) _ _ _ _
      (((cfg9.win 0).cut_fill _ _ _).trans (cut_fblk9 V c 0 t).symm)
      (((cfg9.win 1).cut_fill _ _ _).trans (cut_fblk9 V c 1 t).symm)
  rw [(cfg9.win 2).fill_congr_cut (cfg9.grid.coords t) hcut]
  iexact H2

/-- The body obligation of the region's pipeline, at every point (every window is loose: each buffer is asked back
    only on the rows its transfers move). -/
theorem body_obligation9 (c : Dev nD) : BodyObligationLoose (dat9 (F := F) V c) (defs₀ (F := F)) Variants.none () Set.univ := fun t => by
  rw [bigSep_W9, bigSep_W9]
  exact sound_body9 V c t

/-- The index in the first input's moved part with the coordinates of the output's `j`, -/
noncomputable def idx9_0 (i : cfg9.grid.Coords) (j : ((cfg9.win 2).xblock i).Idx) : ((cfg9.win 0).xblock i).Idx :=
  fun a => ⟨(j a).val, Nat.lt_of_lt_of_eq (j a).isLt (xsize9_0 i a).symm⟩

/-- and the one in the second's with `j`'s row (its one column). -/
noncomputable def idx9_1 (i : cfg9.grid.Coords) (j : ((cfg9.win 2).xblock i).Idx) : ((cfg9.win 1).xblock i).Idx :=
  fun a => match a with
    | ⟨0, _⟩ => ⟨(j 0).val, Nat.lt_of_lt_of_eq (j 0).isLt (xsize9_1_0 i).symm⟩
    | ⟨1, _⟩ => ⟨0, Nat.lt_of_lt_of_eq Nat.one_pos (xsize9_1_1 i).symm⟩

/-- The body's value at an index the output's transfer moves: the first input there times the second's word of the
    same row. -/
theorem pay9_apply (i : cfg9.grid.Coords) (X0 : Vec F S8192x2 .f32) (X1 : Vec F S8192x1 .f32) (j : ((cfg9.win 2).xblock i).Idx) :
    k9_pay1 X0 X1 ((cfg9.win 2).xinj i j)
      = FloatOps.mulf (X0 ((cfg9.win 0).xinj i (idx9_0 i j))) (X1 ((cfg9.win 1).xinj i (idx9_1 i j))) := by
  have hk : ∀ a : Fin S8192x1.rank, (((cfg9.win 1).xinj i (idx9_1 i j) : S8192x1.Idx) a).val
      = if S8192x1.size a = 1 then 0 else (((cfg9.win 2).xinj i j : S8192x2.Idx) ⟨a.val + (S8192x2.rank - S8192x1.rank), by have := a.isLt; omega⟩).val := fun a =>
    match a with
    | ⟨0, _⟩ => rfl
    | ⟨1, _⟩ => rfl
  show FloatOps.mulf (shapeCast S8192x2 X0 shapeCasts_S8192x2_S8192x2 ((cfg9.win 2).xinj i j)) (broadcastTo S8192x2 (shapeCast S8192x1 X1 shapeCasts_S8192x1_S8192x1) broadcasts_S8192x1_S8192x2 ((cfg9.win 2).xinj i j))
    = FloatOps.mulf (X0 ((cfg9.win 0).xinj i (idx9_0 i j))) (X1 ((cfg9.win 1).xinj i (idx9_1 i j)))
  rw [shapeCast_self, shapeCast_self, broadcastTo_apply X1 _ _ _ hk]
  rfl

/-- What the output's write-back at point `t` moves: index by index, the first input's block times the second's
    word of the same row. -/
theorem cut_after9_2 (c : Dev nD) (t : Fin cfg9.N) :
    (cfg9.win 2).cut (cfg9.grid.coords t) ((dat9 V c).after 2 t)
      = fun j => FloatOps.mulf (iblk9 V c 0 t (idx9_0 (cfg9.grid.coords t) j)) (iblk9 V c 1 t (idx9_1 (cfg9.grid.coords t) j)) := by
  rw [after9_2, out9_2_eq]
  funext j
  exact (pay9_apply (cfg9.grid.coords t) (fblk9 V c 0 t) (fblk9 V c 1 t) j).trans
    (congrArg₂ FloatOps.mulf ((cfg9.win 0).fill_xinj _ _ _ _) ((cfg9.win 1).fill_xinj _ _ _ _))

end Cert.KernelIdeal.Frame

end
-- ==== Proof.KI.Reg10.lean ====
/-
  Region 10 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input's staging buffer holds the input's block at every point, fetched there or not: where it is not
    fetched the block index has not moved since the point that did fetch it, and the body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- An input's staging buffer holds the input's block at every point, fetched there or not: where it is not
    fetched the block index has not moved since the point that did fetch it, and the body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- What the body leaves in the output's staging buffer, as a function of the input blocks: its one store, of the
    body's value, over the whole buffer. -/
def out10_2 (x0 : Vec F S10000x2 .f32) (x1 : Vec F S10000x2 .f32) : Vec F S10000x2 .f32 :=
  View.canon [⟨(Rect.unit (s := S10000x2) ![0, 0] S10000x2.size inb_S10000x2_S10000x2_0_0), k10_pay1 (View.ld x0 (Rect.unit (s := S10000x2) ![0, 0] S10000x2.size inb_S10000x2_S10000x2_0_0)) (View.ld x1 (Rect.unit (s := S10000x2) ![0, 0] S10000x2.size inb_S10000x2_S10000x2_0_0))⟩]

/-- The one store covers the buffer. -/
theorem cover10_2 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out10_2` of them. -/
theorem sound_kernel10 (c : Dev nD) (E : Set ℕ) (i : grid10.Coords) (arg1 : Memref sig .tc .vmem S10000x2 .f32) (harg1 : arg1.IsWhole) (arg2 : Memref sig .tc .vmem S10000x2 .f32) (harg2 : arg2.IsWhole) (arg3 : Memref sig .tc .vmem S10000x2 .f32) (harg3 : arg3.IsWhole)
    (x0 : Vec F S10000x2 .f32) (x1 : Vec F S10000x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10_kernel i arg1 harg1 arg2 harg2 arg3 harg3) K := by
  simp only [cc10_kernel_eq_skeleton]; unfold cc10_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-- The region's proof data on core `c`: the arrays as the region finds them; after the body at point `t` each
    input's buffer at its block and the output's at the body's value of the input blocks; the invariant only the
    scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' buffers hold their blocks, so the body's triple applies; the invariant and
    the core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Frame

end
-- ==== Proof.KI.Reg11.lean ====
/-
  Region 11 of @main, one pallas_call on a one-axis grid whose blocks do NOT tile their arrays: the last block of
  each of the three windows overhangs its array by the same rows. A fetch of such a block lands only the rows inside
  the array and leaves the rest of the staging buffer at contents nothing names; the body computes on whole buffers,
  those rows too; the write-back moves only the rows inside. The body is row-local — row r of the output block is
  row r of the first input block times, lane by lane, the one word of row r of the second — so on the rows that are
  moved what it leaves does not depend on the unnamed rows. Stated at any float instance and at any contents `V` of
  the buffers when the region is entered: what each staging buffer holds after the body on the rows its transfers
  move, and that the body, run on buffers holding the input blocks on those rows and anything elsewhere, terminates
  leaving exactly that there.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, its part inside the array, read off the window's array as the region
    finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- That block filled out to the staging buffer's shape: past the array's end a word the proof picks and nothing
    reads. -/
def fblk11 (c : Dev nD) (w : Fin cfg11.W) (t : Fin cfg11.N) : (cfg11.win w).block.Idx → Elt F (cfg11.win w).elt :=
  (cfg11.win w).fill (cfg11.grid.coords t) (fun _ => Classical.arbitrary _) (iblk11 V c w t)

theorem cut_fblk11 (c : Dev nD) (w : Fin cfg11.W) (t : Fin cfg11.N) :
    (cfg11.win w).cut (cfg11.grid.coords t) (fblk11 V c w t) = iblk11 V c w t :=
  (cfg11.win w).cut_fill _ _ _

/-- What the body leaves in the output's staging buffer, as a function of what the inputs' hold: its one store, of
    the body's value, over the whole buffer. -/
def out11_2 (x0 : Vec F S8192x2 .f32) (x1 : Vec F S8192x1 .f32) : Vec F S8192x2 .f32 :=
  View.canon [⟨(Rect.unit (s := S8192x2) ![0, 0] S8192x2.size inb_S8192x2_S8192x2_0_0), k11_pay1 (View.ld x0 (Rect.unit (s := S8192x2) ![0, 0] S8192x2.size inb_S8192x2_S8192x2_0_0)) (View.ld x1 (Rect.unit (s := S8192x1) ![0, 0] S8192x1.size inb_S8192x1_S8192x1_0_0))⟩]

/-- The loads read the buffers whole and the one store writes its payload whole: the body's value. -/
theorem out11_2_eq (x0 : Vec F S8192x2 .f32) (x1 : Vec F S8192x1 .f32) : out11_2 x0 x1 = k11_pay1 x0 x1 := by
  have hz : (![0, 0] : Fin 2 → Nat) = fun _ => 0 := funext fun a => by fin_cases a <;> rfl
  unfold out11_2
  rw [View.canon_unit_zero hz, View.ld_unit_zero hz, View.ld_unit_zero hz]

/-- The one store covers the buffer. -/
theorem cover11_2 (p0 : Vec F S8192x2 .f32) (y : S8192x2.Idx) :
    ∃ pc ∈ ([⟨(Rect.unit (s := S8192x2) ![0, 0] S8192x2.size inb_S8192x2_S8192x2_0_0), p0⟩] : List (View.Piece (Elt F) S8192x2 .f32)), y ∈ pc.1.set :=
  View.cover_of_tiled [⟨(Rect.unit (s := S8192x2) ![0, 0] S8192x2.size inb_S8192x2_S8192x2_0_0), p0⟩] S8192x2.size (by rfl) y

set_option maxHeartbeats 1000000 in
/-- The body on whole staging buffers, the inputs' holding `x0 …` and the output's anything, runs to its end with
    the inputs' unchanged and the output's at `out11_2` of them. -/
theorem sound_kernel11 (c : Dev nD) (E : Set ℕ) (i : grid11.Coords) (arg1 : Memref sig .tc .vmem S8192x2 .f32) (harg1 : arg1.IsWhole) (arg2 : Memref sig .tc .vmem S8192x1 .f32) (harg2 : arg2.IsWhole) (arg3 : Memref sig .tc .vmem S8192x2 .f32) (harg3 : arg3.IsWhole)
    (x0 : Vec F S8192x2 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11_2 x0 x1)) -∗ K ⟨⟩))
      ⊢ wp frame (wpE (defs₀ (F := F)) Variants.none c none) E (cc11_kernel i arg1 harg1 arg2 harg2 arg3 harg3) K := by
  simp only [cc11_kernel_eq_skeleton]; unfold cc11_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-- The three windows cut their blocks alike: the index maps agree, and so do the arrays' and the blocks' row counts. -/
theorem xsize11_0 (i : cfg11.grid.Coords) (a : Fin (cfg11.win 2).shape.rank) : (cfg11.win 0).xsize i a = (cfg11.win 2).xsize i a := rfl
theorem xsize11_1_0 (i : cfg11.grid.Coords) : (cfg11.win 1).xsize i 0 = (cfg11.win 2).xsize i 0 := rfl
theorem xsize11_1_1 (i : cfg11.grid.Coords) : (cfg11.win 1).xsize i 1 = 1 := rfl

/-- Row locality of the body's value: on the rows the output's transfer moves, it reads the first input at the same
    index and the second at the same row, both among what the inputs' transfers move. So inputs that agree on their
    moved rows give values that agree on the output's. -/
theorem cut_pay11 (i : cfg11.grid.Coords) (X0 Y0 : Vec F S8192x2 .f32) (X1 Y1 : Vec F S8192x1 .f32)
    (h0 : (cfg11.win 0).cut i X0 = (cfg11.win 0).cut i Y0) (h1 : (cfg11.win 1).cut i X1 = (cfg11.win 1).cut i Y1) :
    (cfg11.win 2).cut i (k11_pay1 X0 X1) = (cfg11.win 2).cut i (k11_pay1 Y0 Y1) := by
  funext j
  -- the index in the first input's moved part with `j`'s coordinates, and the one in the second's with `j`'s row
  let j0 : ((cfg11.win 0).xblock i).Idx := fun a => ⟨(j a).val, Nat.lt_of_lt_of_eq (j a).isLt (xsize11_0 i a).symm⟩
  let j1 : ((cfg11.win 1).xblock i).Idx := fun a => match a with
    | ⟨0, _⟩ => ⟨(j 0).val, Nat.lt_of_lt_of_eq (j 0).isLt (xsize11_1_0 i).symm⟩
    | ⟨1, _⟩ => ⟨0, Nat.lt_of_lt_of_eq Nat.one_pos (xsize11_1_1 i).symm⟩
  have e0 : X0 ((cfg11.win 2).xinj i j) = Y0 ((cfg11.win 2).xinj i j) := congrFun h0 j0
  have hk : ∀ a : Fin S8192x1.rank, (((cfg11.win 1).xinj i j1 : S8192x1.Idx) a).val
      = if S8192x1.size a = 1 then 0 else (((cfg11.win 2).xinj i j : S8192x2.Idx) ⟨a.val + (S8192x2.rank - S8192x1.rank), by have := a.isLt; omega⟩).val := fun a =>
    match a with
    | ⟨0, _⟩ => rfl
    | ⟨1, _⟩ => rfl
  have e1 : broadcastTo S8192x2 X1 broadcasts_S8192x1_S8192x2 ((cfg11.win 2).xinj i j) = broadcastTo S8192x2 Y1 broadcasts_S8192x1_S8192x2 ((cfg11.win 2).xinj i j) := by
    rw [broadcastTo_apply X1 _ _ _ hk, broadcastTo_apply Y1 _ _ _ hk]
    exact congrFun h1 j1
  show FloatOps.mulf (shapeCast S8192x2 X0 shapeCasts_S8192x2_S8192x2 ((cfg11.win 2).xinj i j)) (broadcastTo S8192x2 (shapeCast S8192x1 X1 shapeCasts_S8192x1_S8192x1) broadcasts_S8192x1_S8192x2 ((cfg11.win 2).xinj i j))
    = FloatOps.mulf (shapeCast S8192x2 Y0 shapeCasts_S8192x2_S8192x2 ((cfg11.win 2).xinj i j)) (broadcastTo S8192x2 (shapeCast S8192x1 Y1 shapeCasts_S8192x1_S8192x1) broadcasts_S8192x1_S8192x2 ((cfg11.win 2).xinj i j))
  rw [shapeCast_self, shapeCast_self, shapeCast_self, shapeCast_self, e0, e1]

/-- The region's proof data on core `c`: the arrays as the region finds them; after the body at point `t` each
    input's buffer at its block and the output's at the body's value of the input blocks — each on the rows its
    transfers move, filled out past them by the proof's own word —; the invariant only the scoped rest and the
    generator register, untouched; nothing owed; full shares. -/
def dat11 (c : Dev nD) : Dat τ (Elt F) Unit ℕ (UR sig nD τ) ℕ cfg11 c where
  A w := V c (Pipeline.arrRef spec11 w)
  after w t := match w with
    | ⟨0, _⟩ => fblk11 V c 0 t
    | ⟨1, _⟩ => fblk11 V c 1 t
    | ⟨2, _⟩ => out11_2 (fblk11 V c 0 t) (fblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = fblk11 V c 0 t := by dsimp only [dat11]
theorem after11_1 (c : Dev nD) (t : Fin cfg11.N) : (dat11 V c).after 1 t = fblk11 V c 1 t := by dsimp only [dat11]
theorem after11_2 (c : Dev nD) (t : Fin cfg11.N) : (dat11 V c).after 2 t = out11_2 (fblk11 V c 0 t) (fblk11 V c 1 t) := by dsimp only [dat11]

/-- What the body finds in an input's buffer: just fetched, the block on the rows inside the array and `d`, any,
    elsewhere. -/
theorem before11_0 (c : Dev nD) (t : Fin cfg11.N) (d) :
    (dat11 V c).before 0 t d = (cfg11.win 0).fill (cfg11.grid.coords t) d (iblk11 V c 0 t) := by
  unfold Dat.before; rw [if_pos (fetch11_0 t)]; rfl
theorem before11_1 (c : Dev nD) (t : Fin cfg11.N) (d) :
    (dat11 V c).before 1 t d = (cfg11.win 1).fill (cfg11.grid.coords t) d (iblk11 V c 1 t) := by
  unfold Dat.before; rw [if_pos (fetch11_1 t)]; rfl

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns: each buffer stated on the rows its window's transfers move. -/
def bodyPost11 (c : Dev nD) (t : Fin cfg11.N) : sProp 𝕄 :=
  iprop((dat11 V c).Φ t.succ ∗ (dat11 V c).owesAt () t.succ
    ∗ (∃ d, owns (c : Thread nD τ) (st11_0 t) fullShare ((cfg11.win 0).fill (cfg11.grid.coords t) d ((cfg11.win 0).cut (cfg11.grid.coords t) ((dat11 V c).after 0 t))))
    ∗ (∃ d, owns (c : Thread nD τ) (st11_1 t) fullShare ((cfg11.win 1).fill (cfg11.grid.coords t) d ((cfg11.win 1).cut (cfg11.grid.coords t) ((dat11 V c).after 1 t))))
    ∗ (∃ d, owns (c : Thread nD τ) (st11_2 t) fullShare ((cfg11.win 2).fill (cfg11.grid.coords t) d ((cfg11.win 2).cut (cfg11.grid.coords t) ((dat11 V c).after 2 t)))))

/-- The body at any point: the inputs' buffers hold their blocks on the moved rows and anything elsewhere, so the
    body's triple applies at those contents; what it leaves agrees on the moved rows with what the proof data names
    (`cut_pay11`), which is all that is asked back; the invariant and the core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  rw [show (dat11 V c).Φ t.succ = (dat11 V c).Φ t.castSucc from rfl,
    show (dat11 V c).owesAt () t.succ = (dat11 V c).owesAt () t.castSucc from rfl,
    after11_0, after11_1, after11_2, cut_fblk11, cut_fblk11]
  iintro ⟨HΦ, Ho, ⟨%d0, H0⟩, ⟨%d1, H1⟩, ⟨%d2, H2⟩⟩
  rw [before11_0 V c t d0, before11_1 V c t d1]
  iapply (sound_kernel11 c Set.univ _ _ _ _ _ _ _ ((cfg11.win 0).fill (cfg11.grid.coords t) d0 (iblk11 V c 0 t)) ((cfg11.win 1).fill (cfg11.grid.coords t) d1 (iblk11 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists out11_2 ((cfg11.win 0).fill (cfg11.grid.coords t) d0 (iblk11 V c 0 t)) ((cfg11.win 1).fill (cfg11.grid.coords t) d1 (iblk11 V c 1 t))
  have hcut : (cfg11.win 2).cut (cfg11.grid.coords t) (out11_2 ((cfg11.win 0).fill (cfg11.grid.coords t) d0 (iblk11 V c 0 t)) ((cfg11.win 1).fill (cfg11.grid.coords t) d1 (iblk11 V c 1 t)))
      = (cfg11.win 2).cut (cfg11.grid.coords t) (out11_2 (fblk11 V c 0 t) (fblk11 V c 1 t)) := by
    rw [out11_2_eq, out11_2_eq]
    exact cut_pay11 (cfg11.grid.coords t) _ _ _ _
      (((cfg11.win 0).cut_fill _ _ _).trans (cut_fblk11 V c 0 t).symm)
      (((cfg11.win 1).cut_fill _ _ _).trans (cut_fblk11 V c 1 t).symm)
  rw [(cfg11.win 2).fill_congr_cut (cfg11.grid.coords t) hcut]
  iexact H2

/-- The body obligation of the region's pipeline, at every point (every window is loose: each buffer is asked back
    only on the rows its transfers move). -/
theorem body_obligation11 (c : Dev nD) : BodyObligationLoose (dat11 (F := F) V c) (defs₀ (F := F)) Variants.none () Set.univ := fun t => by
  rw [bigSep_W11, bigSep_W11]
  exact sound_body11 V c t

/-- The index in the first input's moved part with the coordinates of the output's `j`, -/
noncomputable def idx11_0 (i : cfg11.grid.Coords) (j : ((cfg11.win 2).xblock i).Idx) : ((cfg11.win 0).xblock i).Idx :=
  fun a => ⟨(j a).val, Nat.lt_of_lt_of_eq (j a).isLt (xsize11_0 i a).symm⟩

/-- and the one in the second's with `j`'s row (its one column). -/
noncomputable def idx11_1 (i : cfg11.grid.Coords) (j : ((cfg11.win 2).xblock i).Idx) : ((cfg11.win 1).xblock i).Idx :=
  fun a => match a with
    | ⟨0, _⟩ => ⟨(j 0).val, Nat.lt_of_lt_of_eq (j 0).isLt (xsize11_1_0 i).symm⟩
    | ⟨1, _⟩ => ⟨0, Nat.lt_of_lt_of_eq Nat.one_pos (xsize11_1_1 i).symm⟩

/-- The body's value at an index the output's transfer moves: the first input there times the second's word of the
    same row. -/
theorem pay11_apply (i : cfg11.grid.Coords) (X0 : Vec F S8192x2 .f32) (X1 : Vec F S8192x1 .f32) (j : ((cfg11.win 2).xblock i).Idx) :
    k11_pay1 X0 X1 ((cfg11.win 2).xinj i j)
      = FloatOps.mulf (X0 ((cfg11.win 0).xinj i (idx11_0 i j))) (X1 ((cfg11.win 1).xinj i (idx11_1 i j))) := by
  have hk : ∀ a : Fin S8192x1.rank, (((cfg11.win 1).xinj i (idx11_1 i j) : S8192x1.Idx) a).val
      = if S8192x1.size a = 1 then 0 else (((cfg11.win 2).xinj i j : S8192x2.Idx) ⟨a.val + (S8192x2.rank - S8192x1.rank), by have := a.isLt; omega⟩).val := fun a =>
    match a with
    | ⟨0, _⟩ => rfl
    | ⟨1, _⟩ => rfl
  show FloatOps.mulf (shapeCast S8192x2 X0 shapeCasts_S8192x2_S8192x2 ((cfg11.win 2).xinj i j)) (broadcastTo S8192x2 (shapeCast S8192x1 X1 shapeCasts_S8192x1_S8192x1) broadcasts_S8192x1_S8192x2 ((cfg11.win 2).xinj i j))
    = FloatOps.mulf (X0 ((cfg11.win 0).xinj i (idx11_0 i j))) (X1 ((cfg11.win 1).xinj i (idx11_1 i j)))
  rw [shapeCast_self, shapeCast_self, broadcastTo_apply X1 _ _ _ hk]
  rfl

/-- What the output's write-back at point `t` moves: index by index, the first input's block times the second's
    word of the same row. -/
theorem cut_after11_2 (c : Dev nD) (t : Fin cfg11.N) :
    (cfg11.win 2).cut (cfg11.grid.coords t) ((dat11 V c).after 2 t)
      = fun j => FloatOps.mulf (iblk11 V c 0 t (idx11_0 (cfg11.grid.coords t) j)) (iblk11 V c 1 t (idx11_1 (cfg11.grid.coords t) j)) := by
  rw [after11_2, out11_2_eq]
  funext j
  exact (pay11_apply (cfg11.grid.coords t) (fblk11 V c 0 t) (fblk11 V c 1 t) j).trans
    (congrArg₂ FloatOps.mulf ((cfg11.win 0).fill_xinj _ _ _ _) ((cfg11.win 1).fill_xinj _ _ _ _))

end Cert.KernelIdeal.Frame

end
-- ==== Proof.KI.Reg12.lean ====
/-
  Region 12 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input's staging buffer holds the input's block at every point, fetched there or not: where it is not
    fetched the block index has not moved since the point that did fetch it, and the body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- An input's staging buffer holds the input's block at every point, fetched there or not: where it is not
    fetched the block index has not moved since the point that did fetch it, and the body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- What the body leaves in the output's staging buffer, as a function of the input blocks: its one store, of the
    body's value, over the whole buffer. -/
def out12_2 (x0 : Vec F S10000x2 .f32) (x1 : Vec F S10000x2 .f32) : Vec F S10000x2 .f32 :=
  View.canon [⟨(Rect.unit (s := S10000x2) ![0, 0] S10000x2.size inb_S10000x2_S10000x2_0_0), k12_pay1 (View.ld x0 (Rect.unit (s := S10000x2) ![0, 0] S10000x2.size inb_S10000x2_S10000x2_0_0)) (View.ld x1 (Rect.unit (s := S10000x2) ![0, 0] S10000x2.size inb_S10000x2_S10000x2_0_0))⟩]

/-- The one store covers the buffer. -/
theorem cover12_2 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out12_2` of them. -/
theorem sound_kernel12 (c : Dev nD) (E : Set ℕ) (i : grid12.Coords) (arg1 : Memref sig .tc .vmem S10000x2 .f32) (harg1 : arg1.IsWhole) (arg2 : Memref sig .tc .vmem S10000x2 .f32) (harg2 : arg2.IsWhole) (arg3 : Memref sig .tc .vmem S10000x2 .f32) (harg3 : arg3.IsWhole)
    (x0 : Vec F S10000x2 .f32) (x1 : Vec F S10000x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12_kernel i arg1 harg1 arg2 harg2 arg3 harg3) K := by
  simp only [cc12_kernel_eq_skeleton]; unfold cc12_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The region's proof data on core `c`: the arrays as the region finds them; after the body at point `t` each
    input's buffer at its block and the output's at the body's value of the input blocks; the invariant only the
    scoped rest and the generator register, untouched; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' buffers hold their blocks, so the body's triple applies; the invariant and
    the core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Frame

end
-- ==== Proof.KI.Reg13.lean ====
/-
  Region 13 of @main, one pallas_call on a one-axis grid whose blocks do NOT tile their arrays: the last block of
  each of the three windows overhangs its array by the same rows. A fetch of such a block lands only the rows inside
  the array and leaves the rest of the staging buffer at contents nothing names; the body computes on whole buffers,
  those rows too; the write-back moves only the rows inside. The body is row-local — row r of the output block is
  row r of the first input block times, lane by lane, the one word of row r of the second — so on the rows that are
  moved what it leaves does not depend on the unnamed rows. Stated at any float instance and at any contents `V` of
  the buffers when the region is entered: what each staging buffer holds after the body on the rows its transfers
  move, and that the body, run on buffers holding the input blocks on those rows and anything elsewhere, terminates
  leaving exactly that there.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, its part inside the array, read off the window's array as the region
    finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- That block filled out to the staging buffer's shape: past the array's end a word the proof picks and nothing
    reads. -/
def fblk13 (c : Dev nD) (w : Fin cfg13.W) (t : Fin cfg13.N) : (cfg13.win w).block.Idx → Elt F (cfg13.win w).elt :=
  (cfg13.win w).fill (cfg13.grid.coords t) (fun _ => Classical.arbitrary _) (iblk13 V c w t)

theorem cut_fblk13 (c : Dev nD) (w : Fin cfg13.W) (t : Fin cfg13.N) :
    (cfg13.win w).cut (cfg13.grid.coords t) (fblk13 V c w t) = iblk13 V c w t :=
  (cfg13.win w).cut_fill _ _ _

/-- What the body leaves in the output's staging buffer, as a function of what the inputs' hold: its one store, of
    the body's value, over the whole buffer. -/
def out13_2 (x0 : Vec F S8192x2 .f32) (x1 : Vec F S8192x1 .f32) : Vec F S8192x2 .f32 :=
  View.canon [⟨(Rect.unit (s := S8192x2) ![0, 0] S8192x2.size inb_S8192x2_S8192x2_0_0), k13_pay1 (View.ld x0 (Rect.unit (s := S8192x2) ![0, 0] S8192x2.size inb_S8192x2_S8192x2_0_0)) (View.ld x1 (Rect.unit (s := S8192x1) ![0, 0] S8192x1.size inb_S8192x1_S8192x1_0_0))⟩]

/-- The loads read the buffers whole and the one store writes its payload whole: the body's value. -/
theorem out13_2_eq (x0 : Vec F S8192x2 .f32) (x1 : Vec F S8192x1 .f32) : out13_2 x0 x1 = k13_pay1 x0 x1 := by
  have hz : (![0, 0] : Fin 2 → Nat) = fun _ => 0 := funext fun a => by fin_cases a <;> rfl
  unfold out13_2
  rw [View.canon_unit_zero hz, View.ld_unit_zero hz, View.ld_unit_zero hz]

/-- The one store covers the buffer. -/
theorem cover13_2 (p0 : Vec F S8192x2 .f32) (y : S8192x2.Idx) :
    ∃ pc ∈ ([⟨(Rect.unit (s := S8192x2) ![0, 0] S8192x2.size inb_S8192x2_S8192x2_0_0), p0⟩] : List (View.Piece (Elt F) S8192x2 .f32)), y ∈ pc.1.set :=
  View.cover_of_tiled [⟨(Rect.unit (s := S8192x2) ![0, 0] S8192x2.size inb_S8192x2_S8192x2_0_0), p0⟩] S8192x2.size (by rfl) y

set_option maxHeartbeats 1000000 in
/-- The body on whole staging buffers, the inputs' holding `x0 …` and the output's anything, runs to its end with
    the inputs' unchanged and the output's at `out13_2` of them. -/
theorem sound_kernel13 (c : Dev nD) (E : Set ℕ) (i : grid13.Coords) (arg1 : Memref sig .tc .vmem S8192x2 .f32) (harg1 : arg1.IsWhole) (arg2 : Memref sig .tc .vmem S8192x1 .f32) (harg2 : arg2.IsWhole) (arg3 : Memref sig .tc .vmem S8192x2 .f32) (harg3 : arg3.IsWhole)
    (x0 : Vec F S8192x2 .f32) (x1 : Vec F S8192x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13_kernel i arg1 harg1 arg2 harg2 arg3 harg3) K := by
  simp only [cc13_kernel_eq_skeleton]; unfold cc13_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-- The three windows cut their blocks alike: the index maps agree, and so do the arrays' and the blocks' row counts. -/
theorem xsize13_0 (i : cfg13.grid.Coords) (a : Fin (cfg13.win 2).shape.rank) : (cfg13.win 0).xsize i a = (cfg13.win 2).xsize i a := rfl
theorem xsize13_1_0 (i : cfg13.grid.Coords) : (cfg13.win 1).xsize i 0 = (cfg13.win 2).xsize i 0 := rfl
theorem xsize13_1_1 (i : cfg13.grid.Coords) : (cfg13.win 1).xsize i 1 = 1 := rfl

/-- Row locality of the body's value: on the rows the output's transfer moves, it reads the first input at the same
    index and the second at the same row, both among what the inputs' transfers move. So inputs that agree on their
    moved rows give values that agree on the output's. -/
theorem cut_pay13 (i : cfg13.grid.Coords) (X0 Y0 : Vec F S8192x2 .f32) (X1 Y1 : Vec F S8192x1 .f32)
    (h0 : (cfg13.win 0).cut i X0 = (cfg13.win 0).cut i Y0) (h1 : (cfg13.win 1).cut i X1 = (cfg13.win 1).cut i Y1) :
    (cfg13.win 2).cut i (k13_pay1 X0 X1) = (cfg13.win 2).cut i (k13_pay1 Y0 Y1) := by
  funext j
  -- the index in the first input's moved part with `j`'s coordinates, and the one in the second's with `j`'s row
  let j0 : ((cfg13.win 0).xblock i).Idx := fun a => ⟨(j a).val, Nat.lt_of_lt_of_eq (j a).isLt (xsize13_0 i a).symm⟩
  let j1 : ((cfg13.win 1).xblock i).Idx := fun a => match a with
    | ⟨0, _⟩ => ⟨(j 0).val, Nat.lt_of_lt_of_eq (j 0).isLt (xsize13_1_0 i).symm⟩
    | ⟨1, _⟩ => ⟨0, Nat.lt_of_lt_of_eq Nat.one_pos (xsize13_1_1 i).symm⟩
  have e0 : X0 ((cfg13.win 2).xinj i j) = Y0 ((cfg13.win 2).xinj i j) := congrFun h0 j0
  have hk : ∀ a : Fin S8192x1.rank, (((cfg13.win 1).xinj i j1 : S8192x1.Idx) a).val
      = if S8192x1.size a = 1 then 0 else (((cfg13.win 2).xinj i j : S8192x2.Idx) ⟨a.val + (S8192x2.rank - S8192x1.rank), by have := a.isLt; omega⟩).val := fun a =>
    match a with
    | ⟨0, _⟩ => rfl
    | ⟨1, _⟩ => rfl
  have e1 : broadcastTo S8192x2 X1 broadcasts_S8192x1_S8192x2 ((cfg13.win 2).xinj i j) = broadcastTo S8192x2 Y1 broadcasts_S8192x1_S8192x2 ((cfg13.win 2).xinj i j) := by
    rw [broadcastTo_apply X1 _ _ _ hk, broadcastTo_apply Y1 _ _ _ hk]
    exact congrFun h1 j1
  show FloatOps.mulf (shapeCast S8192x2 X0 shapeCasts_S8192x2_S8192x2 ((cfg13.win 2).xinj i j)) (broadcastTo S8192x2 (shapeCast S8192x1 X1 shapeCasts_S8192x1_S8192x1) broadcasts_S8192x1_S8192x2 ((cfg13.win 2).xinj i j))
    = FloatOps.mulf (shapeCast S8192x2 Y0 shapeCasts_S8192x2_S8192x2 ((cfg13.win 2).xinj i j)) (broadcastTo S8192x2 (shapeCast S8192x1 Y1 shapeCasts_S8192x1_S8192x1) broadcasts_S8192x1_S8192x2 ((cfg13.win 2).xinj i j))
  rw [shapeCast_self, shapeCast_self, shapeCast_self, shapeCast_self, e0, e1]

/-- The region's proof data on core `c`: the arrays as the region finds them; after the body at point `t` each
    input's buffer at its block and the output's at the body's value of the input blocks — each on the rows its
    transfers move, filled out past them by the proof's own word —; the invariant only the scoped rest and the
    generator register, untouched; nothing owed; full shares. -/
def dat13 (c : Dev nD) : Dat τ (Elt F) Unit ℕ (UR sig nD τ) ℕ cfg13 c where
  A w := V c (Pipeline.arrRef spec13 w)
  after w t := match w with
    | ⟨0, _⟩ => fblk13 V c 0 t
    | ⟨1, _⟩ => fblk13 V c 1 t
    | ⟨2, _⟩ => out13_2 (fblk13 V c 0 t) (fblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = fblk13 V c 0 t := by dsimp only [dat13]
theorem after13_1 (c : Dev nD) (t : Fin cfg13.N) : (dat13 V c).after 1 t = fblk13 V c 1 t := by dsimp only [dat13]
theorem after13_2 (c : Dev nD) (t : Fin cfg13.N) : (dat13 V c).after 2 t = out13_2 (fblk13 V c 0 t) (fblk13 V c 1 t) := by dsimp only [dat13]

/-- What the body finds in an input's buffer: just fetched, the block on the rows inside the array and `d`, any,
    elsewhere. -/
theorem before13_0 (c : Dev nD) (t : Fin cfg13.N) (d) :
    (dat13 V c).before 0 t d = (cfg13.win 0).fill (cfg13.grid.coords t) d (iblk13 V c 0 t) := by
  unfold Dat.before; rw [if_pos (fetch13_0 t)]; rfl
theorem before13_1 (c : Dev nD) (t : Fin cfg13.N) (d) :
    (dat13 V c).before 1 t d = (cfg13.win 1).fill (cfg13.grid.coords t) d (iblk13 V c 1 t) := by
  unfold Dat.before; rw [if_pos (fetch13_1 t)]; rfl

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns: each buffer stated on the rows its window's transfers move. -/
def bodyPost13 (c : Dev nD) (t : Fin cfg13.N) : sProp 𝕄 :=
  iprop((dat13 V c).Φ t.succ ∗ (dat13 V c).owesAt () t.succ
    ∗ (∃ d, owns (c : Thread nD τ) (st13_0 t) fullShare ((cfg13.win 0).fill (cfg13.grid.coords t) d ((cfg13.win 0).cut (cfg13.grid.coords t) ((dat13 V c).after 0 t))))
    ∗ (∃ d, owns (c : Thread nD τ) (st13_1 t) fullShare ((cfg13.win 1).fill (cfg13.grid.coords t) d ((cfg13.win 1).cut (cfg13.grid.coords t) ((dat13 V c).after 1 t))))
    ∗ (∃ d, owns (c : Thread nD τ) (st13_2 t) fullShare ((cfg13.win 2).fill (cfg13.grid.coords t) d ((cfg13.win 2).cut (cfg13.grid.coords t) ((dat13 V c).after 2 t)))))

/-- The body at any point: the inputs' buffers hold their blocks on the moved rows and anything elsewhere, so the
    body's triple applies at those contents; what it leaves agrees on the moved rows with what the proof data names
    (`cut_pay13`), which is all that is asked back; the invariant and the core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  rw [show (dat13 V c).Φ t.succ = (dat13 V c).Φ t.castSucc from rfl,
    show (dat13 V c).owesAt () t.succ = (dat13 V c).owesAt () t.castSucc from rfl,
    after13_0, after13_1, after13_2, cut_fblk13, cut_fblk13]
  iintro ⟨HΦ, Ho, ⟨%d0, H0⟩, ⟨%d1, H1⟩, ⟨%d2, H2⟩⟩
  rw [before13_0 V c t d0, before13_1 V c t d1]
  iapply (sound_kernel13 c Set.univ _ _ _ _ _ _ _ ((cfg13.win 0).fill (cfg13.grid.coords t) d0 (iblk13 V c 0 t)) ((cfg13.win 1).fill (cfg13.grid.coords t) d1 (iblk13 V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexists d1; iexact H1
  iexists out13_2 ((cfg13.win 0).fill (cfg13.grid.coords t) d0 (iblk13 V c 0 t)) ((cfg13.win 1).fill (cfg13.grid.coords t) d1 (iblk13 V c 1 t))
  have hcut : (cfg13.win 2).cut (cfg13.grid.coords t) (out13_2 ((cfg13.win 0).fill (cfg13.grid.coords t) d0 (iblk13 V c 0 t)) ((cfg13.win 1).fill (cfg13.grid.coords t) d1 (iblk13 V c 1 t)))
      = (cfg13.win 2).cut (cfg13.grid.coords t) (out13_2 (fblk13 V c 0 t) (fblk13 V c 1 t)) := by
    rw [out13_2_eq, out13_2_eq]
    exact cut_pay13 (cfg13.grid.coords t) _ _ _ _
      (((cfg13.win 0).cut_fill _ _ _).trans (cut_fblk13 V c 0 t).symm)
      (((cfg13.win 1).cut_fill _ _ _).trans (cut_fblk13 V c 1 t).symm)
  rw [(cfg13.win 2).fill_congr_cut (cfg13.grid.coords t) hcut]
  iexact H2

/-- The body obligation of the region's pipeline, at every point (every window is loose: each buffer is asked back
    only on the rows its transfers move). -/
theorem body_obligation13 (c : Dev nD) : BodyObligationLoose (dat13 (F := F) V c) (defs₀ (F := F)) Variants.none () Set.univ := fun t => by
  rw [bigSep_W13, bigSep_W13]
  exact sound_body13 V c t

/-- The index in the first input's moved part with the coordinates of the output's `j`, -/
noncomputable def idx13_0 (i : cfg13.grid.Coords) (j : ((cfg13.win 2).xblock i).Idx) : ((cfg13.win 0).xblock i).Idx :=
  fun a => ⟨(j a).val, Nat.lt_of_lt_of_eq (j a).isLt (xsize13_0 i a).symm⟩

/-- and the one in the second's with `j`'s row (its one column). -/
noncomputable def idx13_1 (i : cfg13.grid.Coords) (j : ((cfg13.win 2).xblock i).Idx) : ((cfg13.win 1).xblock i).Idx :=
  fun a => match a with
    | ⟨0, _⟩ => ⟨(j 0).val, Nat.lt_of_lt_of_eq (j 0).isLt (xsize13_1_0 i).symm⟩
    | ⟨1, _⟩ => ⟨0, Nat.lt_of_lt_of_eq Nat.one_pos (xsize13_1_1 i).symm⟩

/-- The body's value at an index the output's transfer moves: the first input there times the second's word of the
    same row. -/
theorem pay13_apply (i : cfg13.grid.Coords) (X0 : Vec F S8192x2 .f32) (X1 : Vec F S8192x1 .f32) (j : ((cfg13.win 2).xblock i).Idx) :
    k13_pay1 X0 X1 ((cfg13.win 2).xinj i j)
      = FloatOps.mulf (X0 ((cfg13.win 0).xinj i (idx13_0 i j))) (X1 ((cfg13.win 1).xinj i (idx13_1 i j))) := by
  have hk : ∀ a : Fin S8192x1.rank, (((cfg13.win 1).xinj i (idx13_1 i j) : S8192x1.Idx) a).val
      = if S8192x1.size a = 1 then 0 else (((cfg13.win 2).xinj i j : S8192x2.Idx) ⟨a.val + (S8192x2.rank - S8192x1.rank), by have := a.isLt; omega⟩).val := fun a =>
    match a with
    | ⟨0, _⟩ => rfl
    | ⟨1, _⟩ => rfl
  show FloatOps.mulf (shapeCast S8192x2 X0 shapeCasts_S8192x2_S8192x2 ((cfg13.win 2).xinj i j)) (broadcastTo S8192x2 (shapeCast S8192x1 X1 shapeCasts_S8192x1_S8192x1) broadcasts_S8192x1_S8192x2 ((cfg13.win 2).xinj i j))
    = FloatOps.mulf (X0 ((cfg13.win 0).xinj i (idx13_0 i j))) (X1 ((cfg13.win 1).xinj i (idx13_1 i j)))
  rw [shapeCast_self, shapeCast_self, broadcastTo_apply X1 _ _ _ hk]
  rfl

/-- What the output's write-back at point `t` moves: index by index, the first input's block times the second's
    word of the same row. -/
theorem cut_after13_2 (c : Dev nD) (t : Fin cfg13.N) :
    (cfg13.win 2).cut (cfg13.grid.coords t) ((dat13 V c).after 2 t)
      = fun j => FloatOps.mulf (iblk13 V c 0 t (idx13_0 (cfg13.grid.coords t) j)) (iblk13 V c 1 t (idx13_1 (cfg13.grid.coords t) j)) := by
  rw [after13_2, out13_2_eq]
  funext j
  exact (pay13_apply (cfg13.grid.coords t) (fblk13 V c 0 t) (fblk13 V c 1 t) j).trans
    (congrArg₂ FloatOps.mulf ((cfg13.win 0).fill_xinj _ _ _ _) ((cfg13.win 1).fill_xinj _ _ _ _))

end Cert.KernelIdeal.Frame

end
-- ==== Proof.KI.Reg14.lean ====
/-
  Region 14 of @main, one pallas_call on a one-axis grid whose blocks tile their arrays exactly: at each grid
  point the body loads its 2 input blocks whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input's staging buffer holds the input's block at every point, fetched there or not: where it is not
    fetched the block index has not moved since the point that did fetch it, and the body leaves the block in place. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- An input's staging buffer holds the input's block at every point, fetched there or not: where it is not
    fetched the block index has not moved since the point that did fetch it, and the body leaves the block in place. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- What the body leaves in the output's staging buffer, as a function of the input blocks: its one store, of the
    body's value, over the whole buffer. -/
def out14_2 (x0 : Vec F S10000x2 .f32) (x1 : Vec F S10000x2 .f32) : Vec F S10000x2 .f32 :=
  View.canon [⟨(Rect.unit (s := S10000x2) ![0, 0] S10000x2.size inb_S10000x2_S10000x2_0_0), k14_pay1 (View.ld x0 (Rect.unit (s := S10000x2) ![0, 0] S10000x2.size inb_S10000x2_S10000x2_0_0)) (View.ld x1 (Rect.unit (s := S10000x2) ![0, 0] S10000x2.size inb_S10000x2_S10000x2_0_0))⟩]

/-- The one store covers the buffer. -/
theorem cover14_2 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out14_2` of them. -/
theorem sound_kernel14 (c : Dev nD) (E : Set ℕ) (i : grid14.Coords) (arg1 : Memref sig .tc .vmem S10000x2 .f32) (harg1 : arg1.IsWhole) (arg2 : Memref sig .tc .vmem S10000x2 .f32) (harg2 : arg2.IsWhole) (arg3 : Memref sig .tc .vmem S10000x2 .f32) (harg3 : arg3.IsWhole)
    (x0 : Vec F S10000x2 .f32) (x1 : Vec F S10000x2 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out14_2 x0 x1)) -∗ K ⟨⟩))
      ⊢ wp frame (wpE (defs₀ (F := F)) Variants.none c none) E (cc14_kernel i arg1 harg1 arg2 harg2 arg3 harg3) K := by
  simp only [cc14_kernel_eq_skeleton]; unfold cc14_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

/-- The region's proof data on core `c`: the arrays as the region finds them; after the body at point `t` each
    input's buffer at its block and the output's at the body's value of the input blocks; the invariant only the
    scoped rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14_2 (iblk14 V c 0 t) (iblk14 V c 1 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

/-- The body at any point: the inputs' buffers hold their blocks, so the body's triple applies; the invariant and
    the core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ _ _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region's pipeline, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Frame

end
-- ==== Proof.KI.Reg15.lean ====
/-
  Region 15 of @main, one pallas_call on a one-axis grid whose blocks tile their arrays exactly: at each grid
  point the body loads its 1 input block whole, computes one value from them and stores it whole into the output
  block. Stated at any float instance and at any contents `V` of the buffers when the region is entered: what
  each staging buffer holds after the body (an input's its block of the array, the output's the body's value of the
  input blocks), and that the body, run on buffers holding the input blocks, terminates leaving exactly that.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input's staging buffer holds the input's block at every point, fetched there or not: where it is not
    fetched the block index has not moved since the point that did fetch it, and the body leaves the block in place. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- What the body leaves in the output's staging buffer, as a function of the input blocks: its one store, of the
    body's value, over the whole buffer. -/
def out15_1 (x0 : Vec F S10000x2 .f32) : Vec F S10000x2 .f32 :=
  View.canon [⟨(Rect.unit (s := S10000x2) ![0, 0] S10000x2.size inb_S10000x2_S10000x2_0_0), k15_pay1 (View.ld x0 (Rect.unit (s := S10000x2) ![0, 0] S10000x2.size inb_S10000x2_S10000x2_0_0))⟩]

/-- The one store covers the buffer. -/
theorem cover15_1 (p0 : Vec F S10000x2 .f32) (y : S10000x2.Idx) :
    ∃ pc ∈ ([⟨(Rect.unit (s := S10000x2) ![0, 0] S10000x2.size inb_S10000x2_S10000x2_0_0), p0⟩] : List (View.Piece (Elt F) S10000x2 .f32)), y ∈ pc.1.set :=
  View.cover_of_tiled [⟨(Rect.unit (s := S10000x2) ![0, 0] S10000x2.size inb_S10000x2_S10000x2_0_0), p0⟩] S10000x2.size (by rfl) y

set_option maxHeartbeats 1000000 in
/-- The body on whole staging buffers, the inputs' holding `x0 …` and the output's anything, runs to its end with
    the inputs' unchanged and the output's at `out15_1` of them. -/
theorem sound_kernel15 (c : Dev nD) (E : Set ℕ) (i : grid15.Coords) (arg1 : Memref sig .tc .vmem S10000x2 .f32) (harg1 : arg1.IsWhole) (arg2 : Memref sig .tc .vmem S10000x2 .f32) (harg2 : arg2.IsWhole)
    (x0 : Vec F S10000x2 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out15_1 x0)) -∗ K ⟨⟩))
      ⊢ wp frame (wpE (defs₀ (F := F)) Variants.none c none) E (cc15_kernel i arg1 harg1 arg2 harg2) K := by
  simp only [cc15_kernel_eq_skeleton]; unfold cc15_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover15_1 _)

/-- The region's proof data on core `c`: the arrays as the region finds them; after the body at point `t` each
    input's buffer at its block and the output's at the body's value of the input blocks; the invariant only the
    scoped rest and the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => out15_1 (iblk15 V c 0 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = out15_1 (iblk15 V c 0 t) := by dsimp only [dat15]

theorem before15_0 (c : Dev nD) (t : Fin cfg15.N) (d) : (dat15 V c).before 0 t d = iblk15 V c 0 t :=
  before15_0_of V (dat15 V c) (A_eq15 V c 0) (after15_0 V c) t d

/-- What the body is called with at point `t`, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t))

/-- The body at any point: the inputs' buffers hold their blocks, so the body's triple applies; the invariant and
    the core's dues pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0]
  rw [show (dat15 V c).Φ t.succ = (dat15 V c).Φ t.castSucc from rfl,
    show (dat15 V c).owesAt () t.succ = (dat15 V c).owesAt () t.castSucc from rfl,
    after15_0, after15_1]
  iintro ⟨HΦ, Ho, ⟨%d0, H0⟩, ⟨%d1, H1⟩⟩
  iapply (sound_kernel15 c Set.univ _ _ _ _ _ (iblk15 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region's pipeline, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Frame

end
-- ==== Proof.KI.Chain.lean ====
/-
  The contents of the TensorCore's buffers at each boundary between two items of @main (host stretches and the
  sixteen regions, thirty-four items in all), as a fold from the launch memory: a host stretch applies its
  operations; a region leaves each of its arrays at what its pipeline's write-backs fold to and every other buffer
  as it found it. No item writes an argument array — a host stretch writes only its own results, a region only its
  output array — so each argument's buffer holds its launch contents at the end.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import proofs.«142470_j73658689126826_2_alg».proof.Proof.KI.Reg0
import proofs.«142470_j73658689126826_2_alg».proof.Proof.KI.Reg1
import proofs.«142470_j73658689126826_2_alg».proof.Proof.KI.Reg2
import proofs.«142470_j73658689126826_2_alg».proof.Proof.KI.Reg3
import proofs.«142470_j73658689126826_2_alg».proof.Proof.KI.Reg4
import proofs.«142470_j73658689126826_2_alg».proof.Proof.KI.Reg5
import proofs.«142470_j73658689126826_2_alg».proof.Proof.KI.Reg6
import proofs.«142470_j73658689126826_2_alg».proof.Proof.KI.Reg7
import proofs.«142470_j73658689126826_2_alg».proof.Proof.KI.Reg8
import proofs.«142470_j73658689126826_2_alg».proof.Proof.KI.Reg9
import proofs.«142470_j73658689126826_2_alg».proof.Proof.KI.Reg10
import proofs.«142470_j73658689126826_2_alg».proof.Proof.KI.Reg11
import proofs.«142470_j73658689126826_2_alg».proof.Proof.KI.Reg12
import proofs.«142470_j73658689126826_2_alg».proof.Proof.KI.Reg13
import proofs.«142470_j73658689126826_2_alg».proof.Proof.KI.Reg14
import proofs.«142470_j73658689126826_2_alg».proof.Proof.KI.Reg15
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The references each host stretch writes -/

abbrev hostOps0_W : List (Ref sig .tc) := [main_v0, main_v1, main_v2, main_v3, main_v4, main_v5, main_v6, main_cst, main_v7, main_v8, main_cst_0, main_v9, main_v10, main_v11, main_cst_1, main_v12, main_v13, main_cst_2, main_v14, main_v15, main_cst_3]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps0_keep (W : Valuation τ sig (Elt F)) (r : Ref sig .tc) (h : r ∉ hostOps0_W) : StableHlo.after hostOps0 W r = W r :=
  StableHlo.after_of_writes_sub hostOps0 _ hostOps0_writes h
theorem hostOps0_fresh : (hostOps0 : List (HloOp τ sig (Elt F))).Forall fun op => op.fresh = ∅ := by
  simp only [List.Forall]; repeat' constructor

abbrev hostOps0_1_W : List (Ref sig .tc) := [main_call0_v0, main_call0_v1, main_v16]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps0_1_keep (W : Valuation τ sig (Elt F)) (r : Ref sig .tc) (h : r ∉ hostOps0_1_W) : StableHlo.after hostOps0_1 W r = W r :=
  StableHlo.after_of_writes_sub hostOps0_1 _ hostOps0_1_writes h
theorem hostOps0_1_fresh : (hostOps0_1 : List (HloOp τ sig (Elt F))).Forall fun op => op.fresh = ∅ := by
  simp only [List.Forall]; repeat' constructor

abbrev hostOps0_2_W : List (Ref sig .tc) := [main_v17, main_cst_4]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps0_2_keep (W : Valuation τ sig (Elt F)) (r : Ref sig .tc) (h : r ∉ hostOps0_2_W) : StableHlo.after hostOps0_2 W r = W r :=
  StableHlo.after_of_writes_sub hostOps0_2 _ hostOps0_2_writes h
theorem hostOps0_2_fresh : (hostOps0_2 : List (HloOp τ sig (Elt F))).Forall fun op => op.fresh = ∅ := by
  simp only [List.Forall]; repeat' constructor

abbrev hostOps0_3_W : List (Ref sig .tc) := [main_call1_v0, main_call1_v1, main_v18]
theorem hostOps0_3_writes : (hostOps0_3 : List (HloOp τ sig (Elt F))).Forall fun op => op.writes ⊆ (hostOps0_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps0_3_keep (W : Valuation τ sig (Elt F)) (r : Ref sig .tc) (h : r ∉ hostOps0_3_W) : StableHlo.after hostOps0_3 W r = W r :=
  StableHlo.after_of_writes_sub hostOps0_3 _ hostOps0_3_writes h
theorem hostOps0_3_fresh : (hostOps0_3 : List (HloOp τ sig (Elt F))).Forall fun op => op.fresh = ∅ := by
  simp only [List.Forall]; repeat' constructor

abbrev hostOps0_4_W : List (Ref sig .tc) := [main_c, main_v19, main_v20, main_c_5, main_v21, main_v22, main_v23, main_v24, main_v25, main_v26, main_c_6, main_v27, main_v28, main_c_7, main_v29, main_v30, main_v31, main_v32, main_v33, main_v34, main_v35, main_v36]
theorem hostOps0_4_writes : (hostOps0_4 : List (HloOp τ sig (Elt F))).Forall fun op => op.writes ⊆ (hostOps0_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps0_4_keep (W : Valuation τ sig (Elt F)) (r : Ref sig .tc) (h : r ∉ hostOps0_4_W) : StableHlo.after hostOps0_4 W r = W r :=
  StableHlo.after_of_writes_sub hostOps0_4 _ hostOps0_4_writes h
theorem hostOps0_4_fresh : (hostOps0_4 : List (HloOp τ sig (Elt F))).Forall fun op => op.fresh = ∅ := by
  simp only [List.Forall]; repeat' constructor

abbrev hostOps2_W : List (Ref sig .tc) := [main_c_8, main_v39, main_v40, main_c_9, main_v41, main_v42, main_v43, main_v44, main_v45]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps2_keep (W : Valuation τ sig (Elt F)) (r : Ref sig .tc) (h : r ∉ hostOps2_W) : StableHlo.after hostOps2 W r = W r :=
  StableHlo.after_of_writes_sub hostOps2 _ hostOps2_writes h
theorem hostOps2_fresh : (hostOps2 : List (HloOp τ sig (Elt F))).Forall fun op => op.fresh = ∅ := by
  simp only [List.Forall]; repeat' constructor

abbrev hostOps3_W : List (Ref sig .tc) := [main_cst_10, main_v47, main_v48, main_v49, main_v50]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps3_keep (W : Valuation τ sig (Elt F)) (r : Ref sig .tc) (h : r ∉ hostOps3_W) : StableHlo.after hostOps3 W r = W r :=
  StableHlo.after_of_writes_sub hostOps3 _ hostOps3_writes h
theorem hostOps3_fresh : (hostOps3 : List (HloOp τ sig (Elt F))).Forall fun op => op.fresh = ∅ := by
  simp only [List.Forall]; repeat' constructor

abbrev hostOps4_W : List (Ref sig .tc) := [main_v52]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps4_keep (W : Valuation τ sig (Elt F)) (r : Ref sig .tc) (h : r ∉ hostOps4_W) : StableHlo.after hostOps4 W r = W r :=
  StableHlo.after_of_writes_sub hostOps4 _ hostOps4_writes h
theorem hostOps4_fresh : (hostOps4 : List (HloOp τ sig (Elt F))).Forall fun op => op.fresh = ∅ := by
  simp only [List.Forall]; repeat' constructor

abbrev hostOps5_W : List (Ref sig .tc) := [main_c_11, main_v54, main_v55, main_c_12, main_v56, main_v57, main_v58, main_v59, main_v60]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps5_keep (W : Valuation τ sig (Elt F)) (r : Ref sig .tc) (h : r ∉ hostOps5_W) : StableHlo.after hostOps5 W r = W r :=
  StableHlo.after_of_writes_sub hostOps5 _ hostOps5_writes h
theorem hostOps5_fresh : (hostOps5 : List (HloOp τ sig (Elt F))).Forall fun op => op.fresh = ∅ := by
  simp only [List.Forall]; repeat' constructor

abbrev hostOps6_W : List (Ref sig .tc) := [main_cst_13, main_v62, main_v63, main_v64]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps6_keep (W : Valuation τ sig (Elt F)) (r : Ref sig .tc) (h : r ∉ hostOps6_W) : StableHlo.after hostOps6 W r = W r :=
  StableHlo.after_of_writes_sub hostOps6 _ hostOps6_writes h
theorem hostOps6_fresh : (hostOps6 : List (HloOp τ sig (Elt F))).Forall fun op => op.fresh = ∅ := by
  simp only [List.Forall]; repeat' constructor

abbrev hostOps7_W : List (Ref sig .tc) := [main_c_14, main_v66, main_v67, main_c_15, main_v68, main_v69, main_v70, main_v71, main_v72]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps7_keep (W : Valuation τ sig (Elt F)) (r : Ref sig .tc) (h : r ∉ hostOps7_W) : StableHlo.after hostOps7 W r = W r :=
  StableHlo.after_of_writes_sub hostOps7 _ hostOps7_writes h
theorem hostOps7_fresh : (hostOps7 : List (HloOp τ sig (Elt F))).Forall fun op => op.fresh = ∅ := by
  simp only [List.Forall]; repeat' constructor

abbrev hostOps8_W : List (Ref sig .tc) := [main_cst_16, main_v74, main_v75, main_v76]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps8_keep (W : Valuation τ sig (Elt F)) (r : Ref sig .tc) (h : r ∉ hostOps8_W) : StableHlo.after hostOps8 W r = W r :=
  StableHlo.after_of_writes_sub hostOps8 _ hostOps8_writes h
theorem hostOps8_fresh : (hostOps8 : List (HloOp τ sig (Elt F))).Forall fun op => op.fresh = ∅ := by
  simp only [List.Forall]; repeat' constructor

abbrev hostOps9_W : List (Ref sig .tc) := [main_c_17, main_v78, main_v79, main_c_18, main_v80, main_v81, main_v82, main_v83, main_v84]
theorem hostOps9_writes : (hostOps9 : List (HloOp τ sig (Elt F))).Forall fun op => op.writes ⊆ (hostOps9_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps9_keep (W : Valuation τ sig (Elt F)) (r : Ref sig .tc) (h : r ∉ hostOps9_W) : StableHlo.after hostOps9 W r = W r :=
  StableHlo.after_of_writes_sub hostOps9 _ hostOps9_writes h
theorem hostOps9_fresh : (hostOps9 : List (HloOp τ sig (Elt F))).Forall fun op => op.fresh = ∅ := by
  simp only [List.Forall]; repeat' constructor

abbrev hostOps10_W : List (Ref sig .tc) := [main_cst_19, main_v86, main_v87, main_v88]
theorem hostOps10_writes : (hostOps10 : List (HloOp τ sig (Elt F))).Forall fun op => op.writes ⊆ (hostOps10_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps10_keep (W : Valuation τ sig (Elt F)) (r : Ref sig .tc) (h : r ∉ hostOps10_W) : StableHlo.after hostOps10 W r = W r :=
  StableHlo.after_of_writes_sub hostOps10 _ hostOps10_writes h
theorem hostOps10_fresh : (hostOps10 : List (HloOp τ sig (Elt F))).Forall fun op => op.fresh = ∅ := by
  simp only [List.Forall]; repeat' constructor

abbrev hostOps11_W : List (Ref sig .tc) := [main_c_20, main_v90, main_v91, main_c_21, main_v92, main_v93, main_v94, main_v95, main_v96]
theorem hostOps11_writes : (hostOps11 : List (HloOp τ sig (Elt F))).Forall fun op => op.writes ⊆ (hostOps11_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps11_keep (W : Valuation τ sig (Elt F)) (r : Ref sig .tc) (h : r ∉ hostOps11_W) : StableHlo.after hostOps11 W r = W r :=
  StableHlo.after_of_writes_sub hostOps11 _ hostOps11_writes h
theorem hostOps11_fresh : (hostOps11 : List (HloOp τ sig (Elt F))).Forall fun op => op.fresh = ∅ := by
  simp only [List.Forall]; repeat' constructor

abbrev hostOps12_W : List (Ref sig .tc) := [main_cst_22, main_v98, main_v99, main_v100]
theorem hostOps12_writes : (hostOps12 : List (HloOp τ sig (Elt F))).Forall fun op => op.writes ⊆ (hostOps12_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps12_keep (W : Valuation τ sig (Elt F)) (r : Ref sig .tc) (h : r ∉ hostOps12_W) : StableHlo.after hostOps12 W r = W r :=
  StableHlo.after_of_writes_sub hostOps12 _ hostOps12_writes h
theorem hostOps12_fresh : (hostOps12 : List (HloOp τ sig (Elt F))).Forall fun op => op.fresh = ∅ := by
  simp only [List.Forall]; repeat' constructor

abbrev hostOps13_W : List (Ref sig .tc) := [main_c_23, main_v102, main_v103, main_c_24, main_v104, main_v105, main_v106, main_v107, main_v108]
theorem hostOps13_writes : (hostOps13 : List (HloOp τ sig (Elt F))).Forall fun op => op.writes ⊆ (hostOps13_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps13_keep (W : Valuation τ sig (Elt F)) (r : Ref sig .tc) (h : r ∉ hostOps13_W) : StableHlo.after hostOps13 W r = W r :=
  StableHlo.after_of_writes_sub hostOps13 _ hostOps13_writes h
theorem hostOps13_fresh : (hostOps13 : List (HloOp τ sig (Elt F))).Forall fun op => op.fresh = ∅ := by
  simp only [List.Forall]; repeat' constructor

abbrev hostOps14_W : List (Ref sig .tc) := [main_cst_25, main_v110, main_v111, main_v112]
theorem hostOps14_writes : (hostOps14 : List (HloOp τ sig (Elt F))).Forall fun op => op.writes ⊆ (hostOps14_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem hostOps14_keep (W : Valuation τ sig (Elt F)) (r : Ref sig .tc) (h : r ∉ hostOps14_W) : StableHlo.after hostOps14 W r = W r :=
  StableHlo.after_of_writes_sub hostOps14 _ hostOps14_writes h
theorem hostOps14_fresh : (hostOps14 : List (HloOp τ sig (Elt F))).Forall fun op => op.fresh = ∅ := by
  simp only [List.Forall]; repeat' constructor

/-! ## The fold -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- After the host stretch `hostOps0_1`. -/
abbrev W2 : Dev nD → Valuation τ sig (Elt F) := fun c => StableHlo.after hostOps0_1 (W1 m ρ c)
/-- After the host stretch `hostOps0_2`. -/
abbrev W3 : Dev nD → Valuation τ sig (Elt F) := fun c => StableHlo.after hostOps0_2 (W2 m ρ c)
/-- After the host stretch `hostOps0_3`. -/
abbrev W4 : Dev nD → Valuation τ sig (Elt F) := fun c => StableHlo.after hostOps0_3 (W3 m ρ c)
/-- After the host stretch `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- After region 0: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- Region 0 changes no buffer but its output array `main_v37`: an input window's array is handed back as entered. -/
theorem keep0 (c : Dev nD) (b : Ref sig .tc) (hb : b ≠ main_v37) :
    W6 m ρ c (Proc.devRef .tc b) = W5 m ρ c (Proc.devRef .tc b) := by
  by_cases h : ∃ w, Pipeline.arrRef spec0 w = b
  · obtain ⟨w, rfl⟩ := h
    have hin : ∀ w : Fin cfg0.W, Pipeline.arrRef spec0 w ≠ main_v37 → (cfg0.win w).isOut = false := by decide
    exact (W6_arr m ρ c w).trans (((dat0 (V5 m ρ) c).arrAt_in w (hin w hb) _).trans (A_eq0 (V5 m ρ) c w))
  · exact W6_of_ne m ρ c b fun w e => h ⟨w, e⟩
/-- After region 1: its arrays at what the pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)
/-- Region 1 changes no buffer but its output array `main_v38`: an input window's array is handed back as entered. -/
theorem keep1 (c : Dev nD) (b : Ref sig .tc) (hb : b ≠ main_v38) :
    W7 m ρ c (Proc.devRef .tc b) = W6 m ρ c (Proc.devRef .tc b) := by
  by_cases h : ∃ w, Pipeline.arrRef spec1 w = b
  · obtain ⟨w, rfl⟩ := h
    have hin : ∀ w : Fin cfg1.W, Pipeline.arrRef spec1 w ≠ main_v38 → (cfg1.win w).isOut = false := by decide
    exact (W7_arr m ρ c w).trans (((dat1 (V6 m ρ) c).arrAt_in w (hin w hb) _).trans (A_eq1 (V6 m ρ) c w))
  · exact W7_of_ne m ρ c b fun w e => h ⟨w, e⟩
/-- After the host stretch `hostOps2`. -/
abbrev W8 : Dev nD → Valuation τ sig (Elt F) := fun c => StableHlo.after hostOps2 (W7 m ρ c)
abbrev V8 : (c : Dev nD) → (b : Ref sig .tc) → Buf (Elt F) ((c : Thread nD τ).loc b) := fun c b => W8 m ρ c b
/-- After region 2: its arrays at what the pipeline leaves, every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)
/-- Region 2 changes no buffer but its output array `main_v46`: an input window's array is handed back as entered. -/
theorem keep2 (c : Dev nD) (b : Ref sig .tc) (hb : b ≠ main_v46) :
    W9 m ρ c (Proc.devRef .tc b) = W8 m ρ c (Proc.devRef .tc b) := by
  by_cases h : ∃ w, Pipeline.arrRef spec2 w = b
  · obtain ⟨w, rfl⟩ := h
    have hin : ∀ w : Fin cfg2.W, Pipeline.arrRef spec2 w ≠ main_v46 → (cfg2.win w).isOut = false := by decide
    exact (W9_arr m ρ c w).trans (((dat2 (V8 m ρ) c).arrAt_in w (hin w hb) _).trans (A_eq2 (V8 m ρ) c w))
  · exact W9_of_ne m ρ c b fun w e => h ⟨w, e⟩
/-- After the host stretch `hostOps3`. -/
abbrev W10 : Dev nD → Valuation τ sig (Elt F) := fun c => StableHlo.after hostOps3 (W9 m ρ c)
abbrev V10 : (c : Dev nD) → (b : Ref sig .tc) → Buf (Elt F) ((c : Thread nD τ).loc b) := fun c b => W10 m ρ c b
/-- After region 3: its arrays at what the pipeline leaves, every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
abbrev V11 : (c : Dev nD) → (b : Ref sig .tc) → Buf (Elt F) ((c : Thread nD τ).loc b) := fun c b => W11 m ρ c b
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)
/-- Region 3 changes no buffer but its output array `main_v51`: an input window's array is handed back as entered. -/
theorem keep3 (c : Dev nD) (b : Ref sig .tc) (hb : b ≠ main_v51) :
    W11 m ρ c (Proc.devRef .tc b) = W10 m ρ c (Proc.devRef .tc b) := by
  by_cases h : ∃ w, Pipeline.arrRef spec3 w = b
  · obtain ⟨w, rfl⟩ := h
    have hin : ∀ w : Fin cfg3.W, Pipeline.arrRef spec3 w ≠ main_v51 → (cfg3.win w).isOut = false := by decide
    exact (W11_arr m ρ c w).trans (((dat3 (V10 m ρ) c).arrAt_in w (hin w hb) _).trans (A_eq3 (V10 m ρ) c w))
  · exact W11_of_ne m ρ c b fun w e => h ⟨w, e⟩
/-- After the host stretch `hostOps4`. -/
abbrev W12 : Dev nD → Valuation τ sig (Elt F) := fun c => StableHlo.after hostOps4 (W11 m ρ c)
abbrev V12 : (c : Dev nD) → (b : Ref sig .tc) → Buf (Elt F) ((c : Thread nD τ).loc b) := fun c b => W12 m ρ c b
/-- After region 4: its arrays at what the pipeline leaves, every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
abbrev V13 : (c : Dev nD) → (b : Ref sig .tc) → Buf (Elt F) ((c : Thread nD τ).loc b) := fun c b => W13 m ρ c b
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)
/-- Region 4 changes no buffer but its output array `main_v53`: an input window's array is handed back as entered. -/
theorem keep4 (c : Dev nD) (b : Ref sig .tc) (hb : b ≠ main_v53) :
    W13 m ρ c (Proc.devRef .tc b) = W12 m ρ c (Proc.devRef .tc b) := by
  by_cases h : ∃ w, Pipeline.arrRef spec4 w = b
  · obtain ⟨w, rfl⟩ := h
    have hin : ∀ w : Fin cfg4.W, Pipeline.arrRef spec4 w ≠ main_v53 → (cfg4.win w).isOut = false := by decide
    exact (W13_arr m ρ c w).trans (((dat4 (V12 m ρ) c).arrAt_in w (hin w hb) _).trans (A_eq4 (V12 m ρ) c w))
  · exact W13_of_ne m ρ c b fun w e => h ⟨w, e⟩
/-- After the host stretch `hostOps5`. -/
abbrev W14 : Dev nD → Valuation τ sig (Elt F) := fun c => StableHlo.after hostOps5 (W13 m ρ c)
abbrev V14 : (c : Dev nD) → (b : Ref sig .tc) → Buf (Elt F) ((c : Thread nD τ).loc b) := fun c b => W14 m ρ c b
/-- After region 5: its arrays at what the pipeline leaves, every other buffer as entered. -/
def W15 (c : Dev nD) : Valuation τ sig (Elt F) :=
  Pipeline.withArrays spec5 c (W14 m ρ c) fun w => (dat5 (V14 m ρ) c).arrAt w cfg5.N
theorem W15_arr (c : Dev nD) (w : Fin cfg5.W) :
    W15 m ρ c (Proc.devRef .tc (Pipeline.arrRef spec5 w)) = (dat5 (V14 m ρ) c).arrAt w cfg5.N := by
  unfold W15; exact Pipeline.withArrays_arr spec5 launch5.win.arr_inj c _ _ w
theorem W15_of_ne (c : Dev nD) (b : Ref sig .tc) (hb : ∀ w, Pipeline.arrRef spec5 w ≠ b) :
    W15 m ρ c (Proc.devRef .tc b) = W14 m ρ c (Proc.devRef .tc b) := by
  unfold W15; exact Pipeline.withArrays_of_ne spec5 c _ _ b hb
abbrev V15 : (c : Dev nD) → (b : Ref sig .tc) → Buf (Elt F) ((c : Thread nD τ).loc b) := fun c b => W15 m ρ c b
theorem hF5 (c : Dev nD) (w : Fin cfg5.W) : (dat5 (V14 m ρ) c).arrAt w cfg5.N = V15 m ρ c (Pipeline.arrRef spec5 w) :=
  (W15_arr m ρ c w).symm
theorem hrest5 (c : Dev nD) : ∀ b, b ∉ Finset.univ.image (Pipeline.arrRef spec5) → V15 m ρ c b = V14 m ρ c b :=
  fun b hb => W15_of_ne m ρ c b fun w e => hb (Finset.mem_image.mpr ⟨w, Finset.mem_univ _, e⟩)
/-- Region 5 changes no buffer but its output array `main_v61`: an input window's array is handed back as entered. -/
theorem keep5 (c : Dev nD) (b : Ref sig .tc) (hb : b ≠ main_v61) :
    W15 m ρ c (Proc.devRef .tc b) = W14 m ρ c (Proc.devRef .tc b) := by
  by_cases h : ∃ w, Pipeline.arrRef spec5 w = b
  · obtain ⟨w, rfl⟩ := h
    have hin : ∀ w : Fin cfg5.W, Pipeline.arrRef spec5 w ≠ main_v61 → (cfg5.win w).isOut = false := by decide
    exact (W15_arr m ρ c w).trans (((dat5 (V14 m ρ) c).arrAt_in w (hin w hb) _).trans (A_eq5 (V14 m ρ) c w))
  · exact W15_of_ne m ρ c b fun w e => h ⟨w, e⟩
/-- After the host stretch `hostOps6`. -/
abbrev W16 : Dev nD → Valuation τ sig (Elt F) := fun c => StableHlo.after hostOps6 (W15 m ρ c)
abbrev V16 : (c : Dev nD) → (b : Ref sig .tc) → Buf (Elt F) ((c : Thread nD τ).loc b) := fun c b => W16 m ρ c b
/-- After region 6: its arrays at what the pipeline leaves, every other buffer as entered. -/
def W17 (c : Dev nD) : Valuation τ sig (Elt F) :=
  Pipeline.withArrays spec6 c (W16 m ρ c) fun w => (dat6 (V16 m ρ) c).arrAt w cfg6.N
theorem W17_arr (c : Dev nD) (w : Fin cfg6.W) :
    W17 m ρ c (Proc.devRef .tc (Pipeline.arrRef spec6 w)) = (dat6 (V16 m ρ) c).arrAt w cfg6.N := by
  unfold W17; exact Pipeline.withArrays_arr spec6 launch6.win.arr_inj c _ _ w
theorem W17_of_ne (c : Dev nD) (b : Ref sig .tc) (hb : ∀ w, Pipeline.arrRef spec6 w ≠ b) :
    W17 m ρ c (Proc.devRef .tc b) = W16 m ρ c (Proc.devRef .tc b) := by
  unfold W17; exact Pipeline.withArrays_of_ne spec6 c _ _ b hb
abbrev V17 : (c : Dev nD) → (b : Ref sig .tc) → Buf (Elt F) ((c : Thread nD τ).loc b) := fun c b => W17 m ρ c b
theorem hF6 (c : Dev nD) (w : Fin cfg6.W) : (dat6 (V16 m ρ) c).arrAt w cfg6.N = V17 m ρ c (Pipeline.arrRef spec6 w) :=
  (W17_arr m ρ c w).symm
theorem hrest6 (c : Dev nD) : ∀ b, b ∉ Finset.univ.image (Pipeline.arrRef spec6) → V17 m ρ c b = V16 m ρ c b :=
  fun b hb => W17_of_ne m ρ c b fun w e => hb (Finset.mem_image.mpr ⟨w, Finset.mem_univ _, e⟩)
/-- Region 6 changes no buffer but its output array `main_v65`: an input window's array is handed back as entered. -/
theorem keep6 (c : Dev nD) (b : Ref sig .tc) (hb : b ≠ main_v65) :
    W17 m ρ c (Proc.devRef .tc b) = W16 m ρ c (Proc.devRef .tc b) := by
  by_cases h : ∃ w, Pipeline.arrRef spec6 w = b
  · obtain ⟨w, rfl⟩ := h
    have hin : ∀ w : Fin cfg6.W, Pipeline.arrRef spec6 w ≠ main_v65 → (cfg6.win w).isOut = false := by decide
    exact (W17_arr m ρ c w).trans (((dat6 (V16 m ρ) c).arrAt_in w (hin w hb) _).trans (A_eq6 (V16 m ρ) c w))
  · exact W17_of_ne m ρ c b fun w e => h ⟨w, e⟩
/-- After the host stretch `hostOps7`. -/
abbrev W18 : Dev nD → Valuation τ sig (Elt F) := fun c => StableHlo.after hostOps7 (W17 m ρ c)
abbrev V18 : (c : Dev nD) → (b : Ref sig .tc) → Buf (Elt F) ((c : Thread nD τ).loc b) := fun c b => W18 m ρ c b
/-- After region 7: its arrays at what the pipeline leaves, every other buffer as entered. -/
def W19 (c : Dev nD) : Valuation τ sig (Elt F) :=
  Pipeline.withArrays spec7 c (W18 m ρ c) fun w => (dat7 (V18 m ρ) c).arrAt w cfg7.N
theorem W19_arr (c : Dev nD) (w : Fin cfg7.W) :
    W19 m ρ c (Proc.devRef .tc (Pipeline.arrRef spec7 w)) = (dat7 (V18 m ρ) c).arrAt w cfg7.N := by
  unfold W19; exact Pipeline.withArrays_arr spec7 launch7.win.arr_inj c _ _ w
theorem W19_of_ne (c : Dev nD) (b : Ref sig .tc) (hb : ∀ w, Pipeline.arrRef spec7 w ≠ b) :
    W19 m ρ c (Proc.devRef .tc b) = W18 m ρ c (Proc.devRef .tc b) := by
  unfold W19; exact Pipeline.withArrays_of_ne spec7 c _ _ b hb
abbrev V19 : (c : Dev nD) → (b : Ref sig .tc) → Buf (Elt F) ((c : Thread nD τ).loc b) := fun c b => W19 m ρ c b
theorem hF7 (c : Dev nD) (w : Fin cfg7.W) : (dat7 (V18 m ρ) c).arrAt w cfg7.N = V19 m ρ c (Pipeline.arrRef spec7 w) :=
  (W19_arr m ρ c w).symm
theorem hrest7 (c : Dev nD) : ∀ b, b ∉ Finset.univ.image (Pipeline.arrRef spec7) → V19 m ρ c b = V18 m ρ c b :=
  fun b hb => W19_of_ne m ρ c b fun w e => hb (Finset.mem_image.mpr ⟨w, Finset.mem_univ _, e⟩)
/-- Region 7 changes no buffer but its output array `main_v73`: an input window's array is handed back as entered. -/
theorem keep7 (c : Dev nD) (b : Ref sig .tc) (hb : b ≠ main_v73) :
    W19 m ρ c (Proc.devRef .tc b) = W18 m ρ c (Proc.devRef .tc b) := by
  by_cases h : ∃ w, Pipeline.arrRef spec7 w = b
  · obtain ⟨w, rfl⟩ := h
    have hin : ∀ w : Fin cfg7.W, Pipeline.arrRef spec7 w ≠ main_v73 → (cfg7.win w).isOut = false := by decide
    exact (W19_arr m ρ c w).trans (((dat7 (V18 m ρ) c).arrAt_in w (hin w hb) _).trans (A_eq7 (V18 m ρ) c w))
  · exact W19_of_ne m ρ c b fun w e => h ⟨w, e⟩
/-- After the host stretch `hostOps8`. -/
abbrev W20 : Dev nD → Valuation τ sig (Elt F) := fun c => StableHlo.after hostOps8 (W19 m ρ c)
abbrev V20 : (c : Dev nD) → (b : Ref sig .tc) → Buf (Elt F) ((c : Thread nD τ).loc b) := fun c b => W20 m ρ c b
/-- After region 8: its arrays at what the pipeline leaves, every other buffer as entered. -/
def W21 (c : Dev nD) : Valuation τ sig (Elt F) :=
  Pipeline.withArrays spec8 c (W20 m ρ c) fun w => (dat8 (V20 m ρ) c).arrAt w cfg8.N
theorem W21_arr (c : Dev nD) (w : Fin cfg8.W) :
    W21 m ρ c (Proc.devRef .tc (Pipeline.arrRef spec8 w)) = (dat8 (V20 m ρ) c).arrAt w cfg8.N := by
  unfold W21; exact Pipeline.withArrays_arr spec8 launch8.win.arr_inj c _ _ w
theorem W21_of_ne (c : Dev nD) (b : Ref sig .tc) (hb : ∀ w, Pipeline.arrRef spec8 w ≠ b) :
    W21 m ρ c (Proc.devRef .tc b) = W20 m ρ c (Proc.devRef .tc b) := by
  unfold W21; exact Pipeline.withArrays_of_ne spec8 c _ _ b hb
abbrev V21 : (c : Dev nD) → (b : Ref sig .tc) → Buf (Elt F) ((c : Thread nD τ).loc b) := fun c b => W21 m ρ c b
theorem hF8 (c : Dev nD) (w : Fin cfg8.W) : (dat8 (V20 m ρ) c).arrAt w cfg8.N = V21 m ρ c (Pipeline.arrRef spec8 w) :=
  (W21_arr m ρ c w).symm
theorem hrest8 (c : Dev nD) : ∀ b, b ∉ Finset.univ.image (Pipeline.arrRef spec8) → V21 m ρ c b = V20 m ρ c b :=
  fun b hb => W21_of_ne m ρ c b fun w e => hb (Finset.mem_image.mpr ⟨w, Finset.mem_univ _, e⟩)
/-- Region 8 changes no buffer but its output array `main_v77`: an input window's array is handed back as entered. -/
theorem keep8 (c : Dev nD) (b : Ref sig .tc) (hb : b ≠ main_v77) :
    W21 m ρ c (Proc.devRef .tc b) = W20 m ρ c (Proc.devRef .tc b) := by
  by_cases h : ∃ w, Pipeline.arrRef spec8 w = b
  · obtain ⟨w, rfl⟩ := h
    have hin : ∀ w : Fin cfg8.W, Pipeline.arrRef spec8 w ≠ main_v77 → (cfg8.win w).isOut = false := by decide
    exact (W21_arr m ρ c w).trans (((dat8 (V20 m ρ) c).arrAt_in w (hin w hb) _).trans (A_eq8 (V20 m ρ) c w))
  · exact W21_of_ne m ρ c b fun w e => h ⟨w, e⟩
/-- After the host stretch `hostOps9`. -/
abbrev W22 : Dev nD → Valuation τ sig (Elt F) := fun c => StableHlo.after hostOps9 (W21 m ρ c)
abbrev V22 : (c : Dev nD) → (b : Ref sig .tc) → Buf (Elt F) ((c : Thread nD τ).loc b) := fun c b => W22 m ρ c b
/-- After region 9: its arrays at what the pipeline leaves, every other buffer as entered. -/
def W23 (c : Dev nD) : Valuation τ sig (Elt F) :=
  Pipeline.withArrays spec9 c (W22 m ρ c) fun w => (dat9 (V22 m ρ) c).arrAt w cfg9.N
theorem W23_arr (c : Dev nD) (w : Fin cfg9.W) :
    W23 m ρ c (Proc.devRef .tc (Pipeline.arrRef spec9 w)) = (dat9 (V22 m ρ) c).arrAt w cfg9.N := by
  unfold W23; exact Pipeline.withArrays_arr spec9 launch9.win.arr_inj c _ _ w
theorem W23_of_ne (c : Dev nD) (b : Ref sig .tc) (hb : ∀ w, Pipeline.arrRef spec9 w ≠ b) :
    W23 m ρ c (Proc.devRef .tc b) = W22 m ρ c (Proc.devRef .tc b) := by
  unfold W23; exact Pipeline.withArrays_of_ne spec9 c _ _ b hb
abbrev V23 : (c : Dev nD) → (b : Ref sig .tc) → Buf (Elt F) ((c : Thread nD τ).loc b) := fun c b => W23 m ρ c b
theorem hF9 (c : Dev nD) (w : Fin cfg9.W) : (dat9 (V22 m ρ) c).arrAt w cfg9.N = V23 m ρ c (Pipeline.arrRef spec9 w) :=
  (W23_arr m ρ c w).symm
theorem hrest9 (c : Dev nD) : ∀ b, b ∉ Finset.univ.image (Pipeline.arrRef spec9) → V23 m ρ c b = V22 m ρ c b :=
  fun b hb => W23_of_ne m ρ c b fun w e => hb (Finset.mem_image.mpr ⟨w, Finset.mem_univ _, e⟩)
/-- Region 9 changes no buffer but its output array `main_v85`: an input window's array is handed back as entered. -/
theorem keep9 (c : Dev nD) (b : Ref sig .tc) (hb : b ≠ main_v85) :
    W23 m ρ c (Proc.devRef .tc b) = W22 m ρ c (Proc.devRef .tc b) := by
  by_cases h : ∃ w, Pipeline.arrRef spec9 w = b
  · obtain ⟨w, rfl⟩ := h
    have hin : ∀ w : Fin cfg9.W, Pipeline.arrRef spec9 w ≠ main_v85 → (cfg9.win w).isOut = false := by decide
    exact (W23_arr m ρ c w).trans (((dat9 (V22 m ρ) c).arrAt_in w (hin w hb) _).trans (A_eq9 (V22 m ρ) c w))
  · exact W23_of_ne m ρ c b fun w e => h ⟨w, e⟩
/-- After the host stretch `hostOps10`. -/
abbrev W24 : Dev nD → Valuation τ sig (Elt F) := fun c => StableHlo.after hostOps10 (W23 m ρ c)
abbrev V24 : (c : Dev nD) → (b : Ref sig .tc) → Buf (Elt F) ((c : Thread nD τ).loc b) := fun c b => W24 m ρ c b
/-- After region 10: its arrays at what the pipeline leaves, every other buffer as entered. -/
def W25 (c : Dev nD) : Valuation τ sig (Elt F) :=
  Pipeline.withArrays spec10 c (W24 m ρ c) fun w => (dat10 (V24 m ρ) c).arrAt w cfg10.N
theorem W25_arr (c : Dev nD) (w : Fin cfg10.W) :
    W25 m ρ c (Proc.devRef .tc (Pipeline.arrRef spec10 w)) = (dat10 (V24 m ρ) c).arrAt w cfg10.N := by
  unfold W25; exact Pipeline.withArrays_arr spec10 launch10.win.arr_inj c _ _ w
theorem W25_of_ne (c : Dev nD) (b : Ref sig .tc) (hb : ∀ w, Pipeline.arrRef spec10 w ≠ b) :
    W25 m ρ c (Proc.devRef .tc b) = W24 m ρ c (Proc.devRef .tc b) := by
  unfold W25; exact Pipeline.withArrays_of_ne spec10 c _ _ b hb
abbrev V25 : (c : Dev nD) → (b : Ref sig .tc) → Buf (Elt F) ((c : Thread nD τ).loc b) := fun c b => W25 m ρ c b
theorem hF10 (c : Dev nD) (w : Fin cfg10.W) : (dat10 (V24 m ρ) c).arrAt w cfg10.N = V25 m ρ c (Pipeline.arrRef spec10 w) :=
  (W25_arr m ρ c w).symm
theorem hrest10 (c : Dev nD) : ∀ b, b ∉ Finset.univ.image (Pipeline.arrRef spec10) → V25 m ρ c b = V24 m ρ c b :=
  fun b hb => W25_of_ne m ρ c b fun w e => hb (Finset.mem_image.mpr ⟨w, Finset.mem_univ _, e⟩)
/-- Region 10 changes no buffer but its output array `main_v89`: an input window's array is handed back as entered. -/
theorem keep10 (c : Dev nD) (b : Ref sig .tc) (hb : b ≠ main_v89) :
    W25 m ρ c (Proc.devRef .tc b) = W24 m ρ c (Proc.devRef .tc b) := by
  by_cases h : ∃ w, Pipeline.arrRef spec10 w = b
  · obtain ⟨w, rfl⟩ := h
    have hin : ∀ w : Fin cfg10.W, Pipeline.arrRef spec10 w ≠ main_v89 → (cfg10.win w).isOut = false := by decide
    exact (W25_arr m ρ c w).trans (((dat10 (V24 m ρ) c).arrAt_in w (hin w hb) _).trans (A_eq10 (V24 m ρ) c w))
  · exact W25_of_ne m ρ c b fun w e => h ⟨w, e⟩
/-- After the host stretch `hostOps11`. -/
abbrev W26 : Dev nD → Valuation τ sig (Elt F) := fun c => StableHlo.after hostOps11 (W25 m ρ c)
abbrev V26 : (c : Dev nD) → (b : Ref sig .tc) → Buf (Elt F) ((c : Thread nD τ).loc b) := fun c b => W26 m ρ c b
/-- After region 11: its arrays at what the pipeline leaves, every other buffer as entered. -/
def W27 (c : Dev nD) : Valuation τ sig (Elt F) :=
  Pipeline.withArrays spec11 c (W26 m ρ c) fun w => (dat11 (V26 m ρ) c).arrAt w cfg11.N
theorem W27_arr (c : Dev nD) (w : Fin cfg11.W) :
    W27 m ρ c (Proc.devRef .tc (Pipeline.arrRef spec11 w)) = (dat11 (V26 m ρ) c).arrAt w cfg11.N := by
  unfold W27; exact Pipeline.withArrays_arr spec11 launch11.win.arr_inj c _ _ w
theorem W27_of_ne (c : Dev nD) (b : Ref sig .tc) (hb : ∀ w, Pipeline.arrRef spec11 w ≠ b) :
    W27 m ρ c (Proc.devRef .tc b) = W26 m ρ c (Proc.devRef .tc b) := by
  unfold W27; exact Pipeline.withArrays_of_ne spec11 c _ _ b hb
abbrev V27 : (c : Dev nD) → (b : Ref sig .tc) → Buf (Elt F) ((c : Thread nD τ).loc b) := fun c b => W27 m ρ c b
theorem hF11 (c : Dev nD) (w : Fin cfg11.W) : (dat11 (V26 m ρ) c).arrAt w cfg11.N = V27 m ρ c (Pipeline.arrRef spec11 w) :=
  (W27_arr m ρ c w).symm
theorem hrest11 (c : Dev nD) : ∀ b, b ∉ Finset.univ.image (Pipeline.arrRef spec11) → V27 m ρ c b = V26 m ρ c b :=
  fun b hb => W27_of_ne m ρ c b fun w e => hb (Finset.mem_image.mpr ⟨w, Finset.mem_univ _, e⟩)
/-- Region 11 changes no buffer but its output array `main_v97`: an input window's array is handed back as entered. -/
theorem keep11 (c : Dev nD) (b : Ref sig .tc) (hb : b ≠ main_v97) :
    W27 m ρ c (Proc.devRef .tc b) = W26 m ρ c (Proc.devRef .tc b) := by
  by_cases h : ∃ w, Pipeline.arrRef spec11 w = b
  · obtain ⟨w, rfl⟩ := h
    have hin : ∀ w : Fin cfg11.W, Pipeline.arrRef spec11 w ≠ main_v97 → (cfg11.win w).isOut = false := by decide
    exact (W27_arr m ρ c w).trans (((dat11 (V26 m ρ) c).arrAt_in w (hin w hb) _).trans (A_eq11 (V26 m ρ) c w))
  · exact W27_of_ne m ρ c b fun w e => h ⟨w, e⟩
/-- After the host stretch `hostOps12`. -/
abbrev W28 : Dev nD → Valuation τ sig (Elt F) := fun c => StableHlo.after hostOps12 (W27 m ρ c)
abbrev V28 : (c : Dev nD) → (b : Ref sig .tc) → Buf (Elt F) ((c : Thread nD τ).loc b) := fun c b => W28 m ρ c b
/-- After region 12: its arrays at what the pipeline leaves, every other buffer as entered. -/
def W29 (c : Dev nD) : Valuation τ sig (Elt F) :=
  Pipeline.withArrays spec12 c (W28 m ρ c) fun w => (dat12 (V28 m ρ) c).arrAt w cfg12.N
theorem W29_arr (c : Dev nD) (w : Fin cfg12.W) :
    W29 m ρ c (Proc.devRef .tc (Pipeline.arrRef spec12 w)) = (dat12 (V28 m ρ) c).arrAt w cfg12.N := by
  unfold W29; exact Pipeline.withArrays_arr spec12 launch12.win.arr_inj c _ _ w
theorem W29_of_ne (c : Dev nD) (b : Ref sig .tc) (hb : ∀ w, Pipeline.arrRef spec12 w ≠ b) :
    W29 m ρ c (Proc.devRef .tc b) = W28 m ρ c (Proc.devRef .tc b) := by
  unfold W29; exact Pipeline.withArrays_of_ne spec12 c _ _ b hb
abbrev V29 : (c : Dev nD) → (b : Ref sig .tc) → Buf (Elt F) ((c : Thread nD τ).loc b) := fun c b => W29 m ρ c b
theorem hF12 (c : Dev nD) (w : Fin cfg12.W) : (dat12 (V28 m ρ) c).arrAt w cfg12.N = V29 m ρ c (Pipeline.arrRef spec12 w) :=
  (W29_arr m ρ c w).symm
theorem hrest12 (c : Dev nD) : ∀ b, b ∉ Finset.univ.image (Pipeline.arrRef spec12) → V29 m ρ c b = V28 m ρ c b :=
  fun b hb => W29_of_ne m ρ c b fun w e => hb (Finset.mem_image.mpr ⟨w, Finset.mem_univ _, e⟩)
/-- Region 12 changes no buffer but its output array `main_v101`: an input window's array is handed back as entered. -/
theorem keep12 (c : Dev nD) (b : Ref sig .tc) (hb : b ≠ main_v101) :
    W29 m ρ c (Proc.devRef .tc b) = W28 m ρ c (Proc.devRef .tc b) := by
  by_cases h : ∃ w, Pipeline.arrRef spec12 w = b
  · obtain ⟨w, rfl⟩ := h
    have hin : ∀ w : Fin cfg12.W, Pipeline.arrRef spec12 w ≠ main_v101 → (cfg12.win w).isOut = false := by decide
    exact (W29_arr m ρ c w).trans (((dat12 (V28 m ρ) c).arrAt_in w (hin w hb) _).trans (A_eq12 (V28 m ρ) c w))
  · exact W29_of_ne m ρ c b fun w e => h ⟨w, e⟩
/-- After the host stretch `hostOps13`. -/
abbrev W30 : Dev nD → Valuation τ sig (Elt F) := fun c => StableHlo.after hostOps13 (W29 m ρ c)
abbrev V30 : (c : Dev nD) → (b : Ref sig .tc) → Buf (Elt F) ((c : Thread nD τ).loc b) := fun c b => W30 m ρ c b
/-- After region 13: its arrays at what the pipeline leaves, every other buffer as entered. -/
def W31 (c : Dev nD) : Valuation τ sig (Elt F) :=
  Pipeline.withArrays spec13 c (W30 m ρ c) fun w => (dat13 (V30 m ρ) c).arrAt w cfg13.N
theorem W31_arr (c : Dev nD) (w : Fin cfg13.W) :
    W31 m ρ c (Proc.devRef .tc (Pipeline.arrRef spec13 w)) = (dat13 (V30 m ρ) c).arrAt w cfg13.N := by
  unfold W31; exact Pipeline.withArrays_arr spec13 launch13.win.arr_inj c _ _ w
theorem W31_of_ne (c : Dev nD) (b : Ref sig .tc) (hb : ∀ w, Pipeline.arrRef spec13 w ≠ b) :
    W31 m ρ c (Proc.devRef .tc b) = W30 m ρ c (Proc.devRef .tc b) := by
  unfold W31; exact Pipeline.withArrays_of_ne spec13 c _ _ b hb
abbrev V31 : (c : Dev nD) → (b : Ref sig .tc) → Buf (Elt F) ((c : Thread nD τ).loc b) := fun c b => W31 m ρ c b
theorem hF13 (c : Dev nD) (w : Fin cfg13.W) : (dat13 (V30 m ρ) c).arrAt w cfg13.N = V31 m ρ c (Pipeline.arrRef spec13 w) :=
  (W31_arr m ρ c w).symm
theorem hrest13 (c : Dev nD) : ∀ b, b ∉ Finset.univ.image (Pipeline.arrRef spec13) → V31 m ρ c b = V30 m ρ c b :=
  fun b hb => W31_of_ne m ρ c b fun w e => hb (Finset.mem_image.mpr ⟨w, Finset.mem_univ _, e⟩)
/-- Region 13 changes no buffer but its output array `main_v109`: an input window's array is handed back as entered. -/
theorem keep13 (c : Dev nD) (b : Ref sig .tc) (hb : b ≠ main_v109) :
    W31 m ρ c (Proc.devRef .tc b) = W30 m ρ c (Proc.devRef .tc b) := by
  by_cases h : ∃ w, Pipeline.arrRef spec13 w = b
  · obtain ⟨w, rfl⟩ := h
    have hin : ∀ w : Fin cfg13.W, Pipeline.arrRef spec13 w ≠ main_v109 → (cfg13.win w).isOut = false := by decide
    exact (W31_arr m ρ c w).trans (((dat13 (V30 m ρ) c).arrAt_in w (hin w hb) _).trans (A_eq13 (V30 m ρ) c w))
  · exact W31_of_ne m ρ c b fun w e => h ⟨w, e⟩
/-- After the host stretch `hostOps14`. -/
abbrev W32 : Dev nD → Valuation τ sig (Elt F) := fun c => StableHlo.after hostOps14 (W31 m ρ c)
abbrev V32 : (c : Dev nD) → (b : Ref sig .tc) → Buf (Elt F) ((c : Thread nD τ).loc b) := fun c b => W32 m ρ c b
/-- After region 14: its arrays at what the pipeline leaves, every other buffer as entered. -/
def W33 (c : Dev nD) : Valuation τ sig (Elt F) :=
  Pipeline.withArrays spec14 c (W32 m ρ c) fun w => (dat14 (V32 m ρ) c).arrAt w cfg14.N
theorem W33_arr (c : Dev nD) (w : Fin cfg14.W) :
    W33 m ρ c (Proc.devRef .tc (Pipeline.arrRef spec14 w)) = (dat14 (V32 m ρ) c).arrAt w cfg14.N := by
  unfold W33; exact Pipeline.withArrays_arr spec14 launch14.win.arr_inj c _ _ w
theorem W33_of_ne (c : Dev nD) (b : Ref sig .tc) (hb : ∀ w, Pipeline.arrRef spec14 w ≠ b) :
    W33 m ρ c (Proc.devRef .tc b) = W32 m ρ c (Proc.devRef .tc b) := by
  unfold W33; exact Pipeline.withArrays_of_ne spec14 c _ _ b hb
abbrev V33 : (c : Dev nD) → (b : Ref sig .tc) → Buf (Elt F) ((c : Thread nD τ).loc b) := fun c b => W33 m ρ c b
theorem hF14 (c : Dev nD) (w : Fin cfg14.W) : (dat14 (V32 m ρ) c).arrAt w cfg14.N = V33 m ρ c (Pipeline.arrRef spec14 w) :=
  (W33_arr m ρ c w).symm
theorem hrest14 (c : Dev nD) : ∀ b, b ∉ Finset.univ.image (Pipeline.arrRef spec14) → V33 m ρ c b = V32 m ρ c b :=
  fun b hb => W33_of_ne m ρ c b fun w e => hb (Finset.mem_image.mpr ⟨w, Finset.mem_univ _, e⟩)
/-- Region 14 changes no buffer but its output array `main_v113`: an input window's array is handed back as entered. -/
theorem keep14 (c : Dev nD) (b : Ref sig .tc) (hb : b ≠ main_v113) :
    W33 m ρ c (Proc.devRef .tc b) = W32 m ρ c (Proc.devRef .tc b) := by
  by_cases h : ∃ w, Pipeline.arrRef spec14 w = b
  · obtain ⟨w, rfl⟩ := h
    have hin : ∀ w : Fin cfg14.W, Pipeline.arrRef spec14 w ≠ main_v113 → (cfg14.win w).isOut = false := by decide
    exact (W33_arr m ρ c w).trans (((dat14 (V32 m ρ) c).arrAt_in w (hin w hb) _).trans (A_eq14 (V32 m ρ) c w))
  · exact W33_of_ne m ρ c b fun w e => h ⟨w, e⟩
/-- After region 15: its arrays at what the pipeline leaves, every other buffer as entered. -/
def W34 (c : Dev nD) : Valuation τ sig (Elt F) :=
  Pipeline.withArrays spec15 c (W33 m ρ c) fun w => (dat15 (V33 m ρ) c).arrAt w cfg15.N
theorem W34_arr (c : Dev nD) (w : Fin cfg15.W) :
    W34 m ρ c (Proc.devRef .tc (Pipeline.arrRef spec15 w)) = (dat15 (V33 m ρ) c).arrAt w cfg15.N := by
  unfold W34; exact Pipeline.withArrays_arr spec15 launch15.win.arr_inj c _ _ w
theorem W34_of_ne (c : Dev nD) (b : Ref sig .tc) (hb : ∀ w, Pipeline.arrRef spec15 w ≠ b) :
    W34 m ρ c (Proc.devRef .tc b) = W33 m ρ c (Proc.devRef .tc b) := by
  unfold W34; exact Pipeline.withArrays_of_ne spec15 c _ _ b hb
abbrev V34 : (c : Dev nD) → (b : Ref sig .tc) → Buf (Elt F) ((c : Thread nD τ).loc b) := fun c b => W34 m ρ c b
theorem hF15 (c : Dev nD) (w : Fin cfg15.W) : (dat15 (V33 m ρ) c).arrAt w cfg15.N = V34 m ρ c (Pipeline.arrRef spec15 w) :=
  (W34_arr m ρ c w).symm
theorem hrest15 (c : Dev nD) : ∀ b, b ∉ Finset.univ.image (Pipeline.arrRef spec15) → V34 m ρ c b = V33 m ρ c b :=
  fun b hb => W34_of_ne m ρ c b fun w e => hb (Finset.mem_image.mpr ⟨w, Finset.mem_univ _, e⟩)
/-- Region 15 changes no buffer but its output array `main_v114`: an input window's array is handed back as entered. -/
theorem keep15 (c : Dev nD) (b : Ref sig .tc) (hb : b ≠ main_v114) :
    W34 m ρ c (Proc.devRef .tc b) = W33 m ρ c (Proc.devRef .tc b) := by
  by_cases h : ∃ w, Pipeline.arrRef spec15 w = b
  · obtain ⟨w, rfl⟩ := h
    have hin : ∀ w : Fin cfg15.W, Pipeline.arrRef spec15 w ≠ main_v114 → (cfg15.win w).isOut = false := by decide
    exact (W34_arr m ρ c w).trans (((dat15 (V33 m ρ) c).arrAt_in w (hin w hb) _).trans (A_eq15 (V33 m ρ) c w))
  · exact W34_of_ne m ρ c b fun w e => h ⟨w, e⟩

/-! ## The arguments end as launched -/
theorem W34_main_arg0 (c : Dev nD) : W34 m ρ c (Proc.devRef .tc main_arg0) = m ((c : Thread nD τ).loc main_arg0) :=
  (keep15 m ρ c main_arg0 (by decide)).trans <|
  (keep14 m ρ c main_arg0 (by decide)).trans <|
  (hostOps14_keep (W31 m ρ c) main_arg0 (by decide)).trans <|
  (keep13 m ρ c main_arg0 (by decide)).trans <|
  (hostOps13_keep (W29 m ρ c) main_arg0 (by decide)).trans <|
  (keep12 m ρ c main_arg0 (by decide)).trans <|
  (hostOps12_keep (W27 m ρ c) main_arg0 (by decide)).trans <|
  (keep11 m ρ c main_arg0 (by decide)).trans <|
  (hostOps11_keep (W25 m ρ c) main_arg0 (by decide)).trans <|
  (keep10 m ρ c main_arg0 (by decide)).trans <|
  (hostOps10_keep (W23 m ρ c) main_arg0 (by decide)).trans <|
  (keep9 m ρ c main_arg0 (by decide)).trans <|
  (hostOps9_keep (W21 m ρ c) main_arg0 (by decide)).trans <|
  (keep8 m ρ c main_arg0 (by decide)).trans <|
  (hostOps8_keep (W19 m ρ c) main_arg0 (by decide)).trans <|
  (keep7 m ρ c main_arg0 (by decide)).trans <|
  (hostOps7_keep (W17 m ρ c) main_arg0 (by decide)).trans <|
  (keep6 m ρ c main_arg0 (by decide)).trans <|
  (hostOps6_keep (W15 m ρ c) main_arg0 (by decide)).trans <|
  (keep5 m ρ c main_arg0 (by decide)).trans <|
  (hostOps5_keep (W13 m ρ c) main_arg0 (by decide)).trans <|
  (keep4 m ρ c main_arg0 (by decide)).trans <|
  (hostOps4_keep (W11 m ρ c) main_arg0 (by decide)).trans <|
  (keep3 m ρ c main_arg0 (by decide)).trans <|
  (hostOps3_keep (W9 m ρ c) main_arg0 (by decide)).trans <|
  (keep2 m ρ c main_arg0 (by decide)).trans <|
  (hostOps2_keep (W7 m ρ c) main_arg0 (by decide)).trans <|
  (keep1 m ρ c main_arg0 (by decide)).trans <|
  (keep0 m ρ c main_arg0 (by decide)).trans <|
  (hostOps0_4_keep (W4 m ρ c) main_arg0 (by decide)).trans <|
  (hostOps0_3_keep (W3 m ρ c) main_arg0 (by decide)).trans <|
  (hostOps0_2_keep (W2 m ρ c) main_arg0 (by decide)).trans <|
  (hostOps0_1_keep (W1 m ρ c) main_arg0 (by decide)).trans <|
  (hostOps0_keep (W0 m ρ c) main_arg0 (by decide)).trans <|
  rfl
theorem W34_main_arg1 (c : Dev nD) : W34 m ρ c (Proc.devRef .tc main_arg1) = m ((c : Thread nD τ).loc main_arg1) :=
  (keep15 m ρ c main_arg1 (by decide)).trans <|
  (keep14 m ρ c main_arg1 (by decide)).trans <|
  (hostOps14_keep (W31 m ρ c) main_arg1 (by decide)).trans <|
  (keep13 m ρ c main_arg1 (by decide)).trans <|
  (hostOps13_keep (W29 m ρ c) main_arg1 (by decide)).trans <|
  (keep12 m ρ c main_arg1 (by decide)).trans <|
  (hostOps12_keep (W27 m ρ c) main_arg1 (by decide)).trans <|
  (keep11 m ρ c main_arg1 (by decide)).trans <|
  (hostOps11_keep (W25 m ρ c) main_arg1 (by decide)).trans <|
  (keep10 m ρ c main_arg1 (by decide)).trans <|
  (hostOps10_keep (W23 m ρ c) main_arg1 (by decide)).trans <|
  (keep9 m ρ c main_arg1 (by decide)).trans <|
  (hostOps9_keep (W21 m ρ c) main_arg1 (by decide)).trans <|
  (keep8 m ρ c main_arg1 (by decide)).trans <|
  (hostOps8_keep (W19 m ρ c) main_arg1 (by decide)).trans <|
  (keep7 m ρ c main_arg1 (by decide)).trans <|
  (hostOps7_keep (W17 m ρ c) main_arg1 (by decide)).trans <|
  (keep6 m ρ c main_arg1 (by decide)).trans <|
  (hostOps6_keep (W15 m ρ c) main_arg1 (by decide)).trans <|
  (keep5 m ρ c main_arg1 (by decide)).trans <|
  (hostOps5_keep (W13 m ρ c) main_arg1 (by decide)).trans <|
  (keep4 m ρ c main_arg1 (by decide)).trans <|
  (hostOps4_keep (W11 m ρ c) main_arg1 (by decide)).trans <|
  (keep3 m ρ c main_arg1 (by decide)).trans <|
  (hostOps3_keep (W9 m ρ c) main_arg1 (by decide)).trans <|
  (keep2 m ρ c main_arg1 (by decide)).trans <|
  (hostOps2_keep (W7 m ρ c) main_arg1 (by decide)).trans <|
  (keep1 m ρ c main_arg1 (by decide)).trans <|
  (keep0 m ρ c main_arg1 (by decide)).trans <|
  (hostOps0_4_keep (W4 m ρ c) main_arg1 (by decide)).trans <|
  (hostOps0_3_keep (W3 m ρ c) main_arg1 (by decide)).trans <|
  (hostOps0_2_keep (W2 m ρ c) main_arg1 (by decide)).trans <|
  (hostOps0_1_keep (W1 m ρ c) main_arg1 (by decide)).trans <|
  (hostOps0_keep (W0 m ρ c) main_arg1 (by decide)).trans <|
  rfl
theorem W34_main_arg2 (c : Dev nD) : W34 m ρ c (Proc.devRef .tc main_arg2) = m ((c : Thread nD τ).loc main_arg2) :=
  (keep15 m ρ c main_arg2 (by decide)).trans <|
  (keep14 m ρ c main_arg2 (by decide)).trans <|
  (hostOps14_keep (W31 m ρ c) main_arg2 (by decide)).trans <|
  (keep13 m ρ c main_arg2 (by decide)).trans <|
  (hostOps13_keep (W29 m ρ c) main_arg2 (by decide)).trans <|
  (keep12 m ρ c main_arg2 (by decide)).trans <|
  (hostOps12_keep (W27 m ρ c) main_arg2 (by decide)).trans <|
  (keep11 m ρ c main_arg2 (by decide)).trans <|
  (hostOps11_keep (W25 m ρ c) main_arg2 (by decide)).trans <|
  (keep10 m ρ c main_arg2 (by decide)).trans <|
  (hostOps10_keep (W23 m ρ c) main_arg2 (by decide)).trans <|
  (keep9 m ρ c main_arg2 (by decide)).trans <|
  (hostOps9_keep (W21 m ρ c) main_arg2 (by decide)).trans <|
  (keep8 m ρ c main_arg2 (by decide)).trans <|
  (hostOps8_keep (W19 m ρ c) main_arg2 (by decide)).trans <|
  (keep7 m ρ c main_arg2 (by decide)).trans <|
  (hostOps7_keep (W17 m ρ c) main_arg2 (by decide)).trans <|
  (keep6 m ρ c main_arg2 (by decide)).trans <|
  (hostOps6_keep (W15 m ρ c) main_arg2 (by decide)).trans <|
  (keep5 m ρ c main_arg2 (by decide)).trans <|
  (hostOps5_keep (W13 m ρ c) main_arg2 (by decide)).trans <|
  (keep4 m ρ c main_arg2 (by decide)).trans <|
  (hostOps4_keep (W11 m ρ c) main_arg2 (by decide)).trans <|
  (keep3 m ρ c main_arg2 (by decide)).trans <|
  (hostOps3_keep (W9 m ρ c) main_arg2 (by decide)).trans <|
  (keep2 m ρ c main_arg2 (by decide)).trans <|
  (hostOps2_keep (W7 m ρ c) main_arg2 (by decide)).trans <|
  (keep1 m ρ c main_arg2 (by decide)).trans <|
  (keep0 m ρ c main_arg2 (by decide)).trans <|
  (hostOps0_4_keep (W4 m ρ c) main_arg2 (by decide)).trans <|
  (hostOps0_3_keep (W3 m ρ c) main_arg2 (by decide)).trans <|
  (hostOps0_2_keep (W2 m ρ c) main_arg2 (by decide)).trans <|
  (hostOps0_1_keep (W1 m ρ c) main_arg2 (by decide)).trans <|
  (hostOps0_keep (W0 m ρ c) main_arg2 (by decide)).trans <|
  rfl
theorem W34_main_arg3 (c : Dev nD) : W34 m ρ c (Proc.devRef .tc main_arg3) = m ((c : Thread nD τ).loc main_arg3) :=
  (keep15 m ρ c main_arg3 (by decide)).trans <|
  (keep14 m ρ c main_arg3 (by decide)).trans <|
  (hostOps14_keep (W31 m ρ c) main_arg3 (by decide)).trans <|
  (keep13 m ρ c main_arg3 (by decide)).trans <|
  (hostOps13_keep (W29 m ρ c) main_arg3 (by decide)).trans <|
  (keep12 m ρ c main_arg3 (by decide)).trans <|
  (hostOps12_keep (W27 m ρ c) main_arg3 (by decide)).trans <|
  (keep11 m ρ c main_arg3 (by decide)).trans <|
  (hostOps11_keep (W25 m ρ c) main_arg3 (by decide)).trans <|
  (keep10 m ρ c main_arg3 (by decide)).trans <|
  (hostOps10_keep (W23 m ρ c) main_arg3 (by decide)).trans <|
  (keep9 m ρ c main_arg3 (by decide)).trans <|
  (hostOps9_keep (W21 m ρ c) main_arg3 (by decide)).trans <|
  (keep8 m ρ c main_arg3 (by decide)).trans <|
  (hostOps8_keep (W19 m ρ c) main_arg3 (by decide)).trans <|
  (keep7 m ρ c main_arg3 (by decide)).trans <|
  (hostOps7_keep (W17 m ρ c) main_arg3 (by decide)).trans <|
  (keep6 m ρ c main_arg3 (by decide)).trans <|
  (hostOps6_keep (W15 m ρ c) main_arg3 (by decide)).trans <|
  (keep5 m ρ c main_arg3 (by decide)).trans <|
  (hostOps5_keep (W13 m ρ c) main_arg3 (by decide)).trans <|
  (keep4 m ρ c main_arg3 (by decide)).trans <|
  (hostOps4_keep (W11 m ρ c) main_arg3 (by decide)).trans <|
  (keep3 m ρ c main_arg3 (by decide)).trans <|
  (hostOps3_keep (W9 m ρ c) main_arg3 (by decide)).trans <|
  (keep2 m ρ c main_arg3 (by decide)).trans <|
  (hostOps2_keep (W7 m ρ c) main_arg3 (by decide)).trans <|
  (keep1 m ρ c main_arg3 (by decide)).trans <|
  (keep0 m ρ c main_arg3 (by decide)).trans <|
  (hostOps0_4_keep (W4 m ρ c) main_arg3 (by decide)).trans <|
  (hostOps0_3_keep (W3 m ρ c) main_arg3 (by decide)).trans <|
  (hostOps0_2_keep (W2 m ρ c) main_arg3 (by decide)).trans <|
  (hostOps0_1_keep (W1 m ρ c) main_arg3 (by decide)).trans <|
  (hostOps0_keep (W0 m ρ c) main_arg3 (by decide)).trans <|
  rfl
theorem W34_main_arg4 (c : Dev nD) : W34 m ρ c (Proc.devRef .tc main_arg4) = m ((c : Thread nD τ).loc main_arg4) :=
  (keep15 m ρ c main_arg4 (by decide)).trans <|
  (keep14 m ρ c main_arg4 (by decide)).trans <|
  (hostOps14_keep (W31 m ρ c) main_arg4 (by decide)).trans <|
  (keep13 m ρ c main_arg4 (by decide)).trans <|
  (hostOps13_keep (W29 m ρ c) main_arg4 (by decide)).trans <|
  (keep12 m ρ c main_arg4 (by decide)).trans <|
  (hostOps12_keep (W27 m ρ c) main_arg4 (by decide)).trans <|
  (keep11 m ρ c main_arg4 (by decide)).trans <|
  (hostOps11_keep (W25 m ρ c) main_arg4 (by decide)).trans <|
  (keep10 m ρ c main_arg4 (by decide)).trans <|
  (hostOps10_keep (W23 m ρ c) main_arg4 (by decide)).trans <|
  (keep9 m ρ c main_arg4 (by decide)).trans <|
  (hostOps9_keep (W21 m ρ c) main_arg4 (by decide)).trans <|
  (keep8 m ρ c main_arg4 (by decide)).trans <|
  (hostOps8_keep (W19 m ρ c) main_arg4 (by decide)).trans <|
  (keep7 m ρ c main_arg4 (by decide)).trans <|
  (hostOps7_keep (W17 m ρ c) main_arg4 (by decide)).trans <|
  (keep6 m ρ c main_arg4 (by decide)).trans <|
  (hostOps6_keep (W15 m ρ c) main_arg4 (by decide)).trans <|
  (keep5 m ρ c main_arg4 (by decide)).trans <|
  (hostOps5_keep (W13 m ρ c) main_arg4 (by decide)).trans <|
  (keep4 m ρ c main_arg4 (by decide)).trans <|
  (hostOps4_keep (W11 m ρ c) main_arg4 (by decide)).trans <|
  (keep3 m ρ c main_arg4 (by decide)).trans <|
  (hostOps3_keep (W9 m ρ c) main_arg4 (by decide)).trans <|
  (keep2 m ρ c main_arg4 (by decide)).trans <|
  (hostOps2_keep (W7 m ρ c) main_arg4 (by decide)).trans <|
  (keep1 m ρ c main_arg4 (by decide)).trans <|
  (keep0 m ρ c main_arg4 (by decide)).trans <|
  (hostOps0_4_keep (W4 m ρ c) main_arg4 (by decide)).trans <|
  (hostOps0_3_keep (W3 m ρ c) main_arg4 (by decide)).trans <|
  (hostOps0_2_keep (W2 m ρ c) main_arg4 (by decide)).trans <|
  (hostOps0_1_keep (W1 m ρ c) main_arg4 (by decide)).trans <|
  (hostOps0_keep (W0 m ρ c) main_arg4 (by decide)).trans <|
  rfl
theorem W34_main_arg5 (c : Dev nD) : W34 m ρ c (Proc.devRef .tc main_arg5) = m ((c : Thread nD τ).loc main_arg5) :=
  (keep15 m ρ c main_arg5 (by decide)).trans <|
  (keep14 m ρ c main_arg5 (by decide)).trans <|
  (hostOps14_keep (W31 m ρ c) main_arg5 (by decide)).trans <|
  (keep13 m ρ c main_arg5 (by decide)).trans <|
  (hostOps13_keep (W29 m ρ c) main_arg5 (by decide)).trans <|
  (keep12 m ρ c main_arg5 (by decide)).trans <|
  (hostOps12_keep (W27 m ρ c) main_arg5 (by decide)).trans <|
  (keep11 m ρ c main_arg5 (by decide)).trans <|
  (hostOps11_keep (W25 m ρ c) main_arg5 (by decide)).trans <|
  (keep10 m ρ c main_arg5 (by decide)).trans <|
  (hostOps10_keep (W23 m ρ c) main_arg5 (by decide)).trans <|
  (keep9 m ρ c main_arg5 (by decide)).trans <|
  (hostOps9_keep (W21 m ρ c) main_arg5 (by decide)).trans <|
  (keep8 m ρ c main_arg5 (by decide)).trans <|
  (hostOps8_keep (W19 m ρ c) main_arg5 (by decide)).trans <|
  (keep7 m ρ c main_arg5 (by decide)).trans <|
  (hostOps7_keep (W17 m ρ c) main_arg5 (by decide)).trans <|
  (keep6 m ρ c main_arg5 (by decide)).trans <|
  (hostOps6_keep (W15 m ρ c) main_arg5 (by decide)).trans <|
  (keep5 m ρ c main_arg5 (by decide)).trans <|
  (hostOps5_keep (W13 m ρ c) main_arg5 (by decide)).trans <|
  (keep4 m ρ c main_arg5 (by decide)).trans <|
  (hostOps4_keep (W11 m ρ c) main_arg5 (by decide)).trans <|
  (keep3 m ρ c main_arg5 (by decide)).trans <|
  (hostOps3_keep (W9 m ρ c) main_arg5 (by decide)).trans <|
  (keep2 m ρ c main_arg5 (by decide)).trans <|
  (hostOps2_keep (W7 m ρ c) main_arg5 (by decide)).trans <|
  (keep1 m ρ c main_arg5 (by decide)).trans <|
  (keep0 m ρ c main_arg5 (by decide)).trans <|
  (hostOps0_4_keep (W4 m ρ c) main_arg5 (by decide)).trans <|
  (hostOps0_3_keep (W3 m ρ c) main_arg5 (by decide)).trans <|
  (hostOps0_2_keep (W2 m ρ c) main_arg5 (by decide)).trans <|
  (hostOps0_1_keep (W1 m ρ c) main_arg5 (by decide)).trans <|
  (hostOps0_keep (W0 m ρ c) main_arg5 (by decide)).trans <|
  rfl
theorem W34_main_arg6 (c : Dev nD) : W34 m ρ c (Proc.devRef .tc main_arg6) = m ((c : Thread nD τ).loc main_arg6) :=
  (keep15 m ρ c main_arg6 (by decide)).trans <|
  (keep14 m ρ c main_arg6 (by decide)).trans <|
  (hostOps14_keep (W31 m ρ c) main_arg6 (by decide)).trans <|
  (keep13 m ρ c main_arg6 (by decide)).trans <|
  (hostOps13_keep (W29 m ρ c) main_arg6 (by decide)).trans <|
  (keep12 m ρ c main_arg6 (by decide)).trans <|
  (hostOps12_keep (W27 m ρ c) main_arg6 (by decide)).trans <|
  (keep11 m ρ c main_arg6 (by decide)).trans <|
  (hostOps11_keep (W25 m ρ c) main_arg6 (by decide)).trans <|
  (keep10 m ρ c main_arg6 (by decide)).trans <|
  (hostOps10_keep (W23 m ρ c) main_arg6 (by decide)).trans <|
  (keep9 m ρ c main_arg6 (by decide)).trans <|
  (hostOps9_keep (W21 m ρ c) main_arg6 (by decide)).trans <|
  (keep8 m ρ c main_arg6 (by decide)).trans <|
  (hostOps8_keep (W19 m ρ c) main_arg6 (by decide)).trans <|
  (keep7 m ρ c main_arg6 (by decide)).trans <|
  (hostOps7_keep (W17 m ρ c) main_arg6 (by decide)).trans <|
  (keep6 m ρ c main_arg6 (by decide)).trans <|
  (hostOps6_keep (W15 m ρ c) main_arg6 (by decide)).trans <|
  (keep5 m ρ c main_arg6 (by decide)).trans <|
  (hostOps5_keep (W13 m ρ c) main_arg6 (by decide)).trans <|
  (keep4 m ρ c main_arg6 (by decide)).trans <|
  (hostOps4_keep (W11 m ρ c) main_arg6 (by decide)).trans <|
  (keep3 m ρ c main_arg6 (by decide)).trans <|
  (hostOps3_keep (W9 m ρ c) main_arg6 (by decide)).trans <|
  (keep2 m ρ c main_arg6 (by decide)).trans <|
  (hostOps2_keep (W7 m ρ c) main_arg6 (by decide)).trans <|
  (keep1 m ρ c main_arg6 (by decide)).trans <|
  (keep0 m ρ c main_arg6 (by decide)).trans <|
  (hostOps0_4_keep (W4 m ρ c) main_arg6 (by decide)).trans <|
  (hostOps0_3_keep (W3 m ρ c) main_arg6 (by decide)).trans <|
  (hostOps0_2_keep (W2 m ρ c) main_arg6 (by decide)).trans <|
  (hostOps0_1_keep (W1 m ρ c) main_arg6 (by decide)).trans <|
  (hostOps0_keep (W0 m ρ c) main_arg6 (by decide)).trans <|
  rfl
theorem W34_main_arg7 (c : Dev nD) : W34 m ρ c (Proc.devRef .tc main_arg7) = m ((c : Thread nD τ).loc main_arg7) :=
  (keep15 m ρ c main_arg7 (by decide)).trans <|
  (keep14 m ρ c main_arg7 (by decide)).trans <|
  (hostOps14_keep (W31 m ρ c) main_arg7 (by decide)).trans <|
  (keep13 m ρ c main_arg7 (by decide)).trans <|
  (hostOps13_keep (W29 m ρ c) main_arg7 (by decide)).trans <|
  (keep12 m ρ c main_arg7 (by decide)).trans <|
  (hostOps12_keep (W27 m ρ c) main_arg7 (by decide)).trans <|
  (keep11 m ρ c main_arg7 (by decide)).trans <|
  (hostOps11_keep (W25 m ρ c) main_arg7 (by decide)).trans <|
  (keep10 m ρ c main_arg7 (by decide)).trans <|
  (hostOps10_keep (W23 m ρ c) main_arg7 (by decide)).trans <|
  (keep9 m ρ c main_arg7 (by decide)).trans <|
  (hostOps9_keep (W21 m ρ c) main_arg7 (by decide)).trans <|
  (keep8 m ρ c main_arg7 (by decide)).trans <|
  (hostOps8_keep (W19 m ρ c) main_arg7 (by decide)).trans <|
  (keep7 m ρ c main_arg7 (by decide)).trans <|
  (hostOps7_keep (W17 m ρ c) main_arg7 (by decide)).trans <|
  (keep6 m ρ c main_arg7 (by decide)).trans <|
  (hostOps6_keep (W15 m ρ c) main_arg7 (by decide)).trans <|
  (keep5 m ρ c main_arg7 (by decide)).trans <|
  (hostOps5_keep (W13 m ρ c) main_arg7 (by decide)).trans <|
  (keep4 m ρ c main_arg7 (by decide)).trans <|
  (hostOps4_keep (W11 m ρ c) main_arg7 (by decide)).trans <|
  (keep3 m ρ c main_arg7 (by decide)).trans <|
  (hostOps3_keep (W9 m ρ c) main_arg7 (by decide)).trans <|
  (keep2 m ρ c main_arg7 (by decide)).trans <|
  (hostOps2_keep (W7 m ρ c) main_arg7 (by decide)).trans <|
  (keep1 m ρ c main_arg7 (by decide)).trans <|
  (keep0 m ρ c main_arg7 (by decide)).trans <|
  (hostOps0_4_keep (W4 m ρ c) main_arg7 (by decide)).trans <|
  (hostOps0_3_keep (W3 m ρ c) main_arg7 (by decide)).trans <|
  (hostOps0_2_keep (W2 m ρ c) main_arg7 (by decide)).trans <|
  (hostOps0_1_keep (W1 m ρ c) main_arg7 (by decide)).trans <|
  (hostOps0_keep (W0 m ρ c) main_arg7 (by decide)).trans <|
  rfl
theorem W34_main_arg8 (c : Dev nD) : W34 m ρ c (Proc.devRef .tc main_arg8) = m ((c : Thread nD τ).loc main_arg8) :=
  (keep15 m ρ c main_arg8 (by decide)).trans <|
  (keep14 m ρ c main_arg8 (by decide)).trans <|
  (hostOps14_keep (W31 m ρ c) main_arg8 (by decide)).trans <|
  (keep13 m ρ c main_arg8 (by decide)).trans <|
  (hostOps13_keep (W29 m ρ c) main_arg8 (by decide)).trans <|
  (keep12 m ρ c main_arg8 (by decide)).trans <|
  (hostOps12_keep (W27 m ρ c) main_arg8 (by decide)).trans <|
  (keep11 m ρ c main_arg8 (by decide)).trans <|
  (hostOps11_keep (W25 m ρ c) main_arg8 (by decide)).trans <|
  (keep10 m ρ c main_arg8 (by decide)).trans <|
  (hostOps10_keep (W23 m ρ c) main_arg8 (by decide)).trans <|
  (keep9 m ρ c main_arg8 (by decide)).trans <|
  (hostOps9_keep (W21 m ρ c) main_arg8 (by decide)).trans <|
  (keep8 m ρ c main_arg8 (by decide)).trans <|
  (hostOps8_keep (W19 m ρ c) main_arg8 (by decide)).trans <|
  (keep7 m ρ c main_arg8 (by decide)).trans <|
  (hostOps7_keep (W17 m ρ c) main_arg8 (by decide)).trans <|
  (keep6 m ρ c main_arg8 (by decide)).trans <|
  (hostOps6_keep (W15 m ρ c) main_arg8 (by decide)).trans <|
  (keep5 m ρ c main_arg8 (by decide)).trans <|
  (hostOps5_keep (W13 m ρ c) main_arg8 (by decide)).trans <|
  (keep4 m ρ c main_arg8 (by decide)).trans <|
  (hostOps4_keep (W11 m ρ c) main_arg8 (by decide)).trans <|
  (keep3 m ρ c main_arg8 (by decide)).trans <|
  (hostOps3_keep (W9 m ρ c) main_arg8 (by decide)).trans <|
  (keep2 m ρ c main_arg8 (by decide)).trans <|
  (hostOps2_keep (W7 m ρ c) main_arg8 (by decide)).trans <|
  (keep1 m ρ c main_arg8 (by decide)).trans <|
  (keep0 m ρ c main_arg8 (by decide)).trans <|
  (hostOps0_4_keep (W4 m ρ c) main_arg8 (by decide)).trans <|
  (hostOps0_3_keep (W3 m ρ c) main_arg8 (by decide)).trans <|
  (hostOps0_2_keep (W2 m ρ c) main_arg8 (by decide)).trans <|
  (hostOps0_1_keep (W1 m ρ c) main_arg8 (by decide)).trans <|
  (hostOps0_keep (W0 m ρ c) main_arg8 (by decide)).trans <|
  rfl

end Cert.KernelIdeal.Frame

end
-- ==== Proof.KI.Segs.lean ====
/-
  Each of the sixteen regions as a segment of @main over one thread state: every unscoped buffer held at the
  boundary's contents, beside the core's generator register and its (empty) dues. A region splits its windows'
  arrays out of the unscoped buffers on entry and puts them back at their final contents on exit; the generator
  register passes through the pipeline's invariant; the kernels have no semaphore of their own and owe nothing.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import proofs.«142470_j73658689126826_2_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (BodyObligationLoose)

variable (m : (ℓ : Loc nD τ sig) → Buf (Elt F) ℓ) (ρ : Dev nD → PrngReg)

/-- No pallas_call of this program has a prefetched table. -/
abbrev adm : (p : Fin 16) → (pcfgs (F := F) p).Adm := fun p => (cfgs p).toPCfg_adm

/-- Every pipeline's proof data, each at the contents its region is entered from. -/
def pdats : (p : Fin 16) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
  | ⟨2, _⟩ => fun c => dat2 (V8 m ρ) c
  | ⟨3, _⟩ => fun c => dat3 (V10 m ρ) c
  | ⟨4, _⟩ => fun c => dat4 (V12 m ρ) c
  | ⟨5, _⟩ => fun c => dat5 (V14 m ρ) c
  | ⟨6, _⟩ => fun c => dat6 (V16 m ρ) c
  | ⟨7, _⟩ => fun c => dat7 (V18 m ρ) c
  | ⟨8, _⟩ => fun c => dat8 (V20 m ρ) c
  | ⟨9, _⟩ => fun c => dat9 (V22 m ρ) c
  | ⟨10, _⟩ => fun c => dat10 (V24 m ρ) c
  | ⟨11, _⟩ => fun c => dat11 (V26 m ρ) c
  | ⟨12, _⟩ => fun c => dat12 (V28 m ρ) c
  | ⟨13, _⟩ => fun c => dat13 (V30 m ρ) c
  | ⟨14, _⟩ => fun c => dat14 (V32 m ρ) c
  | ⟨15, _⟩ => fun c => dat15 (V33 m ρ) c
  | ⟨_ + 16, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)

/-- A host stretch as a segment: from every unscoped buffer at `W` to the same at `W` after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Region 0: entered from every unscoped buffer at `W5`, left at `W6`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W6`, left at `W7`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W8`, left at `W9`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V8 m ρ) c
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W10`, left at `W11`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W12`, left at `W13`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W14`, left at `W15`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := body_obligation5 (V14 m ρ) c
  hwaits := Pipeline.hwaits_of_owed_zero _ _ _ _ L lv 5 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec5 c (V14 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V14 m ρ c) (V15 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W16`, left at `W17`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V16 m ρ) c).loose
  hwaits := Pipeline.hwaits_of_owed_zero _ _ _ _ L lv 6 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec6 c (V16 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V16 m ρ c) (V17 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `W18`, left at `W19`. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := body_obligation7 (V18 m ρ) c
  hwaits := Pipeline.hwaits_of_owed_zero _ _ _ _ L lv 7 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec7 c (V18 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V18 m ρ c) (V19 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at `W20`, left at `W21`. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V20 m ρ) c).loose
  hwaits := Pipeline.hwaits_of_owed_zero _ _ _ _ L lv 8 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec8 c (V20 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V20 m ρ c) (V21 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: entered from every unscoped buffer at `W22`, left at `W23`. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := body_obligation9 (V22 m ρ) c
  hwaits := Pipeline.hwaits_of_owed_zero _ _ _ _ L lv 9 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec9 c (V22 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V22 m ρ c) (V23 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: entered from every unscoped buffer at `W24`, left at `W25`. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V24 m ρ) c).loose
  hwaits := Pipeline.hwaits_of_owed_zero _ _ _ _ L lv 10 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec10 c (V24 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V24 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V24 m ρ c) (V25 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11: entered from every unscoped buffer at `W26`, left at `W27`. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := body_obligation11 (V26 m ρ) c
  hwaits := Pipeline.hwaits_of_owed_zero _ _ _ _ L lv 11 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec11 c (V26 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V26 m ρ c) (V27 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 12: entered from every unscoped buffer at `W28`, left at `W29`. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V28 m ρ) c).loose
  hwaits := Pipeline.hwaits_of_owed_zero _ _ _ _ L lv 12 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec12 c (V28 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V28 m ρ c) (V29 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 13: entered from every unscoped buffer at `W30`, left at `W31`. -/
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := body_obligation13 (V30 m ρ) c
  hwaits := Pipeline.hwaits_of_owed_zero _ _ _ _ L lv 13 fun _ _ => rfl
  pre c := iprop(StableHlo.held (c : Thread nD τ) (Pipeline.ucRefs τ sig) (W30 m ρ c) ∗ R c)
  post c := iprop(StableHlo.held (c : Thread nD τ) (Pipeline.ucRefs τ sig) (W31 m ρ c) ∗ R c)
  X c := iprop(∃ r, prngReg c r)
  Y c := iprop(∃ r, prngReg c r)
  Z c := Pipeline.unscopedRest (Ix := Unit) (Name := ℕ) (U := UR sig nD τ) (Lvl := ℕ) spec13 c (V30 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (V30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (V30 m ρ c) (V31 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 14: entered from every unscoped buffer at `W32`, left at `W33`. -/
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (V32 m ρ) c).loose
  hwaits := Pipeline.hwaits_of_owed_zero _ _ _ _ L lv 14 fun _ _ => rfl
  pre c := iprop(StableHlo.held (c : Thread nD τ) (Pipeline.ucRefs τ sig) (W32 m ρ c) ∗ R c)
  post c := iprop(StableHlo.held (c : Thread nD τ) (Pipeline.ucRefs τ sig) (W33 m ρ c) ∗ R c)
  X c := iprop(∃ r, prngReg c r)
  Y c := iprop(∃ r, prngReg c r)
  Z c := Pipeline.unscopedRest (Ix := Unit) (Name := ℕ) (U := UR sig nD τ) (Lvl := ℕ) spec14 c (V32 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (V32 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (V32 m ρ c) (V33 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 15: entered from every unscoped buffer at `W33`, left at `W34`. -/
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (V33 m ρ) c).loose
  hwaits := Pipeline.hwaits_of_owed_zero _ _ _ _ L lv 15 fun _ _ => rfl
  pre c := iprop(StableHlo.held (c : Thread nD τ) (Pipeline.ucRefs τ sig) (W33 m ρ c) ∗ R c)
  post c := iprop(StableHlo.held (c : Thread nD τ) (Pipeline.ucRefs τ sig) (W34 m ρ c) ∗ R c)
  X c := iprop(∃ r, prngReg c r)
  Y c := iprop(∃ r, prngReg c r)
  Z c := Pipeline.unscopedRest (Ix := Unit) (Name := ℕ) (U := UR sig nD τ) (Lvl := ℕ) spec15 c (V33 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (V33 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (V33 m ρ c) (V34 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Run.lean ====
/-
  The run of @main. @main is the sequence of its thirty-four items — host stretches and the sixteen regions —
  each entered from the thread state the one before left: from any launch memory with zero counters, every weakly
  fair execution terminates without a fault, the result array `main_v114` ends at what the fold of the items leaves in
  it (`W34`), and every argument array ends as launched.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import proofs.«142470_j73658689126826_2_alg».proof.Proof.KI.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ),
    .host (hseg hostOps2 hostOps2_sub hostOps2_fresh (W7 m ρ)),
    .region (reg2 m ρ),
    .host (hseg hostOps3 hostOps3_sub hostOps3_fresh (W9 m ρ)),
    .region (reg3 m ρ),
    .host (hseg hostOps4 hostOps4_sub hostOps4_fresh (W11 m ρ)),
    .region (reg4 m ρ),
    .host (hseg hostOps5 hostOps5_sub hostOps5_fresh (W13 m ρ)),
    .region (reg5 m ρ),
    .host (hseg hostOps6 hostOps6_sub hostOps6_fresh (W15 m ρ)),
    .region (reg6 m ρ),
    .host (hseg hostOps7 hostOps7_sub hostOps7_fresh (W17 m ρ)),
    .region (reg7 m ρ),
    .host (hseg hostOps8 hostOps8_sub hostOps8_fresh (W19 m ρ)),
    .region (reg8 m ρ),
    .host (hseg hostOps9 hostOps9_sub hostOps9_fresh (W21 m ρ)),
    .region (reg9 m ρ),
    .host (hseg hostOps10 hostOps10_sub hostOps10_fresh (W23 m ρ)),
    .region (reg10 m ρ),
    .host (hseg hostOps11 hostOps11_sub hostOps11_fresh (W25 m ρ)),
    .region (reg11 m ρ),
    .host (hseg hostOps12 hostOps12_sub hostOps12_fresh (W27 m ρ)),
    .region (reg12 m ρ),
    .host (hseg hostOps13 hostOps13_sub hostOps13_fresh (W29 m ρ)),
    .region (reg13 m ρ),
    .host (hseg hostOps14 hostOps14_sub hostOps14_fresh (W31 m ρ)),
    .region (reg14 m ρ),
    .region (reg15 m ρ) ]

/-- @main is the run of its items. -/
theorem main_run (c : Dev nD) : main (F := F) c = Pipeline.Seg.run (segs m ρ) := (main_chain c).trans (by chain_rfl)

/-- The last thread state without the dues: every unscoped buffer at the last boundary's contents. -/
abbrev Tₙ (c : Dev nD) : sProp 𝕄 := iprop(StableHlo.held (c : Thread nD τ) (Pipeline.ucRefs τ sig) (W34 m ρ c) ∗ ∃ r, prngReg c r)

set_option backward.isDefEq.respectTransparency.types false in
/-- Every weakly fair execution of @main from `m` with zero counters terminates without a fault; the result array
    ends at the fold's last contents and the nine argument arrays as launched. -/
theorem run_main : θ_run defs (onTc (τ := τ) (main (F := F))) ⟨m, fun _ => 0, ρ⟩ (fun r => ∀ c : Dev nD,
      r.2.mem ((c.tc : Thread nD τ).loc main_v114) = W34 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W34 m ρ c) ∗ (∃ r, prngReg c r) ∗ ∃ W, owes (c : Thread nD τ) (0 : CellTallies nD τ sig Unit) W)
        ⊢ iprop((StableHlo.held (c : Thread nD τ) (Pipeline.ucRefs τ sig) (W34 m ρ c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c =>
      ⟨h c _ (mem_uc main_v114 (by decide)),
       (h c _ (mem_uc main_arg0 (by decide))).trans (W34_main_arg0 m ρ c),
       (h c _ (mem_uc main_arg1 (by decide))).trans (W34_main_arg1 m ρ c),
       (h c _ (mem_uc main_arg2 (by decide))).trans (W34_main_arg2 m ρ c),
       (h c _ (mem_uc main_arg3 (by decide))).trans (W34_main_arg3 m ρ c),
       (h c _ (mem_uc main_arg4 (by decide))).trans (W34_main_arg4 m ρ c),
       (h c _ (mem_uc main_arg5 (by decide))).trans (W34_main_arg5 m ρ c),
       (h c _ (mem_uc main_arg6 (by decide))).trans (W34_main_arg6 m ρ c),
       (h c _ (mem_uc main_arg7 (by decide))).trans (W34_main_arg7 m ρ c),
       (h c _ (mem_uc main_arg8 (by decide))).trans (W34_main_arg8 m ρ c)⟩)

end Cert.KernelIdeal.Frame

end
-- ==== Proof.KI.Carry.lean ====
/-
  Buffers that an item does not write hold after it what they held before; chained, the few buffers the program reads
  many items after writing them — the edge endpoints, the edge norms, the teleport term, the weights — are found
  where they are read at the contents they were given.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import proofs.«142470_j73658689126826_2_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem carry_main_v3_7 (c : Dev nD) : W7 m ρ c (Proc.devRef .tc main_v3) = W5 m ρ c (Proc.devRef .tc main_v3) :=
  (keep1 m ρ c main_v3 (by decide)).trans <|
  (keep0 m ρ c main_v3 (by decide)).trans <|
  rfl
theorem carry_main_v3_13 (c : Dev nD) : W13 m ρ c (Proc.devRef .tc main_v3) = W5 m ρ c (Proc.devRef .tc main_v3) :=
  (keep4 m ρ c main_v3 (by decide)).trans <|
  (hostOps4_keep (W11 m ρ c) main_v3 (by decide)).trans <|
  (keep3 m ρ c main_v3 (by decide)).trans <|
  (hostOps3_keep (W9 m ρ c) main_v3 (by decide)).trans <|
  (keep2 m ρ c main_v3 (by decide)).trans <|
  (hostOps2_keep (W7 m ρ c) main_v3 (by decide)).trans <|
  (keep1 m ρ c main_v3 (by decide)).trans <|
  (keep0 m ρ c main_v3 (by decide)).trans <|
  rfl
theorem carry_main_v3_17 (c : Dev nD) : W17 m ρ c (Proc.devRef .tc main_v3) = W5 m ρ c (Proc.devRef .tc main_v3) :=
  (keep6 m ρ c main_v3 (by decide)).trans <|
  (hostOps6_keep (W15 m ρ c) main_v3 (by decide)).trans <|
  (keep5 m ρ c main_v3 (by decide)).trans <|
  (hostOps5_keep (W13 m ρ c) main_v3 (by decide)).trans <|
  (keep4 m ρ c main_v3 (by decide)).trans <|
  (hostOps4_keep (W11 m ρ c) main_v3 (by decide)).trans <|
  (keep3 m ρ c main_v3 (by decide)).trans <|
  (hostOps3_keep (W9 m ρ c) main_v3 (by decide)).trans <|
  (keep2 m ρ c main_v3 (by decide)).trans <|
  (hostOps2_keep (W7 m ρ c) main_v3 (by decide)).trans <|
  (keep1 m ρ c main_v3 (by decide)).trans <|
  (keep0 m ρ c main_v3 (by decide)).trans <|
  rfl
theorem carry_main_v3_21 (c : Dev nD) : W21 m ρ c (Proc.devRef .tc main_v3) = W5 m ρ c (Proc.devRef .tc main_v3) :=
  (keep8 m ρ c main_v3 (by decide)).trans <|
  (hostOps8_keep (W19 m ρ c) main_v3 (by decide)).trans <|
  (keep7 m ρ c main_v3 (by decide)).trans <|
  (hostOps7_keep (W17 m ρ c) main_v3 (by decide)).trans <|
  (keep6 m ρ c main_v3 (by decide)).trans <|
  (hostOps6_keep (W15 m ρ c) main_v3 (by decide)).trans <|
  (keep5 m ρ c main_v3 (by decide)).trans <|
  (hostOps5_keep (W13 m ρ c) main_v3 (by decide)).trans <|
  (keep4 m ρ c main_v3 (by decide)).trans <|
  (hostOps4_keep (W11 m ρ c) main_v3 (by decide)).trans <|
  (keep3 m ρ c main_v3 (by decide)).trans <|
  (hostOps3_keep (W9 m ρ c) main_v3 (by decide)).trans <|
  (keep2 m ρ c main_v3 (by decide)).trans <|
  (hostOps2_keep (W7 m ρ c) main_v3 (by decide)).trans <|
  (keep1 m ρ c main_v3 (by decide)).trans <|
  (keep0 m ρ c main_v3 (by decide)).trans <|
  rfl
theorem carry_main_v3_25 (c : Dev nD) : W25 m ρ c (Proc.devRef .tc main_v3) = W5 m ρ c (Proc.devRef .tc main_v3) :=
  (keep10 m ρ c main_v3 (by decide)).trans <|
  (hostOps10_keep (W23 m ρ c) main_v3 (by decide)).trans <|
  (keep9 m ρ c main_v3 (by decide)).trans <|
  (hostOps9_keep (W21 m ρ c) main_v3 (by decide)).trans <|
  (keep8 m ρ c main_v3 (by decide)).trans <|
  (hostOps8_keep (W19 m ρ c) main_v3 (by decide)).trans <|
  (keep7 m ρ c main_v3 (by decide)).trans <|
  (hostOps7_keep (W17 m ρ c) main_v3 (by decide)).trans <|
  (keep6 m ρ c main_v3 (by decide)).trans <|
  (hostOps6_keep (W15 m ρ c) main_v3 (by decide)).trans <|
  (keep5 m ρ c main_v3 (by decide)).trans <|
  (hostOps5_keep (W13 m ρ c) main_v3 (by decide)).trans <|
  (keep4 m ρ c main_v3 (by decide)).trans <|
  (hostOps4_keep (W11 m ρ c) main_v3 (by decide)).trans <|
  (keep3 m ρ c main_v3 (by decide)).trans <|
  (hostOps3_keep (W9 m ρ c) main_v3 (by decide)).trans <|
  (keep2 m ρ c main_v3 (by decide)).trans <|
  (hostOps2_keep (W7 m ρ c) main_v3 (by decide)).trans <|
  (keep1 m ρ c main_v3 (by decide)).trans <|
  (keep0 m ρ c main_v3 (by decide)).trans <|
  rfl
theorem carry_main_v3_29 (c : Dev nD) : W29 m ρ c (Proc.devRef .tc main_v3) = W5 m ρ c (Proc.devRef .tc main_v3) :=
  (keep12 m ρ c main_v3 (by decide)).trans <|
  (hostOps12_keep (W27 m ρ c) main_v3 (by decide)).trans <|
  (keep11 m ρ c main_v3 (by decide)).trans <|
  (hostOps11_keep (W25 m ρ c) main_v3 (by decide)).trans <|
  (keep10 m ρ c main_v3 (by decide)).trans <|
  (hostOps10_keep (W23 m ρ c) main_v3 (by decide)).trans <|
  (keep9 m ρ c main_v3 (by decide)).trans <|
  (hostOps9_keep (W21 m ρ c) main_v3 (by decide)).trans <|
  (keep8 m ρ c main_v3 (by decide)).trans <|
  (hostOps8_keep (W19 m ρ c) main_v3 (by decide)).trans <|
  (keep7 m ρ c main_v3 (by decide)).trans <|
  (hostOps7_keep (W17 m ρ c) main_v3 (by decide)).trans <|
  (keep6 m ρ c main_v3 (by decide)).trans <|
  (hostOps6_keep (W15 m ρ c) main_v3 (by decide)).trans <|
  (keep5 m ρ c main_v3 (by decide)).trans <|
  (hostOps5_keep (W13 m ρ c) main_v3 (by decide)).trans <|
  (keep4 m ρ c main_v3 (by decide)).trans <|
  (hostOps4_keep (W11 m ρ c) main_v3 (by decide)).trans <|
  (keep3 m ρ c main_v3 (by decide)).trans <|
  (hostOps3_keep (W9 m ρ c) main_v3 (by decide)).trans <|
  (keep2 m ρ c main_v3 (by decide)).trans <|
  (hostOps2_keep (W7 m ρ c) main_v3 (by decide)).trans <|
  (keep1 m ρ c main_v3 (by decide)).trans <|
  (keep0 m ρ c main_v3 (by decide)).trans <|
  rfl
theorem carry_main_v6_9 (c : Dev nD) : W9 m ρ c (Proc.devRef .tc main_v6) = W5 m ρ c (Proc.devRef .tc main_v6) :=
  (keep2 m ρ c main_v6 (by decide)).trans <|
  (hostOps2_keep (W7 m ρ c) main_v6 (by decide)).trans <|
  (keep1 m ρ c main_v6 (by decide)).trans <|
  (keep0 m ρ c main_v6 (by decide)).trans <|
  rfl
theorem carry_main_v6_15 (c : Dev nD) : W15 m ρ c (Proc.devRef .tc main_v6) = W5 m ρ c (Proc.devRef .tc main_v6) :=
  (keep5 m ρ c main_v6 (by decide)).trans <|
  (hostOps5_keep (W13 m ρ c) main_v6 (by decide)).trans <|
  (keep4 m ρ c main_v6 (by decide)).trans <|
  (hostOps4_keep (W11 m ρ c) main_v6 (by decide)).trans <|
  (keep3 m ρ c main_v6 (by decide)).trans <|
  (hostOps3_keep (W9 m ρ c) main_v6 (by decide)).trans <|
  (keep2 m ρ c main_v6 (by decide)).trans <|
  (hostOps2_keep (W7 m ρ c) main_v6 (by decide)).trans <|
  (keep1 m ρ c main_v6 (by decide)).trans <|
  (keep0 m ρ c main_v6 (by decide)).trans <|
  rfl
theorem carry_main_v6_19 (c : Dev nD) : W19 m ρ c (Proc.devRef .tc main_v6) = W5 m ρ c (Proc.devRef .tc main_v6) :=
  (keep7 m ρ c main_v6 (by decide)).trans <|
  (hostOps7_keep (W17 m ρ c) main_v6 (by decide)).trans <|
  (keep6 m ρ c main_v6 (by decide)).trans <|
  (hostOps6_keep (W15 m ρ c) main_v6 (by decide)).trans <|
  (keep5 m ρ c main_v6 (by decide)).trans <|
  (hostOps5_keep (W13 m ρ c) main_v6 (by decide)).trans <|
  (keep4 m ρ c main_v6 (by decide)).trans <|
  (hostOps4_keep (W11 m ρ c) main_v6 (by decide)).trans <|
  (keep3 m ρ c main_v6 (by decide)).trans <|
  (hostOps3_keep (W9 m ρ c) main_v6 (by decide)).trans <|
  (keep2 m ρ c main_v6 (by decide)).trans <|
  (hostOps2_keep (W7 m ρ c) main_v6 (by decide)).trans <|
  (keep1 m ρ c main_v6 (by decide)).trans <|
  (keep0 m ρ c main_v6 (by decide)).trans <|
  rfl
theorem carry_main_v6_23 (c : Dev nD) : W23 m ρ c (Proc.devRef .tc main_v6) = W5 m ρ c (Proc.devRef .tc main_v6) :=
  (keep9 m ρ c main_v6 (by decide)).trans <|
  (hostOps9_keep (W21 m ρ c) main_v6 (by decide)).trans <|
  (keep8 m ρ c main_v6 (by decide)).trans <|
  (hostOps8_keep (W19 m ρ c) main_v6 (by decide)).trans <|
  (keep7 m ρ c main_v6 (by decide)).trans <|
  (hostOps7_keep (W17 m ρ c) main_v6 (by decide)).trans <|
  (keep6 m ρ c main_v6 (by decide)).trans <|
  (hostOps6_keep (W15 m ρ c) main_v6 (by decide)).trans <|
  (keep5 m ρ c main_v6 (by decide)).trans <|
  (hostOps5_keep (W13 m ρ c) main_v6 (by decide)).trans <|
  (keep4 m ρ c main_v6 (by decide)).trans <|
  (hostOps4_keep (W11 m ρ c) main_v6 (by decide)).trans <|
  (keep3 m ρ c main_v6 (by decide)).trans <|
  (hostOps3_keep (W9 m ρ c) main_v6 (by decide)).trans <|
  (keep2 m ρ c main_v6 (by decide)).trans <|
  (hostOps2_keep (W7 m ρ c) main_v6 (by decide)).trans <|
  (keep1 m ρ c main_v6 (by decide)).trans <|
  (keep0 m ρ c main_v6 (by decide)).trans <|
  rfl
theorem carry_main_v6_27 (c : Dev nD) : W27 m ρ c (Proc.devRef .tc main_v6) = W5 m ρ c (Proc.devRef .tc main_v6) :=
  (keep11 m ρ c main_v6 (by decide)).trans <|
  (hostOps11_keep (W25 m ρ c) main_v6 (by decide)).trans <|
  (keep10 m ρ c main_v6 (by decide)).trans <|
  (hostOps10_keep (W23 m ρ c) main_v6 (by decide)).trans <|
  (keep9 m ρ c main_v6 (by decide)).trans <|
  (hostOps9_keep (W21 m ρ c) main_v6 (by decide)).trans <|
  (keep8 m ρ c main_v6 (by decide)).trans <|
  (hostOps8_keep (W19 m ρ c) main_v6 (by decide)).trans <|
  (keep7 m ρ c main_v6 (by decide)).trans <|
  (hostOps7_keep (W17 m ρ c) main_v6 (by decide)).trans <|
  (keep6 m ρ c main_v6 (by decide)).trans <|
  (hostOps6_keep (W15 m ρ c) main_v6 (by decide)).trans <|
  (keep5 m ρ c main_v6 (by decide)).trans <|
  (hostOps5_keep (W13 m ρ c) main_v6 (by decide)).trans <|
  (keep4 m ρ c main_v6 (by decide)).trans <|
  (hostOps4_keep (W11 m ρ c) main_v6 (by decide)).trans <|
  (keep3 m ρ c main_v6 (by decide)).trans <|
  (hostOps3_keep (W9 m ρ c) main_v6 (by decide)).trans <|
  (keep2 m ρ c main_v6 (by decide)).trans <|
  (hostOps2_keep (W7 m ρ c) main_v6 (by decide)).trans <|
  (keep1 m ρ c main_v6 (by decide)).trans <|
  (keep0 m ρ c main_v6 (by decide)).trans <|
  rfl
theorem carry_main_v6_31 (c : Dev nD) : W31 m ρ c (Proc.devRef .tc main_v6) = W5 m ρ c (Proc.devRef .tc main_v6) :=
  (keep13 m ρ c main_v6 (by decide)).trans <|
  (hostOps13_keep (W29 m ρ c) main_v6 (by decide)).trans <|
  (keep12 m ρ c main_v6 (by decide)).trans <|
  (hostOps12_keep (W27 m ρ c) main_v6 (by decide)).trans <|
  (keep11 m ρ c main_v6 (by decide)).trans <|
  (hostOps11_keep (W25 m ρ c) main_v6 (by decide)).trans <|
  (keep10 m ρ c main_v6 (by decide)).trans <|
  (hostOps10_keep (W23 m ρ c) main_v6 (by decide)).trans <|
  (keep9 m ρ c main_v6 (by decide)).trans <|
  (hostOps9_keep (W21 m ρ c) main_v6 (by decide)).trans <|
  (keep8 m ρ c main_v6 (by decide)).trans <|
  (hostOps8_keep (W19 m ρ c) main_v6 (by decide)).trans <|
  (keep7 m ρ c main_v6 (by decide)).trans <|
  (hostOps7_keep (W17 m ρ c) main_v6 (by decide)).trans <|
  (keep6 m ρ c main_v6 (by decide)).trans <|
  (hostOps6_keep (W15 m ρ c) main_v6 (by decide)).trans <|
  (keep5 m ρ c main_v6 (by decide)).trans <|
  (hostOps5_keep (W13 m ρ c) main_v6 (by decide)).trans <|
  (keep4 m ρ c main_v6 (by decide)).trans <|
  (hostOps4_keep (W11 m ρ c) main_v6 (by decide)).trans <|
  (keep3 m ρ c main_v6 (by decide)).trans <|
  (hostOps3_keep (W9 m ρ c) main_v6 (by decide)).trans <|
  (keep2 m ρ c main_v6 (by decide)).trans <|
  (hostOps2_keep (W7 m ρ c) main_v6 (by decide)).trans <|
  (keep1 m ρ c main_v6 (by decide)).trans <|
  (keep0 m ρ c main_v6 (by decide)).trans <|
  rfl
theorem carry_main_v35_8 (c : Dev nD) : W8 m ρ c (Proc.devRef .tc main_v35) = W5 m ρ c (Proc.devRef .tc main_v35) :=
  (hostOps2_keep (W7 m ρ c) main_v35 (by decide)).trans <|
  (keep1 m ρ c main_v35 (by decide)).trans <|
  (keep0 m ρ c main_v35 (by decide)).trans <|
  rfl
theorem carry_main_v35_14 (c : Dev nD) : W14 m ρ c (Proc.devRef .tc main_v35) = W5 m ρ c (Proc.devRef .tc main_v35) :=
  (hostOps5_keep (W13 m ρ c) main_v35 (by decide)).trans <|
  (keep4 m ρ c main_v35 (by decide)).trans <|
  (hostOps4_keep (W11 m ρ c) main_v35 (by decide)).trans <|
  (keep3 m ρ c main_v35 (by decide)).trans <|
  (hostOps3_keep (W9 m ρ c) main_v35 (by decide)).trans <|
  (keep2 m ρ c main_v35 (by decide)).trans <|
  (hostOps2_keep (W7 m ρ c) main_v35 (by decide)).trans <|
  (keep1 m ρ c main_v35 (by decide)).trans <|
  (keep0 m ρ c main_v35 (by decide)).trans <|
  rfl
theorem carry_main_v35_18 (c : Dev nD) : W18 m ρ c (Proc.devRef .tc main_v35) = W5 m ρ c (Proc.devRef .tc main_v35) :=
  (hostOps7_keep (W17 m ρ c) main_v35 (by decide)).trans <|
  (keep6 m ρ c main_v35 (by decide)).trans <|
  (hostOps6_keep (W15 m ρ c) main_v35 (by decide)).trans <|
  (keep5 m ρ c main_v35 (by decide)).trans <|
  (hostOps5_keep (W13 m ρ c) main_v35 (by decide)).trans <|
  (keep4 m ρ c main_v35 (by decide)).trans <|
  (hostOps4_keep (W11 m ρ c) main_v35 (by decide)).trans <|
  (keep3 m ρ c main_v35 (by decide)).trans <|
  (hostOps3_keep (W9 m ρ c) main_v35 (by decide)).trans <|
  (keep2 m ρ c main_v35 (by decide)).trans <|
  (hostOps2_keep (W7 m ρ c) main_v35 (by decide)).trans <|
  (keep1 m ρ c main_v35 (by decide)).trans <|
  (keep0 m ρ c main_v35 (by decide)).trans <|
  rfl
theorem carry_main_v35_22 (c : Dev nD) : W22 m ρ c (Proc.devRef .tc main_v35) = W5 m ρ c (Proc.devRef .tc main_v35) :=
  (hostOps9_keep (W21 m ρ c) main_v35 (by decide)).trans <|
  (keep8 m ρ c main_v35 (by decide)).trans <|
  (hostOps8_keep (W19 m ρ c) main_v35 (by decide)).trans <|
  (keep7 m ρ c main_v35 (by decide)).trans <|
  (hostOps7_keep (W17 m ρ c) main_v35 (by decide)).trans <|
  (keep6 m ρ c main_v35 (by decide)).trans <|
  (hostOps6_keep (W15 m ρ c) main_v35 (by decide)).trans <|
  (keep5 m ρ c main_v35 (by decide)).trans <|
  (hostOps5_keep (W13 m ρ c) main_v35 (by decide)).trans <|
  (keep4 m ρ c main_v35 (by decide)).trans <|
  (hostOps4_keep (W11 m ρ c) main_v35 (by decide)).trans <|
  (keep3 m ρ c main_v35 (by decide)).trans <|
  (hostOps3_keep (W9 m ρ c) main_v35 (by decide)).trans <|
  (keep2 m ρ c main_v35 (by decide)).trans <|
  (hostOps2_keep (W7 m ρ c) main_v35 (by decide)).trans <|
  (keep1 m ρ c main_v35 (by decide)).trans <|
  (keep0 m ρ c main_v35 (by decide)).trans <|
  rfl
theorem carry_main_v35_26 (c : Dev nD) : W26 m ρ c (Proc.devRef .tc main_v35) = W5 m ρ c (Proc.devRef .tc main_v35) :=
  (hostOps11_keep (W25 m ρ c) main_v35 (by decide)).trans <|
  (keep10 m ρ c main_v35 (by decide)).trans <|
  (hostOps10_keep (W23 m ρ c) main_v35 (by decide)).trans <|
  (keep9 m ρ c main_v35 (by decide)).trans <|
  (hostOps9_keep (W21 m ρ c) main_v35 (by decide)).trans <|
  (keep8 m ρ c main_v35 (by decide)).trans <|
  (hostOps8_keep (W19 m ρ c) main_v35 (by decide)).trans <|
  (keep7 m ρ c main_v35 (by decide)).trans <|
  (hostOps7_keep (W17 m ρ c) main_v35 (by decide)).trans <|
  (keep6 m ρ c main_v35 (by decide)).trans <|
  (hostOps6_keep (W15 m ρ c) main_v35 (by decide)).trans <|
  (keep5 m ρ c main_v35 (by decide)).trans <|
  (hostOps5_keep (W13 m ρ c) main_v35 (by decide)).trans <|
  (keep4 m ρ c main_v35 (by decide)).trans <|
  (hostOps4_keep (W11 m ρ c) main_v35 (by decide)).trans <|
  (keep3 m ρ c main_v35 (by decide)).trans <|
  (hostOps3_keep (W9 m ρ c) main_v35 (by decide)).trans <|
  (keep2 m ρ c main_v35 (by decide)).trans <|
  (hostOps2_keep (W7 m ρ c) main_v35 (by decide)).trans <|
  (keep1 m ρ c main_v35 (by decide)).trans <|
  (keep0 m ρ c main_v35 (by decide)).trans <|
  rfl
theorem carry_main_v35_30 (c : Dev nD) : W30 m ρ c (Proc.devRef .tc main_v35) = W5 m ρ c (Proc.devRef .tc main_v35) :=
  (hostOps13_keep (W29 m ρ c) main_v35 (by decide)).trans <|
  (keep12 m ρ c main_v35 (by decide)).trans <|
  (hostOps12_keep (W27 m ρ c) main_v35 (by decide)).trans <|
  (keep11 m ρ c main_v35 (by decide)).trans <|
  (hostOps11_keep (W25 m ρ c) main_v35 (by decide)).trans <|
  (keep10 m ρ c main_v35 (by decide)).trans <|
  (hostOps10_keep (W23 m ρ c) main_v35 (by decide)).trans <|
  (keep9 m ρ c main_v35 (by decide)).trans <|
  (hostOps9_keep (W21 m ρ c) main_v35 (by decide)).trans <|
  (keep8 m ρ c main_v35 (by decide)).trans <|
  (hostOps8_keep (W19 m ρ c) main_v35 (by decide)).trans <|
  (keep7 m ρ c main_v35 (by decide)).trans <|
  (hostOps7_keep (W17 m ρ c) main_v35 (by decide)).trans <|
  (keep6 m ρ c main_v35 (by decide)).trans <|
  (hostOps6_keep (W15 m ρ c) main_v35 (by decide)).trans <|
  (keep5 m ρ c main_v35 (by decide)).trans <|
  (hostOps5_keep (W13 m ρ c) main_v35 (by decide)).trans <|
  (keep4 m ρ c main_v35 (by decide)).trans <|
  (hostOps4_keep (W11 m ρ c) main_v35 (by decide)).trans <|
  (keep3 m ρ c main_v35 (by decide)).trans <|
  (hostOps3_keep (W9 m ρ c) main_v35 (by decide)).trans <|
  (keep2 m ρ c main_v35 (by decide)).trans <|
  (hostOps2_keep (W7 m ρ c) main_v35 (by decide)).trans <|
  (keep1 m ρ c main_v35 (by decide)).trans <|
  (keep0 m ρ c main_v35 (by decide)).trans <|
  rfl
theorem carry_main_v53_16 (c : Dev nD) : W16 m ρ c (Proc.devRef .tc main_v53) = W13 m ρ c (Proc.devRef .tc main_v53) :=
  (hostOps6_keep (W15 m ρ c) main_v53 (by decide)).trans <|
  (keep5 m ρ c main_v53 (by decide)).trans <|
  (hostOps5_keep (W13 m ρ c) main_v53 (by decide)).trans <|
  rfl
theorem carry_main_v53_20 (c : Dev nD) : W20 m ρ c (Proc.devRef .tc main_v53) = W13 m ρ c (Proc.devRef .tc main_v53) :=
  (hostOps8_keep (W19 m ρ c) main_v53 (by decide)).trans <|
  (keep7 m ρ c main_v53 (by decide)).trans <|
  (hostOps7_keep (W17 m ρ c) main_v53 (by decide)).trans <|
  (keep6 m ρ c main_v53 (by decide)).trans <|
  (hostOps6_keep (W15 m ρ c) main_v53 (by decide)).trans <|
  (keep5 m ρ c main_v53 (by decide)).trans <|
  (hostOps5_keep (W13 m ρ c) main_v53 (by decide)).trans <|
  rfl
theorem carry_main_v53_24 (c : Dev nD) : W24 m ρ c (Proc.devRef .tc main_v53) = W13 m ρ c (Proc.devRef .tc main_v53) :=
  (hostOps10_keep (W23 m ρ c) main_v53 (by decide)).trans <|
  (keep9 m ρ c main_v53 (by decide)).trans <|
  (hostOps9_keep (W21 m ρ c) main_v53 (by decide)).trans <|
  (keep8 m ρ c main_v53 (by decide)).trans <|
  (hostOps8_keep (W19 m ρ c) main_v53 (by decide)).trans <|
  (keep7 m ρ c main_v53 (by decide)).trans <|
  (hostOps7_keep (W17 m ρ c) main_v53 (by decide)).trans <|
  (keep6 m ρ c main_v53 (by decide)).trans <|
  (hostOps6_keep (W15 m ρ c) main_v53 (by decide)).trans <|
  (keep5 m ρ c main_v53 (by decide)).trans <|
  (hostOps5_keep (W13 m ρ c) main_v53 (by decide)).trans <|
  rfl
theorem carry_main_v53_28 (c : Dev nD) : W28 m ρ c (Proc.devRef .tc main_v53) = W13 m ρ c (Proc.devRef .tc main_v53) :=
  (hostOps12_keep (W27 m ρ c) main_v53 (by decide)).trans <|
  (keep11 m ρ c main_v53 (by decide)).trans <|
  (hostOps11_keep (W25 m ρ c) main_v53 (by decide)).trans <|
  (keep10 m ρ c main_v53 (by decide)).trans <|
  (hostOps10_keep (W23 m ρ c) main_v53 (by decide)).trans <|
  (keep9 m ρ c main_v53 (by decide)).trans <|
  (hostOps9_keep (W21 m ρ c) main_v53 (by decide)).trans <|
  (keep8 m ρ c main_v53 (by decide)).trans <|
  (hostOps8_keep (W19 m ρ c) main_v53 (by decide)).trans <|
  (keep7 m ρ c main_v53 (by decide)).trans <|
  (hostOps7_keep (W17 m ρ c) main_v53 (by decide)).trans <|
  (keep6 m ρ c main_v53 (by decide)).trans <|
  (hostOps6_keep (W15 m ρ c) main_v53 (by decide)).trans <|
  (keep5 m ρ c main_v53 (by decide)).trans <|
  (hostOps5_keep (W13 m ρ c) main_v53 (by decide)).trans <|
  rfl
theorem carry_main_v53_32 (c : Dev nD) : W32 m ρ c (Proc.devRef .tc main_v53) = W13 m ρ c (Proc.devRef .tc main_v53) :=
  (hostOps14_keep (W31 m ρ c) main_v53 (by decide)).trans <|
  (keep13 m ρ c main_v53 (by decide)).trans <|
  (hostOps13_keep (W29 m ρ c) main_v53 (by decide)).trans <|
  (keep12 m ρ c main_v53 (by decide)).trans <|
  (hostOps12_keep (W27 m ρ c) main_v53 (by decide)).trans <|
  (keep11 m ρ c main_v53 (by decide)).trans <|
  (hostOps11_keep (W25 m ρ c) main_v53 (by decide)).trans <|
  (keep10 m ρ c main_v53 (by decide)).trans <|
  (hostOps10_keep (W23 m ρ c) main_v53 (by decide)).trans <|
  (keep9 m ρ c main_v53 (by decide)).trans <|
  (hostOps9_keep (W21 m ρ c) main_v53 (by decide)).trans <|
  (keep8 m ρ c main_v53 (by decide)).trans <|
  (hostOps8_keep (W19 m ρ c) main_v53 (by decide)).trans <|
  (keep7 m ρ c main_v53 (by decide)).trans <|
  (hostOps7_keep (W17 m ρ c) main_v53 (by decide)).trans <|
  (keep6 m ρ c main_v53 (by decide)).trans <|
  (hostOps6_keep (W15 m ρ c) main_v53 (by decide)).trans <|
  (keep5 m ρ c main_v53 (by decide)).trans <|
  (hostOps5_keep (W13 m ρ c) main_v53 (by decide)).trans <|
  rfl
theorem carry_main_v51_12 (c : Dev nD) : W12 m ρ c (Proc.devRef .tc main_v51) = W11 m ρ c (Proc.devRef .tc main_v51) :=
  (hostOps4_keep (W11 m ρ c) main_v51 (by decide)).trans <|
  rfl
theorem arg0_at5 (c : Dev nD) : W5 m ρ c (Proc.devRef .tc main_arg0) = m ((c : Thread nD τ).loc main_arg0) :=
  (hostOps0_4_keep (W4 m ρ c) main_arg0 (by decide)).trans <|
  (hostOps0_3_keep (W3 m ρ c) main_arg0 (by decide)).trans <|
  (hostOps0_2_keep (W2 m ρ c) main_arg0 (by decide)).trans <|
  (hostOps0_1_keep (W1 m ρ c) main_arg0 (by decide)).trans <|
  (hostOps0_keep (W0 m ρ c) main_arg0 (by decide)).trans <|
  rfl
theorem arg3_at5 (c : Dev nD) : W5 m ρ c (Proc.devRef .tc main_arg3) = m ((c : Thread nD τ).loc main_arg3) :=
  (hostOps0_4_keep (W4 m ρ c) main_arg3 (by decide)).trans <|
  (hostOps0_3_keep (W3 m ρ c) main_arg3 (by decide)).trans <|
  (hostOps0_2_keep (W2 m ρ c) main_arg3 (by decide)).trans <|
  (hostOps0_1_keep (W1 m ρ c) main_arg3 (by decide)).trans <|
  (hostOps0_keep (W0 m ρ c) main_arg3 (by decide)).trans <|
  rfl
theorem arg4_at5 (c : Dev nD) : W5 m ρ c (Proc.devRef .tc main_arg4) = m ((c : Thread nD τ).loc main_arg4) :=
  (hostOps0_4_keep (W4 m ρ c) main_arg4 (by decide)).trans <|
  (hostOps0_3_keep (W3 m ρ c) main_arg4 (by decide)).trans <|
  (hostOps0_2_keep (W2 m ρ c) main_arg4 (by decide)).trans <|
  (hostOps0_1_keep (W1 m ρ c) main_arg4 (by decide)).trans <|
  (hostOps0_keep (W0 m ρ c) main_arg4 (by decide)).trans <|
  rfl
theorem arg1_at5 (c : Dev nD) : W5 m ρ c (Proc.devRef .tc main_arg1) = m ((c : Thread nD τ).loc main_arg1) :=
  (hostOps0_4_keep (W4 m ρ c) main_arg1 (by decide)).trans <|
  (hostOps0_3_keep (W3 m ρ c) main_arg1 (by decide)).trans <|
  (hostOps0_2_keep (W2 m ρ c) main_arg1 (by decide)).trans <|
  (hostOps0_1_keep (W1 m ρ c) main_arg1 (by decide)).trans <|
  (hostOps0_keep (W0 m ρ c) main_arg1 (by decide)).trans <|
  rfl
theorem arg2_at5 (c : Dev nD) : W5 m ρ c (Proc.devRef .tc main_arg2) = m ((c : Thread nD τ).loc main_arg2) :=
  (hostOps0_4_keep (W4 m ρ c) main_arg2 (by decide)).trans <|
  (hostOps0_3_keep (W3 m ρ c) main_arg2 (by decide)).trans <|
  (hostOps0_2_keep (W2 m ρ c) main_arg2 (by decide)).trans <|
  (hostOps0_1_keep (W1 m ρ c) main_arg2 (by decide)).trans <|
  (hostOps0_keep (W0 m ρ c) main_arg2 (by decide)).trans <|
  rfl
theorem arg5_at6 (c : Dev nD) : W6 m ρ c (Proc.devRef .tc main_arg5) = m ((c : Thread nD τ).loc main_arg5) :=
  (keep0 m ρ c main_arg5 (by decide)).trans <|
  (hostOps0_4_keep (W4 m ρ c) main_arg5 (by decide)).trans <|
  (hostOps0_3_keep (W3 m ρ c) main_arg5 (by decide)).trans <|
  (hostOps0_2_keep (W2 m ρ c) main_arg5 (by decide)).trans <|
  (hostOps0_1_keep (W1 m ρ c) main_arg5 (by decide)).trans <|
  (hostOps0_keep (W0 m ρ c) main_arg5 (by decide)).trans <|
  rfl
theorem arg6_at9 (c : Dev nD) : W9 m ρ c (Proc.devRef .tc main_arg6) = m ((c : Thread nD τ).loc main_arg6) :=
  (keep2 m ρ c main_arg6 (by decide)).trans <|
  (hostOps2_keep (W7 m ρ c) main_arg6 (by decide)).trans <|
  (keep1 m ρ c main_arg6 (by decide)).trans <|
  (keep0 m ρ c main_arg6 (by decide)).trans <|
  (hostOps0_4_keep (W4 m ρ c) main_arg6 (by decide)).trans <|
  (hostOps0_3_keep (W3 m ρ c) main_arg6 (by decide)).trans <|
  (hostOps0_2_keep (W2 m ρ c) main_arg6 (by decide)).trans <|
  (hostOps0_1_keep (W1 m ρ c) main_arg6 (by decide)).trans <|
  (hostOps0_keep (W0 m ρ c) main_arg6 (by decide)).trans <|
  rfl
theorem arg7_at12 (c : Dev nD) : W12 m ρ c (Proc.devRef .tc main_arg7) = m ((c : Thread nD τ).loc main_arg7) :=
  (hostOps4_keep (W11 m ρ c) main_arg7 (by decide)).trans <|
  (keep3 m ρ c main_arg7 (by decide)).trans <|
  (hostOps3_keep (W9 m ρ c) main_arg7 (by decide)).trans <|
  (keep2 m ρ c main_arg7 (by decide)).trans <|
  (hostOps2_keep (W7 m ρ c) main_arg7 (by decide)).trans <|
  (keep1 m ρ c main_arg7 (by decide)).trans <|
  (keep0 m ρ c main_arg7 (by decide)).trans <|
  (hostOps0_4_keep (W4 m ρ c) main_arg7 (by decide)).trans <|
  (hostOps0_3_keep (W3 m ρ c) main_arg7 (by decide)).trans <|
  (hostOps0_2_keep (W2 m ρ c) main_arg7 (by decide)).trans <|
  (hostOps0_1_keep (W1 m ρ c) main_arg7 (by decide)).trans <|
  (hostOps0_keep (W0 m ρ c) main_arg7 (by decide)).trans <|
  rfl
theorem arg8_at11 (c : Dev nD) : W11 m ρ c (Proc.devRef .tc main_arg8) = m ((c : Thread nD τ).loc main_arg8) :=
  (keep3 m ρ c main_arg8 (by decide)).trans <|
  (hostOps3_keep (W9 m ρ c) main_arg8 (by decide)).trans <|
  (keep2 m ρ c main_arg8 (by decide)).trans <|
  (hostOps2_keep (W7 m ρ c) main_arg8 (by decide)).trans <|
  (keep1 m ρ c main_arg8 (by decide)).trans <|
  (keep0 m ρ c main_arg8 (by decide)).trans <|
  (hostOps0_4_keep (W4 m ρ c) main_arg8 (by decide)).trans <|
  (hostOps0_3_keep (W3 m ρ c) main_arg8 (by decide)).trans <|
  (hostOps0_2_keep (W2 m ρ c) main_arg8 (by decide)).trans <|
  (hostOps0_1_keep (W1 m ρ c) main_arg8 (by decide)).trans <|
  (hostOps0_keep (W0 m ρ c) main_arg8 (by decide)).trans <|
  rfl

end Cert.KernelIdeal.Frame

end
-- ==== Proof.KI.Prefix.lean ====
/-
  The host prefix of @main, before the first region: what the TensorCore's buffers hold after the five host
  stretches, as the reference's own first stages of the arguments — the two programs apply the same host operations,
  in the same order, to the same arguments —, then the two reshapes the kernel program adds; and every argument's
  buffer still at its launch contents.
-/
import proofs.«142470_j73658689126826_2_alg».proof.Proof.KI.Chain
import proofs.«142470_j73658689126826_2_alg».proof.Proof.RefRead
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.Sem
open Idealize.ShloMosaic.StableHlo (after_cons after_nil)

variable {F : FTy → Type} [FloatOps F]

variable (m : (ℓ : Loc nD τ sig) → Buf (Elt F) ℓ) (ρ : Dev nD → PrngReg)

open Idealize.ShloMosaic.StableHlo

/-! ## A buffer a stretch does not write holds what it held -/

theorem W2_eq_W1 (c : Dev nD) (r : Ref sig .tc) (h : r ∉ hostOps0_1_W) : W2 m ρ c (Proc.devRef .tc r) = W1 m ρ c (Proc.devRef .tc r) :=
  hostOps0_1_keep (W1 m ρ c) r h
theorem W3_eq_W2 (c : Dev nD) (r : Ref sig .tc) (h : r ∉ hostOps0_2_W) : W3 m ρ c (Proc.devRef .tc r) = W2 m ρ c (Proc.devRef .tc r) :=
  hostOps0_2_keep (W2 m ρ c) r h
theorem W4_eq_W3 (c : Dev nD) (r : Ref sig .tc) (h : r ∉ hostOps0_3_W) : W4 m ρ c (Proc.devRef .tc r) = W3 m ρ c (Proc.devRef .tc r) :=
  hostOps0_3_keep (W3 m ρ c) r h
theorem W5_eq_W4 (c : Dev nD) (r : Ref sig .tc) (h : r ∉ hostOps0_4_W) : W5 m ρ c (Proc.devRef .tc r) = W4 m ρ c (Proc.devRef .tc r) :=
  hostOps0_4_keep (W4 m ρ c) r h
theorem W4_eq_W1 (c : Dev nD) (r : Ref sig .tc) (h3 : r ∉ hostOps0_3_W) (h2 : r ∉ hostOps0_2_W) (h1 : r ∉ hostOps0_1_W) :
    W4 m ρ c (Proc.devRef .tc r) = W1 m ρ c (Proc.devRef .tc r) :=
  (W4_eq_W3 m ρ c r h3).trans ((W3_eq_W2 m ρ c r h2).trans (W2_eq_W1 m ρ c r h1))
theorem W5_eq_W1 (c : Dev nD) (r : Ref sig .tc) (h4 : r ∉ hostOps0_4_W) (h3 : r ∉ hostOps0_3_W) (h2 : r ∉ hostOps0_2_W) (h1 : r ∉ hostOps0_1_W) :
    W5 m ρ c (Proc.devRef .tc r) = W1 m ρ c (Proc.devRef .tc r) :=
  (W5_eq_W4 m ρ c r h4).trans (W4_eq_W1 m ρ c r h3 h2 h1)
theorem W1_eq_W0 (c : Dev nD) (r : Ref sig .tc) (h : r ∉ hostOps0_W) : W1 m ρ c (Proc.devRef .tc r) = W0 m ρ c (Proc.devRef .tc r) :=
  hostOps0_keep (W0 m ρ c) r h

/-! ## After the first stretch: the reference's stages of the arguments -/

theorem w1_v3 (c : Dev nD) : W1 m ρ c (Proc.devRef .tc main_v3)
    = Cert.ReferenceIdeal.Read.val_main_v3 (F := F) (m ((c : Thread nD τ).loc main_arg1)) := by
  show StableHlo.after hostOps0 (W0 m ρ c) (Proc.devRef .tc main_v3) = _
  after_results_simp
  rfl

theorem w1_v6 (c : Dev nD) : W1 m ρ c (Proc.devRef .tc main_v6)
    = Cert.ReferenceIdeal.Read.val_main_v6 (F := F) (m ((c : Thread nD τ).loc main_arg1)) := by
  show StableHlo.after hostOps0 (W0 m ρ c) (Proc.devRef .tc main_v6) = _
  after_results_simp
  rfl

theorem w1_v8 (c : Dev nD) : W1 m ρ c (Proc.devRef .tc main_v8)
    = Cert.ReferenceIdeal.Read.val_main_v8 (F := F) (m ((c : Thread nD τ).loc main_arg2)) := by
  show StableHlo.after hostOps0 (W0 m ρ c) (Proc.devRef .tc main_v8) = _
  after_results_simp
  rfl

theorem w1_v11 (c : Dev nD) : W1 m ρ c (Proc.devRef .tc main_v11)
    = Cert.ReferenceIdeal.Read.val_main_v11 (F := F) (m ((c : Thread nD τ).loc main_arg1)) (m ((c : Thread nD τ).loc main_arg2)) := by
  show StableHlo.after hostOps0 (W0 m ρ c) (Proc.devRef .tc main_v11) = _
  after_results_simp
  rfl

theorem w1_v13 (c : Dev nD) : W1 m ρ c (Proc.devRef .tc main_v13)
    = Cert.ReferenceIdeal.Read.val_main_v13 (F := F) (m ((c : Thread nD τ).loc main_arg1)) (m ((c : Thread nD τ).loc main_arg2)) := by
  show StableHlo.after hostOps0 (W0 m ρ c) (Proc.devRef .tc main_v13) = _
  after_results_simp
  rfl

theorem w1_v15 (c : Dev nD) : W1 m ρ c (Proc.devRef .tc main_v15)
    = Cert.ReferenceIdeal.Read.val_main_v15 (F := F) (m ((c : Thread nD τ).loc main_arg1)) (m ((c : Thread nD τ).loc main_arg2)) := by
  show StableHlo.after hostOps0 (W0 m ρ c) (Proc.devRef .tc main_v15) = _
  after_results_simp
  rfl

theorem w1_cst_3 (c : Dev nD) : W1 m ρ c (Proc.devRef .tc main_cst_3)
    = Cert.ReferenceIdeal.Read.val_main_cst_3 (F := F) := by
  show StableHlo.after hostOps0 (W0 m ρ c) (Proc.devRef .tc main_cst_3) = _
  after_results_simp
  rfl

/-! ## The two selections and the reciprocal square root between them -/

/-- The first selection, from any contents that hold the reference's stages where the stretch reads. -/
theorem v16_of (Wp : Valuation τ sig (Elt F)) (x1 : (⟨Cert.ReferenceIdeal.S2x3200000, .i32⟩ : BufTy).Contents (Elt F)) (x2 : (⟨Cert.ReferenceIdeal.S3200000, .f32⟩ : BufTy).Contents (Elt F))
    (h15 : Wp (Proc.devRef .tc main_v15) = Cert.ReferenceIdeal.Read.val_main_v15 (F := F) x1 x2)
    (h11 : Wp (Proc.devRef .tc main_v11) = Cert.ReferenceIdeal.Read.val_main_v11 (F := F) x1 x2)
    (hc : Wp (Proc.devRef .tc main_cst_3) = Cert.ReferenceIdeal.Read.val_main_cst_3 (F := F)) :
    StableHlo.after hostOps0_1 Wp (Proc.devRef .tc main_v16) = Cert.ReferenceIdeal.Read.val_main_v16 (F := F) x1 x2 := by
  after_results_simp
  rw [h15, h11, hc]
  rfl

theorem w2_v16 (c : Dev nD) : W2 m ρ c (Proc.devRef .tc main_v16)
    = Cert.ReferenceIdeal.Read.val_main_v16 (F := F) (m ((c : Thread nD τ).loc main_arg1)) (m ((c : Thread nD τ).loc main_arg2)) :=
  v16_of (W1 m ρ c) _ _ (w1_v15 m ρ c) (w1_v11 m ρ c) (w1_cst_3 m ρ c)

theorem v17_of (Wp : Valuation τ sig (Elt F)) (x1 : (⟨Cert.ReferenceIdeal.S2x3200000, .i32⟩ : BufTy).Contents (Elt F)) (x2 : (⟨Cert.ReferenceIdeal.S3200000, .f32⟩ : BufTy).Contents (Elt F))
    (h16 : Wp (Proc.devRef .tc main_v16) = Cert.ReferenceIdeal.Read.val_main_v16 (F := F) x1 x2) :
    StableHlo.after hostOps0_2 Wp (Proc.devRef .tc main_v17) = Cert.ReferenceIdeal.Read.val_main_v17 (F := F) x1 x2 := by
  after_results_simp
  rw [h16]
  rfl

theorem w3_v17 (c : Dev nD) : W3 m ρ c (Proc.devRef .tc main_v17)
    = Cert.ReferenceIdeal.Read.val_main_v17 (F := F) (m ((c : Thread nD τ).loc main_arg1)) (m ((c : Thread nD τ).loc main_arg2)) :=
  v17_of (W2 m ρ c) _ _ (w2_v16 m ρ c)

theorem cst_4_of (Wp : Valuation τ sig (Elt F)) :
    StableHlo.after hostOps0_2 Wp (Proc.devRef .tc main_cst_4) = Cert.ReferenceIdeal.Read.val_main_cst_4 (F := F) := by
  after_results_simp
  rfl

theorem w3_cst_4 (c : Dev nD) : W3 m ρ c (Proc.devRef .tc main_cst_4) = Cert.ReferenceIdeal.Read.val_main_cst_4 (F := F) :=
  cst_4_of (W2 m ρ c)

theorem w3_v13 (c : Dev nD) : W3 m ρ c (Proc.devRef .tc main_v13)
    = Cert.ReferenceIdeal.Read.val_main_v13 (F := F) (m ((c : Thread nD τ).loc main_arg1)) (m ((c : Thread nD τ).loc main_arg2)) :=
  (W3_eq_W2 m ρ c main_v13 (by decide)).trans ((W2_eq_W1 m ρ c main_v13 (by decide)).trans (w1_v13 m ρ c))

theorem v18_of (Wp : Valuation τ sig (Elt F)) (x1 : (⟨Cert.ReferenceIdeal.S2x3200000, .i32⟩ : BufTy).Contents (Elt F)) (x2 : (⟨Cert.ReferenceIdeal.S3200000, .f32⟩ : BufTy).Contents (Elt F))
    (h13 : Wp (Proc.devRef .tc main_v13) = Cert.ReferenceIdeal.Read.val_main_v13 (F := F) x1 x2)
    (h17 : Wp (Proc.devRef .tc main_v17) = Cert.ReferenceIdeal.Read.val_main_v17 (F := F) x1 x2)
    (hc : Wp (Proc.devRef .tc main_cst_4) = Cert.ReferenceIdeal.Read.val_main_cst_4 (F := F)) :
    StableHlo.after hostOps0_3 Wp (Proc.devRef .tc main_v18) = Cert.ReferenceIdeal.Read.val_main_v18 (F := F) x1 x2 := by
  after_results_simp
  rw [h13, h17, hc]
  rfl

theorem w4_v18 (c : Dev nD) : W4 m ρ c (Proc.devRef .tc main_v18)
    = Cert.ReferenceIdeal.Read.val_main_v18 (F := F) (m ((c : Thread nD τ).loc main_arg1)) (m ((c : Thread nD τ).loc main_arg2)) :=
  v18_of (W3 m ρ c) _ _ (w3_v13 m ρ c) (w3_v17 m ρ c) (w3_cst_4 m ρ c)

/-! ## What the last stretch reads, as it finds it -/

theorem w4_v3 (c : Dev nD) : W4 m ρ c (Proc.devRef .tc main_v3) = Cert.ReferenceIdeal.Read.val_main_v3 (F := F) (m ((c : Thread nD τ).loc main_arg1)) :=
  (W4_eq_W1 m ρ c main_v3 (by decide) (by decide) (by decide)).trans (w1_v3 m ρ c)
theorem w4_v6 (c : Dev nD) : W4 m ρ c (Proc.devRef .tc main_v6) = Cert.ReferenceIdeal.Read.val_main_v6 (F := F) (m ((c : Thread nD τ).loc main_arg1)) :=
  (W4_eq_W1 m ρ c main_v6 (by decide) (by decide) (by decide)).trans (w1_v6 m ρ c)
theorem w4_v8 (c : Dev nD) : W4 m ρ c (Proc.devRef .tc main_v8) = Cert.ReferenceIdeal.Read.val_main_v8 (F := F) (m ((c : Thread nD τ).loc main_arg2)) :=
  (W4_eq_W1 m ρ c main_v8 (by decide) (by decide) (by decide)).trans (w1_v8 m ρ c)
theorem w4_arg4 (c : Dev nD) : W4 m ρ c (Proc.devRef .tc main_arg4) = m ((c : Thread nD τ).loc main_arg4) :=
  (W4_eq_W1 m ρ c main_arg4 (by decide) (by decide) (by decide)).trans ((W1_eq_W0 m ρ c main_arg4 (by decide)).trans rfl)

/-! ## The prefix's results -/

theorem pre_v3 (c : Dev nD) : W5 m ρ c (Proc.devRef .tc main_v3) = Cert.ReferenceIdeal.Read.val_main_v3 (F := F) (m ((c : Thread nD τ).loc main_arg1)) :=
  (W5_eq_W4 m ρ c main_v3 (by decide)).trans (w4_v3 m ρ c)
theorem pre_v6 (c : Dev nD) : W5 m ρ c (Proc.devRef .tc main_v6) = Cert.ReferenceIdeal.Read.val_main_v6 (F := F) (m ((c : Thread nD τ).loc main_arg1)) :=
  (W5_eq_W4 m ρ c main_v6 (by decide)).trans (w4_v6 m ρ c)

/-- The last stretch's product of the two gathered normalizers and the edge weights, from any contents that hold
    the reference's stages where the stretch reads. -/
theorem v34_of (Wp : Valuation τ sig (Elt F)) (x1 : (⟨Cert.ReferenceIdeal.S2x3200000, .i32⟩ : BufTy).Contents (Elt F)) (x2 : (⟨Cert.ReferenceIdeal.S3200000, .f32⟩ : BufTy).Contents (Elt F))
    (h3 : Wp (Proc.devRef .tc main_v3) = Cert.ReferenceIdeal.Read.val_main_v3 (F := F) x1)
    (h6 : Wp (Proc.devRef .tc main_v6) = Cert.ReferenceIdeal.Read.val_main_v6 (F := F) x1)
    (h8 : Wp (Proc.devRef .tc main_v8) = Cert.ReferenceIdeal.Read.val_main_v8 (F := F) x2)
    (h18 : Wp (Proc.devRef .tc main_v18) = Cert.ReferenceIdeal.Read.val_main_v18 (F := F) x1 x2) :
    StableHlo.after hostOps0_4 Wp (Proc.devRef .tc main_v34) = Cert.ReferenceIdeal.Read.val_main_v34 (F := F) x1 x2 := by
  after_results_simp
  rw [h3, h6, h8, h18]
  rfl

theorem pre_v34 (c : Dev nD) : W5 m ρ c (Proc.devRef .tc main_v34)
    = Cert.ReferenceIdeal.Read.val_main_v34 (F := F) (m ((c : Thread nD τ).loc main_arg1)) (m ((c : Thread nD τ).loc main_arg2)) :=
  v34_of (W4 m ρ c) _ _ (w4_v3 m ρ c) (w4_v6 m ρ c) (w4_v8 m ρ c) (w4_v18 m ρ c)

/-- The first added reshape: of the stretch's own product. -/
theorem v35_of (Wp : Valuation τ sig (Elt F)) :
    StableHlo.after hostOps0_4 Wp (Proc.devRef .tc main_v35)
      = shapeCast S3300000x1 (StableHlo.after hostOps0_4 Wp (Proc.devRef .tc main_v34)) Cert.KernelIdeal.Facts₀.shapeCasts_S3300000_S3300000x1 := by
  after_results_simp
  rfl

theorem pre_v35 (c : Dev nD) : W5 m ρ c (Proc.devRef .tc main_v35)
    = shapeCast S3300000x1 (Cert.ReferenceIdeal.Read.val_main_v34 (F := F) (m ((c : Thread nD τ).loc main_arg1)) (m ((c : Thread nD τ).loc main_arg2))) Cert.KernelIdeal.Facts₀.shapeCasts_S3300000_S3300000x1 :=
  (v35_of (W4 m ρ c)).trans (congrArg (fun z => shapeCast S3300000x1 z Cert.KernelIdeal.Facts₀.shapeCasts_S3300000_S3300000x1) (pre_v34 m ρ c))

/-- The second added reshape: of the bias argument. -/
theorem v36_of (Wp : Valuation τ sig (Elt F)) :
    StableHlo.after hostOps0_4 Wp (Proc.devRef .tc main_v36)
      = shapeCast S1x48 (Wp (Proc.devRef .tc main_arg4)) Cert.KernelIdeal.Facts₀.shapeCasts_S48_S1x48 := by
  after_results_simp
  rfl

theorem pre_v36 (c : Dev nD) : W5 m ρ c (Proc.devRef .tc main_v36)
    = shapeCast S1x48 (m ((c : Thread nD τ).loc main_arg4)) Cert.KernelIdeal.Facts₀.shapeCasts_S48_S1x48 :=
  (v36_of (W4 m ρ c)).trans (congrArg (fun z => shapeCast S1x48 z Cert.KernelIdeal.Facts₀.shapeCasts_S48_S1x48) (w4_arg4 m ρ c))

/-! ## The arguments, still as launched -/

theorem pre_arg0 (c : Dev nD) : W5 m ρ c (Proc.devRef .tc main_arg0) = m ((c : Thread nD τ).loc main_arg0) :=
  (W5_eq_W1 m ρ c main_arg0 (by decide) (by decide) (by decide) (by decide)).trans ((W1_eq_W0 m ρ c main_arg0 (by decide)).trans rfl)
theorem pre_arg1 (c : Dev nD) : W5 m ρ c (Proc.devRef .tc main_arg1) = m ((c : Thread nD τ).loc main_arg1) :=
  (W5_eq_W1 m ρ c main_arg1 (by decide) (by decide) (by decide) (by decide)).trans ((W1_eq_W0 m ρ c main_arg1 (by decide)).trans rfl)
theorem pre_arg2 (c : Dev nD) : W5 m ρ c (Proc.devRef .tc main_arg2) = m ((c : Thread nD τ).loc main_arg2) :=
  (W5_eq_W1 m ρ c main_arg2 (by decide) (by decide) (by decide) (by decide)).trans ((W1_eq_W0 m ρ c main_arg2 (by decide)).trans rfl)
theorem pre_arg3 (c : Dev nD) : W5 m ρ c (Proc.devRef .tc main_arg3) = m ((c : Thread nD τ).loc main_arg3) :=
  (W5_eq_W1 m ρ c main_arg3 (by decide) (by decide) (by decide) (by decide)).trans ((W1_eq_W0 m ρ c main_arg3 (by decide)).trans rfl)
theorem pre_arg4 (c : Dev nD) : W5 m ρ c (Proc.devRef .tc main_arg4) = m ((c : Thread nD τ).loc main_arg4) :=
  (W5_eq_W1 m ρ c main_arg4 (by decide) (by decide) (by decide) (by decide)).trans ((W1_eq_W0 m ρ c main_arg4 (by decide)).trans rfl)
theorem pre_arg5 (c : Dev nD) : W5 m ρ c (Proc.devRef .tc main_arg5) = m ((c : Thread nD τ).loc main_arg5) :=
  (W5_eq_W1 m ρ c main_arg5 (by decide) (by decide) (by decide) (by decide)).trans ((W1_eq_W0 m ρ c main_arg5 (by decide)).trans rfl)
theorem pre_arg6 (c : Dev nD) : W5 m ρ c (Proc.devRef .tc main_arg6) = m ((c : Thread nD τ).loc main_arg6) :=
  (W5_eq_W1 m ρ c main_arg6 (by decide) (by decide) (by decide) (by decide)).trans ((W1_eq_W0 m ρ c main_arg6 (by decide)).trans rfl)
theorem pre_arg7 (c : Dev nD) : W5 m ρ c (Proc.devRef .tc main_arg7) = m ((c : Thread nD τ).loc main_arg7) :=
  (W5_eq_W1 m ρ c main_arg7 (by decide) (by decide) (by decide) (by decide)).trans ((W1_eq_W0 m ρ c main_arg7 (by decide)).trans rfl)
theorem pre_arg8 (c : Dev nD) : W5 m ρ c (Proc.devRef .tc main_arg8) = m ((c : Thread nD τ).loc main_arg8) :=
  (W5_eq_W1 m ρ c main_arg8 (by decide) (by decide) (by decide) (by decide)).trans ((W1_eq_W0 m ρ c main_arg8 (by decide)).trans rfl)

end Cert.KernelIdeal.Frame

end
-- ==== Proof.KI.EqRows.lean ====
/-
  A vector reshaped to a one-row matrix, or to a one-column matrix, is the same matrix as the vector broadcast along
  the new unit axis: entry (0, q) of the row is entry q of the vector, and entry (i, 0) of the column is entry i. The
  kernel's host code makes a bias a 1×N row, and an edge weight vector an E×1 column, by a reshape; the reference makes
  them by a broadcast.
-/
import proofs.«142470_j73658689126826_2_alg».proof.KernelIdeal
import proofs.«142470_j73658689126826_2_alg».proof.ReferenceIdeal
import proofs.«142470_j73658689126826_2_alg».proof.Proof.Gen.KernelIdeal
import proofs.«142470_j73658689126826_2_alg».proof.Proof.Gen.ReferenceIdeal
import Idealize.ShloMosaic.Lib.Pipeline.Value
import Idealize.ShloMosaic.Lib.ValueIdx

namespace Cert.KernelIdeal.Frame

open Cert.KernelIdeal
open Idealize.ShloMosaic Idealize.ShloMosaic.ValueIdx

variable {α : Type}

/-- A length-N vector reshaped to 1×N is the vector broadcast to 1×N along axis 1: both read, at (r, q), entry q. -/
theorem shapeCast_row_eq_broadcastInDim {N : ℕ} (b : (⟨1, ![N]⟩ : Shape).Idx → α)
    (h : (⟨1, ![N]⟩ : Shape).ShapeCasts ⟨2, ![1, N]⟩) (h1 : (⟨1, ![N]⟩ : Shape).BroadcastsInDim ⟨2, ![1, N]⟩ ![1]) :
    shapeCast ⟨2, ![1, N]⟩ b h = broadcastInDim ⟨2, ![1, N]⟩ ![1] h1 b := by
  funext j
  obtain ⟨r, q, rfl⟩ : ∃ (r : Fin 1) (q : Fin N), j = ix2 r q := ⟨j 0, j 1, eq_ix2 j⟩
  have e1 : shapeCast ⟨2, ![1, N]⟩ b h (ix2 r q) = b (ix1 q) :=
    shapeCast_apply b h (ix2 r q) (ix1 q) (by
      have hr : r.val = 0 := by omega
      rw [Shape.rowMajor_val_two, Shape.rowMajor_val_one]
      show q.val = r.val * N + q.val
      rw [hr, Nat.zero_mul, Nat.zero_add])
  have e2 : broadcastInDim ⟨2, ![1, N]⟩ ![1] h1 b (ix2 r q) = b (ix1 q) :=
    broadcastInDim_apply ![1] h1 b (ix2 r q) (ix1 q) (fun a => by
      match a with
      | ⟨0, _⟩ =>
        show q.val = if N = 1 then 0 else q.val
        split_ifs with hN
        · have := q.isLt; omega
        · rfl)
  exact e1.trans e2.symm

/-- A length-E vector reshaped to E×1 is the vector broadcast to E×1 along axis 0: both read, at (i, u), entry i. -/
theorem shapeCast_col_eq_broadcastInDim {E : ℕ} (v : (⟨1, ![E]⟩ : Shape).Idx → α)
    (h : (⟨1, ![E]⟩ : Shape).ShapeCasts ⟨2, ![E, 1]⟩) (h1 : (⟨1, ![E]⟩ : Shape).BroadcastsInDim ⟨2, ![E, 1]⟩ ![0]) :
    shapeCast ⟨2, ![E, 1]⟩ v h = broadcastInDim ⟨2, ![E, 1]⟩ ![0] h1 v := by
  funext j
  obtain ⟨i, u, rfl⟩ : ∃ (i : Fin E) (u : Fin 1), j = ix2 i u := ⟨j 0, j 1, eq_ix2 j⟩
  have e1 : shapeCast ⟨2, ![E, 1]⟩ v h (ix2 i u) = v (ix1 i) :=
    shapeCast_apply v h (ix2 i u) (ix1 i) (by
      have hu : u.val = 0 := by omega
      rw [Shape.rowMajor_val_two, Shape.rowMajor_val_one]
      show i.val = i.val * 1 + u.val
      rw [hu, Nat.mul_one, Nat.add_zero])
  have e2 : broadcastInDim ⟨2, ![E, 1]⟩ ![0] h1 v (ix2 i u) = v (ix1 i) :=
    broadcastInDim_apply ![0] h1 v (ix2 i u) (ix1 i) (fun a => by
      match a with
      | ⟨0, _⟩ =>
        show i.val = if E = 1 then 0 else i.val
        split_ifs with hE
        · have := i.isLt; omega
        · rfl)
  exact e1.trans e2.symm

/-- The 48-entry bias as a 1×48 row: the kernel's reshape is the reference's broadcast. -/
theorem reshape_row48 (b : S48.Idx → α) :
    shapeCast S1x48 b Cert.KernelIdeal.Facts₀.shapeCasts_S48_S1x48
      = broadcastInDim Cert.ReferenceIdeal.S1x48 ![1] Cert.ReferenceIdeal.Facts₀.bcast_S48_S1x48_1 b :=
  shapeCast_row_eq_broadcastInDim b _ _

/-- The 2-entry bias as a 1×2 row: the kernel's reshape is the reference's broadcast. -/
theorem reshape_row2 (b : S2.Idx → α) :
    shapeCast S1x2 b Cert.KernelIdeal.Facts₀.shapeCasts_S2_S1x2
      = broadcastInDim Cert.ReferenceIdeal.S1x2 ![1] Cert.ReferenceIdeal.Facts₀.bcast_S2_S1x2_1 b :=
  shapeCast_row_eq_broadcastInDim b _ _

/-- The edge vector as an E×1 column: the kernel's reshape is the reference's broadcast. -/
theorem reshape_col3300000 (v : S3300000.Idx → α) :
    shapeCast S3300000x1 v Cert.KernelIdeal.Facts₀.shapeCasts_S3300000_S3300000x1
      = broadcastInDim Cert.ReferenceIdeal.S3300000x1 ![0] Cert.ReferenceIdeal.Facts₀.bcast_S3300000_S3300000x1_0 v :=
  shapeCast_col_eq_broadcastInDim v _ _

end Cert.KernelIdeal.Frame
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.KI.Eq0.lean ====
/-
  Region 0 of @main, the value: the region's output array after the region is the first layer of the network applied to
  its input arrays as the region finds them: the matrix product of the first two, plus the one-row third on every row,
  and the larger of that and zero. Entry (r, q) is max(∑ₖ X(r,k)·W(k,q) + b(0,q), 0). The grid's ten blocks of 10000 rows
  tile the 100000 rows exactly; at point t the body computes the same expression on rows 10000·t … 10000·t + 9999 of the
  first array with the whole second and third arrays, so every point writes back its block of the one whole-array value
  and the blocks cover the array.
-/
import proofs.«142470_j73658689126826_2_alg».proof.Proof.KI.Reg0
import proofs.«142470_j73658689126826_2_alg».proof.ReferenceIdeal
import proofs.«142470_j73658689126826_2_alg».proof.Proof.Gen.ReferenceIdeal
import proofs.«142470_j73658689126826_2_alg».proof.Proof.LibPlainDot
import Idealize.ShloMosaic.Lib.Pipeline.Value
import Idealize.ShloMosaic.Lib.ValueIdx
import Idealize.ShloMosaic.Lib.KernelVsHost

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem hz0 : (![0, 0] : Fin 2 → Nat) = fun _ => 0 := funext fun a => by fin_cases a <;> rfl

/-- What a product entry `s` and a bias entry `b` become: the larger of their sum and zero. -/
def post0 (s b : Ideal .f32) : Ideal .f32 := max (s + b) (Ideal.ofBits .f32 0x00000000#32)

/-- The body's value at an entry of its block: the sum over the contracted axis into the zero accumulator (a change of
    float format is the identity on extended reals), then the row added and the maximum with zero taken. -/
theorem pay0_apply (x0 : Vec Ideal S10000x16 .f32) (x1 : Vec Ideal S16x48 .f32) (x2 : Vec Ideal S1x48 .f32) (p : Fin 10000) (q : Fin 48) :
    k0_pay1 x0 x1 x2 (ix2 p q) = post0 (∑ k : Fin 16, x0 (ix2 p k) * x1 (ix2 k q)) (x2 (ix2 (0 : Fin 1) q)) := by
  have h1 : FloatOps.matmul (F := Ideal) (φ₁ := .bf16) (φ₂ := .bf16) dot_S10000x16_S16x48_S10000x48_1_0_0_1_n_n none x0 x1 (constant S10000x48 .f32 0x00000000#32) (ix2 p q)
      = ∑ k : Fin 16, x0 (ix2 p k) * x1 (ix2 k q) :=
    Cert.LibPlainDot.matmul_zero_apply _ (by rfl) none _ _ p q
  have h2 : broadcastTo S10000x48 x2 Cert.KernelIdeal.Facts₀.broadcasts_S1x48_S10000x48 (ix2 p q) = x2 (ix2 (0 : Fin 1) q) :=
    broadcastTo_apply x2 _ (ix2 p q) (ix2 (0 : Fin 1) q) (fun a => by
      match a with
      | ⟨0, _⟩ => rfl
      | ⟨1, _⟩ => show q.val = if (48 : ℕ) = 1 then 0 else q.val; rw [if_neg (by decide)])
  rw [← h1, ← h2]
  unfold k0_pay1
  rw [shapeCast_self]
  rfl

/-- The host's operations on whole arrays at an entry. -/
theorem ref0_apply (A0 : FVec Ideal S100000x16 .f32) (A1 : FVec Ideal S16x48 .f32) (A2 : FVec Ideal S1x48 .f32) (p : Fin 100000) (q : Fin 48) :
    (maximumf (addf (Host.dotGeneral (F := Ideal) (φ₁ := .f32) (φ₂ := .f32) Cert.ReferenceIdeal.dot_S100000x16_S16x48_S100000x48_1_0_0_1_n_n none A0 A1) (broadcastInDim Cert.ReferenceIdeal.S100000x48 ![0, 1] Cert.ReferenceIdeal.Facts₀.bcast_S1x48_S100000x48_0_1 A2)) (broadcastInDim Cert.ReferenceIdeal.S100000x48 ![] Cert.ReferenceIdeal.Facts₀.bcast_S_S100000x48 (constant (F := Ideal) Cert.ReferenceIdeal.S_ .f32 0x00000000#32))) (ix2 p q)
      = post0 (∑ k : Fin 16, A0 (ix2 p k) * A1 (ix2 k q)) (A2 (ix2 (0 : Fin 1) q)) := by
  have h1 := Cert.LibPlainDot.dotGeneral_apply Cert.ReferenceIdeal.dot_S100000x16_S16x48_S100000x48_1_0_0_1_n_n (by rfl) none .single A0 A1 p q
  have h2 := broadcastInDim_oneRow_apply Cert.ReferenceIdeal.Facts₀.bcast_S1x48_S100000x48_0_1 A2 p q
  have h3 : broadcastInDim Cert.ReferenceIdeal.S100000x48 ![] Cert.ReferenceIdeal.Facts₀.bcast_S_S100000x48 (constant (F := Ideal) Cert.ReferenceIdeal.S_ .f32 0x00000000#32) (ix2 p q)
      = Ideal.ofBits .f32 0x00000000#32 :=
    broadcastInDim_apply _ _ _ (ix2 p q) (fun a => a.elim0) (fun a => a.elim0)
  unfold post0
  rw [← h1, ← h2, ← h3]
  rfl

/-- What the output array ends holding: the host's operations on the three input arrays. -/
noncomputable def G0 (c : Dev nD) : FVec Ideal S100000x48 .f32 :=
  maximumf (addf (Host.dotGeneral (F := Ideal) (φ₁ := .f32) (φ₂ := .f32) Cert.ReferenceIdeal.dot_S100000x16_S16x48_S100000x48_1_0_0_1_n_n none (V c (Pipeline.arrRef spec0 0)) (V c (Pipeline.arrRef spec0 1))) (broadcastInDim Cert.ReferenceIdeal.S100000x48 ![0, 1] Cert.ReferenceIdeal.Facts₀.bcast_S1x48_S100000x48_0_1 (V c (Pipeline.arrRef spec0 2)))) (broadcastInDim Cert.ReferenceIdeal.S100000x48 ![] Cert.ReferenceIdeal.Facts₀.bcast_S_S100000x48 (constant (F := Ideal) Cert.ReferenceIdeal.S_ .f32 0x00000000#32))

/-- The printed index maps, decided over the grid: the row windows' block index at point `t` is `(t, 0)`, the
    second and third inputs' is `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the whole-array value. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S10000x16) hz0, View.ld_unit_zero (S := S16x48) hz0, View.ld_unit_zero (S := S1x48) hz0]
  obtain ⟨e0, e1, e2, e3, e4, e5, e6, e7⟩ := idx_facts0 t
  funext j
  obtain ⟨p, q, rfl⟩ : ∃ (p : Fin 10000) (q : Fin 48), j = ix2 p q := ⟨j 0, j 1, eq_ix2 j⟩
  have hN : cfg0.N = 10 := N_0
  have ht : t.val < 10 := hN ▸ t.isLt
  have hp : p.val < 10000 := p.isLt
  refine (pay0_apply _ _ _ p q).trans ?_
  have hr : ((cfg0.win 3).blk t).view.emb (ix2 p q) = ix2 (⟨t.val * 10000 + p.val, by omega⟩ : Fin 100000) q := by
    funext a; apply Fin.ext
    match a with
    | ⟨0, _⟩ => show win0_3.index t (0 : Fin 2) * 10000 + 1 * p.val = t.val * 10000 + p.val; rw [e6]; omega
    | ⟨1, _⟩ => show win0_3.index t (1 : Fin 2) * 48 + 1 * q.val = q.val; rw [e7]; omega
  show _ = G0 V c (((cfg0.win 3).blk t).view.emb (ix2 p q))
  rw [hr]
  unfold G0
  refine Eq.trans ?_ (ref0_apply _ _ _ _ q).symm
  have f2 : iblk0 V c 2 t (ix2 (0 : Fin 1) q) = V c (Pipeline.arrRef spec0 2) (ix2 (0 : Fin 1) q) :=
    congrArg (V c (Pipeline.arrRef spec0 2)) (show ((cfg0.win 2).blk t).view.emb (ix2 (0 : Fin 1) q) = ix2 (0 : Fin 1) q from by
      funext a; apply Fin.ext
      match a with
      | ⟨0, _⟩ => show win0_2.index t (0 : Fin 2) * 1 + 1 * 0 = 0; rw [e4]
      | ⟨1, _⟩ => show win0_2.index t (1 : Fin 2) * 48 + 1 * q.val = q.val; rw [e5]; omega)
  refine congrArg₂ post0 (Finset.sum_congr rfl fun k _ => ?_) f2
  have h0 : ((cfg0.win 0).blk t).view.emb (ix2 p k) = ix2 (⟨t.val * 10000 + p.val, by omega⟩ : Fin 100000) k := by
    funext a; apply Fin.ext
    match a with
    | ⟨0, _⟩ => show win0_0.index t (0 : Fin 2) * 10000 + 1 * p.val = t.val * 10000 + p.val; rw [e0]; omega
    | ⟨1, _⟩ => show win0_0.index t (1 : Fin 2) * 16 + 1 * k.val = k.val; rw [e1]; omega
  have h1 : ((cfg0.win 1).blk t).view.emb (ix2 k q) = ix2 k q := by
    funext a; apply Fin.ext
    match a with
    | ⟨0, _⟩ => show win0_1.index t (0 : Fin 2) * 16 + 1 * k.val = k.val; rw [e2]; omega
    | ⟨1, _⟩ => show win0_1.index t (1 : Fin 2) * 48 + 1 * q.val = q.val; rw [e3]; omega
  have f0 : iblk0 V c 0 t (ix2 p k) = V c (Pipeline.arrRef spec0 0) (ix2 (⟨t.val * 10000 + p.val, by omega⟩ : Fin 100000) k) :=
    congrArg (V c (Pipeline.arrRef spec0 0)) h0
  have f1 : iblk0 V c 1 t (ix2 k q) = V c (Pipeline.arrRef spec0 1) (ix2 k q) :=
    congrArg (V c (Pipeline.arrRef spec0 1)) h1
  rw [f0, f1]

/-- An index of the array is in point `t`'s block iff each coordinate is in the block's range on its axis. -/
theorem mem_blk0 (t : Fin cfg0.N) (i : S100000x48.Idx) :
    i ∈ ((cfg0.win 3).blk t).view.set ↔ ∀ a : Fin 2, win0_3.index t a * S10000x48.size a ≤ (i a).val ∧ (i a).val < win0_3.index t a * S10000x48.size a + S10000x48.size a := by
  show i ∈ ((View.whole (Pipeline.arrRef spec0 3)).slice (win0_3.rect t)).set ↔ _
  rw [View.set_slice_whole, Rect.mem_set_unit]
  exact Iff.rfl

/-- Every index of the array is in some point's block: the one of its row's block of rows. -/
theorem covered0 (i : S100000x48.Idx) : ∃ t : Fin cfg0.N, (cfg0.win 3).flush t = true ∧ i ∈ ((cfg0.win 3).blk t).view.set := by
  have hi0 : (i 0).val < 100000 := (i 0).isLt
  have hi1 : (i 1).val < 48 := (i 1).isLt
  have hN : cfg0.N = 10 := N_0
  refine ⟨⟨(i 0).val / 10000, by rw [hN]; omega⟩, flush0_3 _, ?_⟩
  rw [mem_blk0]
  obtain ⟨-, -, -, -, -, -, e6, e7⟩ := idx_facts0 ⟨(i 0).val / 10000, by rw [hN]; omega⟩
  intro a
  match a with
  | ⟨0, _⟩ =>
    show win0_3.index _ (0 : Fin 2) * 10000 ≤ (i 0).val ∧ (i 0).val < win0_3.index _ (0 : Fin 2) * 10000 + 10000
    rw [e6]
    show (i 0).val / 10000 * 10000 ≤ (i 0).val ∧ (i 0).val < (i 0).val / 10000 * 10000 + 10000
    omega
  | ⟨1, _⟩ =>
    show win0_3.index _ (1 : Fin 2) * 48 ≤ (i 1).val ∧ (i 1).val < win0_3.index _ (1 : Fin 2) * 48 + 48
    rw [e7]
    omega

/-- THE ARRAY after the region: the host's operations on the three input arrays. -/
theorem region0_eq (c : Dev nD) : (dat0 (F := Ideal) V c).arrAt 3 cfg0.N
    = maximumf (addf (Host.dotGeneral (F := Ideal) (φ₁ := .f32) (φ₂ := .f32) Cert.ReferenceIdeal.dot_S100000x16_S16x48_S100000x48_1_0_0_1_n_n none (V c (Pipeline.arrRef spec0 0)) (V c (Pipeline.arrRef spec0 1))) (broadcastInDim Cert.ReferenceIdeal.S100000x48 ![0, 1] Cert.ReferenceIdeal.Facts₀.bcast_S1x48_S100000x48_0_1 (V c (Pipeline.arrRef spec0 2)))) (broadcastInDim Cert.ReferenceIdeal.S100000x48 ![] Cert.ReferenceIdeal.Facts₀.bcast_S_S100000x48 (constant (F := Ideal) Cert.ReferenceIdeal.S_ .f32 0x00000000#32)) :=
  (dat0 V c).arrAt_eq_of_cover 3 (G0 V c) (fun t _ => flushed0_eq V c t) covered0

end Cert.KernelIdeal.Frame

end
-- ==== Proof.KI.Eq1.lean ====
/-
  Region 1 of @main, the value: the region's output array after the region is the matrix product of its two input
  arrays as the region finds them. Entry (r, q) of the product is the sum over k of the first array at (r, k) times
  the second at (k, q). The grid's ten blocks of 10000 rows tile the 100000 rows exactly; at point t the body forms the
  product of rows 10000·t … 10000·t + 9999 of the first array with the whole second array, which is the same rows of
  the whole product, so every point writes back its block of the one whole-array product and the blocks cover it.
-/
import proofs.«142470_j73658689126826_2_alg».proof.Proof.KI.Reg1
import proofs.«142470_j73658689126826_2_alg».proof.ReferenceIdeal
import proofs.«142470_j73658689126826_2_alg».proof.Proof.Gen.ReferenceIdeal
import proofs.«142470_j73658689126826_2_alg».proof.Proof.LibPlainDot
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem hz1 : (![0, 0] : Fin 2 → Nat) = fun _ => 0 := funext fun a => by fin_cases a <;> rfl

/-- The body's value at an entry of its block: the sum over the contracted axis (a change of float format is the
    identity on extended reals, and the accumulator is zero). -/
theorem pay1_apply (x0 : Vec Ideal S10000x48 .f32) (x1 : Vec Ideal S48x48 .f32) (p : Fin 10000) (q : Fin 48) :
    k1_pay1 x0 x1 (ix2 p q) = ∑ k : Fin 48, x0 (ix2 p k) * x1 (ix2 k q) := by
  unfold k1_pay1
  refine (Cert.LibPlainDot.matmul_zero_apply _ (by rfl) none _ _ p q).trans ?_
  rw [shapeCast_self]
  rfl

/-- The host's product of two whole arrays at an entry. -/
theorem ref1_apply (A0 : FVec Ideal S100000x48 .f32) (A1 : FVec Ideal S48x48 .f32) (p : Fin 100000) (q : Fin 48) :
    Host.dotGeneral (F := Ideal) (φ₁ := .f32) (φ₂ := .f32) Cert.ReferenceIdeal.dot_S100000x48_S48x48_S100000x48_1_0_0_1_n_n none A0 A1 (ix2 p q)
      = ∑ k : Fin 48, A0 (ix2 p k) * A1 (ix2 k q) :=
  Cert.LibPlainDot.dotGeneral_apply _ (by rfl) none .single A0 A1 p q

/-- What the output array ends holding: the host's product of the two input arrays. -/
noncomputable def G1 (c : Dev nD) : FVec Ideal S100000x48 .f32 :=
  Host.dotGeneral (F := Ideal) (φ₁ := .f32) (φ₂ := .f32) Cert.ReferenceIdeal.dot_S100000x48_S48x48_S100000x48_1_0_0_1_n_n none (V c (Pipeline.arrRef spec1 0)) (V c (Pipeline.arrRef spec1 1))

/-- The printed index maps, decided over the grid: the row windows' block index at point `t` is `(t, 0)`, the
    second input's is `(0, 0)`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the whole product. -/
theorem flushed1_eq (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero hz1]
  simp only [View.ld_unit_zero (S := S10000x48) hz1, View.ld_unit_zero (S := S48x48) hz1]
  obtain ⟨e0, e1, e2, e3, e4, e5⟩ := idx_facts1 t
  funext j
  obtain ⟨p, q, rfl⟩ : ∃ (p : Fin 10000) (q : Fin 48), j = ix2 p q := ⟨j 0, j 1, eq_ix2 j⟩
  have hN : cfg1.N = 10 := N_1
  have ht : t.val < 10 := hN ▸ t.isLt
  have hp : p.val < 10000 := p.isLt
  refine (pay1_apply _ _ p q).trans ?_
  have hr : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; rw [e4]; omega
    | ⟨1, _⟩ => show win1_2.index t (1 : Fin 2) * 48 + 1 * q.val = q.val; rw [e5]; omega
  show _ = G1 V c (((cfg1.win 2).blk t).view.emb (ix2 p q))
  rw [hr]
  unfold G1
  refine Eq.trans ?_ (ref1_apply _ _ _ q).symm
  refine Finset.sum_congr rfl fun k _ => ?_
  have h0 : ((cfg1.win 0).blk t).view.emb (ix2 p k) = ix2 (⟨t.val * 10000 + p.val, by omega⟩ : Fin 100000) k := by
    funext a; apply Fin.ext
    match a with
    | ⟨0, _⟩ => show win1_0.index t (0 : Fin 2) * 10000 + 1 * p.val = t.val * 10000 + p.val; rw [e0]; omega
    | ⟨1, _⟩ => show win1_0.index t (1 : Fin 2) * 48 + 1 * k.val = k.val; rw [e1]; omega
  have h1 : ((cfg1.win 1).blk t).view.emb (ix2 k q) = ix2 k q := by
    funext a; apply Fin.ext
    match a with
    | ⟨0, _⟩ => show win1_1.index t (0 : Fin 2) * 48 + 1 * k.val = k.val; rw [e2]; omega
    | ⟨1, _⟩ => show win1_1.index t (1 : Fin 2) * 48 + 1 * q.val = q.val; rw [e3]; omega
  have f0 : iblk1 V c 0 t (ix2 p k) = V c (Pipeline.arrRef spec1 0) (ix2 (⟨t.val * 10000 + p.val, by omega⟩ : Fin 100000) k) :=
    congrArg (V c (Pipeline.arrRef spec1 0)) h0
  have f1 : iblk1 V c 1 t (ix2 k q) = V c (Pipeline.arrRef spec1 1) (ix2 k q) :=
    congrArg (V c (Pipeline.arrRef spec1 1)) h1
  rw [f0, f1]

/-- An index of the array is in point `t`'s block iff each coordinate is in the block's range on its axis. -/
theorem mem_blk1 (t : Fin cfg1.N) (i : S100000x48.Idx) :
    i ∈ ((cfg1.win 2).blk t).view.set ↔ ∀ a : Fin 2, win1_2.index t a * S10000x48.size a ≤ (i a).val ∧ (i a).val < win1_2.index t a * S10000x48.size a + S10000x48.size a := by
  show i ∈ ((View.whole (Pipeline.arrRef spec1 2)).slice (win1_2.rect t)).set ↔ _
  rw [View.set_slice_whole, Rect.mem_set_unit]
  exact Iff.rfl

/-- Every index of the array is in some point's block: the one of its row's block of rows. -/
theorem covered1 (i : S100000x48.Idx) : ∃ t : Fin cfg1.N, (cfg1.win 2).flush t = true ∧ i ∈ ((cfg1.win 2).blk t).view.set := by
  have hi0 : (i 0).val < 100000 := (i 0).isLt
  have hi1 : (i 1).val < 48 := (i 1).isLt
  have hN : cfg1.N = 10 := N_1
  refine ⟨⟨(i 0).val / 10000, by rw [hN]; omega⟩, flush1_2 _, ?_⟩
  rw [mem_blk1]
  obtain ⟨-, -, -, -, e4, e5⟩ := idx_facts1 ⟨(i 0).val / 10000, by rw [hN]; omega⟩
  intro a
  match a with
  | ⟨0, _⟩ =>
    show win1_2.index _ (0 : Fin 2) * 10000 ≤ (i 0).val ∧ (i 0).val < win1_2.index _ (0 : Fin 2) * 10000 + 10000
    rw [e4]
    show (i 0).val / 10000 * 10000 ≤ (i 0).val ∧ (i 0).val < (i 0).val / 10000 * 10000 + 10000
    omega
  | ⟨1, _⟩ =>
    show win1_2.index _ (1 : Fin 2) * 48 ≤ (i 1).val ∧ (i 1).val < win1_2.index _ (1 : Fin 2) * 48 + 48
    rw [e5]
    omega

/-- THE ARRAY after the region: the host's product of the two input arrays. -/
theorem region1_eq (c : Dev nD) : (dat1 (F := Ideal) V c).arrAt 2 cfg1.N
    = Host.dotGeneral (F := Ideal) (φ₁ := .f32) (φ₂ := .f32) Cert.ReferenceIdeal.dot_S100000x48_S48x48_S100000x48_1_0_0_1_n_n none (V c (Pipeline.arrRef spec1 0)) (V c (Pipeline.arrRef spec1 1)) :=
  (dat1 V c).arrAt_eq_of_cover 2 (G1 V c) (fun t _ => flushed1_eq V c t) covered1

end Cert.KernelIdeal.Frame

end
-- ==== Proof.KI.Val2.lean ====
/-
  Region 2 of @main, the value: the region's output array after the region, as one function of its input arrays as
  the region finds them — row e of the output is row e of the first input times, lane by lane, the one word of row e
  of the second. Every row is covered: the grid's blocks of rows follow one another from row 0, and the last one, cut
  at the array's end, ends there. Each point writes back its block of that function on the rows its transfer moves.
-/
import proofs.«142470_j73658689126826_2_alg».proof.Proof.KI.Reg2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

/-- The index of the second input's one word of the row of `i`. -/
noncomputable def nidx2 (i : S3300000x48.Idx) : S3300000x1.Idx := fun a => match a with
  | ⟨0, _⟩ => ⟨(i 0).val, (i 0).isLt⟩
  | ⟨1, _⟩ => ⟨0, Nat.one_pos⟩

/-- What the output array ends holding: index by index, the first input times the second's word of the same row. -/
noncomputable def G2 (c : Dev nD) : S3300000x48.Idx → Elt F .f32 :=
  fun i => FloatOps.mulf (V c (Pipeline.arrRef spec2 0) i) (V c (Pipeline.arrRef spec2 1) (nidx2 i))

/-- The printed index maps and cuts, decided over the grid: every window's block index at point `t` is `(t, 0)`, and
    the output's transfer there moves all the lanes of the rows from `t` blocks on that lie inside the array. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_2.xsize (grid2.coords t) (0 : Fin 2) = min 8192 (3300000 - t.val * 8192)
    ∧ win2_2.xsize (grid2.coords t) (1 : Fin 2) = 48 :=
  (by decide +kernel : ∀ t : Fin grid2.N, _)

/-- WHAT POINT `t` WRITES BACK is block `t` of `G2`, on the rows inside the array. -/
theorem flushed2_eq (c : Dev nD) (t : Fin cfg2.N) :
    (dat2 V c).flushed 2 t = ((cfg2.win 2).blk t).view.read (Elt F) (G2 V c) := by
  show (cfg2.win 2).cut (cfg2.grid.coords t) ((dat2 V c).after 2 t) = _
  rw [cut_after2_2]
  obtain ⟨e0, e1, e2, e3, e4, e5, -, -⟩ := idx_facts2 t
  funext j
  show FloatOps.mulf (V c (Pipeline.arrRef spec2 0) (((cfg2.win 0).blk t).view.emb (idx2_0 (cfg2.grid.coords t) j)))
      (V c (Pipeline.arrRef spec2 1) (((cfg2.win 1).blk t).view.emb (idx2_1 (cfg2.grid.coords t) j)))
    = FloatOps.mulf (V c (Pipeline.arrRef spec2 0) (((cfg2.win 2).blk t).view.emb j))
      (V c (Pipeline.arrRef spec2 1) (nidx2 (((cfg2.win 2).blk t).view.emb j)))
  have h0 : ((cfg2.win 0).blk t).view.emb (idx2_0 (cfg2.grid.coords t) j) = ((cfg2.win 2).blk t).view.emb j := by
    funext a; apply Fin.ext
    match a with
    | ⟨0, _⟩ => show win2_0.index t (0 : Fin 2) * 8192 + 1 * (j 0).val = win2_2.index t (0 : Fin 2) * 8192 + 1 * (j 0).val; rw [e0, e4]
    | ⟨1, _⟩ => show win2_0.index t (1 : Fin 2) * 48 + 1 * (j 1).val = win2_2.index t (1 : Fin 2) * 48 + 1 * (j 1).val; rw [e1, e5]
  have h1 : ((cfg2.win 1).blk t).view.emb (idx2_1 (cfg2.grid.coords t) j) = nidx2 (((cfg2.win 2).blk t).view.emb j) := by
    funext a; apply Fin.ext
    match a with
    | ⟨0, _⟩ => show win2_1.index t (0 : Fin 2) * 8192 + 1 * (j 0).val = win2_2.index t (0 : Fin 2) * 8192 + 1 * (j 0).val; rw [e2, e4]
    | ⟨1, _⟩ => show win2_1.index t (1 : Fin 2) * 1 + 1 * 0 = 0; rw [e3]
  rw [h0, h1]

/-- An index of the array is in point `t`'s block iff each coordinate is in the range the block's transfer moves
    on its axis. -/
theorem mem_blk2 (t : Fin cfg2.N) (i : S3300000x48.Idx) :
    i ∈ ((cfg2.win 2).blk t).view.set ↔ ∀ a : Fin 2, win2_2.index t a * S8192x48.size a ≤ (i a).val ∧ (i a).val < win2_2.index t a * S8192x48.size a + win2_2.xsize (grid2.coords t) a := by
  show i ∈ ((View.whole (Pipeline.arrRef spec2 2)).slice (win2_2.rect t)).set ↔ _
  rw [View.set_slice_whole, Rect.mem_set_unit]
  exact Iff.rfl

/-- Every index of the array is in some point's block: the one of its row's block of rows. -/
theorem covered2 (i : S3300000x48.Idx) : ∃ t : Fin cfg2.N, (cfg2.win 2).flush t = true ∧ i ∈ ((cfg2.win 2).blk t).view.set := by
  have hi0 : (i 0).val < 3300000 := (i 0).isLt
  have hi1 : (i 1).val < 48 := (i 1).isLt
  have hN : cfg2.N = 403 := N_2
  refine ⟨⟨(i 0).val / 8192, by rw [hN]; omega⟩, flush2_2 _, ?_⟩
  rw [mem_blk2]
  obtain ⟨-, -, -, -, e4, e5, e6, e7⟩ := idx_facts2 ⟨(i 0).val / 8192, by rw [hN]; omega⟩
  intro a
  match a with
  | ⟨0, _⟩ =>
    show win2_2.index _ (0 : Fin 2) * 8192 ≤ (i 0).val ∧ (i 0).val < win2_2.index _ (0 : Fin 2) * 8192 + win2_2.xsize _ (0 : Fin 2)
    rw [e4, e6]
    show (i 0).val / 8192 * 8192 ≤ (i 0).val ∧ (i 0).val < (i 0).val / 8192 * 8192 + min 8192 (3300000 - (i 0).val / 8192 * 8192)
    omega
  | ⟨1, _⟩ =>
    show win2_2.index _ (1 : Fin 2) * 48 ≤ (i 1).val ∧ (i 1).val < win2_2.index _ (1 : Fin 2) * 48 + win2_2.xsize _ (1 : Fin 2)
    rw [e5, e7]
    omega

/-- THE ARRAY after the region: `G2` of the input arrays, everywhere. -/
theorem final2 (c : Dev nD) : (dat2 V c).arrAt 2 cfg2.N
    = fun i => FloatOps.mulf (V c (Pipeline.arrRef spec2 0) i) (V c (Pipeline.arrRef spec2 1) (nidx2 i)) :=
  (dat2 V c).arrAt_eq_of_cover 2 (G2 V c) (fun t _ => flushed2_eq V c t) (covered2)

end Cert.KernelIdeal.Frame

end
-- ==== Proof.KI.Eq2.lean ====
/-
  Region 2 of @main against the reference: the region's output array, which is one function of its input arrays
  index by index, is the reference's own host operations applied to those arrays as wholes — the product, the factors in the other order, of the second input broadcast along the lanes and the first input. At the ideal
  float instance (the extended reals).
-/
import proofs.«142470_j73658689126826_2_alg».proof.Proof.KI.Val2
import proofs.«142470_j73658689126826_2_alg».proof.Proof.Gen.ReferenceIdeal
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The region's output is the reference's product, the factors in the other order, of the second input broadcast
    along the lanes and the first input. -/
theorem region2_eq (c : Dev nD) : (dat2 (F := Ideal) V c).arrAt 2 cfg2.N
    = mulf (F := Ideal) (s := Cert.ReferenceIdeal.S3300000x48) (φ := .f32) (broadcastInDim Cert.ReferenceIdeal.S3300000x48 ![0, 1] Cert.ReferenceIdeal.Facts₀.bcast_S3300000x1_S3300000x48_0_1 (V c (Pipeline.arrRef spec2 1))) (V c (Pipeline.arrRef spec2 0)) := by
  rw [final2]
  funext i
  have hb : broadcastInDim Cert.ReferenceIdeal.S3300000x48 ![0, 1] Cert.ReferenceIdeal.Facts₀.bcast_S3300000x1_S3300000x48_0_1 (V c (Pipeline.arrRef spec2 1)) i
      = V c (Pipeline.arrRef spec2 1) (nidx2 i) :=
    broadcastInDim_apply _ _ _ i (nidx2 i) (fun a => match a with
      | ⟨0, _⟩ => by show (i 0).val = if (3300000 : Nat) = 1 then 0 else (i 0).val; rw [if_neg (by decide)]
      | ⟨1, _⟩ => by show 0 = if (1 : Nat) = 1 then 0 else (i 1).val; rw [if_pos rfl])
  show FloatOps.mulf (F := Ideal) (V c (Pipeline.arrRef spec2 0) i) (V c (Pipeline.arrRef spec2 1) (nidx2 i))
    = FloatOps.mulf (F := Ideal) (broadcastInDim Cert.ReferenceIdeal.S3300000x48 ![0, 1] Cert.ReferenceIdeal.Facts₀.bcast_S3300000x1_S3300000x48_0_1 (V c (Pipeline.arrRef spec2 1)) i) (V c (Pipeline.arrRef spec2 0) i)
  rw [hb]
  exact mul_comm _ _

end Cert.KernelIdeal.Frame

end
-- ==== Proof.KI.Val3.lean ====
/-
  Region 3 of @main, the value: the region's output array after the region, as one function of its input arrays as
  the region finds them, index by index — the larger of zero and the first input plus the bias row's word of the same lane. The grid's blocks of rows tile the array: every index is in the
  block of its row's block of rows, and each point writes back its block of that function.
-/
import proofs.«142470_j73658689126826_2_alg».proof.Proof.KI.Reg3
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The index of the bias row's word of the lane of `i`. -/
noncomputable def bidx3 (i : S100000x48.Idx) : S1x48.Idx := fun a => match a with
  | ⟨0, _⟩ => ⟨0, Nat.one_pos⟩
  | ⟨1, _⟩ => ⟨(i 1).val, (i 1).isLt⟩

/-- The same for an index of a block. -/
noncomputable def brow3 (j : S10000x48.Idx) : S1x48.Idx := fun a => match a with
  | ⟨0, _⟩ => ⟨0, Nat.one_pos⟩
  | ⟨1, _⟩ => ⟨(j 1).val, (j 1).isLt⟩

/-- What the output array ends holding: index by index, the larger of zero and the first input plus the bias row's
    word of the same lane. -/
noncomputable def G3 (c : Dev nD) : S100000x48.Idx → Elt F .f32 :=
  fun i => FloatOps.maximumf (FloatOps.addf (V c (Pipeline.arrRef spec3 0) i) (V c (Pipeline.arrRef spec3 1) (bidx3 i))) (Scalar.ofBits .f32 0x00000000#32)

/-- The loads read the buffers whole and the one store writes its payload whole: the body's value. -/
theorem out3_2_eq (x0 : Vec F S10000x48 .f32) (x1 : Vec F S1x48 .f32) : out3_2 x0 x1 = k3_pay1 x0 x1 := by
  have hz : (![0, 0] : Fin 2 → Nat) = fun _ => 0 := funext fun a => by fin_cases a <;> rfl
  unfold out3_2
  rw [View.canon_unit_zero hz, View.ld_unit_zero hz, View.ld_unit_zero hz]

/-- The body's value at an index. -/
theorem pay3_apply (X0 : Vec F S10000x48 .f32) (X1 : Vec F S1x48 .f32) (j : S10000x48.Idx) :
    k3_pay1 X0 X1 j = FloatOps.maximumf (FloatOps.addf (X0 j) (X1 (brow3 j))) (Scalar.ofBits .f32 0x00000000#32) := by
  have hk : ∀ a : Fin S1x48.rank, ((brow3 j) a).val
      = if S1x48.size a = 1 then 0 else (j ⟨a.val + (S10000x48.rank - S1x48.rank), by have := a.isLt; omega⟩).val := fun a =>
    match a with
    | ⟨0, _⟩ => rfl
    | ⟨1, _⟩ => rfl
  show FloatOps.maximumf (FloatOps.addf (shapeCast S10000x48 X0 shapeCasts_S10000x48_S10000x48 j) (broadcastTo S10000x48 (shapeCast S1x48 X1 shapeCasts_S1x48_S1x48) broadcasts_S1x48_S10000x48 j)) (Scalar.ofBits .f32 0x00000000#32)
    = _
  rw [shapeCast_self, shapeCast_self, broadcastTo_apply X1 _ _ _ hk]

/-- The printed index maps, decided over the grid: the first input's and the output's block index at point `t` is
    `(t, 0)`, the bias row's `(0, 0)`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is block `t` of `G3`. -/
theorem flushed3_eq (c : Dev nD) (t : Fin cfg3.N) :
    (dat3 V c).flushed 2 t = ((cfg3.win 2).blk t).view.read (Elt F) (G3 V c) := by
  show (cfg3.win 2).cut (cfg3.grid.coords t) ((dat3 V c).after 2 t) = _
  rw [after3_2, out3_2_eq]
  obtain ⟨e0, e1, e2, e3, e4, e5⟩ := idx_facts3 t
  funext j
  show k3_pay1 (iblk3 V c 0 t) (iblk3 V c 1 t) ((cfg3.win 2).xinj (cfg3.grid.coords t) j) = _
  rw [pay3_apply]
  show FloatOps.maximumf (FloatOps.addf (V c (Pipeline.arrRef spec3 0) (((cfg3.win 0).blk t).view.emb ((cfg3.win 2).xinj (cfg3.grid.coords t) j)))
      (V c (Pipeline.arrRef spec3 1) (((cfg3.win 1).blk t).view.emb (brow3 ((cfg3.win 2).xinj (cfg3.grid.coords t) j))))) (Scalar.ofBits .f32 0x00000000#32)
    = FloatOps.maximumf (FloatOps.addf (V c (Pipeline.arrRef spec3 0) (((cfg3.win 2).blk t).view.emb j))
      (V c (Pipeline.arrRef spec3 1) (bidx3 (((cfg3.win 2).blk t).view.emb j)))) (Scalar.ofBits .f32 0x00000000#32)
  have h0 : ((cfg3.win 0).blk t).view.emb ((cfg3.win 2).xinj (cfg3.grid.coords t) j) = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; rw [e0, e4]
    | ⟨1, _⟩ => show win3_0.index t (1 : Fin 2) * 48 + 1 * (j 1).val = win3_2.index t (1 : Fin 2) * 48 + 1 * (j 1).val; rw [e1, e5]
  have h1 : ((cfg3.win 1).blk t).view.emb (brow3 ((cfg3.win 2).xinj (cfg3.grid.coords t) j)) = bidx3 (((cfg3.win 2).blk t).view.emb j) := by
    funext a; apply Fin.ext
    match a with
    | ⟨0, _⟩ => show win3_1.index t (0 : Fin 2) * 1 + 1 * 0 = 0; rw [e2]
    | ⟨1, _⟩ => show win3_1.index t (1 : Fin 2) * 48 + 1 * (j 1).val = win3_2.index t (1 : Fin 2) * 48 + 1 * (j 1).val; rw [e3, e5]
  rw [h0, h1]

/-- An index of the array is in point `t`'s block iff each coordinate is in the block's range on its axis. -/
theorem mem_blk3 (t : Fin cfg3.N) (i : S100000x48.Idx) :
    i ∈ ((cfg3.win 2).blk t).view.set ↔ ∀ a : Fin 2, win3_2.index t a * S10000x48.size a ≤ (i a).val ∧ (i a).val < win3_2.index t a * S10000x48.size a + S10000x48.size a := by
  show i ∈ ((View.whole (Pipeline.arrRef spec3 2)).slice (win3_2.rect t)).set ↔ _
  rw [View.set_slice_whole, Rect.mem_set_unit]
  exact Iff.rfl

/-- Every index of the array is in some point's block: the one of its row's block of rows. -/
theorem covered3 (i : S100000x48.Idx) : ∃ t : Fin cfg3.N, (cfg3.win 2).flush t = true ∧ i ∈ ((cfg3.win 2).blk t).view.set := by
  have hi0 : (i 0).val < 100000 := (i 0).isLt
  have hi1 : (i 1).val < 48 := (i 1).isLt
  have hN : cfg3.N = 10 := N_3
  refine ⟨⟨(i 0).val / 10000, by rw [hN]; omega⟩, flush3_2 _, ?_⟩
  rw [mem_blk3]
  obtain ⟨-, -, -, -, e4, e5⟩ := idx_facts3 ⟨(i 0).val / 10000, by rw [hN]; omega⟩
  intro a
  match a with
  | ⟨0, _⟩ =>
    show win3_2.index _ (0 : Fin 2) * 10000 ≤ (i 0).val ∧ (i 0).val < win3_2.index _ (0 : Fin 2) * 10000 + 10000
    rw [e4]
    show (i 0).val / 10000 * 10000 ≤ (i 0).val ∧ (i 0).val < (i 0).val / 10000 * 10000 + 10000
    omega
  | ⟨1, _⟩ =>
    show win3_2.index _ (1 : Fin 2) * 48 ≤ (i 1).val ∧ (i 1).val < win3_2.index _ (1 : Fin 2) * 48 + 48
    rw [e5]
    omega

/-- THE ARRAY after the region: `G3` of the input arrays, everywhere. -/
theorem final3 (c : Dev nD) : (dat3 V c).arrAt 2 cfg3.N
    = fun i => FloatOps.maximumf (FloatOps.addf (V c (Pipeline.arrRef spec3 0) i) (V c (Pipeline.arrRef spec3 1) (bidx3 i))) (Scalar.ofBits .f32 0x00000000#32) :=
  (dat3 V c).arrAt_eq_of_cover 2 (G3 V c) (fun t _ => flushed3_eq V c t) (covered3)

end Cert.KernelIdeal.Frame

end
-- ==== Proof.KI.Eq3.lean ====
/-
  Region 3 of @main against the reference: the region's output array, which is one function of its input arrays
  index by index, is the reference's own host operations applied to those arrays as wholes — the larger, index by index, of the first input plus the bias row broadcast along the rows, and zero. At the ideal
  float instance (the extended reals).
-/
import proofs.«142470_j73658689126826_2_alg».proof.Proof.KI.Val3
import proofs.«142470_j73658689126826_2_alg».proof.Proof.Gen.ReferenceIdeal
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The region's output is the reference's: the larger, index by index, of the first input plus the bias row broadcast
    along the rows, and zero broadcast to the whole shape. -/
theorem region3_eq (c : Dev nD) : (dat3 (F := Ideal) V c).arrAt 2 cfg3.N
    = maximumf (F := Ideal) (s := Cert.ReferenceIdeal.S100000x48) (φ := .f32)
        (addf (F := Ideal) (s := Cert.ReferenceIdeal.S100000x48) (φ := .f32) (V c (Pipeline.arrRef spec3 0))
          (broadcastInDim Cert.ReferenceIdeal.S100000x48 ![0, 1] Cert.ReferenceIdeal.Facts₀.bcast_S1x48_S100000x48_0_1 (V c (Pipeline.arrRef spec3 1))))
        (broadcastInDim Cert.ReferenceIdeal.S100000x48 ![] Cert.ReferenceIdeal.Facts₀.bcast_S_S100000x48 (constant (F := Ideal) Cert.ReferenceIdeal.S_ .f32 0x00000000#32)) := by
  rw [final3]
  funext i
  have hb : broadcastInDim Cert.ReferenceIdeal.S100000x48 ![0, 1] Cert.ReferenceIdeal.Facts₀.bcast_S1x48_S100000x48_0_1 (V c (Pipeline.arrRef spec3 1)) i
      = V c (Pipeline.arrRef spec3 1) (bidx3 i) :=
    broadcastInDim_apply _ _ _ i (bidx3 i) (fun a => match a with
      | ⟨0, _⟩ => by show 0 = if (1 : Nat) = 1 then 0 else (i 0).val; rw [if_pos rfl]
      | ⟨1, _⟩ => by show (i 1).val = if (48 : Nat) = 1 then 0 else (i 1).val; rw [if_neg (by decide)])
  show FloatOps.maximumf (F := Ideal) (FloatOps.addf (F := Ideal) (V c (Pipeline.arrRef spec3 0) i) (V c (Pipeline.arrRef spec3 1) (bidx3 i))) (Scalar.ofBits .f32 0x00000000#32)
    = FloatOps.maximumf (F := Ideal) (FloatOps.addf (F := Ideal) (V c (Pipeline.arrRef spec3 0) i)
        (broadcastInDim Cert.ReferenceIdeal.S100000x48 ![0, 1] Cert.ReferenceIdeal.Facts₀.bcast_S1x48_S100000x48_0_1 (V c (Pipeline.arrRef spec3 1)) i))
      (Scalar.ofBits .f32 0x00000000#32)
  rw [hb]

end Cert.KernelIdeal.Frame

end
-- ==== Proof.KI.Eq4.lean ====
/-
  Region 4 of @main, the value: the region's output array after the region is the matrix product of its first two input
  arrays as the region finds them, plus the one-row third on every row. Entry (r, q) is ∑ₖ X(r,k)·W(k,q) + b(0,q). The
  grid's ten blocks of 10000 rows tile the 100000 rows exactly; at point t the body computes the same expression on rows
  10000·t … 10000·t + 9999 of the first array with the whole second and third arrays, so every point writes back its
  block of the one whole-array value and the blocks cover the array.
-/
import proofs.«142470_j73658689126826_2_alg».proof.Proof.KI.Reg4
import proofs.«142470_j73658689126826_2_alg».proof.ReferenceIdeal
import proofs.«142470_j73658689126826_2_alg».proof.Proof.Gen.ReferenceIdeal
import proofs.«142470_j73658689126826_2_alg».proof.Proof.LibPlainDot
import Idealize.ShloMosaic.Lib.Pipeline.Value
import Idealize.ShloMosaic.Lib.ValueIdx
import Idealize.ShloMosaic.Lib.KernelVsHost

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open scoped BigOperators
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem hz4 : (![0, 0] : Fin 2 → Nat) = fun _ => 0 := funext fun a => by fin_cases a <;> rfl

/-- What a product entry `s` and a bias entry `b` become: their sum. -/
def post4 (s b : Ideal .f32) : Ideal .f32 := s + b

/-- The body's value at an entry of its block: the sum over the contracted axis into the zero accumulator (a change of
    float format is the identity on extended reals), then the row added. -/
theorem pay4_apply (x0 : Vec Ideal S10000x48 .f32) (x1 : Vec Ideal S48x2 .f32) (x2 : Vec Ideal S1x2 .f32) (p : Fin 10000) (q : Fin 2) :
    k4_pay1 x0 x1 x2 (ix2 p q) = post4 (∑ k : Fin 48, x0 (ix2 p k) * x1 (ix2 k q)) (x2 (ix2 (0 : Fin 1) q)) := by
  have h1 : FloatOps.matmul (F := Ideal) (φ₁ := .bf16) (φ₂ := .bf16) dot_S10000x48_S48x2_S10000x2_1_0_0_1_n_n none x0 x1 (constant S10000x2 .f32 0x00000000#32) (ix2 p q)
      = ∑ k : Fin 48, x0 (ix2 p k) * x1 (ix2 k q) :=
    Cert.LibPlainDot.matmul_zero_apply _ (by rfl) none _ _ p q
  have h2 : broadcastTo S10000x2 x2 Cert.KernelIdeal.Facts₀.broadcasts_S1x2_S10000x2 (ix2 p q) = x2 (ix2 (0 : Fin 1) q) :=
    broadcastTo_apply x2 _ (ix2 p q) (ix2 (0 : Fin 1) q) (fun a => by
      match a with
      | ⟨0, _⟩ => rfl
      | ⟨1, _⟩ => show q.val = if (2 : ℕ) = 1 then 0 else q.val; rw [if_neg (by decide)])
  rw [← h1, ← h2]
  unfold k4_pay1
  rw [shapeCast_self, shapeCast_self]
  rfl

/-- The host's operations on whole arrays at an entry. -/
theorem ref4_apply (A0 : FVec Ideal S100000x48 .f32) (A1 : FVec Ideal S48x2 .f32) (A2 : FVec Ideal S1x2 .f32) (p : Fin 100000) (q : Fin 2) :
    (addf (Host.dotGeneral (F := Ideal) (φ₁ := .f32) (φ₂ := .f32) Cert.ReferenceIdeal.dot_S100000x48_S48x2_S100000x2_1_0_0_1_n_n none A0 A1) (broadcastInDim Cert.ReferenceIdeal.S100000x2 ![0, 1] Cert.ReferenceIdeal.Facts₀.bcast_S1x2_S100000x2_0_1 A2)) (ix2 p q)
      = post4 (∑ k : Fin 48, A0 (ix2 p k) * A1 (ix2 k q)) (A2 (ix2 (0 : Fin 1) q)) := by
  have h1 := Cert.LibPlainDot.dotGeneral_apply Cert.ReferenceIdeal.dot_S100000x48_S48x2_S100000x2_1_0_0_1_n_n (by rfl) none .single A0 A1 p q
  have h2 := broadcastInDim_oneRow_apply Cert.ReferenceIdeal.Facts₀.bcast_S1x2_S100000x2_0_1 A2 p q
  unfold post4
  rw [← h1, ← h2]
  rfl

/-- What the output array ends holding: the host's operations on the three input arrays. -/
noncomputable def G4 (c : Dev nD) : FVec Ideal S100000x2 .f32 :=
  addf (Host.dotGeneral (F := Ideal) (φ₁ := .f32) (φ₂ := .f32) Cert.ReferenceIdeal.dot_S100000x48_S48x2_S100000x2_1_0_0_1_n_n none (V c (Pipeline.arrRef spec4 0)) (V c (Pipeline.arrRef spec4 1))) (broadcastInDim Cert.ReferenceIdeal.S100000x2 ![0, 1] Cert.ReferenceIdeal.Facts₀.bcast_S1x2_S100000x2_0_1 (V c (Pipeline.arrRef spec4 2)))

/-- The printed index maps, decided over the grid: the row windows' block index at point `t` is `(t, 0)`, the
    second and third inputs' is `(0, 0)`. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- WHAT POINT `t` WRITES BACK is block `t` of the whole-array value. -/
theorem flushed4_eq (c : Dev nD) (t : Fin cfg4.N) :
    (dat4 V c).flushed 3 t = ((cfg4.win 3).blk t).view.read (Elt Ideal) (G4 V c) := by
  show (cfg4.win 3).cut (grid4.coords t) ((dat4 V c).after 3 t) = _
  rw [after4_3]
  unfold out4_3
  rw [View.canon_unit_zero hz4]
  simp only [View.ld_unit_zero (S := S10000x48) hz4, View.ld_unit_zero (S := S48x2) hz4, View.ld_unit_zero (S := S1x2) hz4]
  obtain ⟨e0, e1, e2, e3, e4, e5, e6, e7⟩ := idx_facts4 t
  funext j
  obtain ⟨p, q, rfl⟩ : ∃ (p : Fin 10000) (q : Fin 2), j = ix2 p q := ⟨j 0, j 1, eq_ix2 j⟩
  have hN : cfg4.N = 10 := N_4
  have ht : t.val < 10 := hN ▸ t.isLt
  have hp : p.val < 10000 := p.isLt
  refine (pay4_apply _ _ _ p q).trans ?_
  have hr : ((cfg4.win 3).blk t).view.emb (ix2 p q) = ix2 (⟨t.val * 10000 + p.val, by omega⟩ : Fin 100000) q := by
    funext a; apply Fin.ext
    match a with
    | ⟨0, _⟩ => show win4_3.index t (0 : Fin 2) * 10000 + 1 * p.val = t.val * 10000 + p.val; rw [e6]; omega
    | ⟨1, _⟩ => show win4_3.index t (1 : Fin 2) * 2 + 1 * q.val = q.val; rw [e7]; omega
  show _ = G4 V c (((cfg4.win 3).blk t).view.emb (ix2 p q))
  rw [hr]
  unfold G4
  refine Eq.trans ?_ (ref4_apply _ _ _ _ q).symm
  have f2 : iblk4 V c 2 t (ix2 (0 : Fin 1) q) = V c (Pipeline.arrRef spec4 2) (ix2 (0 : Fin 1) q) :=
    congrArg (V c (Pipeline.arrRef spec4 2)) (show ((cfg4.win 2).blk t).view.emb (ix2 (0 : Fin 1) q) = ix2 (0 : Fin 1) q from by
      funext a; apply Fin.ext
      match a with
      | ⟨0, _⟩ => show win4_2.index t (0 : Fin 2) * 1 + 1 * 0 = 0; rw [e4]
      | ⟨1, _⟩ => show win4_2.index t (1 : Fin 2) * 2 + 1 * q.val = q.val; rw [e5]; omega)
  refine congrArg₂ post4 (Finset.sum_congr rfl fun k _ => ?_) f2
  have h0 : ((cfg4.win 0).blk t).view.emb (ix2 p k) = ix2 (⟨t.val * 10000 + p.val, by omega⟩ : Fin 100000) k := by
    funext a; apply Fin.ext
    match a with
    | ⟨0, _⟩ => show win4_0.index t (0 : Fin 2) * 10000 + 1 * p.val = t.val * 10000 + p.val; rw [e0]; omega
    | ⟨1, _⟩ => show win4_0.index t (1 : Fin 2) * 48 + 1 * k.val = k.val; rw [e1]; omega
  have h1 : ((cfg4.win 1).blk t).view.emb (ix2 k q) = ix2 k q := by
    funext a; apply Fin.ext
    match a with
    | ⟨0, _⟩ => show win4_1.index t (0 : Fin 2) * 48 + 1 * k.val = k.val; rw [e2]; omega
    | ⟨1, _⟩ => show win4_1.index t (1 : Fin 2) * 2 + 1 * q.val = q.val; rw [e3]; omega
  have f0 : iblk4 V c 0 t (ix2 p k) = V c (Pipeline.arrRef spec4 0) (ix2 (⟨t.val * 10000 + p.val, by omega⟩ : Fin 100000) k) :=
    congrArg (V c (Pipeline.arrRef spec4 0)) h0
  have f1 : iblk4 V c 1 t (ix2 k q) = V c (Pipeline.arrRef spec4 1) (ix2 k q) :=
    congrArg (V c (Pipeline.arrRef spec4 1)) h1
  rw [f0, f1]

/-- An index of the array is in point `t`'s block iff each coordinate is in the block's range on its axis. -/
theorem mem_blk4 (t : Fin cfg4.N) (i : S100000x2.Idx) :
    i ∈ ((cfg4.win 3).blk t).view.set ↔ ∀ a : Fin 2, win4_3.index t a * S10000x2.size a ≤ (i a).val ∧ (i a).val < win4_3.index t a * S10000x2.size a + S10000x2.size a := by
  show i ∈ ((View.whole (Pipeline.arrRef spec4 3)).slice (win4_3.rect t)).set ↔ _
  rw [View.set_slice_whole, Rect.mem_set_unit]
  exact Iff.rfl

/-- Every index of the array is in some point's block: the one of its row's block of rows. -/
theorem covered4 (i : S100000x2.Idx) : ∃ t : Fin cfg4.N, (cfg4.win 3).flush t = true ∧ i ∈ ((cfg4.win 3).blk t).view.set := by
  have hi0 : (i 0).val < 100000 := (i 0).isLt
  have hi1 : (i 1).val < 2 := (i 1).isLt
  have hN : cfg4.N = 10 := N_4
  refine ⟨⟨(i 0).val / 10000, by rw [hN]; omega⟩, flush4_3 _, ?_⟩
  rw [mem_blk4]
  obtain ⟨-, -, -, -, -, -, e6, e7⟩ := idx_facts4 ⟨(i 0).val / 10000, by rw [hN]; omega⟩
  intro a
  match a with
  | ⟨0, _⟩ =>
    show win4_3.index _ (0 : Fin 2) * 10000 ≤ (i 0).val ∧ (i 0).val < win4_3.index _ (0 : Fin 2) * 10000 + 10000
    rw [e6]
    show (i 0).val / 10000 * 10000 ≤ (i 0).val ∧ (i 0).val < (i 0).val / 10000 * 10000 + 10000
    omega
  | ⟨1, _⟩ =>
    show win4_3.index _ (1 : Fin 2) * 2 ≤ (i 1).val ∧ (i 1).val < win4_3.index _ (1 : Fin 2) * 2 + 2
    rw [e7]
    omega

/-- THE ARRAY after the region: the host's operations on the three input arrays. -/
theorem region4_eq (c : Dev nD) : (dat4 (F := Ideal) V c).arrAt 3 cfg4.N
    = addf (Host.dotGeneral (F := Ideal) (φ₁ := .f32) (φ₂ := .f32) Cert.ReferenceIdeal.dot_S100000x48_S48x2_S100000x2_1_0_0_1_n_n none (V c (Pipeline.arrRef spec4 0)) (V c (Pipeline.arrRef spec4 1))) (broadcastInDim Cert.ReferenceIdeal.S100000x2 ![0, 1] Cert.ReferenceIdeal.Facts₀.bcast_S1x2_S100000x2_0_1 (V c (Pipeline.arrRef spec4 2))) :=
  (dat4 V c).arrAt_eq_of_cover 3 (G4 V c) (fun t _ => flushed4_eq V c t) covered4

end Cert.KernelIdeal.Frame

end
-- ==== Proof.KI.Bridge1.lean ====
/-
  The first layers, buffer by buffer: what the idealized kernel program holds in each buffer a region or a host
  stretch writes is the reference's stage of the same arguments — the input layer relu(x·W1 + b1), its product with
  Wc, the rows gathered at the edges' sources, their scaling by the edge norms, the sum into the edges' targets,
  the bias and relu, and the class scores h·W2 + b2. Each follows from the ones before it: a region's output array is
  the reference's operations of the region's input arrays, and a host stretch is the same operations on both sides.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import proofs.«142470_j73658689126826_2_alg».proof.Proof.KI.Carry
import proofs.«142470_j73658689126826_2_alg».proof.Proof.KI.Prefix
import proofs.«142470_j73658689126826_2_alg».proof.Proof.RefRead
import proofs.«142470_j73658689126826_2_alg».proof.Proof.KI.EqRows
import proofs.«142470_j73658689126826_2_alg».proof.Proof.KI.Eq0
import proofs.«142470_j73658689126826_2_alg».proof.Proof.KI.Eq1
import proofs.«142470_j73658689126826_2_alg».proof.Proof.KI.Eq2
import proofs.«142470_j73658689126826_2_alg».proof.Proof.KI.Eq3
import proofs.«142470_j73658689126826_2_alg».proof.Proof.KI.Eq4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem f_v37 (c : Dev nD) : W6 m ρ c (Proc.devRef .tc main_v37) = Cert.ReferenceIdeal.Read.val_main_v39 (F := Ideal) (m ((c : Thread nD τ).loc main_arg0)) (m ((c : Thread nD τ).loc main_arg3)) (m ((c : Thread nD τ).loc main_arg4)) := by
  refine ((W6_arr m ρ c 3).trans ((region0_eq (V5 m ρ) c).trans ?_))
  rw [show V5 m ρ c (Pipeline.arrRef spec0 0) = _ from arg0_at5 m ρ c,
    show V5 m ρ c (Pipeline.arrRef spec0 1) = _ from arg3_at5 m ρ c,
    show V5 m ρ c (Pipeline.arrRef spec0 2) = _ from pre_v36 m ρ c]
  rw [reshape_row48]
  rfl
theorem f_v38 (c : Dev nD) : W7 m ρ c (Proc.devRef .tc main_v38) = Cert.ReferenceIdeal.Read.val_main_v40 (F := Ideal) (m ((c : Thread nD τ).loc main_arg0)) (m ((c : Thread nD τ).loc main_arg3)) (m ((c : Thread nD τ).loc main_arg4)) (m ((c : Thread nD τ).loc main_arg5)) := by
  refine ((W7_arr m ρ c 2).trans ((region1_eq (V6 m ρ) c).trans ?_))
  rw [show V6 m ρ c (Pipeline.arrRef spec1 0) = _ from f_v37 m ρ c,
    show V6 m ρ c (Pipeline.arrRef spec1 1) = _ from arg5_at6 m ρ c]
  rfl
theorem f_v45 (c : Dev nD) : W8 m ρ c (Proc.devRef .tc main_v45) = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W7 m ρ c) (Proc.devRef .tc main_v45) = _
  after_results
  rw [show W7 m ρ c (Proc.devRef .tc main_v38) = _ from f_v38 m ρ c,
    show W7 m ρ c (Proc.devRef .tc main_v3) = _ from (carry_main_v3_7 m ρ c).trans (pre_v3 m ρ c)]
  rfl
theorem f_v46 (c : Dev nD) : W9 m ρ c (Proc.devRef .tc main_v46) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W9_arr m ρ c 2).trans ((region2_eq (V8 m ρ) c).trans ?_))
  rw [show V8 m ρ c (Pipeline.arrRef spec2 0) = _ from f_v45 m ρ c,
    show V8 m ρ c (Pipeline.arrRef spec2 1) = _ from (carry_main_v35_8 m ρ c).trans (pre_v35 m ρ c)]
  rw [reshape_col3300000]
  rfl
theorem f_v49 (c : Dev nD) : W10 m ρ c (Proc.devRef .tc main_v49) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W9 m ρ c) (Proc.devRef .tc main_v49) = _
  after_results
  rw [show W9 m ρ c (Proc.devRef .tc main_v6) = _ from (carry_main_v6_9 m ρ c).trans (pre_v6 m ρ c),
    show W9 m ρ c (Proc.devRef .tc main_v46) = _ from f_v46 m ρ c]
  rfl
theorem f_v50 (c : Dev nD) : W10 m ρ c (Proc.devRef .tc main_v50) = shapeCast S1x48 (m ((c : Thread nD τ).loc main_arg6)) Cert.KernelIdeal.Facts₀.shapeCasts_S48_S1x48 := by
  show StableHlo.after hostOps3 (W9 m ρ c) (Proc.devRef .tc main_v50) = _
  after_results
  rw [show W9 m ρ c (Proc.devRef .tc main_arg6) = _ from arg6_at9 m ρ c]
  rfl
theorem f_v51 (c : Dev nD) : W11 m ρ c (Proc.devRef .tc main_v51) = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W11_arr m ρ c 2).trans ((region3_eq (V10 m ρ) c).trans ?_))
  rw [show V10 m ρ c (Pipeline.arrRef spec3 0) = _ from f_v49 m ρ c,
    show V10 m ρ c (Pipeline.arrRef spec3 1) = _ from f_v50 m ρ c]
  rw [reshape_row48]
  rfl
theorem f_v52 (c : Dev nD) : W12 m ρ c (Proc.devRef .tc main_v52) = shapeCast S1x2 (m ((c : Thread nD τ).loc main_arg8)) Cert.KernelIdeal.Facts₀.shapeCasts_S2_S1x2 := by
  show StableHlo.after hostOps4 (W11 m ρ c) (Proc.devRef .tc main_v52) = _
  after_results
  rw [show W11 m ρ c (Proc.devRef .tc main_arg8) = _ from arg8_at11 m ρ c]
  rfl
theorem f_v53 (c : Dev nD) : W13 m ρ c (Proc.devRef .tc main_v53) = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W13_arr m ρ c 3).trans ((region4_eq (V12 m ρ) c).trans ?_))
  rw [show V12 m ρ c (Pipeline.arrRef spec4 0) = _ from (carry_main_v51_12 m ρ c).trans (f_v51 m ρ c),
    show V12 m ρ c (Pipeline.arrRef spec4 1) = _ from arg7_at12 m ρ c,
    show V12 m ρ c (Pipeline.arrRef spec4 2) = _ from f_v52 m ρ c]
  rw [reshape_row2]
  rfl

end Cert.KernelIdeal.Frame

end
-- ==== Proof.KI.Val5.lean ====
/-
  Region 5 of @main, the value: the region's output array after the region, as one function of its input arrays as
  the region finds them — row e of the output is row e of the first input times, lane by lane, the one word of row e
  of the second. Every row is covered: the grid's blocks of rows follow one another from row 0, and the last one, cut
  at the array's end, ends there. Each point writes back its block of that function on the rows its transfer moves.
-/
import proofs.«142470_j73658689126826_2_alg».proof.Proof.KI.Reg5

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

/-- The index of the second input's one word of the row of `i`. -/
noncomputable def nidx5 (i : S3300000x2.Idx) : S3300000x1.Idx := fun a => match a with
  | ⟨0, _⟩ => ⟨(i 0).val, (i 0).isLt⟩
  | ⟨1, _⟩ => ⟨0, Nat.one_pos⟩

/-- What the output array ends holding: index by index, the first input times the second's word of the same row. -/
noncomputable def G5 (c : Dev nD) : S3300000x2.Idx → Elt F .f32 :=
  fun i => FloatOps.mulf (V c (Pipeline.arrRef spec5 0) i) (V c (Pipeline.arrRef spec5 1) (nidx5 i))

/-- The printed index maps and cuts, decided over the grid: every window's block index at point `t` is `(t, 0)`, and
    the output's transfer there moves all the lanes of the rows from `t` blocks on that lie inside the array. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_2.xsize (grid5.coords t) (0 : Fin 2) = min 8192 (3300000 - t.val * 8192)
    ∧ win5_2.xsize (grid5.coords t) (1 : Fin 2) = 2 :=
  (by decide +kernel : ∀ t : Fin grid5.N, _)

/-- WHAT POINT `t` WRITES BACK is block `t` of `G5`, on the rows inside the array. -/
theorem flushed5_eq (c : Dev nD) (t : Fin cfg5.N) :
    (dat5 V c).flushed 2 t = ((cfg5.win 2).blk t).view.read (Elt F) (G5 V c) := by
  show (cfg5.win 2).cut (cfg5.grid.coords t) ((dat5 V c).after 2 t) = _
  rw [cut_after5_2]
  obtain ⟨e0, e1, e2, e3, e4, e5, -, -⟩ := idx_facts5 t
  funext j
  show FloatOps.mulf (V c (Pipeline.arrRef spec5 0) (((cfg5.win 0).blk t).view.emb (idx5_0 (cfg5.grid.coords t) j)))
      (V c (Pipeline.arrRef spec5 1) (((cfg5.win 1).blk t).view.emb (idx5_1 (cfg5.grid.coords t) j)))
    = FloatOps.mulf (V c (Pipeline.arrRef spec5 0) (((cfg5.win 2).blk t).view.emb j))
      (V c (Pipeline.arrRef spec5 1) (nidx5 (((cfg5.win 2).blk t).view.emb j)))
  have h0 : ((cfg5.win 0).blk t).view.emb (idx5_0 (cfg5.grid.coords t) j) = ((cfg5.win 2).blk t).view.emb j := by
    funext a; apply Fin.ext
    match a with
    | ⟨0, _⟩ => show win5_0.index t (0 : Fin 2) * 8192 + 1 * (j 0).val = win5_2.index t (0 : Fin 2) * 8192 + 1 * (j 0).val; rw [e0, e4]
    | ⟨1, _⟩ => show win5_0.index t (1 : Fin 2) * 2 + 1 * (j 1).val = win5_2.index t (1 : Fin 2) * 2 + 1 * (j 1).val; rw [e1, e5]
  have h1 : ((cfg5.win 1).blk t).view.emb (idx5_1 (cfg5.grid.coords t) j) = nidx5 (((cfg5.win 2).blk t).view.emb j) := by
    funext a; apply Fin.ext
    match a with
    | ⟨0, _⟩ => show win5_1.index t (0 : Fin 2) * 8192 + 1 * (j 0).val = win5_2.index t (0 : Fin 2) * 8192 + 1 * (j 0).val; rw [e2, e4]
    | ⟨1, _⟩ => show win5_1.index t (1 : Fin 2) * 1 + 1 * 0 = 0; rw [e3]
  rw [h0, h1]

/-- An index of the array is in point `t`'s block iff each coordinate is in the range the block's transfer moves
    on its axis. -/
theorem mem_blk5 (t : Fin cfg5.N) (i : S3300000x2.Idx) :
    i ∈ ((cfg5.win 2).blk t).view.set ↔ ∀ a : Fin 2, win5_2.index t a * S8192x2.size a ≤ (i a).val ∧ (i a).val < win5_2.index t a * S8192x2.size a + win5_2.xsize (grid5.coords t) a := by
  show i ∈ ((View.whole (Pipeline.arrRef spec5 2)).slice (win5_2.rect t)).set ↔ _
  rw [View.set_slice_whole, Rect.mem_set_unit]
  exact Iff.rfl

/-- Every index of the array is in some point's block: the one of its row's block of rows. -/
theorem covered5 (i : S3300000x2.Idx) : ∃ t : Fin cfg5.N, (cfg5.win 2).flush t = true ∧ i ∈ ((cfg5.win 2).blk t).view.set := by
  have hi0 : (i 0).val < 3300000 := (i 0).isLt
  have hi1 : (i 1).val < 2 := (i 1).isLt
  have hN : cfg5.N = 403 := N_5
  refine ⟨⟨(i 0).val / 8192, by rw [hN]; omega⟩, flush5_2 _, ?_⟩
  rw [mem_blk5]
  obtain ⟨-, -, -, -, e4, e5, e6, e7⟩ := idx_facts5 ⟨(i 0).val / 8192, by rw [hN]; omega⟩
  intro a
  match a with
  | ⟨0, _⟩ =>
    show win5_2.index _ (0 : Fin 2) * 8192 ≤ (i 0).val ∧ (i 0).val < win5_2.index _ (0 : Fin 2) * 8192 + win5_2.xsize _ (0 : Fin 2)
    rw [e4, e6]
    show (i 0).val / 8192 * 8192 ≤ (i 0).val ∧ (i 0).val < (i 0).val / 8192 * 8192 + min 8192 (3300000 - (i 0).val / 8192 * 8192)
    omega
  | ⟨1, _⟩ =>
    show win5_2.index _ (1 : Fin 2) * 2 ≤ (i 1).val ∧ (i 1).val < win5_2.index _ (1 : Fin 2) * 2 + win5_2.xsize _ (1 : Fin 2)
    rw [e5, e7]
    omega

/-- THE ARRAY after the region: `G5` of the input arrays, everywhere. -/
theorem final5 (c : Dev nD) : (dat5 V c).arrAt 2 cfg5.N
    = fun i => FloatOps.mulf (V c (Pipeline.arrRef spec5 0) i) (V c (Pipeline.arrRef spec5 1) (nidx5 i)) :=
  (dat5 V c).arrAt_eq_of_cover 2 (G5 V c) (fun t _ => flushed5_eq V c t) (covered5)

end Cert.KernelIdeal.Frame

end
-- ==== Proof.KI.Eq5.lean ====
/-
  Region 5 of @main against the reference: the region's output array, which is one function of its input arrays
  index by index, is the reference's own host operations applied to those arrays as wholes — the product, the factors in the other order, of the second input broadcast along the lanes and the first input. At the ideal
  float instance (the extended reals).
-/
import proofs.«142470_j73658689126826_2_alg».proof.Proof.KI.Val5
import proofs.«142470_j73658689126826_2_alg».proof.Proof.Gen.ReferenceIdeal
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The region's output is the reference's product, the factors in the other order, of the second input broadcast
    along the lanes and the first input. -/
theorem region5_eq (c : Dev nD) : (dat5 (F := Ideal) V c).arrAt 2 cfg5.N
    = mulf (F := Ideal) (s := Cert.ReferenceIdeal.S3300000x2) (φ := .f32) (broadcastInDim Cert.ReferenceIdeal.S3300000x2 ![0, 1] Cert.ReferenceIdeal.Facts₀.bcast_S3300000x1_S3300000x2_0_1 (V c (Pipeline.arrRef spec5 1))) (V c (Pipeline.arrRef spec5 0)) := by
  rw [final5]
  funext i
  have hb : broadcastInDim Cert.ReferenceIdeal.S3300000x2 ![0, 1] Cert.ReferenceIdeal.Facts₀.bcast_S3300000x1_S3300000x2_0_1 (V c (Pipeline.arrRef spec5 1)) i
      = V c (Pipeline.arrRef spec5 1) (nidx5 i) :=
    broadcastInDim_apply _ _ _ i (nidx5 i) (fun a => match a with
      | ⟨0, _⟩ => by show (i 0).val = if (3300000 : Nat) = 1 then 0 else (i 0).val; rw [if_neg (by decide)]
      | ⟨1, _⟩ => by show 0 = if (1 : Nat) = 1 then 0 else (i 1).val; rw [if_pos rfl])
  show FloatOps.mulf (F := Ideal) (V c (Pipeline.arrRef spec5 0) i) (V c (Pipeline.arrRef spec5 1) (nidx5 i))
    = FloatOps.mulf (F := Ideal) (broadcastInDim Cert.ReferenceIdeal.S3300000x2 ![0, 1] Cert.ReferenceIdeal.Facts₀.bcast_S3300000x1_S3300000x2_0_1 (V c (Pipeline.arrRef spec5 1)) i) (V c (Pipeline.arrRef spec5 0) i)
  rw [hb]
  exact mul_comm _ _

end Cert.KernelIdeal.Frame

end
-- ==== Proof.KI.Val7.lean ====
/-
  Region 7 of @main, the value: the region's output array after the region, as one function of its input arrays as
  the region finds them — row e of the output is row e of the first input times, lane by lane, the one word of row e
  of the second. Every row is covered: the grid's blocks of rows follow one another from row 0, and the last one, cut
  at the array's end, ends there. Each point writes back its block of that function on the rows its transfer moves.
-/
import proofs.«142470_j73658689126826_2_alg».proof.Proof.KI.Reg7

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

/-- The index of the second input's one word of the row of `i`. -/
noncomputable def nidx7 (i : S3300000x2.Idx) : S3300000x1.Idx := fun a => match a with
  | ⟨0, _⟩ => ⟨(i 0).val, (i 0).isLt⟩
  | ⟨1, _⟩ => ⟨0, Nat.one_pos⟩

/-- What the output array ends holding: index by index, the first input times the second's word of the same row. -/
noncomputable def G7 (c : Dev nD) : S3300000x2.Idx → Elt F .f32 :=
  fun i => FloatOps.mulf (V c (Pipeline.arrRef spec7 0) i) (V c (Pipeline.arrRef spec7 1) (nidx7 i))

/-- The printed index maps and cuts, decided over the grid: every window's block index at point `t` is `(t, 0)`, and
    the output's transfer there moves all the lanes of the rows from `t` blocks on that lie inside the array. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_2.xsize (grid7.coords t) (0 : Fin 2) = min 8192 (3300000 - t.val * 8192)
    ∧ win7_2.xsize (grid7.coords t) (1 : Fin 2) = 2 :=
  (by decide +kernel : ∀ t : Fin grid7.N, _)

/-- WHAT POINT `t` WRITES BACK is block `t` of `G7`, on the rows inside the array. -/
theorem flushed7_eq (c : Dev nD) (t : Fin cfg7.N) :
    (dat7 V c).flushed 2 t = ((cfg7.win 2).blk t).view.read (Elt F) (G7 V c) := by
  show (cfg7.win 2).cut (cfg7.grid.coords t) ((dat7 V c).after 2 t) = _
  rw [cut_after7_2]
  obtain ⟨e0, e1, e2, e3, e4, e5, -, -⟩ := idx_facts7 t
  funext j
  show FloatOps.mulf (V c (Pipeline.arrRef spec7 0) (((cfg7.win 0).blk t).view.emb (idx7_0 (cfg7.grid.coords t) j)))
      (V c (Pipeline.arrRef spec7 1) (((cfg7.win 1).blk t).view.emb (idx7_1 (cfg7.grid.coords t) j)))
    = FloatOps.mulf (V c (Pipeline.arrRef spec7 0) (((cfg7.win 2).blk t).view.emb j))
      (V c (Pipeline.arrRef spec7 1) (nidx7 (((cfg7.win 2).blk t).view.emb j)))
  have h0 : ((cfg7.win 0).blk t).view.emb (idx7_0 (cfg7.grid.coords t) j) = ((cfg7.win 2).blk t).view.emb j := by
    funext a; apply Fin.ext
    match a with
    | ⟨0, _⟩ => show win7_0.index t (0 : Fin 2) * 8192 + 1 * (j 0).val = win7_2.index t (0 : Fin 2) * 8192 + 1 * (j 0).val; rw [e0, e4]
    | ⟨1, _⟩ => show win7_0.index t (1 : Fin 2) * 2 + 1 * (j 1).val = win7_2.index t (1 : Fin 2) * 2 + 1 * (j 1).val; rw [e1, e5]
  have h1 : ((cfg7.win 1).blk t).view.emb (idx7_1 (cfg7.grid.coords t) j) = nidx7 (((cfg7.win 2).blk t).view.emb j) := by
    funext a; apply Fin.ext
    match a with
    | ⟨0, _⟩ => show win7_1.index t (0 : Fin 2) * 8192 + 1 * (j 0).val = win7_2.index t (0 : Fin 2) * 8192 + 1 * (j 0).val; rw [e2, e4]
    | ⟨1, _⟩ => show win7_1.index t (1 : Fin 2) * 1 + 1 * 0 = 0; rw [e3]
  rw [h0, h1]

/-- An index of the array is in point `t`'s block iff each coordinate is in the range the block's transfer moves
    on its axis. -/
theorem mem_blk7 (t : Fin cfg7.N) (i : S3300000x2.Idx) :
    i ∈ ((cfg7.win 2).blk t).view.set ↔ ∀ a : Fin 2, win7_2.index t a * S8192x2.size a ≤ (i a).val ∧ (i a).val < win7_2.index t a * S8192x2.size a + win7_2.xsize (grid7.coords t) a := by
  show i ∈ ((View.whole (Pipeline.arrRef spec7 2)).slice (win7_2.rect t)).set ↔ _
  rw [View.set_slice_whole, Rect.mem_set_unit]
  exact Iff.rfl

/-- Every index of the array is in some point's block: the one of its row's block of rows. -/
theorem covered7 (i : S3300000x2.Idx) : ∃ t : Fin cfg7.N, (cfg7.win 2).flush t = true ∧ i ∈ ((cfg7.win 2).blk t).view.set := by
  have hi0 : (i 0).val < 3300000 := (i 0).isLt
  have hi1 : (i 1).val < 2 := (i 1).isLt
  have hN : cfg7.N = 403 := N_7
  refine ⟨⟨(i 0).val / 8192, by rw [hN]; omega⟩, flush7_2 _, ?_⟩
  rw [mem_blk7]
  obtain ⟨-, -, -, -, e4, e5, e6, e7⟩ := idx_facts7 ⟨(i 0).val / 8192, by rw [hN]; omega⟩
  intro a
  match a with
  | ⟨0, _⟩ =>
    show win7_2.index _ (0 : Fin 2) * 8192 ≤ (i 0).val ∧ (i 0).val < win7_2.index _ (0 : Fin 2) * 8192 + win7_2.xsize _ (0 : Fin 2)
    rw [e4, e6]
    show (i 0).val / 8192 * 8192 ≤ (i 0).val ∧ (i 0).val < (i 0).val / 8192 * 8192 + min 8192 (3300000 - (i 0).val / 8192 * 8192)
    omega
  | ⟨1, _⟩ =>
    show win7_2.index _ (1 : Fin 2) * 2 ≤ (i 1).val ∧ (i 1).val < win7_2.index _ (1 : Fin 2) * 2 + win7_2.xsize _ (1 : Fin 2)
    rw [e5, e7]
    omega

/-- THE ARRAY after the region: `G7` of the input arrays, everywhere. -/
theorem final7 (c : Dev nD) : (dat7 V c).arrAt 2 cfg7.N
    = fun i => FloatOps.mulf (V c (Pipeline.arrRef spec7 0) i) (V c (Pipeline.arrRef spec7 1) (nidx7 i)) :=
  (dat7 V c).arrAt_eq_of_cover 2 (G7 V c) (fun t _ => flushed7_eq V c t) (covered7)

end Cert.KernelIdeal.Frame

end
-- ==== Proof.KI.Eq7.lean ====
/-
  Region 7 of @main against the reference: the region's output array, which is one function of its input arrays
  index by index, is the reference's own host operations applied to those arrays as wholes — the product, the factors in the other order, of the second input broadcast along the lanes and the first input. At the ideal
  float instance (the extended reals).
-/
import proofs.«142470_j73658689126826_2_alg».proof.Proof.KI.Val7
import proofs.«142470_j73658689126826_2_alg».proof.Proof.Gen.ReferenceIdeal
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

set_option maxHeartbeats 1000000 in
/-- The region's output is the reference's product, the factors in the other order, of the second input broadcast
    along the lanes and the first input. -/
theorem region7_eq (c : Dev nD) : (dat7 (F := Ideal) V c).arrAt 2 cfg7.N
    = mulf (F := Ideal) (s := Cert.ReferenceIdeal.S3300000x2) (φ := .f32) (broadcastInDim Cert.ReferenceIdeal.S3300000x2 ![0, 1] Cert.ReferenceIdeal.Facts₀.bcast_S3300000x1_S3300000x2_0_1 (V c (Pipeline.arrRef spec7 1))) (V c (Pipeline.arrRef spec7 0)) := by
  rw [final7]
  funext i
  have hb : broadcastInDim Cert.ReferenceIdeal.S3300000x2 ![0, 1] Cert.ReferenceIdeal.Facts₀.bcast_S3300000x1_S3300000x2_0_1 (V c (Pipeline.arrRef spec7 1)) i
      = V c (Pipeline.arrRef spec7 1) (nidx7 i) :=
    broadcastInDim_apply _ _ _ i (nidx7 i) (fun a => match a with
      | ⟨0, _⟩ => by show (i 0).val = if (3300000 : Nat) = 1 then 0 else (i 0).val; rw [if_neg (by decide)]
      | ⟨1, _⟩ => by show 0 = if (1 : Nat) = 1 then 0 else (i 1).val; rw [if_pos rfl])
  show FloatOps.mulf (F := Ideal) (V c (Pipeline.arrRef spec7 0) i) (V c (Pipeline.arrRef spec7 1) (nidx7 i))
    = FloatOps.mulf (F := Ideal) (broadcastInDim Cert.ReferenceIdeal.S3300000x2 ![0, 1] Cert.ReferenceIdeal.Facts₀.bcast_S3300000x1_S3300000x2_0_1 (V c (Pipeline.arrRef spec7 1)) i) (V c (Pipeline.arrRef spec7 0) i)
  rw [hb]
  exact mul_comm _ _

end Cert.KernelIdeal.Frame

end
-- ==== Proof.KI.Val9.lean ====
/-
  Region 9 of @main, the value: the region's output array after the region, as one function of its input arrays as
  the region finds them — row e of the output is row e of the first input times, lane by lane, the one word of row e
  of the second. Every row is covered: the grid's blocks of rows follow one another from row 0, and the last one, cut
  at the array's end, ends there. Each point writes back its block of that function on the rows its transfer moves.
-/
import proofs.«142470_j73658689126826_2_alg».proof.Proof.KI.Reg9

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

/-- The index of the second input's one word of the row of `i`. -/
noncomputable def nidx9 (i : S3300000x2.Idx) : S3300000x1.Idx := fun a => match a with
  | ⟨0, _⟩ => ⟨(i 0).val, (i 0).isLt⟩
  | ⟨1, _⟩ => ⟨0, Nat.one_pos⟩

/-- What the output array ends holding: index by index, the first input times the second's word of the same row. -/
noncomputable def G9 (c : Dev nD) : S3300000x2.Idx → Elt F .f32 :=
  fun i => FloatOps.mulf (V c (Pipeline.arrRef spec9 0) i) (V c (Pipeline.arrRef spec9 1) (nidx9 i))

/-- The printed index maps and cuts, decided over the grid: every window's block index at point `t` is `(t, 0)`, and
    the output's transfer there moves all the lanes of the rows from `t` blocks on that lie inside the array. -/
theorem idx_facts9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_2.xsize (grid9.coords t) (0 : Fin 2) = min 8192 (3300000 - t.val * 8192)
    ∧ win9_2.xsize (grid9.coords t) (1 : Fin 2) = 2 :=
  (by decide +kernel : ∀ t : Fin grid9.N, _)

/-- WHAT POINT `t` WRITES BACK is block `t` of `G9`, on the rows inside the array. -/
theorem flushed9_eq (c : Dev nD) (t : Fin cfg9.N) :
    (dat9 V c).flushed 2 t = ((cfg9.win 2).blk t).view.read (Elt F) (G9 V c) := by
  show (cfg9.win 2).cut (cfg9.grid.coords t) ((dat9 V c).after 2 t) = _
  rw [cut_after9_2]
  obtain ⟨e0, e1, e2, e3, e4, e5, -, -⟩ := idx_facts9 t
  funext j
  show FloatOps.mulf (V c (Pipeline.arrRef spec9 0) (((cfg9.win 0).blk t).view.emb (idx9_0 (cfg9.grid.coords t) j)))
      (V c (Pipeline.arrRef spec9 1) (((cfg9.win 1).blk t).view.emb (idx9_1 (cfg9.grid.coords t) j)))
    = FloatOps.mulf (V c (Pipeline.arrRef spec9 0) (((cfg9.win 2).blk t).view.emb j))
      (V c (Pipeline.arrRef spec9 1) (nidx9 (((cfg9.win 2).blk t).view.emb j)))
  have h0 : ((cfg9.win 0).blk t).view.emb (idx9_0 (cfg9.grid.coords t) j) = ((cfg9.win 2).blk t).view.emb j := by
    funext a; apply Fin.ext
    match a with
    | ⟨0, _⟩ => show win9_0.index t (0 : Fin 2) * 8192 + 1 * (j 0).val = win9_2.index t (0 : Fin 2) * 8192 + 1 * (j 0).val; rw [e0, e4]
    | ⟨1, _⟩ => show win9_0.index t (1 : Fin 2) * 2 + 1 * (j 1).val = win9_2.index t (1 : Fin 2) * 2 + 1 * (j 1).val; rw [e1, e5]
  have h1 : ((cfg9.win 1).blk t).view.emb (idx9_1 (cfg9.grid.coords t) j) = nidx9 (((cfg9.win 2).blk t).view.emb j) := by
    funext a; apply Fin.ext
    match a with
    | ⟨0, _⟩ => show win9_1.index t (0 : Fin 2) * 8192 + 1 * (j 0).val = win9_2.index t (0 : Fin 2) * 8192 + 1 * (j 0).val; rw [e2, e4]
    | ⟨1, _⟩ => show win9_1.index t (1 : Fin 2) * 1 + 1 * 0 = 0; rw [e3]
  rw [h0, h1]

/-- An index of the array is in point `t`'s block iff each coordinate is in the range the block's transfer moves
    on its axis. -/
theorem mem_blk9 (t : Fin cfg9.N) (i : S3300000x2.Idx) :
    i ∈ ((cfg9.win 2).blk t).view.set ↔ ∀ a : Fin 2, win9_2.index t a * S8192x2.size a ≤ (i a).val ∧ (i a).val < win9_2.index t a * S8192x2.size a + win9_2.xsize (grid9.coords t) a := by
  show i ∈ ((View.whole (Pipeline.arrRef spec9 2)).slice (win9_2.rect t)).set ↔ _
  rw [View.set_slice_whole, Rect.mem_set_unit]
  exact Iff.rfl

/-- Every index of the array is in some point's block: the one of its row's block of rows. -/
theorem covered9 (i : S3300000x2.Idx) : ∃ t : Fin cfg9.N, (cfg9.win 2).flush t = true ∧ i ∈ ((cfg9.win 2).blk t).view.set := by
  have hi0 : (i 0).val < 3300000 := (i 0).isLt
  have hi1 : (i 1).val < 2 := (i 1).isLt
  have hN : cfg9.N = 403 := N_9
  refine ⟨⟨(i 0).val / 8192, by rw [hN]; omega⟩, flush9_2 _, ?_⟩
  rw [mem_blk9]
  obtain ⟨-, -, -, -, e4, e5, e6, e7⟩ := idx_facts9 ⟨(i 0).val / 8192, by rw [hN]; omega⟩
  intro a
  match a with
  | ⟨0, _⟩ =>
    show win9_2.index _ (0 : Fin 2) * 8192 ≤ (i 0).val ∧ (i 0).val < win9_2.index _ (0 : Fin 2) * 8192 + win9_2.xsize _ (0 : Fin 2)
    rw [e4, e6]
    show (i 0).val / 8192 * 8192 ≤ (i 0).val ∧ (i 0).val < (i 0).val / 8192 * 8192 + min 8192 (3300000 - (i 0).val / 8192 * 8192)
    omega
  | ⟨1, _⟩ =>
    show win9_2.index _ (1 : Fin 2) * 2 ≤ (i 1).val ∧ (i 1).val < win9_2.index _ (1 : Fin 2) * 2 + win9_2.xsize _ (1 : Fin 2)
    rw [e5, e7]
    omega

/-- THE ARRAY after the region: `G9` of the input arrays, everywhere. -/
theorem final9 (c : Dev nD) : (dat9 V c).arrAt 2 cfg9.N
    = fun i => FloatOps.mulf (V c (Pipeline.arrRef spec9 0) i) (V c (Pipeline.arrRef spec9 1) (nidx9 i)) :=
  (dat9 V c).arrAt_eq_of_cover 2 (G9 V c) (fun t _ => flushed9_eq V c t) (covered9)

end Cert.KernelIdeal.Frame

end
-- ==== Proof.KI.Eq9.lean ====
/-
  Region 9 of @main against the reference: the region's output array, which is one function of its input arrays
  index by index, is the reference's own host operations applied to those arrays as wholes — the product, the factors in the other order, of the second input broadcast along the lanes and the first input. At the ideal
  float instance (the extended reals).
-/
import proofs.«142470_j73658689126826_2_alg».proof.Proof.KI.Val9
import proofs.«142470_j73658689126826_2_alg».proof.Proof.Gen.ReferenceIdeal
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

set_option maxHeartbeats 1000000 in
/-- The region's output is the reference's product, the factors in the other order, of the second input broadcast
    along the lanes and the first input. -/
theorem region9_eq (c : Dev nD) : (dat9 (F := Ideal) V c).arrAt 2 cfg9.N
    = mulf (F := Ideal) (s := Cert.ReferenceIdeal.S3300000x2) (φ := .f32) (broadcastInDim Cert.ReferenceIdeal.S3300000x2 ![0, 1] Cert.ReferenceIdeal.Facts₀.bcast_S3300000x1_S3300000x2_0_1 (V c (Pipeline.arrRef spec9 1))) (V c (Pipeline.arrRef spec9 0)) := by
  rw [final9]
  funext i
  have hb : broadcastInDim Cert.ReferenceIdeal.S3300000x2 ![0, 1] Cert.ReferenceIdeal.Facts₀.bcast_S3300000x1_S3300000x2_0_1 (V c (Pipeline.arrRef spec9 1)) i
      = V c (Pipeline.arrRef spec9 1) (nidx9 i) :=
    broadcastInDim_apply _ _ _ i (nidx9 i) (fun a => match a with
      | ⟨0, _⟩ => by show (i 0).val = if (3300000 : Nat) = 1 then 0 else (i 0).val; rw [if_neg (by decide)]
      | ⟨1, _⟩ => by show 0 = if (1 : Nat) = 1 then 0 else (i 1).val; rw [if_pos rfl])
  show FloatOps.mulf (F := Ideal) (V c (Pipeline.arrRef spec9 0) i) (V c (Pipeline.arrRef spec9 1) (nidx9 i))
    = FloatOps.mulf (F := Ideal) (broadcastInDim Cert.ReferenceIdeal.S3300000x2 ![0, 1] Cert.ReferenceIdeal.Facts₀.bcast_S3300000x1_S3300000x2_0_1 (V c (Pipeline.arrRef spec9 1)) i) (V c (Pipeline.arrRef spec9 0) i)
  rw [hb]
  exact mul_comm _ _

end Cert.KernelIdeal.Frame

end
-- ==== Proof.KI.Val11.lean ====
/-
  Region 11 of @main, the value: the region's output array after the region, as one function of its input arrays as
  the region finds them — row e of the output is row e of the first input times, lane by lane, the one word of row e
  of the second. Every row is covered: the grid's blocks of rows follow one another from row 0, and the last one, cut
  at the array's end, ends there. Each point writes back its block of that function on the rows its transfer moves.
-/
import proofs.«142470_j73658689126826_2_alg».proof.Proof.KI.Reg11

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

/-- The index of the second input's one word of the row of `i`. -/
noncomputable def nidx11 (i : S3300000x2.Idx) : S3300000x1.Idx := fun a => match a with
  | ⟨0, _⟩ => ⟨(i 0).val, (i 0).isLt⟩
  | ⟨1, _⟩ => ⟨0, Nat.one_pos⟩

/-- What the output array ends holding: index by index, the first input times the second's word of the same row. -/
noncomputable def G11 (c : Dev nD) : S3300000x2.Idx → Elt F .f32 :=
  fun i => FloatOps.mulf (V c (Pipeline.arrRef spec11 0) i) (V c (Pipeline.arrRef spec11 1) (nidx11 i))

/-- The printed index maps and cuts, decided over the grid: every window's block index at point `t` is `(t, 0)`, and
    the output's transfer there moves all the lanes of the rows from `t` blocks on that lie inside the array. -/
theorem idx_facts11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_2.xsize (grid11.coords t) (0 : Fin 2) = min 8192 (3300000 - t.val * 8192)
    ∧ win11_2.xsize (grid11.coords t) (1 : Fin 2) = 2 :=
  (by decide +kernel : ∀ t : Fin grid11.N, _)

/-- WHAT POINT `t` WRITES BACK is block `t` of `G11`, on the rows inside the array. -/
theorem flushed11_eq (c : Dev nD) (t : Fin cfg11.N) :
    (dat11 V c).flushed 2 t = ((cfg11.win 2).blk t).view.read (Elt F) (G11 V c) := by
  show (cfg11.win 2).cut (cfg11.grid.coords t) ((dat11 V c).after 2 t) = _
  rw [cut_after11_2]
  obtain ⟨e0, e1, e2, e3, e4, e5, -, -⟩ := idx_facts11 t
  funext j
  show FloatOps.mulf (V c (Pipeline.arrRef spec11 0) (((cfg11.win 0).blk t).view.emb (idx11_0 (cfg11.grid.coords t) j)))
      (V c (Pipeline.arrRef spec11 1) (((cfg11.win 1).blk t).view.emb (idx11_1 (cfg11.grid.coords t) j)))
    = FloatOps.mulf (V c (Pipeline.arrRef spec11 0) (((cfg11.win 2).blk t).view.emb j))
      (V c (Pipeline.arrRef spec11 1) (nidx11 (((cfg11.win 2).blk t).view.emb j)))
  have h0 : ((cfg11.win 0).blk t).view.emb (idx11_0 (cfg11.grid.coords t) j) = ((cfg11.win 2).blk t).view.emb j := by
    funext a; apply Fin.ext
    match a with
    | ⟨0, _⟩ => show win11_0.index t (0 : Fin 2) * 8192 + 1 * (j 0).val = win11_2.index t (0 : Fin 2) * 8192 + 1 * (j 0).val; rw [e0, e4]
    | ⟨1, _⟩ => show win11_0.index t (1 : Fin 2) * 2 + 1 * (j 1).val = win11_2.index t (1 : Fin 2) * 2 + 1 * (j 1).val; rw [e1, e5]
  have h1 : ((cfg11.win 1).blk t).view.emb (idx11_1 (cfg11.grid.coords t) j) = nidx11 (((cfg11.win 2).blk t).view.emb j) := by
    funext a; apply Fin.ext
    match a with
    | ⟨0, _⟩ => show win11_1.index t (0 : Fin 2) * 8192 + 1 * (j 0).val = win11_2.index t (0 : Fin 2) * 8192 + 1 * (j 0).val; rw [e2, e4]
    | ⟨1, _⟩ => show win11_1.index t (1 : Fin 2) * 1 + 1 * 0 = 0; rw [e3]
  rw [h0, h1]

/-- An index of the array is in point `t`'s block iff each coordinate is in the range the block's transfer moves
    on its axis. -/
theorem mem_blk11 (t : Fin cfg11.N) (i : S3300000x2.Idx) :
    i ∈ ((cfg11.win 2).blk t).view.set ↔ ∀ a : Fin 2, win11_2.index t a * S8192x2.size a ≤ (i a).val ∧ (i a).val < win11_2.index t a * S8192x2.size a + win11_2.xsize (grid11.coords t) a := by
  show i ∈ ((View.whole (Pipeline.arrRef spec11 2)).slice (win11_2.rect t)).set ↔ _
  rw [View.set_slice_whole, Rect.mem_set_unit]
  exact Iff.rfl

/-- Every index of the array is in some point's block: the one of its row's block of rows. -/
theorem covered11 (i : S3300000x2.Idx) : ∃ t : Fin cfg11.N, (cfg11.win 2).flush t = true ∧ i ∈ ((cfg11.win 2).blk t).view.set := by
  have hi0 : (i 0).val < 3300000 := (i 0).isLt
  have hi1 : (i 1).val < 2 := (i 1).isLt
  have hN : cfg11.N = 403 := N_11
  refine ⟨⟨(i 0).val / 8192, by rw [hN]; omega⟩, flush11_2 _, ?_⟩
  rw [mem_blk11]
  obtain ⟨-, -, -, -, e4, e5, e6, e7⟩ := idx_facts11 ⟨(i 0).val / 8192, by rw [hN]; omega⟩
  intro a
  match a with
  | ⟨0, _⟩ =>
    show win11_2.index _ (0 : Fin 2) * 8192 ≤ (i 0).val ∧ (i 0).val < win11_2.index _ (0 : Fin 2) * 8192 + win11_2.xsize _ (0 : Fin 2)
    rw [e4, e6]
    show (i 0).val / 8192 * 8192 ≤ (i 0).val ∧ (i 0).val < (i 0).val / 8192 * 8192 + min 8192 (3300000 - (i 0).val / 8192 * 8192)
    omega
  | ⟨1, _⟩ =>
    show win11_2.index _ (1 : Fin 2) * 2 ≤ (i 1).val ∧ (i 1).val < win11_2.index _ (1 : Fin 2) * 2 + win11_2.xsize _ (1 : Fin 2)
    rw [e5, e7]
    omega

/-- THE ARRAY after the region: `G11` of the input arrays, everywhere. -/
theorem final11 (c : Dev nD) : (dat11 V c).arrAt 2 cfg11.N
    = fun i => FloatOps.mulf (V c (Pipeline.arrRef spec11 0) i) (V c (Pipeline.arrRef spec11 1) (nidx11 i)) :=
  (dat11 V c).arrAt_eq_of_cover 2 (G11 V c) (fun t _ => flushed11_eq V c t) (covered11)

end Cert.KernelIdeal.Frame

end
-- ==== Proof.KI.Eq11.lean ====
/-
  Region 11 of @main against the reference: the region's output array, which is one function of its input arrays
  index by index, is the reference's own host operations applied to those arrays as wholes — the product, the factors in the other order, of the second input broadcast along the lanes and the first input. At the ideal
  float instance (the extended reals).
-/
import proofs.«142470_j73658689126826_2_alg».proof.Proof.KI.Val11
import proofs.«142470_j73658689126826_2_alg».proof.Proof.Gen.ReferenceIdeal
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

set_option maxHeartbeats 1000000 in
/-- The region's output is the reference's product, the factors in the other order, of the second input broadcast
    along the lanes and the first input. -/
theorem region11_eq (c : Dev nD) : (dat11 (F := Ideal) V c).arrAt 2 cfg11.N
    = mulf (F := Ideal) (s := Cert.ReferenceIdeal.S3300000x2) (φ := .f32) (broadcastInDim Cert.ReferenceIdeal.S3300000x2 ![0, 1] Cert.ReferenceIdeal.Facts₀.bcast_S3300000x1_S3300000x2_0_1 (V c (Pipeline.arrRef spec11 1))) (V c (Pipeline.arrRef spec11 0)) := by
  rw [final11]
  funext i
  have hb : broadcastInDim Cert.ReferenceIdeal.S3300000x2 ![0, 1] Cert.ReferenceIdeal.Facts₀.bcast_S3300000x1_S3300000x2_0_1 (V c (Pipeline.arrRef spec11 1)) i
      = V c (Pipeline.arrRef spec11 1) (nidx11 i) :=
    broadcastInDim_apply _ _ _ i (nidx11 i) (fun a => match a with
      | ⟨0, _⟩ => by show (i 0).val = if (3300000 : Nat) = 1 then 0 else (i 0).val; rw [if_neg (by decide)]
      | ⟨1, _⟩ => by show 0 = if (1 : Nat) = 1 then 0 else (i 1).val; rw [if_pos rfl])
  show FloatOps.mulf (F := Ideal) (V c (Pipeline.arrRef spec11 0) i) (V c (Pipeline.arrRef spec11 1) (nidx11 i))
    = FloatOps.mulf (F := Ideal) (broadcastInDim Cert.ReferenceIdeal.S3300000x2 ![0, 1] Cert.ReferenceIdeal.Facts₀.bcast_S3300000x1_S3300000x2_0_1 (V c (Pipeline.arrRef spec11 1)) i) (V c (Pipeline.arrRef spec11 0) i)
  rw [hb]
  exact mul_comm _ _

end Cert.KernelIdeal.Frame

end
-- ==== Proof.KI.Val13.lean ====
/-
  Region 13 of @main, the value: the region's output array after the region, as one function of its input arrays as
  the region finds them — row e of the output is row e of the first input times, lane by lane, the one word of row e
  of the second. Every row is covered: the grid's blocks of rows follow one another from row 0, and the last one, cut
  at the array's end, ends there. Each point writes back its block of that function on the rows its transfer moves.
-/
import proofs.«142470_j73658689126826_2_alg».proof.Proof.KI.Reg13

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

/-- The index of the second input's one word of the row of `i`. -/
noncomputable def nidx13 (i : S3300000x2.Idx) : S3300000x1.Idx := fun a => match a with
  | ⟨0, _⟩ => ⟨(i 0).val, (i 0).isLt⟩
  | ⟨1, _⟩ => ⟨0, Nat.one_pos⟩

/-- What the output array ends holding: index by index, the first input times the second's word of the same row. -/
noncomputable def G13 (c : Dev nD) : S3300000x2.Idx → Elt F .f32 :=
  fun i => FloatOps.mulf (V c (Pipeline.arrRef spec13 0) i) (V c (Pipeline.arrRef spec13 1) (nidx13 i))

/-- The printed index maps and cuts, decided over the grid: every window's block index at point `t` is `(t, 0)`, and
    the output's transfer there moves all the lanes of the rows from `t` blocks on that lie inside the array. -/
theorem idx_facts13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_2.xsize (grid13.coords t) (0 : Fin 2) = min 8192 (3300000 - t.val * 8192)
    ∧ win13_2.xsize (grid13.coords t) (1 : Fin 2) = 2 :=
  (by decide +kernel : ∀ t : Fin grid13.N, _)

/-- WHAT POINT `t` WRITES BACK is block `t` of `G13`, on the rows inside the array. -/
theorem flushed13_eq (c : Dev nD) (t : Fin cfg13.N) :
    (dat13 V c).flushed 2 t = ((cfg13.win 2).blk t).view.read (Elt F) (G13 V c) := by
  show (cfg13.win 2).cut (cfg13.grid.coords t) ((dat13 V c).after 2 t) = _
  rw [cut_after13_2]
  obtain ⟨e0, e1, e2, e3, e4, e5, -, -⟩ := idx_facts13 t
  funext j
  show FloatOps.mulf (V c (Pipeline.arrRef spec13 0) (((cfg13.win 0).blk t).view.emb (idx13_0 (cfg13.grid.coords t) j)))
      (V c (Pipeline.arrRef spec13 1) (((cfg13.win 1).blk t).view.emb (idx13_1 (cfg13.grid.coords t) j)))
    = FloatOps.mulf (V c (Pipeline.arrRef spec13 0) (((cfg13.win 2).blk t).view.emb j))
      (V c (Pipeline.arrRef spec13 1) (nidx13 (((cfg13.win 2).blk t).view.emb j)))
  have h0 : ((cfg13.win 0).blk t).view.emb (idx13_0 (cfg13.grid.coords t) j) = ((cfg13.win 2).blk t).view.emb j := by
    funext a; apply Fin.ext
    match a with
    | ⟨0, _⟩ => show win13_0.index t (0 : Fin 2) * 8192 + 1 * (j 0).val = win13_2.index t (0 : Fin 2) * 8192 + 1 * (j 0).val; rw [e0, e4]
    | ⟨1, _⟩ => show win13_0.index t (1 : Fin 2) * 2 + 1 * (j 1).val = win13_2.index t (1 : Fin 2) * 2 + 1 * (j 1).val; rw [e1, e5]
  have h1 : ((cfg13.win 1).blk t).view.emb (idx13_1 (cfg13.grid.coords t) j) = nidx13 (((cfg13.win 2).blk t).view.emb j) := by
    funext a; apply Fin.ext
    match a with
    | ⟨0, _⟩ => show win13_1.index t (0 : Fin 2) * 8192 + 1 * (j 0).val = win13_2.index t (0 : Fin 2) * 8192 + 1 * (j 0).val; rw [e2, e4]
    | ⟨1, _⟩ => show win13_1.index t (1 : Fin 2) * 1 + 1 * 0 = 0; rw [e3]
  rw [h0, h1]

/-- An index of the array is in point `t`'s block iff each coordinate is in the range the block's transfer moves
    on its axis. -/
theorem mem_blk13 (t : Fin cfg13.N) (i : S3300000x2.Idx) :
    i ∈ ((cfg13.win 2).blk t).view.set ↔ ∀ a : Fin 2, win13_2.index t a * S8192x2.size a ≤ (i a).val ∧ (i a).val < win13_2.index t a * S8192x2.size a + win13_2.xsize (grid13.coords t) a := by
  show i ∈ ((View.whole (Pipeline.arrRef spec13 2)).slice (win13_2.rect t)).set ↔ _
  rw [View.set_slice_whole, Rect.mem_set_unit]
  exact Iff.rfl

/-- Every index of the array is in some point's block: the one of its row's block of rows. -/
theorem covered13 (i : S3300000x2.Idx) : ∃ t : Fin cfg13.N, (cfg13.win 2).flush t = true ∧ i ∈ ((cfg13.win 2).blk t).view.set := by
  have hi0 : (i 0).val < 3300000 := (i 0).isLt
  have hi1 : (i 1).val < 2 := (i 1).isLt
  have hN : cfg13.N = 403 := N_13
  refine ⟨⟨(i 0).val / 8192, by rw [hN]; omega⟩, flush13_2 _, ?_⟩
  rw [mem_blk13]
  obtain ⟨-, -, -, -, e4, e5, e6, e7⟩ := idx_facts13 ⟨(i 0).val / 8192, by rw [hN]; omega⟩
  intro a
  match a with
  | ⟨0, _⟩ =>
    show win13_2.index _ (0 : Fin 2) * 8192 ≤ (i 0).val ∧ (i 0).val < win13_2.index _ (0 : Fin 2) * 8192 + win13_2.xsize _ (0 : Fin 2)
    rw [e4, e6]
    show (i 0).val / 8192 * 8192 ≤ (i 0).val ∧ (i 0).val < (i 0).val / 8192 * 8192 + min 8192 (3300000 - (i 0).val / 8192 * 8192)
    omega
  | ⟨1, _⟩ =>
    show win13_2.index _ (1 : Fin 2) * 2 ≤ (i 1).val ∧ (i 1).val < win13_2.index _ (1 : Fin 2) * 2 + win13_2.xsize _ (1 : Fin 2)
    rw [e5, e7]
    omega

/-- THE ARRAY after the region: `G13` of the input arrays, everywhere. -/
theorem final13 (c : Dev nD) : (dat13 V c).arrAt 2 cfg13.N
    = fun i => FloatOps.mulf (V c (Pipeline.arrRef spec13 0) i) (V c (Pipeline.arrRef spec13 1) (nidx13 i)) :=
  (dat13 V c).arrAt_eq_of_cover 2 (G13 V c) (fun t _ => flushed13_eq V c t) (covered13)

end Cert.KernelIdeal.Frame

end
-- ==== Proof.KI.Eq13.lean ====
/-
  Region 13 of @main against the reference: the region's output array, which is one function of its input arrays
  index by index, is the reference's own host operations applied to those arrays as wholes — the product, the factors in the other order, of the second input broadcast along the lanes and the first input. At the ideal
  float instance (the extended reals).
-/
import proofs.«142470_j73658689126826_2_alg».proof.Proof.KI.Val13
import proofs.«142470_j73658689126826_2_alg».proof.Proof.Gen.ReferenceIdeal
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

set_option maxHeartbeats 1000000 in
/-- The region's output is the reference's product, the factors in the other order, of the second input broadcast
    along the lanes and the first input. -/
theorem region13_eq (c : Dev nD) : (dat13 (F := Ideal) V c).arrAt 2 cfg13.N
    = mulf (F := Ideal) (s := Cert.ReferenceIdeal.S3300000x2) (φ := .f32) (broadcastInDim Cert.ReferenceIdeal.S3300000x2 ![0, 1] Cert.ReferenceIdeal.Facts₀.bcast_S3300000x1_S3300000x2_0_1 (V c (Pipeline.arrRef spec13 1))) (V c (Pipeline.arrRef spec13 0)) := by
  rw [final13]
  funext i
  have hb : broadcastInDim Cert.ReferenceIdeal.S3300000x2 ![0, 1] Cert.ReferenceIdeal.Facts₀.bcast_S3300000x1_S3300000x2_0_1 (V c (Pipeline.arrRef spec13 1)) i
      = V c (Pipeline.arrRef spec13 1) (nidx13 i) :=
    broadcastInDim_apply _ _ _ i (nidx13 i) (fun a => match a with
      | ⟨0, _⟩ => by show (i 0).val = if (3300000 : Nat) = 1 then 0 else (i 0).val; rw [if_neg (by decide)]
      | ⟨1, _⟩ => by show 0 = if (1 : Nat) = 1 then 0 else (i 1).val; rw [if_pos rfl])
  show FloatOps.mulf (F := Ideal) (V c (Pipeline.arrRef spec13 0) i) (V c (Pipeline.arrRef spec13 1) (nidx13 i))
    = FloatOps.mulf (F := Ideal) (broadcastInDim Cert.ReferenceIdeal.S3300000x2 ![0, 1] Cert.ReferenceIdeal.Facts₀.bcast_S3300000x1_S3300000x2_0_1 (V c (Pipeline.arrRef spec13 1)) i) (V c (Pipeline.arrRef spec13 0) i)
  rw [hb]
  exact mul_comm _ _

end Cert.KernelIdeal.Frame

end
-- ==== Proof.KI.Val6.lean ====
/-
  Region 6 of @main, the value: the region's output array after the region, as one function of its input arrays as
  the region finds them, index by index — a fixed weight times the first input plus the complementary weight times the second. The grid's blocks of rows tile the array: every index is in the
  block of its row's block of rows, and each point writes back its block of that function.
-/
import proofs.«142470_j73658689126826_2_alg».proof.Proof.KI.Reg6
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- What the output array ends holding: index by index, a fixed weight times the first input plus the complementary
    weight times the second (the two weights the body's two constants). -/
noncomputable def G6 (c : Dev nD) : S100000x2.Idx → Elt F .f32 :=
  fun i => FloatOps.addf (FloatOps.mulf (Scalar.ofBits .f32 0x3F4CCCCD#32) (V c (Pipeline.arrRef spec6 0) i)) (FloatOps.mulf (Scalar.ofBits .f32 0x3E4CCCCD#32) (V c (Pipeline.arrRef spec6 1) i))

/-- The loads read the buffers whole and the one store writes its payload whole: the body's value. -/
theorem out6_2_eq (x0 : Vec F S10000x2 .f32) (x1 : Vec F S10000x2 .f32) : out6_2 x0 x1 = k6_pay1 x0 x1 := by
  have hz : (![0, 0] : Fin 2 → Nat) = fun _ => 0 := funext fun a => by fin_cases a <;> rfl
  unfold out6_2
  rw [View.canon_unit_zero hz, View.ld_unit_zero hz, View.ld_unit_zero hz]

/-- The body's value at an index. -/
theorem pay6_apply (X0 : Vec F S10000x2 .f32) (X1 : Vec F S10000x2 .f32) (j : S10000x2.Idx) :
    k6_pay1 X0 X1 j = FloatOps.addf (FloatOps.mulf (Scalar.ofBits .f32 0x3F4CCCCD#32) (X0 j)) (FloatOps.mulf (Scalar.ofBits .f32 0x3E4CCCCD#32) (X1 j)) := by
  show FloatOps.addf (FloatOps.mulf (Scalar.ofBits .f32 0x3F4CCCCD#32) (shapeCast S10000x2 X0 shapeCasts_S10000x2_S10000x2 j)) (FloatOps.mulf (Scalar.ofBits .f32 0x3E4CCCCD#32) (shapeCast S10000x2 X1 shapeCasts_S10000x2_S10000x2 j))
    = _
  rw [shapeCast_self, shapeCast_self]

/-- The printed index maps, decided over the grid: every window's block index at point `t` is `(t, 0)`. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- WHAT POINT `t` WRITES BACK is block `t` of `G6`. -/
theorem flushed6_eq (c : Dev nD) (t : Fin cfg6.N) :
    (dat6 V c).flushed 2 t = ((cfg6.win 2).blk t).view.read (Elt F) (G6 V c) := by
  show (cfg6.win 2).cut (cfg6.grid.coords t) ((dat6 V c).after 2 t) = _
  rw [after6_2, out6_2_eq]
  obtain ⟨e0, e1, e2, e3, e4, e5⟩ := idx_facts6 t
  funext j
  show k6_pay1 (iblk6 V c 0 t) (iblk6 V c 1 t) ((cfg6.win 2).xinj (cfg6.grid.coords t) j) = _
  rw [pay6_apply]
  show FloatOps.addf (FloatOps.mulf (Scalar.ofBits .f32 0x3F4CCCCD#32) (V c (Pipeline.arrRef spec6 0) (((cfg6.win 0).blk t).view.emb ((cfg6.win 2).xinj (cfg6.grid.coords t) j))))
      (FloatOps.mulf (Scalar.ofBits .f32 0x3E4CCCCD#32) (V c (Pipeline.arrRef spec6 1) (((cfg6.win 1).blk t).view.emb ((cfg6.win 2).xinj (cfg6.grid.coords t) j))))
    = FloatOps.addf (FloatOps.mulf (Scalar.ofBits .f32 0x3F4CCCCD#32) (V c (Pipeline.arrRef spec6 0) (((cfg6.win 2).blk t).view.emb j)))
      (FloatOps.mulf (Scalar.ofBits .f32 0x3E4CCCCD#32) (V c (Pipeline.arrRef spec6 1) (((cfg6.win 2).blk t).view.emb j)))
  have h0 : ((cfg6.win 0).blk t).view.emb ((cfg6.win 2).xinj (cfg6.grid.coords t) j) = ((cfg6.win 2).blk t).view.emb j := by
    funext a; apply Fin.ext
    match a with
    | ⟨0, _⟩ => show win6_0.index t (0 : Fin 2) * 10000 + 1 * (j 0).val = win6_2.index t (0 : Fin 2) * 10000 + 1 * (j 0).val; rw [e0, e4]
    | ⟨1, _⟩ => show win6_0.index t (1 : Fin 2) * 2 + 1 * (j 1).val = win6_2.index t (1 : Fin 2) * 2 + 1 * (j 1).val; rw [e1, e5]
  have h1 : ((cfg6.win 1).blk t).view.emb ((cfg6.win 2).xinj (cfg6.grid.coords t) j) = ((cfg6.win 2).blk t).view.emb j := by
    funext a; apply Fin.ext
    match a with
    | ⟨0, _⟩ => show win6_1.index t (0 : Fin 2) * 10000 + 1 * (j 0).val = win6_2.index t (0 : Fin 2) * 10000 + 1 * (j 0).val; rw [e2, e4]
    | ⟨1, _⟩ => show win6_1.index t (1 : Fin 2) * 2 + 1 * (j 1).val = win6_2.index t (1 : Fin 2) * 2 + 1 * (j 1).val; rw [e3, e5]
  rw [h0, h1]

/-- An index of the array is in point `t`'s block iff each coordinate is in the block's range on its axis. -/
theorem mem_blk6 (t : Fin cfg6.N) (i : S100000x2.Idx) :
    i ∈ ((cfg6.win 2).blk t).view.set ↔ ∀ a : Fin 2, win6_2.index t a * S10000x2.size a ≤ (i a).val ∧ (i a).val < win6_2.index t a * S10000x2.size a + S10000x2.size a := by
  show i ∈ ((View.whole (Pipeline.arrRef spec6 2)).slice (win6_2.rect t)).set ↔ _
  rw [View.set_slice_whole, Rect.mem_set_unit]
  exact Iff.rfl

/-- Every index of the array is in some point's block: the one of its row's block of rows. -/
theorem covered6 (i : S100000x2.Idx) : ∃ t : Fin cfg6.N, (cfg6.win 2).flush t = true ∧ i ∈ ((cfg6.win 2).blk t).view.set := by
  have hi0 : (i 0).val < 100000 := (i 0).isLt
  have hi1 : (i 1).val < 2 := (i 1).isLt
  have hN : cfg6.N = 10 := N_6
  refine ⟨⟨(i 0).val / 10000, by rw [hN]; omega⟩, flush6_2 _, ?_⟩
  rw [mem_blk6]
  obtain ⟨-, -, -, -, e4, e5⟩ := idx_facts6 ⟨(i 0).val / 10000, by rw [hN]; omega⟩
  intro a
  match a with
  | ⟨0, _⟩ =>
    show win6_2.index _ (0 : Fin 2) * 10000 ≤ (i 0).val ∧ (i 0).val < win6_2.index _ (0 : Fin 2) * 10000 + 10000
    rw [e4]
    show (i 0).val / 10000 * 10000 ≤ (i 0).val ∧ (i 0).val < (i 0).val / 10000 * 10000 + 10000
    omega
  | ⟨1, _⟩ =>
    show win6_2.index _ (1 : Fin 2) * 2 ≤ (i 1).val ∧ (i 1).val < win6_2.index _ (1 : Fin 2) * 2 + 2
    rw [e5]
    omega

/-- THE ARRAY after the region: `G6` of the input arrays, everywhere. -/
theorem final6 (c : Dev nD) : (dat6 V c).arrAt 2 cfg6.N
    = fun i => FloatOps.addf (FloatOps.mulf (Scalar.ofBits .f32 0x3F4CCCCD#32) (V c (Pipeline.arrRef spec6 0) i)) (FloatOps.mulf (Scalar.ofBits .f32 0x3E4CCCCD#32) (V c (Pipeline.arrRef spec6 1) i)) :=
  (dat6 V c).arrAt_eq_of_cover 2 (G6 V c) (fun t _ => flushed6_eq V c t) (covered6)

end Cert.KernelIdeal.Frame

end
-- ==== Proof.KI.Eq6.lean ====
/-
  Region 6 of @main against the reference: the region's output array, which is one function of its input arrays
  index by index, is the reference's own host operations applied to those arrays as wholes — a weight broadcast to the whole shape times the first input, plus the complementary weight times the second. At the ideal
  float instance (the extended reals).
-/
import proofs.«142470_j73658689126826_2_alg».proof.Proof.KI.Val6
import proofs.«142470_j73658689126826_2_alg».proof.Proof.Gen.ReferenceIdeal
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The region's output is the reference's: the first weight broadcast to the whole shape times the first input, plus
    the second weight broadcast times the second input. -/
theorem region6_eq (c : Dev nD) : (dat6 (F := Ideal) V c).arrAt 2 cfg6.N
    = addf (F := Ideal) (s := Cert.ReferenceIdeal.S100000x2) (φ := .f32)
        (mulf (F := Ideal) (s := Cert.ReferenceIdeal.S100000x2) (φ := .f32)
          (broadcastInDim Cert.ReferenceIdeal.S100000x2 ![] Cert.ReferenceIdeal.Facts₀.bcast_S_S100000x2 (constant (F := Ideal) Cert.ReferenceIdeal.S_ .f32 0x3F4CCCCD#32))
          (V c (Pipeline.arrRef spec6 0)))
        (mulf (F := Ideal) (s := Cert.ReferenceIdeal.S100000x2) (φ := .f32)
          (broadcastInDim Cert.ReferenceIdeal.S100000x2 ![] Cert.ReferenceIdeal.Facts₀.bcast_S_S100000x2 (constant (F := Ideal) Cert.ReferenceIdeal.S_ .f32 0x3E4CCCCD#32))
          (V c (Pipeline.arrRef spec6 1))) := by
  rw [final6]
  funext i
  rfl

end Cert.KernelIdeal.Frame

end
-- ==== Proof.KI.Val8.lean ====
/-
  Region 8 of @main, the value: the region's output array after the region, as one function of its input arrays as
  the region finds them, index by index — a fixed weight times the first input plus the complementary weight times the second. The grid's blocks of rows tile the array: every index is in the
  block of its row's block of rows, and each point writes back its block of that function.
-/
import proofs.«142470_j73658689126826_2_alg».proof.Proof.KI.Reg8
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- What the output array ends holding: index by index, a fixed weight times the first input plus the complementary
    weight times the second (the two weights the body's two constants). -/
noncomputable def G8 (c : Dev nD) : S100000x2.Idx → Elt F .f32 :=
  fun i => FloatOps.addf (FloatOps.mulf (Scalar.ofBits .f32 0x3F4CCCCD#32) (V c (Pipeline.arrRef spec8 0) i)) (FloatOps.mulf (Scalar.ofBits .f32 0x3E4CCCCD#32) (V c (Pipeline.arrRef spec8 1) i))

/-- The loads read the buffers whole and the one store writes its payload whole: the body's value. -/
theorem out8_2_eq (x0 : Vec F S10000x2 .f32) (x1 : Vec F S10000x2 .f32) : out8_2 x0 x1 = k8_pay1 x0 x1 := by
  have hz : (![0, 0] : Fin 2 → Nat) = fun _ => 0 := funext fun a => by fin_cases a <;> rfl
  unfold out8_2
  rw [View.canon_unit_zero hz, View.ld_unit_zero hz, View.ld_unit_zero hz]

/-- The body's value at an index. -/
theorem pay8_apply (X0 : Vec F S10000x2 .f32) (X1 : Vec F S10000x2 .f32) (j : S10000x2.Idx) :
    k8_pay1 X0 X1 j = FloatOps.addf (FloatOps.mulf (Scalar.ofBits .f32 0x3F4CCCCD#32) (X0 j)) (FloatOps.mulf (Scalar.ofBits .f32 0x3E4CCCCD#32) (X1 j)) := by
  show FloatOps.addf (FloatOps.mulf (Scalar.ofBits .f32 0x3F4CCCCD#32) (shapeCast S10000x2 X0 shapeCasts_S10000x2_S10000x2 j)) (FloatOps.mulf (Scalar.ofBits .f32 0x3E4CCCCD#32) (shapeCast S10000x2 X1 shapeCasts_S10000x2_S10000x2 j))
    = _
  rw [shapeCast_self, shapeCast_self]

/-- The printed index maps, decided over the grid: every window's block index at point `t` is `(t, 0)`. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0 :=
  (by decide +kernel : ∀ t : Fin grid8.N, _)

/-- WHAT POINT `t` WRITES BACK is block `t` of `G8`. -/
theorem flushed8_eq (c : Dev nD) (t : Fin cfg8.N) :
    (dat8 V c).flushed 2 t = ((cfg8.win 2).blk t).view.read (Elt F) (G8 V c) := by
  show (cfg8.win 2).cut (cfg8.grid.coords t) ((dat8 V c).after 2 t) = _
  rw [after8_2, out8_2_eq]
  obtain ⟨e0, e1, e2, e3, e4, e5⟩ := idx_facts8 t
  funext j
  show k8_pay1 (iblk8 V c 0 t) (iblk8 V c 1 t) ((cfg8.win 2).xinj (cfg8.grid.coords t) j) = _
  rw [pay8_apply]
  show FloatOps.addf (FloatOps.mulf (Scalar.ofBits .f32 0x3F4CCCCD#32) (V c (Pipeline.arrRef spec8 0) (((cfg8.win 0).blk t).view.emb ((cfg8.win 2).xinj (cfg8.grid.coords t) j))))
      (FloatOps.mulf (Scalar.ofBits .f32 0x3E4CCCCD#32) (V c (Pipeline.arrRef spec8 1) (((cfg8.win 1).blk t).view.emb ((cfg8.win 2).xinj (cfg8.grid.coords t) j))))
    = FloatOps.addf (FloatOps.mulf (Scalar.ofBits .f32 0x3F4CCCCD#32) (V c (Pipeline.arrRef spec8 0) (((cfg8.win 2).blk t).view.emb j)))
      (FloatOps.mulf (Scalar.ofBits .f32 0x3E4CCCCD#32) (V c (Pipeline.arrRef spec8 1) (((cfg8.win 2).blk t).view.emb j)))
  have h0 : ((cfg8.win 0).blk t).view.emb ((cfg8.win 2).xinj (cfg8.grid.coords t) j) = ((cfg8.win 2).blk t).view.emb j := by
    funext a; apply Fin.ext
    match a with
    | ⟨0, _⟩ => show win8_0.index t (0 : Fin 2) * 10000 + 1 * (j 0).val = win8_2.index t (0 : Fin 2) * 10000 + 1 * (j 0).val; rw [e0, e4]
    | ⟨1, _⟩ => show win8_0.index t (1 : Fin 2) * 2 + 1 * (j 1).val = win8_2.index t (1 : Fin 2) * 2 + 1 * (j 1).val; rw [e1, e5]
  have h1 : ((cfg8.win 1).blk t).view.emb ((cfg8.win 2).xinj (cfg8.grid.coords t) j) = ((cfg8.win 2).blk t).view.emb j := by
    funext a; apply Fin.ext
    match a with
    | ⟨0, _⟩ => show win8_1.index t (0 : Fin 2) * 10000 + 1 * (j 0).val = win8_2.index t (0 : Fin 2) * 10000 + 1 * (j 0).val; rw [e2, e4]
    | ⟨1, _⟩ => show win8_1.index t (1 : Fin 2) * 2 + 1 * (j 1).val = win8_2.index t (1 : Fin 2) * 2 + 1 * (j 1).val; rw [e3, e5]
  rw [h0, h1]

/-- An index of the array is in point `t`'s block iff each coordinate is in the block's range on its axis. -/
theorem mem_blk8 (t : Fin cfg8.N) (i : S100000x2.Idx) :
    i ∈ ((cfg8.win 2).blk t).view.set ↔ ∀ a : Fin 2, win8_2.index t a * S10000x2.size a ≤ (i a).val ∧ (i a).val < win8_2.index t a * S10000x2.size a + S10000x2.size a := by
  show i ∈ ((View.whole (Pipeline.arrRef spec8 2)).slice (win8_2.rect t)).set ↔ _
  rw [View.set_slice_whole, Rect.mem_set_unit]
  exact Iff.rfl

/-- Every index of the array is in some point's block: the one of its row's block of rows. -/
theorem covered8 (i : S100000x2.Idx) : ∃ t : Fin cfg8.N, (cfg8.win 2).flush t = true ∧ i ∈ ((cfg8.win 2).blk t).view.set := by
  have hi0 : (i 0).val < 100000 := (i 0).isLt
  have hi1 : (i 1).val < 2 := (i 1).isLt
  have hN : cfg8.N = 10 := N_8
  refine ⟨⟨(i 0).val / 10000, by rw [hN]; omega⟩, flush8_2 _, ?_⟩
  rw [mem_blk8]
  obtain ⟨-, -, -, -, e4, e5⟩ := idx_facts8 ⟨(i 0).val / 10000, by rw [hN]; omega⟩
  intro a
  match a with
  | ⟨0, _⟩ =>
    show win8_2.index _ (0 : Fin 2) * 10000 ≤ (i 0).val ∧ (i 0).val < win8_2.index _ (0 : Fin 2) * 10000 + 10000
    rw [e4]
    show (i 0).val / 10000 * 10000 ≤ (i 0).val ∧ (i 0).val < (i 0).val / 10000 * 10000 + 10000
    omega
  | ⟨1, _⟩ =>
    show win8_2.index _ (1 : Fin 2) * 2 ≤ (i 1).val ∧ (i 1).val < win8_2.index _ (1 : Fin 2) * 2 + 2
    rw [e5]
    omega

/-- THE ARRAY after the region: `G8` of the input arrays, everywhere. -/
theorem final8 (c : Dev nD) : (dat8 V c).arrAt 2 cfg8.N
    = fun i => FloatOps.addf (FloatOps.mulf (Scalar.ofBits .f32 0x3F4CCCCD#32) (V c (Pipeline.arrRef spec8 0) i)) (FloatOps.mulf (Scalar.ofBits .f32 0x3E4CCCCD#32) (V c (Pipeline.arrRef spec8 1) i)) :=
  (dat8 V c).arrAt_eq_of_cover 2 (G8 V c) (fun t _ => flushed8_eq V c t) (covered8)

end Cert.KernelIdeal.Frame

end
-- ==== Proof.KI.Eq8.lean ====
/-
  Region 8 of @main against the reference: the region's output array, which is one function of its input arrays
  index by index, is the reference's own host operations applied to those arrays as wholes — a weight broadcast to the whole shape times the first input, plus the complementary weight times the second. At the ideal
  float instance (the extended reals).
-/
import proofs.«142470_j73658689126826_2_alg».proof.Proof.KI.Val8
import proofs.«142470_j73658689126826_2_alg».proof.Proof.Gen.ReferenceIdeal
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The region's output is the reference's: the first weight broadcast to the whole shape times the first input, plus
    the second weight broadcast times the second input. -/
theorem region8_eq (c : Dev nD) : (dat8 (F := Ideal) V c).arrAt 2 cfg8.N
    = addf (F := Ideal) (s := Cert.ReferenceIdeal.S100000x2) (φ := .f32)
        (mulf (F := Ideal) (s := Cert.ReferenceIdeal.S100000x2) (φ := .f32)
          (broadcastInDim Cert.ReferenceIdeal.S100000x2 ![] Cert.ReferenceIdeal.Facts₀.bcast_S_S100000x2 (constant (F := Ideal) Cert.ReferenceIdeal.S_ .f32 0x3F4CCCCD#32))
          (V c (Pipeline.arrRef spec8 0)))
        (mulf (F := Ideal) (s := Cert.ReferenceIdeal.S100000x2) (φ := .f32)
          (broadcastInDim Cert.ReferenceIdeal.S100000x2 ![] Cert.ReferenceIdeal.Facts₀.bcast_S_S100000x2 (constant (F := Ideal) Cert.ReferenceIdeal.S_ .f32 0x3E4CCCCD#32))
          (V c (Pipeline.arrRef spec8 1))) := by
  rw [final8]
  funext i
  rfl

end Cert.KernelIdeal.Frame

end
-- ==== Proof.KI.Val10.lean ====
/-
  Region 10 of @main, the value: the region's output array after the region, as one function of its input arrays as
  the region finds them, index by index — a fixed weight times the first input plus the complementary weight times the second. The grid's blocks of rows tile the array: every index is in the
  block of its row's block of rows, and each point writes back its block of that function.
-/
import proofs.«142470_j73658689126826_2_alg».proof.Proof.KI.Reg10
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- What the output array ends holding: index by index, a fixed weight times the first input plus the complementary
    weight times the second (the two weights the body's two constants). -/
noncomputable def G10 (c : Dev nD) : S100000x2.Idx → Elt F .f32 :=
  fun i => FloatOps.addf (FloatOps.mulf (Scalar.ofBits .f32 0x3F4CCCCD#32) (V c (Pipeline.arrRef spec10 0) i)) (FloatOps.mulf (Scalar.ofBits .f32 0x3E4CCCCD#32) (V c (Pipeline.arrRef spec10 1) i))

/-- The loads read the buffers whole and the one store writes its payload whole: the body's value. -/
theorem out10_2_eq (x0 : Vec F S10000x2 .f32) (x1 : Vec F S10000x2 .f32) : out10_2 x0 x1 = k10_pay1 x0 x1 := by
  have hz : (![0, 0] : Fin 2 → Nat) = fun _ => 0 := funext fun a => by fin_cases a <;> rfl
  unfold out10_2
  rw [View.canon_unit_zero hz, View.ld_unit_zero hz, View.ld_unit_zero hz]

/-- The body's value at an index. -/
theorem pay10_apply (X0 : Vec F S10000x2 .f32) (X1 : Vec F S10000x2 .f32) (j : S10000x2.Idx) :
    k10_pay1 X0 X1 j = FloatOps.addf (FloatOps.mulf (Scalar.ofBits .f32 0x3F4CCCCD#32) (X0 j)) (FloatOps.mulf (Scalar.ofBits .f32 0x3E4CCCCD#32) (X1 j)) := by
  show FloatOps.addf (FloatOps.mulf (Scalar.ofBits .f32 0x3F4CCCCD#32) (shapeCast S10000x2 X0 shapeCasts_S10000x2_S10000x2 j)) (FloatOps.mulf (Scalar.ofBits .f32 0x3E4CCCCD#32) (shapeCast S10000x2 X1 shapeCasts_S10000x2_S10000x2 j))
    = _
  rw [shapeCast_self, shapeCast_self]

/-- The printed index maps, decided over the grid: every window's block index at point `t` is `(t, 0)`. -/
theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0 :=
  (by decide +kernel : ∀ t : Fin grid10.N, _)

/-- WHAT POINT `t` WRITES BACK is block `t` of `G10`. -/
theorem flushed10_eq (c : Dev nD) (t : Fin cfg10.N) :
    (dat10 V c).flushed 2 t = ((cfg10.win 2).blk t).view.read (Elt F) (G10 V c) := by
  show (cfg10.win 2).cut (cfg10.grid.coords t) ((dat10 V c).after 2 t) = _
  rw [after10_2, out10_2_eq]
  obtain ⟨e0, e1, e2, e3, e4, e5⟩ := idx_facts10 t
  funext j
  show k10_pay1 (iblk10 V c 0 t) (iblk10 V c 1 t) ((cfg10.win 2).xinj (cfg10.grid.coords t) j) = _
  rw [pay10_apply]
  show FloatOps.addf (FloatOps.mulf (Scalar.ofBits .f32 0x3F4CCCCD#32) (V c (Pipeline.arrRef spec10 0) (((cfg10.win 0).blk t).view.emb ((cfg10.win 2).xinj (cfg10.grid.coords t) j))))
      (FloatOps.mulf (Scalar.ofBits .f32 0x3E4CCCCD#32) (V c (Pipeline.arrRef spec10 1) (((cfg10.win 1).blk t).view.emb ((cfg10.win 2).xinj (cfg10.grid.coords t) j))))
    = FloatOps.addf (FloatOps.mulf (Scalar.ofBits .f32 0x3F4CCCCD#32) (V c (Pipeline.arrRef spec10 0) (((cfg10.win 2).blk t).view.emb j)))
      (FloatOps.mulf (Scalar.ofBits .f32 0x3E4CCCCD#32) (V c (Pipeline.arrRef spec10 1) (((cfg10.win 2).blk t).view.emb j)))
  have h0 : ((cfg10.win 0).blk t).view.emb ((cfg10.win 2).xinj (cfg10.grid.coords t) j) = ((cfg10.win 2).blk t).view.emb j := by
    funext a; apply Fin.ext
    match a with
    | ⟨0, _⟩ => show win10_0.index t (0 : Fin 2) * 10000 + 1 * (j 0).val = win10_2.index t (0 : Fin 2) * 10000 + 1 * (j 0).val; rw [e0, e4]
    | ⟨1, _⟩ => show win10_0.index t (1 : Fin 2) * 2 + 1 * (j 1).val = win10_2.index t (1 : Fin 2) * 2 + 1 * (j 1).val; rw [e1, e5]
  have h1 : ((cfg10.win 1).blk t).view.emb ((cfg10.win 2).xinj (cfg10.grid.coords t) j) = ((cfg10.win 2).blk t).view.emb j := by
    funext a; apply Fin.ext
    match a with
    | ⟨0, _⟩ => show win10_1.index t (0 : Fin 2) * 10000 + 1 * (j 0).val = win10_2.index t (0 : Fin 2) * 10000 + 1 * (j 0).val; rw [e2, e4]
    | ⟨1, _⟩ => show win10_1.index t (1 : Fin 2) * 2 + 1 * (j 1).val = win10_2.index t (1 : Fin 2) * 2 + 1 * (j 1).val; rw [e3, e5]
  rw [h0, h1]

/-- An index of the array is in point `t`'s block iff each coordinate is in the block's range on its axis. -/
theorem mem_blk10 (t : Fin cfg10.N) (i : S100000x2.Idx) :
    i ∈ ((cfg10.win 2).blk t).view.set ↔ ∀ a : Fin 2, win10_2.index t a * S10000x2.size a ≤ (i a).val ∧ (i a).val < win10_2.index t a * S10000x2.size a + S10000x2.size a := by
  show i ∈ ((View.whole (Pipeline.arrRef spec10 2)).slice (win10_2.rect t)).set ↔ _
  rw [View.set_slice_whole, Rect.mem_set_unit]
  exact Iff.rfl

/-- Every index of the array is in some point's block: the one of its row's block of rows. -/
theorem covered10 (i : S100000x2.Idx) : ∃ t : Fin cfg10.N, (cfg10.win 2).flush t = true ∧ i ∈ ((cfg10.win 2).blk t).view.set := by
  have hi0 : (i 0).val < 100000 := (i 0).isLt
  have hi1 : (i 1).val < 2 := (i 1).isLt
  have hN : cfg10.N = 10 := N_10
  refine ⟨⟨(i 0).val / 10000, by rw [hN]; omega⟩, flush10_2 _, ?_⟩
  rw [mem_blk10]
  obtain ⟨-, -, -, -, e4, e5⟩ := idx_facts10 ⟨(i 0).val / 10000, by rw [hN]; omega⟩
  intro a
  match a with
  | ⟨0, _⟩ =>
    show win10_2.index _ (0 : Fin 2) * 10000 ≤ (i 0).val ∧ (i 0).val < win10_2.index _ (0 : Fin 2) * 10000 + 10000
    rw [e4]
    show (i 0).val / 10000 * 10000 ≤ (i 0).val ∧ (i 0).val < (i 0).val / 10000 * 10000 + 10000
    omega
  | ⟨1, _⟩ =>
    show win10_2.index _ (1 : Fin 2) * 2 ≤ (i 1).val ∧ (i 1).val < win10_2.index _ (1 : Fin 2) * 2 + 2
    rw [e5]
    omega

/-- THE ARRAY after the region: `G10` of the input arrays, everywhere. -/
theorem final10 (c : Dev nD) : (dat10 V c).arrAt 2 cfg10.N
    = fun i => FloatOps.addf (FloatOps.mulf (Scalar.ofBits .f32 0x3F4CCCCD#32) (V c (Pipeline.arrRef spec10 0) i)) (FloatOps.mulf (Scalar.ofBits .f32 0x3E4CCCCD#32) (V c (Pipeline.arrRef spec10 1) i)) :=
  (dat10 V c).arrAt_eq_of_cover 2 (G10 V c) (fun t _ => flushed10_eq V c t) (covered10)

end Cert.KernelIdeal.Frame

end
-- ==== Proof.KI.Eq10.lean ====
/-
  Region 10 of @main against the reference: the region's output array, which is one function of its input arrays
  index by index, is the reference's own host operations applied to those arrays as wholes — a weight broadcast to the whole shape times the first input, plus the complementary weight times the second. At the ideal
  float instance (the extended reals).
-/
import proofs.«142470_j73658689126826_2_alg».proof.Proof.KI.Val10
import proofs.«142470_j73658689126826_2_alg».proof.Proof.Gen.ReferenceIdeal
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The region's output is the reference's: the first weight broadcast to the whole shape times the first input, plus
    the second weight broadcast times the second input. -/
theorem region10_eq (c : Dev nD) : (dat10 (F := Ideal) V c).arrAt 2 cfg10.N
    = addf (F := Ideal) (s := Cert.ReferenceIdeal.S100000x2) (φ := .f32)
        (mulf (F := Ideal) (s := Cert.ReferenceIdeal.S100000x2) (φ := .f32)
          (broadcastInDim Cert.ReferenceIdeal.S100000x2 ![] Cert.ReferenceIdeal.Facts₀.bcast_S_S100000x2 (constant (F := Ideal) Cert.ReferenceIdeal.S_ .f32 0x3F4CCCCD#32))
          (V c (Pipeline.arrRef spec10 0)))
        (mulf (F := Ideal) (s := Cert.ReferenceIdeal.S100000x2) (φ := .f32)
          (broadcastInDim Cert.ReferenceIdeal.S100000x2 ![] Cert.ReferenceIdeal.Facts₀.bcast_S_S100000x2 (constant (F := Ideal) Cert.ReferenceIdeal.S_ .f32 0x3E4CCCCD#32))
          (V c (Pipeline.arrRef spec10 1))) := by
  rw [final10]
  funext i
  rfl

end Cert.KernelIdeal.Frame

end
-- ==== Proof.KI.Val12.lean ====
/-
  Region 12 of @main, the value: the region's output array after the region, as one function of its input arrays as
  the region finds them, index by index — a fixed weight times the first input plus the complementary weight times the second. The grid's blocks of rows tile the array: every index is in the
  block of its row's block of rows, and each point writes back its block of that function.
-/
import proofs.«142470_j73658689126826_2_alg».proof.Proof.KI.Reg12
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- What the output array ends holding: index by index, a fixed weight times the first input plus the complementary
    weight times the second (the two weights the body's two constants). -/
noncomputable def G12 (c : Dev nD) : S100000x2.Idx → Elt F .f32 :=
  fun i => FloatOps.addf (FloatOps.mulf (Scalar.ofBits .f32 0x3F4CCCCD#32) (V c (Pipeline.arrRef spec12 0) i)) (FloatOps.mulf (Scalar.ofBits .f32 0x3E4CCCCD#32) (V c (Pipeline.arrRef spec12 1) i))

/-- The loads read the buffers whole and the one store writes its payload whole: the body's value. -/
theorem out12_2_eq (x0 : Vec F S10000x2 .f32) (x1 : Vec F S10000x2 .f32) : out12_2 x0 x1 = k12_pay1 x0 x1 := by
  have hz : (![0, 0] : Fin 2 → Nat) = fun _ => 0 := funext fun a => by fin_cases a <;> rfl
  unfold out12_2
  rw [View.canon_unit_zero hz, View.ld_unit_zero hz, View.ld_unit_zero hz]

/-- The body's value at an index. -/
theorem pay12_apply (X0 : Vec F S10000x2 .f32) (X1 : Vec F S10000x2 .f32) (j : S10000x2.Idx) :
    k12_pay1 X0 X1 j = FloatOps.addf (FloatOps.mulf (Scalar.ofBits .f32 0x3F4CCCCD#32) (X0 j)) (FloatOps.mulf (Scalar.ofBits .f32 0x3E4CCCCD#32) (X1 j)) := by
  show FloatOps.addf (FloatOps.mulf (Scalar.ofBits .f32 0x3F4CCCCD#32) (shapeCast S10000x2 X0 shapeCasts_S10000x2_S10000x2 j)) (FloatOps.mulf (Scalar.ofBits .f32 0x3E4CCCCD#32) (shapeCast S10000x2 X1 shapeCasts_S10000x2_S10000x2 j))
    = _
  rw [shapeCast_self, shapeCast_self]

/-- The printed index maps, decided over the grid: every window's block index at point `t` is `(t, 0)`. -/
theorem idx_facts12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0 :=
  (by decide +kernel : ∀ t : Fin grid12.N, _)

/-- WHAT POINT `t` WRITES BACK is block `t` of `G12`. -/
theorem flushed12_eq (c : Dev nD) (t : Fin cfg12.N) :
    (dat12 V c).flushed 2 t = ((cfg12.win 2).blk t).view.read (Elt F) (G12 V c) := by
  show (cfg12.win 2).cut (cfg12.grid.coords t) ((dat12 V c).after 2 t) = _
  rw [after12_2, out12_2_eq]
  obtain ⟨e0, e1, e2, e3, e4, e5⟩ := idx_facts12 t
  funext j
  show k12_pay1 (iblk12 V c 0 t) (iblk12 V c 1 t) ((cfg12.win 2).xinj (cfg12.grid.coords t) j) = _
  rw [pay12_apply]
  show FloatOps.addf (FloatOps.mulf (Scalar.ofBits .f32 0x3F4CCCCD#32) (V c (Pipeline.arrRef spec12 0) (((cfg12.win 0).blk t).view.emb ((cfg12.win 2).xinj (cfg12.grid.coords t) j))))
      (FloatOps.mulf (Scalar.ofBits .f32 0x3E4CCCCD#32) (V c (Pipeline.arrRef spec12 1) (((cfg12.win 1).blk t).view.emb ((cfg12.win 2).xinj (cfg12.grid.coords t) j))))
    = FloatOps.addf (FloatOps.mulf (Scalar.ofBits .f32 0x3F4CCCCD#32) (V c (Pipeline.arrRef spec12 0) (((cfg12.win 2).blk t).view.emb j)))
      (FloatOps.mulf (Scalar.ofBits .f32 0x3E4CCCCD#32) (V c (Pipeline.arrRef spec12 1) (((cfg12.win 2).blk t).view.emb j)))
  have h0 : ((cfg12.win 0).blk t).view.emb ((cfg12.win 2).xinj (cfg12.grid.coords t) j) = ((cfg12.win 2).blk t).view.emb j := by
    funext a; apply Fin.ext
    match a with
    | ⟨0, _⟩ => show win12_0.index t (0 : Fin 2) * 10000 + 1 * (j 0).val = win12_2.index t (0 : Fin 2) * 10000 + 1 * (j 0).val; rw [e0, e4]
    | ⟨1, _⟩ => show win12_0.index t (1 : Fin 2) * 2 + 1 * (j 1).val = win12_2.index t (1 : Fin 2) * 2 + 1 * (j 1).val; rw [e1, e5]
  have h1 : ((cfg12.win 1).blk t).view.emb ((cfg12.win 2).xinj (cfg12.grid.coords t) j) = ((cfg12.win 2).blk t).view.emb j := by
    funext a; apply Fin.ext
    match a with
    | ⟨0, _⟩ => show win12_1.index t (0 : Fin 2) * 10000 + 1 * (j 0).val = win12_2.index t (0 : Fin 2) * 10000 + 1 * (j 0).val; rw [e2, e4]
    | ⟨1, _⟩ => show win12_1.index t (1 : Fin 2) * 2 + 1 * (j 1).val = win12_2.index t (1 : Fin 2) * 2 + 1 * (j 1).val; rw [e3, e5]
  rw [h0, h1]

/-- An index of the array is in point `t`'s block iff each coordinate is in the block's range on its axis. -/
theorem mem_blk12 (t : Fin cfg12.N) (i : S100000x2.Idx) :
    i ∈ ((cfg12.win 2).blk t).view.set ↔ ∀ a : Fin 2, win12_2.index t a * S10000x2.size a ≤ (i a).val ∧ (i a).val < win12_2.index t a * S10000x2.size a + S10000x2.size a := by
  show i ∈ ((View.whole (Pipeline.arrRef spec12 2)).slice (win12_2.rect t)).set ↔ _
  rw [View.set_slice_whole, Rect.mem_set_unit]
  exact Iff.rfl

/-- Every index of the array is in some point's block: the one of its row's block of rows. -/
theorem covered12 (i : S100000x2.Idx) : ∃ t : Fin cfg12.N, (cfg12.win 2).flush t = true ∧ i ∈ ((cfg12.win 2).blk t).view.set := by
  have hi0 : (i 0).val < 100000 := (i 0).isLt
  have hi1 : (i 1).val < 2 := (i 1).isLt
  have hN : cfg12.N = 10 := N_12
  refine ⟨⟨(i 0).val / 10000, by rw [hN]; omega⟩, flush12_2 _, ?_⟩
  rw [mem_blk12]
  obtain ⟨-, -, -, -, e4, e5⟩ := idx_facts12 ⟨(i 0).val / 10000, by rw [hN]; omega⟩
  intro a
  match a with
  | ⟨0, _⟩ =>
    show win12_2.index _ (0 : Fin 2) * 10000 ≤ (i 0).val ∧ (i 0).val < win12_2.index _ (0 : Fin 2) * 10000 + 10000
    rw [e4]
    show (i 0).val / 10000 * 10000 ≤ (i 0).val ∧ (i 0).val < (i 0).val / 10000 * 10000 + 10000
    omega
  | ⟨1, _⟩ =>
    show win12_2.index _ (1 : Fin 2) * 2 ≤ (i 1).val ∧ (i 1).val < win12_2.index _ (1 : Fin 2) * 2 + 2
    rw [e5]
    omega

/-- THE ARRAY after the region: `G12` of the input arrays, everywhere. -/
theorem final12 (c : Dev nD) : (dat12 V c).arrAt 2 cfg12.N
    = fun i => FloatOps.addf (FloatOps.mulf (Scalar.ofBits .f32 0x3F4CCCCD#32) (V c (Pipeline.arrRef spec12 0) i)) (FloatOps.mulf (Scalar.ofBits .f32 0x3E4CCCCD#32) (V c (Pipeline.arrRef spec12 1) i)) :=
  (dat12 V c).arrAt_eq_of_cover 2 (G12 V c) (fun t _ => flushed12_eq V c t) (covered12)

end Cert.KernelIdeal.Frame

end
-- ==== Proof.KI.Eq12.lean ====
/-
  Region 12 of @main against the reference: the region's output array, which is one function of its input arrays
  index by index, is the reference's own host operations applied to those arrays as wholes — a weight broadcast to the whole shape times the first input, plus the complementary weight times the second. At the ideal
  float instance (the extended reals).
-/
import proofs.«142470_j73658689126826_2_alg».proof.Proof.KI.Val12
import proofs.«142470_j73658689126826_2_alg».proof.Proof.Gen.ReferenceIdeal
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The region's output is the reference's: the first weight broadcast to the whole shape times the first input, plus
    the second weight broadcast times the second input. -/
theorem region12_eq (c : Dev nD) : (dat12 (F := Ideal) V c).arrAt 2 cfg12.N
    = addf (F := Ideal) (s := Cert.ReferenceIdeal.S100000x2) (φ := .f32)
        (mulf (F := Ideal) (s := Cert.ReferenceIdeal.S100000x2) (φ := .f32)
          (broadcastInDim Cert.ReferenceIdeal.S100000x2 ![] Cert.ReferenceIdeal.Facts₀.bcast_S_S100000x2 (constant (F := Ideal) Cert.ReferenceIdeal.S_ .f32 0x3F4CCCCD#32))
          (V c (Pipeline.arrRef spec12 0)))
        (mulf (F := Ideal) (s := Cert.ReferenceIdeal.S100000x2) (φ := .f32)
          (broadcastInDim Cert.ReferenceIdeal.S100000x2 ![] Cert.ReferenceIdeal.Facts₀.bcast_S_S100000x2 (constant (F := Ideal) Cert.ReferenceIdeal.S_ .f32 0x3E4CCCCD#32))
          (V c (Pipeline.arrRef spec12 1))) := by
  rw [final12]
  funext i
  rfl

end Cert.KernelIdeal.Frame

end
-- ==== Proof.KI.Val14.lean ====
/-
  Region 14 of @main, the value: the region's output array after the region, as one function of its input arrays as
  the region finds them, index by index — a fixed weight times the first input plus the complementary weight times the second. The grid's blocks of rows tile the array: every index is in the
  block of its row's block of rows, and each point writes back its block of that function.
-/
import proofs.«142470_j73658689126826_2_alg».proof.Proof.KI.Reg14
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- What the output array ends holding: index by index, a fixed weight times the first input plus the complementary
    weight times the second (the two weights the body's two constants). -/
noncomputable def G14 (c : Dev nD) : S100000x2.Idx → Elt F .f32 :=
  fun i => FloatOps.addf (FloatOps.mulf (Scalar.ofBits .f32 0x3F4CCCCD#32) (V c (Pipeline.arrRef spec14 0) i)) (FloatOps.mulf (Scalar.ofBits .f32 0x3E4CCCCD#32) (V c (Pipeline.arrRef spec14 1) i))

/-- The loads read the buffers whole and the one store writes its payload whole: the body's value. -/
theorem out14_2_eq (x0 : Vec F S10000x2 .f32) (x1 : Vec F S10000x2 .f32) : out14_2 x0 x1 = k14_pay1 x0 x1 := by
  have hz : (![0, 0] : Fin 2 → Nat) = fun _ => 0 := funext fun a => by fin_cases a <;> rfl
  unfold out14_2
  rw [View.canon_unit_zero hz, View.ld_unit_zero hz, View.ld_unit_zero hz]

/-- The body's value at an index. -/
theorem pay14_apply (X0 : Vec F S10000x2 .f32) (X1 : Vec F S10000x2 .f32) (j : S10000x2.Idx) :
    k14_pay1 X0 X1 j = FloatOps.addf (FloatOps.mulf (Scalar.ofBits .f32 0x3F4CCCCD#32) (X0 j)) (FloatOps.mulf (Scalar.ofBits .f32 0x3E4CCCCD#32) (X1 j)) := by
  show FloatOps.addf (FloatOps.mulf (Scalar.ofBits .f32 0x3F4CCCCD#32) (shapeCast S10000x2 X0 shapeCasts_S10000x2_S10000x2 j)) (FloatOps.mulf (Scalar.ofBits .f32 0x3E4CCCCD#32) (shapeCast S10000x2 X1 shapeCasts_S10000x2_S10000x2 j))
    = _
  rw [shapeCast_self, shapeCast_self]

/-- The printed index maps, decided over the grid: every window's block index at point `t` is `(t, 0)`. -/
theorem idx_facts14 : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0 :=
  (by decide +kernel : ∀ t : Fin grid14.N, _)

/-- WHAT POINT `t` WRITES BACK is block `t` of `G14`. -/
theorem flushed14_eq (c : Dev nD) (t : Fin cfg14.N) :
    (dat14 V c).flushed 2 t = ((cfg14.win 2).blk t).view.read (Elt F) (G14 V c) := by
  show (cfg14.win 2).cut (cfg14.grid.coords t) ((dat14 V c).after 2 t) = _
  rw [after14_2, out14_2_eq]
  obtain ⟨e0, e1, e2, e3, e4, e5⟩ := idx_facts14 t
  funext j
  show k14_pay1 (iblk14 V c 0 t) (iblk14 V c 1 t) ((cfg14.win 2).xinj (cfg14.grid.coords t) j) = _
  rw [pay14_apply]
  show FloatOps.addf (FloatOps.mulf (Scalar.ofBits .f32 0x3F4CCCCD#32) (V c (Pipeline.arrRef spec14 0) (((cfg14.win 0).blk t).view.emb ((cfg14.win 2).xinj (cfg14.grid.coords t) j))))
      (FloatOps.mulf (Scalar.ofBits .f32 0x3E4CCCCD#32) (V c (Pipeline.arrRef spec14 1) (((cfg14.win 1).blk t).view.emb ((cfg14.win 2).xinj (cfg14.grid.coords t) j))))
    = FloatOps.addf (FloatOps.mulf (Scalar.ofBits .f32 0x3F4CCCCD#32) (V c (Pipeline.arrRef spec14 0) (((cfg14.win 2).blk t).view.emb j)))
      (FloatOps.mulf (Scalar.ofBits .f32 0x3E4CCCCD#32) (V c (Pipeline.arrRef spec14 1) (((cfg14.win 2).blk t).view.emb j)))
  have h0 : ((cfg14.win 0).blk t).view.emb ((cfg14.win 2).xinj (cfg14.grid.coords t) j) = ((cfg14.win 2).blk t).view.emb j := by
    funext a; apply Fin.ext
    match a with
    | ⟨0, _⟩ => show win14_0.index t (0 : Fin 2) * 10000 + 1 * (j 0).val = win14_2.index t (0 : Fin 2) * 10000 + 1 * (j 0).val; rw [e0, e4]
    | ⟨1, _⟩ => show win14_0.index t (1 : Fin 2) * 2 + 1 * (j 1).val = win14_2.index t (1 : Fin 2) * 2 + 1 * (j 1).val; rw [e1, e5]
  have h1 : ((cfg14.win 1).blk t).view.emb ((cfg14.win 2).xinj (cfg14.grid.coords t) j) = ((cfg14.win 2).blk t).view.emb j := by
    funext a; apply Fin.ext
    match a with
    | ⟨0, _⟩ => show win14_1.index t (0 : Fin 2) * 10000 + 1 * (j 0).val = win14_2.index t (0 : Fin 2) * 10000 + 1 * (j 0).val; rw [e2, e4]
    | ⟨1, _⟩ => show win14_1.index t (1 : Fin 2) * 2 + 1 * (j 1).val = win14_2.index t (1 : Fin 2) * 2 + 1 * (j 1).val; rw [e3, e5]
  rw [h0, h1]

/-- An index of the array is in point `t`'s block iff each coordinate is in the block's range on its axis. -/
theorem mem_blk14 (t : Fin cfg14.N) (i : S100000x2.Idx) :
    i ∈ ((cfg14.win 2).blk t).view.set ↔ ∀ a : Fin 2, win14_2.index t a * S10000x2.size a ≤ (i a).val ∧ (i a).val < win14_2.index t a * S10000x2.size a + S10000x2.size a := by
  show i ∈ ((View.whole (Pipeline.arrRef spec14 2)).slice (win14_2.rect t)).set ↔ _
  rw [View.set_slice_whole, Rect.mem_set_unit]
  exact Iff.rfl

/-- Every index of the array is in some point's block: the one of its row's block of rows. -/
theorem covered14 (i : S100000x2.Idx) : ∃ t : Fin cfg14.N, (cfg14.win 2).flush t = true ∧ i ∈ ((cfg14.win 2).blk t).view.set := by
  have hi0 : (i 0).val < 100000 := (i 0).isLt
  have hi1 : (i 1).val < 2 := (i 1).isLt
  have hN : cfg14.N = 10 := N_14
  refine ⟨⟨(i 0).val / 10000, by rw [hN]; omega⟩, flush14_2 _, ?_⟩
  rw [mem_blk14]
  obtain ⟨-, -, -, -, e4, e5⟩ := idx_facts14 ⟨(i 0).val / 10000, by rw [hN]; omega⟩
  intro a
  match a with
  | ⟨0, _⟩ =>
    show win14_2.index _ (0 : Fin 2) * 10000 ≤ (i 0).val ∧ (i 0).val < win14_2.index _ (0 : Fin 2) * 10000 + 10000
    rw [e4]
    show (i 0).val / 10000 * 10000 ≤ (i 0).val ∧ (i 0).val < (i 0).val / 10000 * 10000 + 10000
    omega
  | ⟨1, _⟩ =>
    show win14_2.index _ (1 : Fin 2) * 2 ≤ (i 1).val ∧ (i 1).val < win14_2.index _ (1 : Fin 2) * 2 + 2
    rw [e5]
    omega

/-- THE ARRAY after the region: `G14` of the input arrays, everywhere. -/
theorem final14 (c : Dev nD) : (dat14 V c).arrAt 2 cfg14.N
    = fun i => FloatOps.addf (FloatOps.mulf (Scalar.ofBits .f32 0x3F4CCCCD#32) (V c (Pipeline.arrRef spec14 0) i)) (FloatOps.mulf (Scalar.ofBits .f32 0x3E4CCCCD#32) (V c (Pipeline.arrRef spec14 1) i)) :=
  (dat14 V c).arrAt_eq_of_cover 2 (G14 V c) (fun t _ => flushed14_eq V c t) (covered14)

end Cert.KernelIdeal.Frame

end
-- ==== Proof.KI.Eq14.lean ====
/-
  Region 14 of @main against the reference: the region's output array, which is one function of its input arrays
  index by index, is the reference's own host operations applied to those arrays as wholes — a weight broadcast to the whole shape times the first input, plus the complementary weight times the second. At the ideal
  float instance (the extended reals).
-/
import proofs.«142470_j73658689126826_2_alg».proof.Proof.KI.Val14
import proofs.«142470_j73658689126826_2_alg».proof.Proof.Gen.ReferenceIdeal
import Idealize.ShloMosaic.Lib.ValueIdx
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The region's output is the reference's: the first weight broadcast to the whole shape times the first input, plus
    the second weight broadcast times the second input. -/
theorem region14_eq (c : Dev nD) : (dat14 (F := Ideal) V c).arrAt 2 cfg14.N
    = addf (F := Ideal) (s := Cert.ReferenceIdeal.S100000x2) (φ := .f32)
        (mulf (F := Ideal) (s := Cert.ReferenceIdeal.S100000x2) (φ := .f32)
          (broadcastInDim Cert.ReferenceIdeal.S100000x2 ![] Cert.ReferenceIdeal.Facts₀.bcast_S_S100000x2 (constant (F := Ideal) Cert.ReferenceIdeal.S_ .f32 0x3F4CCCCD#32))
          (V c (Pipeline.arrRef spec14 0)))
        (mulf (F := Ideal) (s := Cert.ReferenceIdeal.S100000x2) (φ := .f32)
          (broadcastInDim Cert.ReferenceIdeal.S100000x2 ![] Cert.ReferenceIdeal.Facts₀.bcast_S_S100000x2 (constant (F := Ideal) Cert.ReferenceIdeal.S_ .f32 0x3E4CCCCD#32))
          (V c (Pipeline.arrRef spec14 1))) := by
  rw [final14]
  funext i
  rfl

end Cert.KernelIdeal.Frame

end
-- ==== Proof.KI.Bridge2.lean ====
/-
  The five propagation rounds. In each the kernel program gathers the current scores at the edges' sources, scales
  them by the edge norms in a region, sums them into the edges' targets, and mixes the result with the teleport
  term in a region: buffer by buffer these are the reference's stages of the same arguments.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import proofs.«142470_j73658689126826_2_alg».proof.Proof.KI.Bridge1
import proofs.«142470_j73658689126826_2_alg».proof.Proof.KI.Eq5
import proofs.«142470_j73658689126826_2_alg».proof.Proof.KI.Eq7
import proofs.«142470_j73658689126826_2_alg».proof.Proof.KI.Eq9
import proofs.«142470_j73658689126826_2_alg».proof.Proof.KI.Eq11
import proofs.«142470_j73658689126826_2_alg».proof.Proof.KI.Eq13
import proofs.«142470_j73658689126826_2_alg».proof.Proof.KI.Eq6
import proofs.«142470_j73658689126826_2_alg».proof.Proof.KI.Eq8
import proofs.«142470_j73658689126826_2_alg».proof.Proof.KI.Eq10
import proofs.«142470_j73658689126826_2_alg».proof.Proof.KI.Eq12
import proofs.«142470_j73658689126826_2_alg».proof.Proof.KI.Eq14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem f_v60 (c : Dev nD) : W14 m ρ c (Proc.devRef .tc main_v60) = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W13 m ρ c) (Proc.devRef .tc main_v60) = _
  after_results_simp
  rw [show W13 m ρ c (Proc.devRef .tc main_v53) = _ from f_v53 m ρ c,
    show W13 m ρ c (Proc.devRef .tc main_v3) = _ from (carry_main_v3_13 m ρ c).trans (pre_v3 m ρ c)]
  rfl
theorem f_v61 (c : Dev nD) : W15 m ρ c (Proc.devRef .tc main_v61) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W15_arr m ρ c 2).trans ((region5_eq (V14 m ρ) c).trans ?_))
  rw [show V14 m ρ c (Pipeline.arrRef spec5 0) = _ from f_v60 m ρ c,
    show V14 m ρ c (Pipeline.arrRef spec5 1) = _ from (carry_main_v35_14 m ρ c).trans (pre_v35 m ρ c)]
  rw [reshape_col3300000]
  rfl
theorem f_v64 (c : Dev nD) : W16 m ρ c (Proc.devRef .tc main_v64) = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps6 (W15 m ρ c) (Proc.devRef .tc main_v64) = _
  after_results_simp
  rw [show W15 m ρ c (Proc.devRef .tc main_v6) = _ from (carry_main_v6_15 m ρ c).trans (pre_v6 m ρ c),
    show W15 m ρ c (Proc.devRef .tc main_v61) = _ from f_v61 m ρ c]
  rfl
theorem f_v65 (c : Dev nD) : W17 m ρ c (Proc.devRef .tc main_v65) = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W17_arr m ρ c 2).trans ((region6_eq (V16 m ρ) c).trans ?_))
  rw [show V16 m ρ c (Pipeline.arrRef spec6 0) = _ from f_v64 m ρ c,
    show V16 m ρ c (Pipeline.arrRef spec6 1) = _ from (carry_main_v53_16 m ρ c).trans (f_v53 m ρ c)]
  rfl
theorem f_v72 (c : Dev nD) : W18 m ρ c (Proc.devRef .tc main_v72) = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps7 (W17 m ρ c) (Proc.devRef .tc main_v72) = _
  after_results_simp
  rw [show W17 m ρ c (Proc.devRef .tc main_v65) = _ from f_v65 m ρ c,
    show W17 m ρ c (Proc.devRef .tc main_v3) = _ from (carry_main_v3_17 m ρ c).trans (pre_v3 m ρ c)]
  rfl
theorem f_v73 (c : Dev nD) : W19 m ρ c (Proc.devRef .tc main_v73) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W19_arr m ρ c 2).trans ((region7_eq (V18 m ρ) c).trans ?_))
  rw [show V18 m ρ c (Pipeline.arrRef spec7 0) = _ from f_v72 m ρ c,
    show V18 m ρ c (Pipeline.arrRef spec7 1) = _ from (carry_main_v35_18 m ρ c).trans (pre_v35 m ρ c)]
  rw [reshape_col3300000]
  rfl
theorem f_v76 (c : Dev nD) : W20 m ρ c (Proc.devRef .tc main_v76) = Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps8 (W19 m ρ c) (Proc.devRef .tc main_v76) = _
  after_results_simp
  rw [show W19 m ρ c (Proc.devRef .tc main_v6) = _ from (carry_main_v6_19 m ρ c).trans (pre_v6 m ρ c),
    show W19 m ρ c (Proc.devRef .tc main_v73) = _ from f_v73 m ρ c]
  rfl
theorem f_v77 (c : Dev nD) : W21 m ρ c (Proc.devRef .tc main_v77) = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W21_arr m ρ c 2).trans ((region8_eq (V20 m ρ) c).trans ?_))
  rw [show V20 m ρ c (Pipeline.arrRef spec8 0) = _ from f_v76 m ρ c,
    show V20 m ρ c (Pipeline.arrRef spec8 1) = _ from (carry_main_v53_20 m ρ c).trans (f_v53 m ρ c)]
  rfl
theorem f_v84 (c : Dev nD) : W22 m ρ c (Proc.devRef .tc main_v84) = Cert.ReferenceIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps9 (W21 m ρ c) (Proc.devRef .tc main_v84) = _
  after_results_simp
  rw [show W21 m ρ c (Proc.devRef .tc main_v77) = _ from f_v77 m ρ c,
    show W21 m ρ c (Proc.devRef .tc main_v3) = _ from (carry_main_v3_21 m ρ c).trans (pre_v3 m ρ c)]
  rfl
theorem f_v85 (c : Dev nD) : W23 m ρ c (Proc.devRef .tc main_v85) = Cert.ReferenceIdeal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W23_arr m ρ c 2).trans ((region9_eq (V22 m ρ) c).trans ?_))
  rw [show V22 m ρ c (Pipeline.arrRef spec9 0) = _ from f_v84 m ρ c,
    show V22 m ρ c (Pipeline.arrRef spec9 1) = _ from (carry_main_v35_22 m ρ c).trans (pre_v35 m ρ c)]
  rw [reshape_col3300000]
  rfl
theorem f_v88 (c : Dev nD) : W24 m ρ c (Proc.devRef .tc main_v88) = Cert.ReferenceIdeal.Read.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps10 (W23 m ρ c) (Proc.devRef .tc main_v88) = _
  after_results_simp
  rw [show W23 m ρ c (Proc.devRef .tc main_v6) = _ from (carry_main_v6_23 m ρ c).trans (pre_v6 m ρ c),
    show W23 m ρ c (Proc.devRef .tc main_v85) = _ from f_v85 m ρ c]
  rfl
theorem f_v89 (c : Dev nD) : W25 m ρ c (Proc.devRef .tc main_v89) = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W25_arr m ρ c 2).trans ((region10_eq (V24 m ρ) c).trans ?_))
  rw [show V24 m ρ c (Pipeline.arrRef spec10 0) = _ from f_v88 m ρ c,
    show V24 m ρ c (Pipeline.arrRef spec10 1) = _ from (carry_main_v53_24 m ρ c).trans (f_v53 m ρ c)]
  rfl
theorem f_v96 (c : Dev nD) : W26 m ρ c (Proc.devRef .tc main_v96) = Cert.ReferenceIdeal.Read.val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps11 (W25 m ρ c) (Proc.devRef .tc main_v96) = _
  after_results_simp
  rw [show W25 m ρ c (Proc.devRef .tc main_v89) = _ from f_v89 m ρ c,
    show W25 m ρ c (Proc.devRef .tc main_v3) = _ from (carry_main_v3_25 m ρ c).trans (pre_v3 m ρ c)]
  rfl
theorem f_v97 (c : Dev nD) : W27 m ρ c (Proc.devRef .tc main_v97) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W27_arr m ρ c 2).trans ((region11_eq (V26 m ρ) c).trans ?_))
  rw [show V26 m ρ c (Pipeline.arrRef spec11 0) = _ from f_v96 m ρ c,
    show V26 m ρ c (Pipeline.arrRef spec11 1) = _ from (carry_main_v35_26 m ρ c).trans (pre_v35 m ρ c)]
  rw [reshape_col3300000]
  rfl
theorem f_v100 (c : Dev nD) : W28 m ρ c (Proc.devRef .tc main_v100) = Cert.ReferenceIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps12 (W27 m ρ c) (Proc.devRef .tc main_v100) = _
  after_results_simp
  rw [show W27 m ρ c (Proc.devRef .tc main_v6) = _ from (carry_main_v6_27 m ρ c).trans (pre_v6 m ρ c),
    show W27 m ρ c (Proc.devRef .tc main_v97) = _ from f_v97 m ρ c]
  rfl
theorem f_v101 (c : Dev nD) : W29 m ρ c (Proc.devRef .tc main_v101) = Cert.ReferenceIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W29_arr m ρ c 2).trans ((region12_eq (V28 m ρ) c).trans ?_))
  rw [show V28 m ρ c (Pipeline.arrRef spec12 0) = _ from f_v100 m ρ c,
    show V28 m ρ c (Pipeline.arrRef spec12 1) = _ from (carry_main_v53_28 m ρ c).trans (f_v53 m ρ c)]
  rfl
theorem f_v108 (c : Dev nD) : W30 m ρ c (Proc.devRef .tc main_v108) = Cert.ReferenceIdeal.Read.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps13 (W29 m ρ c) (Proc.devRef .tc main_v108) = _
  after_results_simp
  rw [show W29 m ρ c (Proc.devRef .tc main_v101) = _ from f_v101 m ρ c,
    show W29 m ρ c (Proc.devRef .tc main_v3) = _ from (carry_main_v3_29 m ρ c).trans (pre_v3 m ρ c)]
  rfl
theorem f_v109 (c : Dev nD) : W31 m ρ c (Proc.devRef .tc main_v109) = Cert.ReferenceIdeal.Read.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W31_arr m ρ c 2).trans ((region13_eq (V30 m ρ) c).trans ?_))
  rw [show V30 m ρ c (Pipeline.arrRef spec13 0) = _ from f_v108 m ρ c,
    show V30 m ρ c (Pipeline.arrRef spec13 1) = _ from (carry_main_v35_30 m ρ c).trans (pre_v35 m ρ c)]
  rw [reshape_col3300000]
  rfl
theorem f_v112 (c : Dev nD) : W32 m ρ c (Proc.devRef .tc main_v112) = Cert.ReferenceIdeal.Read.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps14 (W31 m ρ c) (Proc.devRef .tc main_v112) = _
  after_results_simp
  rw [show W31 m ρ c (Proc.devRef .tc main_v6) = _ from (carry_main_v6_31 m ρ c).trans (pre_v6 m ρ c),
    show W31 m ρ c (Proc.devRef .tc main_v109) = _ from f_v109 m ρ c]
  rfl
theorem f_v113 (c : Dev nD) : W33 m ρ c (Proc.devRef .tc main_v113) = Cert.ReferenceIdeal.Read.val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W33_arr m ρ c 2).trans ((region14_eq (V32 m ρ) c).trans ?_))
  rw [show V32 m ρ c (Pipeline.arrRef spec14 0) = _ from f_v112 m ρ c,
    show V32 m ρ c (Pipeline.arrRef spec14 1) = _ from (carry_main_v53_32 m ρ c).trans (f_v53 m ρ c)]
  rfl

end Cert.KernelIdeal.Frame

end
-- ==== Proof.KI.Eq15.lean ====
/-
  Region 15: the row-wise log-softmax of a 100000×2 matrix, ten blocks of 10000 rows.

  At each grid point the body takes the block's row maxima  M p = max_k x(p,k)  (a fold of max from -∞), the
  exponentials  exp (x(p,k) - M p), their row sums, and leaves  (x(p,q) - M p) - log (Σ_k exp (x(p,k) - M p)).  The
  reference computes the same thing on the whole array with host operations: a reduce-max from -∞, one more maximum
  with -∞ (which changes nothing: -∞ is the least extended real), broadcasts, a subtraction, the exponential, a
  reduce-add from 0, the logarithm and the last subtraction.  Both are functions of one row at a time, so block t of
  the reference's result is the body's value of block t of the input, and the ten blocks tile the array.
-/
import proofs.«142470_j73658689126826_2_alg».proof.Proof.KI.Reg15
import proofs.«142470_j73658689126826_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## One row -/

/-- The log-softmax of a row of two extended reals, at entry `q`. -/
def lsmRow (row : Fin 2 → EReal) (q : Fin 2) : EReal :=
  (row q - (Finset.univ : Finset (Fin 2)).fold max ⊥ row)
    - Ideal.log (∑ k : Fin 2, Ideal.exp (row k - (Finset.univ : Finset (Fin 2)).fold max ⊥ row))

/-- The f32 pattern of -∞ is the least extended real. -/
theorem ofBits_neg_inf_f32 : Ideal.ofBits .f32 0xFF800000#32 = (⊥ : EReal) := by simp [Ideal.ofBits, Ideal.ieee]

/-! ## The reference's host operations -/

/-- The reference's row maximum: a reduce-max over the columns from -∞, then a maximum with a broadcast -∞. -/
def refRowMax (a : FVec Ideal Cert.ReferenceIdeal.S100000x2 .f32) : FVec Ideal Cert.ReferenceIdeal.S100000 .f32 :=
  maximumf
    (broadcastInDim Cert.ReferenceIdeal.S100000 ![] Cert.ReferenceIdeal.Facts₀.bcast_S_S100000
      (constant (F := Ideal) Cert.ReferenceIdeal.S_ .f32 0xFF800000#32))
    (Host.reduce FloatOps.maximumf a (constant (F := Ideal) Cert.ReferenceIdeal.S_ .f32 0xFF800000#32)
      Cert.ReferenceIdeal.Facts₀.reducesTo_S100000x2_S100000_d1 Cert.ReferenceIdeal.Facts₀.h_S_)

/-- The matrix minus its row maxima, spread over the columns. -/
def refShift (a : FVec Ideal Cert.ReferenceIdeal.S100000x2 .f32) : FVec Ideal Cert.ReferenceIdeal.S100000x2 .f32 :=
  subf a
    (broadcastInDim Cert.ReferenceIdeal.S100000x2 ![0, 1] Cert.ReferenceIdeal.Facts₀.bcast_S100000x1_S100000x2_0_1
      (broadcastInDim Cert.ReferenceIdeal.S100000x1 ![0] Cert.ReferenceIdeal.Facts₀.bcast_S100000_S100000x1_0 (refRowMax a)))

/-- The reference's log-softmax, operation by operation: the shifted matrix minus the logarithm of the row sums
    of its exponentials. -/
def refLogSoftmax (a : FVec Ideal Cert.ReferenceIdeal.S100000x2 .f32) : FVec Ideal Cert.ReferenceIdeal.S100000x2 .f32 :=
  subf (refShift a)
    (broadcastInDim Cert.ReferenceIdeal.S100000x2 ![0, 1] Cert.ReferenceIdeal.Facts₀.bcast_S100000x1_S100000x2_0_1
      (Host.log
        (broadcastInDim Cert.ReferenceIdeal.S100000x1 ![0] Cert.ReferenceIdeal.Facts₀.bcast_S100000_S100000x1_0
          (Host.reduceAdd (Host.exp (refShift a)) (constant (F := Ideal) Cert.ReferenceIdeal.S_ .f32 0x00000000#32)
            Cert.ReferenceIdeal.Facts₀.reducesTo_S100000x2_S100000_d1 Cert.ReferenceIdeal.Facts₀.h_S_))))

/-! ## Row reductions and column layouts at an entry -/

/-- Inserting the column coordinate `k` into the row index `p` gives the entry `(p, k)`. -/
theorem lift_row {R D : ℕ} (h : (⟨2, ![R, D]⟩ : Shape).Reduces [1] ⟨1, ![R]⟩) (p : Fin R) (k : Fin D) :
    h.lift (ix1 p) k = ix2 p k := by
  funext c
  apply Fin.ext
  show h.liftVal (ix1 p) k.val c = _
  unfold Shape.Reduces.liftVal
  match c with
  | ⟨0, _⟩ => simp
  | ⟨1, _⟩ => simp

/-- A row sum in the body at row `p` is the sum of the row's entries. -/
theorem bodyRowSum {R D : ℕ} (src : FVec Ideal ⟨2, ![R, D]⟩ .f32) (acc : BitVec 32)
    (h : (⟨2, ![R, D]⟩ : Shape).Reduces [1] ⟨1, ![R]⟩) (hφ : FKind.Formats .f32) (hacc : acc = FKind.add.neutral .f32 hφ) (p : Fin R) :
    multiReduction .add [1] ⟨1, ![R]⟩ src acc h hφ hacc (ix1 p) = ∑ k : Fin D, src (ix2 p k) := by
  rw [Ideal.multiReduction_add_single]
  exact Finset.sum_congr rfl fun k _ => congrArg src (lift_row h p k)

/-- A row maximum in the body at row `p` is the fold of `max` over the row's entries, from the starting value. -/
theorem bodyRowMax {R D : ℕ} (src : FVec Ideal ⟨2, ![R, D]⟩ .f32) (acc : BitVec 32)
    (h : (⟨2, ![R, D]⟩ : Shape).Reduces [1] ⟨1, ![R]⟩) (hφ : FKind.Formats .f32) (hacc : acc = FKind.maximumf.neutral .f32 hφ) (p : Fin R) :
    multiReduction .maximumf [1] ⟨1, ![R]⟩ src acc h hφ hacc (ix1 p)
      = (Finset.univ : Finset (Fin D)).fold max (Ideal.ofBits .f32 acc) (fun k => src (ix2 p k)) := by
  rw [Ideal.multiReduction_maximumf_single]
  exact congrArg (Finset.fold max _ · _) (funext fun k => congrArg src (lift_row h p k))

/-- A host-side row maximum (a one-operand reduce with `max` over the columns) at row `p`: the fold of `max` over the
    row's entries from the initial value. -/
theorem hostRowMax {R D : ℕ} (U : FVec Ideal ⟨2, ![R, D]⟩ .f32) {u : Shape} (init : u.Idx → Ideal .f32)
    (h' : (⟨2, ![R, D]⟩ : Shape).ReducesTo [1] ⟨1, ![R]⟩) (h : (⟨2, ![R, D]⟩ : Shape).Reduces [1] ⟨1, ![R]⟩) (hu : 0 < u.numel) (p : Fin R) :
    Host.reduce (FloatOps.maximumf (F := Ideal) (φ := .f32)) U init h' hu (ix1 p)
      = (Finset.univ : Finset (Fin D)).fold max (init (Shape.Idx.first hu)) (fun k => U (ix2 p k)) := by
  rw [Host.reduce_eq_fold_single _ _ _ _ h]
  exact congrArg (Finset.fold max _ · _) (funext fun k => congrArg U (lift_row h p k))

/-- A host-side row sum (a one-operand reduce with `add` over the columns) at row `p`: the initial value plus the sum
    of the row's entries. -/
theorem hostRowSum {R D : ℕ} (U : FVec Ideal ⟨2, ![R, D]⟩ .f32) {u : Shape} (init : u.Idx → Ideal .f32)
    (h' : (⟨2, ![R, D]⟩ : Shape).ReducesTo [1] ⟨1, ![R]⟩) (h : (⟨2, ![R, D]⟩ : Shape).Reduces [1] ⟨1, ![R]⟩) (hu : 0 < u.numel) (p : Fin R) :
    Host.reduceAdd U init h' hu (ix1 p) = init (Shape.Idx.first hu) + ∑ k : Fin D, U (ix2 p k) := by
  simp only [Host.reduceAdd, Ideal.hostReduceAdd_def]
  rw [Ideal.hostReduceAdd_single h' h]
  exact congrArg (_ + ·) (Finset.sum_congr rfl fun k _ => congrArg U (lift_row h p k))

/-- An `[a]` array cast to `[a, 1]` reads, at `(i, u)`, the operand at `i`, whatever the unit coordinate `u`. -/
theorem cast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `[a, b]` reads, at `(i, j)`, the column's entry `(i, 0)`. -/
theorem spread_a1_ab_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## Layout operations at an entry -/

/-- A scalar broadcast to any shape reads the scalar. -/
theorem bcast_scalar_apply {α : Type} {t : Shape} (v : (⟨0, ![]⟩ : Shape).Idx → α)
    (h : (⟨0, ![]⟩ : Shape).BroadcastsInDim t ![]) (i : t.Idx) : broadcastInDim t ![] h v i = v ix0 :=
  broadcastInDim_apply _ h v i ix0 (fun a => a.elim0)

/-- An `[a]` vector broadcast to an `[a, 1]` column reads, at `(i, u)`, the vector's entry `i`. -/
theorem bcast_a_a1_apply {α : Type} {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- An `[a, 1]` column broadcast to `[a, b]` reads, at `(i, j)`, the column's entry `(i, 0)`. -/
theorem bcast_a1_ab_apply {α : Type} {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ => rfl

/-- The pointwise exponential and logarithm, the body's and the host's, read at an entry. -/
theorem exp_at {s : Shape} (x : FVec Ideal s .f32) (i : s.Idx) : exp x i = Ideal.exp (x i) := rfl
theorem log_at {s : Shape} (x : FVec Ideal s .f32) (i : s.Idx) : log x i = Ideal.log (x i) := rfl
theorem hostExp_at {s : Shape} (x : FVec Ideal s .f32) (i : s.Idx) : Host.exp x i = Ideal.exp (x i) := rfl
theorem hostLog_at {s : Shape} (x : FVec Ideal s .f32) (i : s.Idx) : Host.log x i = Ideal.log (x i) := rfl

/-! ## The reference at an entry -/

theorem refRowMax_apply (a : FVec Ideal Cert.ReferenceIdeal.S100000x2 .f32) (P : Fin 100000) :
    refRowMax a (ix1 P) = (Finset.univ : Finset (Fin 2)).fold max ⊥ (fun k => a (ix2 P k)) := by
  unfold refRowMax
  rw [maximumf_apply, bcast_scalar_apply, hostRowMax a _ _ (by decide) _ P, constant_apply, constant_apply, ofBits_neg_inf_f32]
  exact max_eq_right bot_le

theorem refShift_apply (a : FVec Ideal Cert.ReferenceIdeal.S100000x2 .f32) (P : Fin 100000) (q : Fin 2) :
    refShift a (ix2 P q) = a (ix2 P q) - (Finset.univ : Finset (Fin 2)).fold max ⊥ (fun k => a (ix2 P k)) := by
  unfold refShift
  rw [subf_apply, bcast_a1_ab_apply, bcast_a_a1_apply, refRowMax_apply]

/-- The reference's result at `(P, q)` is the log-softmax of row `P` at `q`. -/
theorem refLogSoftmax_apply (a : FVec Ideal Cert.ReferenceIdeal.S100000x2 .f32) (P : Fin 100000) (q : Fin 2) :
    refLogSoftmax a (ix2 P q) = lsmRow (fun k => a (ix2 P k)) q := by
  unfold refLogSoftmax
  rw [subf_apply, bcast_a1_ab_apply, hostLog_at, bcast_a_a1_apply, hostRowSum _ _ _ (by decide) _ P, constant_apply,
    Ideal.ofBits_zero_f32, zero_add]
  simp only [hostExp_at, refShift_apply]
  rfl

/-! ## The body at an entry -/

/-- The body's value at `(p, q)` of a block is the log-softmax of the block's row `p` at `q`. -/
theorem pay15_apply (x : Vec Ideal S10000x2 .f32) (p : Fin 10000) (q : Fin 2) :
    k15_pay1 x (ix2 p q) = lsmRow (fun k => x (ix2 p k)) q := by
  have hM : ∀ r : Fin 10000,
      (multiReduction .maximumf [1] S10000 x 0xFF800000#32 reduces_S10000x2_S10000 (.inl rfl) rfl : FVec Ideal S10000 .f32) (ix1 r)
        = (Finset.univ : Finset (Fin 2)).fold max ⊥ (fun k => x (ix2 r k)) :=
    fun r => (bodyRowMax x _ _ _ _ r).trans (by rw [ofBits_neg_inf_f32])
  have hS : ∀ (y : FVec Ideal S10000x2 .f32) (r : Fin 10000),
      (multiReduction .add [1] S10000 y 0x00000000#32 reduces_S10000x2_S10000 (.inl rfl) rfl : FVec Ideal S10000 .f32) (ix1 r)
        = ∑ k : Fin 2, y (ix2 r k) :=
    fun y r => bodyRowSum y _ _ _ _ r
  unfold k15_pay1
  simp only [shapeCast_self, subf_apply, spread_a1_ab_apply, log_at, cast_a_a1_apply, hM, hS, exp_at]
  rfl

/-! ## Blocks to the array -/

theorem hz15 : (![0, 0] : Fin 2 → Nat) = fun _ => 0 := funext fun a => by fin_cases a <;> rfl

/-- The printed index maps, decided over the grid: at point `t` both windows are at block `(t, 0)`. -/
theorem idx_facts15 : ∀ t : Fin cfg15.N, win15_0.index t (0 : Fin 2) = t.val ∧ win15_0.index t (1 : Fin 2) = 0
    ∧ win15_1.index t (0 : Fin 2) = t.val ∧ win15_1.index t (1 : Fin 2) = 0 :=
  (by decide +kernel : ∀ t : Fin grid15.N, _)

/-- WHAT POINT `t` WRITES BACK is block `t` of the reference's log-softmax of the input array. -/
theorem flushed15_eq (V : (c : Dev nD) → (b : Ref sig .tc) → Buf (Elt Ideal) ((c : Thread nD τ).loc b)) (c : Dev nD) (t : Fin cfg15.N) :
    (dat15 (F := Ideal) V c).flushed 1 t
      = ((cfg15.win 1).blk t).view.read (Elt Ideal) (refLogSoftmax (V c (Pipeline.arrRef spec15 0))) := by
  show (cfg15.win 1).cut (grid15.coords t) ((dat15 V c).after 1 t) = _
  rw [after15_1]
  unfold out15_1
  rw [View.canon_unit_zero hz15]
  simp only [View.ld_unit_zero (S := S10000x2) hz15]
  obtain ⟨e0, e1, e2, e3⟩ := idx_facts15 t
  have ht : t.val < 10 := Nat.lt_of_lt_of_eq t.isLt N_15
  funext j
  obtain ⟨p, q, rfl⟩ : ∃ (p : Fin 10000) (q : Fin 2), j = ix2 p q := ⟨j 0, j 1, eq_ix2 j⟩
  have hp : p.val < 10000 := p.isLt
  have hE1 : ((cfg15.win 1).blk t).view.emb (ix2 p q) = ix2 (⟨t.val * 10000 + p.val, by omega⟩ : Fin 100000) q := by
    funext a; apply Fin.ext
    match a with
    | ⟨0, _⟩ => show win15_1.index t (0 : Fin 2) * 10000 + 1 * p.val = t.val * 10000 + p.val; omega
    | ⟨1, _⟩ => show win15_1.index t (1 : Fin 2) * 2 + 1 * q.val = q.val; omega
  have hE0 : ∀ k : Fin 2, ((cfg15.win 0).blk t).view.emb (ix2 p k) = ix2 (⟨t.val * 10000 + p.val, by omega⟩ : Fin 100000) k := fun k => by
    funext a; apply Fin.ext
    match a with
    | ⟨0, _⟩ => show win15_0.index t (0 : Fin 2) * 10000 + 1 * p.val = t.val * 10000 + p.val; omega
    | ⟨1, _⟩ => show win15_0.index t (1 : Fin 2) * 2 + 1 * k.val = k.val; omega
  show k15_pay1 (iblk15 V c 0 t) (ix2 p q) = refLogSoftmax (V c (Pipeline.arrRef spec15 0)) (((cfg15.win 1).blk t).view.emb (ix2 p q))
  rw [hE1, refLogSoftmax_apply, pay15_apply]
  refine congrArg (lsmRow · q) (funext fun k => ?_)
  show V c (Pipeline.arrRef spec15 0) (((cfg15.win 0).blk t).view.emb (ix2 p k)) = _
  rw [hE0 k]

/-- An index of the array is in point `t`'s block iff each coordinate is in the block's range on its axis. -/
theorem mem_blk15 (t : Fin cfg15.N) (i : S100000x2.Idx) :
    i ∈ ((cfg15.win 1).blk t).view.set ↔ ∀ a : Fin 2, win15_1.index t a * S10000x2.size a ≤ (i a).val ∧ (i a).val < win15_1.index t a * S10000x2.size a + S10000x2.size a := by
  show i ∈ ((View.whole main_v114).slice (win15_1.rect t)).set ↔ _
  rw [View.set_slice_whole, Rect.mem_set_unit]
  exact Iff.rfl

/-- Every row lies in the block of the point numbered by its quotient by 10000. -/
theorem cover15 (i : S100000x2.Idx) : ∃ t : Fin cfg15.N, (cfg15.win 1).flush t = true ∧ i ∈ ((cfg15.win 1).blk t).view.set := by
  have hi0 : (i 0).val < 100000 := (i 0).isLt
  have hi1 : (i 1).val < 2 := (i 1).isLt
  let t : Fin cfg15.N := ⟨(i 0).val / 10000, Nat.lt_of_lt_of_eq (by omega : (i 0).val / 10000 < 10) N_15.symm⟩
  obtain ⟨e0, e1, e2, e3⟩ := idx_facts15 t
  have ht : t.val = (i 0).val / 10000 := rfl
  refine ⟨t, flush15_1 t, ?_⟩
  rw [mem_blk15]
  intro a
  match a with
  | ⟨0, _⟩ => show win15_1.index t (0 : Fin 2) * 10000 ≤ (i 0).val ∧ (i 0).val < win15_1.index t (0 : Fin 2) * 10000 + 10000; omega
  | ⟨1, _⟩ => show win15_1.index t (1 : Fin 2) * 2 ≤ (i 1).val ∧ (i 1).val < win15_1.index t (1 : Fin 2) * 2 + 2; omega

/-- THE OUTPUT ARRAY after the region is the reference's log-softmax of the input array. -/
theorem region15_eq (V : (c : Dev nD) → (b : Ref sig .tc) → Buf (Elt Ideal) ((c : Thread nD τ).loc b)) (c : Dev nD) :
    (dat15 (F := Ideal) V c).arrAt 1 cfg15.N = refLogSoftmax (V c (Pipeline.arrRef spec15 0)) :=
  (dat15 (F := Ideal) V c).arrAt_eq_of_cover 1 _ (fun t _ => flushed15_eq V c t) cover15

end Cert.KernelIdeal.Frame

end
-- ==== Proof.KI.Eq15Ref.lean ====
/-
  The reference's last fifteen host operations — its log-softmax call — are the function `refLogSoftmax` of the stage
  before them: the two are the same composition of operations, so the equation is by unfolding.
-/
import proofs.«142470_j73658689126826_2_alg».proof.Proof.KI.Eq15
import proofs.«142470_j73658689126826_2_alg».proof.Proof.RefRead

set_option maxRecDepth 16384

noncomputable section

namespace Cert.KernelIdeal.Frame

open Idealize.ShloMosaic

/-- The reference's last fifteen operations are `refLogSoftmax` of the stage before them. -/
theorem val_main_v152_eq_ref (x0 : (⟨Cert.ReferenceIdeal.S100000x16, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x3 : (⟨Cert.ReferenceIdeal.S16x48, .f32⟩ : BufTy).Contents (Elt Ideal)) (x4 : (⟨Cert.ReferenceIdeal.S48, .f32⟩ : BufTy).Contents (Elt Ideal)) (x5 : (⟨Cert.ReferenceIdeal.S48x48, .f32⟩ : BufTy).Contents (Elt Ideal)) (x6 : (⟨Cert.ReferenceIdeal.S48, .f32⟩ : BufTy).Contents (Elt Ideal)) (x7 : (⟨Cert.ReferenceIdeal.S48x2, .f32⟩ : BufTy).Contents (Elt Ideal)) (x8 : (⟨Cert.ReferenceIdeal.S2, .f32⟩ : BufTy).Contents (Elt Ideal)) :
    Cert.ReferenceIdeal.Read.val_main_v152 (F := Ideal) x0 x1 x2 x3 x4 x5 x6 x7 x8
      = refLogSoftmax (Cert.ReferenceIdeal.Read.val_main_v151 (F := Ideal) x0 x1 x2 x3 x4 x5 x6 x7 x8) := rfl

end Cert.KernelIdeal.Frame

end
-- ==== Proof.KI.Bridge3.lean ====
/-
  The result. The last region takes the row-wise log-softmax of the fifth round's scores, as the reference's last
  fifteen operations do: the kernel program's result array is the reference's result stage of the same arguments.
-/
import proofs.«142470_j73658689126826_2_alg».proof.Proof.Gen.KernelIdeal.Launch
import proofs.«142470_j73658689126826_2_alg».proof.Proof.Gen.KernelIdeal.Skeleton
import proofs.«142470_j73658689126826_2_alg».proof.Proof.Gen.KernelIdeal.Points
import proofs.«142470_j73658689126826_2_alg».proof.Proof.KI.Bridge2
import proofs.«142470_j73658689126826_2_alg».proof.Proof.KI.Eq15
import proofs.«142470_j73658689126826_2_alg».proof.Proof.KI.Eq15Ref
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem f_v114 (c : Dev nD) : W34 m ρ c (Proc.devRef .tc main_v114) = Cert.ReferenceIdeal.Read.val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W34_arr m ρ c 1).trans ((region15_eq (V33 m ρ) c).trans ?_))
  rw [show V33 m ρ c (Pipeline.arrRef spec15 0) = _ from f_v113 m ρ c]
  exact (val_main_v152_eq_ref _ _ _ _ _ _ _ _ _).symm

end Cert.KernelIdeal.Frame

end
-- ==== Proof.lean ====
/-
  The certificate's five claims. The two kernel programs (the program as printed, read on words, and its
  idealization, read on extended reals) are the same sequence of thirty-four items — host stretches and sixteen
  pallas_calls — and one run theorem, stated at any float instance, gives each its frame: every weakly fair execution
  terminates without a fault and leaves the nine argument arrays as launched. The reference is a host program
  whose run is read back operation by operation. The idealization rewrote nothing, so it preserves the program
  trivially. For the last claim the kernel program's buffers are followed from the launch to the result, boundary by
  boundary: each region's output array is the reference's operations of the region's input arrays, each host stretch
  is the same operations on both sides, so the result array is the reference's result stage of the same arguments.
-/
import proofs.«142470_j73658689126826_2_alg».proof.Defs
import proofs.«142470_j73658689126826_2_alg».proof.Proof.Gen.Kernel
import proofs.«142470_j73658689126826_2_alg».proof.Proof.Gen.KernelIdeal
import proofs.«142470_j73658689126826_2_alg».proof.Proof.Gen.ReferenceIdeal
import proofs.«142470_j73658689126826_2_alg».proof.Proof.Gen.Pre_finite_inputs
import proofs.«142470_j73658689126826_2_alg».proof.Proof.RefFrame
import proofs.«142470_j73658689126826_2_alg».proof.Proof.K.Run
import proofs.«142470_j73658689126826_2_alg».proof.Proof.KI.Run
import proofs.«142470_j73658689126826_2_alg».proof.Proof.RefRead
import proofs.«142470_j73658689126826_2_alg».proof.Proof.KI.Bridge3
import Idealize.ShloMosaic.Adequacy
import Idealize.ShloMosaic.Init

noncomputable section

namespace Cert.Proof

open Idealize.ShloMosaic Idealize.ShloMosaic.TcCoe Idealize.SL.Sem

/-- The program as printed runs to its end, faults nowhere and leaves its arguments unchanged. -/
theorem frame_k : Cert.frame_Kernel := fun m ρ _ =>
  (θ_run Cert.Kernel.defs _ _).mono (fun _ h c => (h c).2) (Cert.Kernel.Frame.run_main (F := Bits) m ρ)

/-- So does its idealization. -/
theorem frame_ki : Cert.frame_KernelIdeal := fun m ρ _ =>
  (θ_run Cert.KernelIdeal.defs _ _).mono (fun _ h c => (h c).2) (Cert.KernelIdeal.Frame.run_main (F := Ideal) m ρ)

/-- The idealization rewrote no operation. -/
theorem preserves : Cert.preserves_Kernel_KernelIdeal := trivial

/-- The idealized kernel and the idealized reference, run from memories that agree on the arguments, end with equal
    result arrays. -/
theorem algebraic : Cert.algebraic_KernelIdeal_ReferenceIdeal := by
  intro m ρ m' ρ' _ hagree
  refine ⟨fun c => Cert.KernelIdeal.Frame.W34 m ρ c (Proc.devRef .tc Cert.KernelIdeal.main_v114),
    Cert.KernelIdeal.Frame.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v152_eq, h0, h1, h2, h3, h4, h5, h6, h7, h8]
  exact (Cert.KernelIdeal.Frame.f_v114 m ρ c).symm

theorem claim : Cert.Claim := ⟨Cert.Kernel.Gen.facts, Cert.KernelIdeal.Gen.facts, Cert.ReferenceIdeal.Gen.facts, Cert.Pre_finite_inputs.Gen.facts,
  frame_k, frame_ki, RefClaims.frame_ri, preserves, algebraic⟩

end Cert.Proof

end
